-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x128x224x224 : Shape := ⟨4, ![3, 128, 224, 224]⟩
abbrev S_ : Shape := ⟨0, ![]⟩

class Facts : Prop where
  bcast_S_S3x128x224x224 : S_.BroadcastsInDim S3x128x224x224 (![] : Fin 0 → Fin S3x128x224x224.rank)
  reducesTo_S3x128x224x224_S_d0_1_2_3 : S3x128x224x224.ReducesTo [0, 1, 2, 3] S_
  h_S_ : 0 < S_.numel

variable [Facts]

def fn {F : FTy → Type} [FloatOps F] (main_arg0 : FVec F S3x128x224x224 .f32) : IVec S_ 1 :=
  let main_v0 : FVec F S3x128x224x224 .f32 := Host.absf main_arg0
  let main_cst : FVec F S_ .f32 := constant S_ .f32 0x7F800000#32
  let main_v1 : FVec F S3x128x224x224 .f32 := broadcastInDim S3x128x224x224 ![] bcast_S_S3x128x224x224 main_cst
  let main_v2 : IVec S3x128x224x224 1 := cmpf .olt main_v0 main_v1
  let main_c : IVec S_ 1 := constantI S_ 1 1#1
  let main_v3 : IVec S_ 1 := (fun x v => Host.reduce IntOp.andi x v reducesTo_S3x128x224x224_S_d0_1_2_3 h_S_) main_v2 main_c
  main_v3
-- ==== Kernel.lean ====
abbrev S3x128x224x224 : Shape := ⟨4, ![3, 128, 224, 224]⟩
abbrev S3x224x224x128 : Shape := ⟨4, ![3, 224, 224, 128]⟩
abbrev S2408448 : Shape := ⟨1, ![2408448]⟩
abbrev S224x128 : Shape := ⟨2, ![224, 128]⟩
abbrev S3584 : Shape := ⟨1, ![3584]⟩
abbrev S_ : Shape := ⟨0, ![]⟩
abbrev S1x1x224x128 : Shape := ⟨4, ![1, 1, 224, 128]⟩
abbrev S224 : Shape := ⟨1, ![224]⟩
abbrev S16 : Shape := ⟨1, ![16]⟩
abbrev S3x16x224x224 : Shape := ⟨4, ![3, 16, 224, 224]⟩

abbrev nBuf : Table → Nat
  | .hbm => 4
  | .local .scVector .vmem => 4
  | _ => 0

abbrev bufTy : (tb : Table) → Fin (nBuf tb) → BufTy
  | .hbm, ⟨0, _⟩ => ⟨S3x128x224x224, .f32⟩
  | .hbm, ⟨1, _⟩ => ⟨S3x224x224x128, .f32⟩
  | .hbm, ⟨2, _⟩ => ⟨S2408448, .f32⟩
  | .hbm, ⟨3, _⟩ => ⟨S3x16x224x224, .f32⟩
  | .local .scVector .vmem, ⟨0, _⟩ => ⟨S224x128, .f32⟩
  | .local .scVector .vmem, ⟨1, _⟩ => ⟨S224x128, .f32⟩
  | .local .scVector .vmem, ⟨2, _⟩ => ⟨S3584, .f32⟩
  | .local .scVector .vmem, ⟨3, _⟩ => ⟨S3584, .f32⟩
  | _, _ => ⟨S3x128x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32 : BitVec 32 := 21#32
  let v2 : BitVec 32 := Scalar.muli v1 c21_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c224_i32 : BitVec 32 := 224#32
  let c0_i32_1 : BitVec 32 := 0#32
  let v9 : BitVec 1 := Scalar.cmpi .sgt c224_i32 c0_i32_1
  let v10 : BitVec 32 := Scalar.extui v9
  let c0_i32_2 : BitVec 32 := 0#32
  let v11 : BitVec 1 := Scalar.cmpi .slt c224_i32 c0_i32_2
  let v12 : BitVec 32 := Scalar.extui v11
  let v13 : BitVec 32 := Scalar.subi v10 v12
  let v14 : BitVec 1 := Scalar.cmpi .ne v8 v13
  let v15 : BitVec 32 := Scalar.remsi v2 c224_i32
  let c0_i32_3 : BitVec 32 := 0#32
  let v16 : BitVec 1 := Scalar.cmpi .ne v15 c0_i32_3
  let v17 : BitVec 1 := Scalar.andi v14 v16
  let v3 : BitVec 32 := Scalar.divsi v2 c224_i32
  let c1_i32 : BitVec 32 := 1#32
  let v18 : BitVec 32 := Scalar.subi v3 c1_i32
  let v19 : BitVec 32 := Scalar.select v17 v18 v3
  let c224_i32_4 : BitVec 32 := 224#32
  let v20 : BitVec 32 := Scalar.muli v19 c224_i32_4
  let v21 : BitVec 32 := Scalar.subi v2 v20
  let c0_i32_5 : BitVec 32 := 0#32
  let c0_i32_6 : BitVec 32 := 0#32
  ![v19.toNat, v21.toNat, 0, 0]
@[reducible] def k0_t1_loop : Scf.Loop 32 :=
  let c0_i32_10 : BitVec 32 := 0#32
  let c10_i32 : BitVec 32 := 10#32
  let v26 : BitVec 32 := Scalar.addi c0_i32_10 c10_i32
  let c1_i32_11 : BitVec 32 := 1#32
  ⟨c0_i32_10, v26, c1_i32_11⟩
def k0_off2 (i : grid0.Coords) (k0_t1 : Fin k0_t1_loop.trips) (c1_i32_255 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32 : BitVec 32 := 21#32
  let v2 : BitVec 32 := Scalar.muli v1 c21_i32
  let c2_i32_248 : BitVec 32 := 2#32
  let c0_i32_10 : BitVec 32 := 0#32
  let c1_i32_11 : BitVec 32 := 1#32
  let arg12 : BitVec 32 := Scf.iv c0_i32_10 c1_i32_11 k0_t1
  let v331 : BitVec 32 := Scalar.muli c2_i32_248 arg12
  let v332 : BitVec 32 := Scalar.addi v2 v331
  let v337 : BitVec 32 := Scalar.addi v332 c1_i32_255
  let c0_i32_257 : BitVec 32 := 0#32
  let v339 : BitVec 1 := Scalar.cmpi .sgt v337 c0_i32_257
  let v340 : BitVec 32 := Scalar.extui v339
  let c0_i32_258 : BitVec 32 := 0#32
  let v341 : BitVec 1 := Scalar.cmpi .slt v337 c0_i32_258
  let v342 : BitVec 32 := Scalar.extui v341
  let v343 : BitVec 32 := Scalar.subi v340 v342
  let c224_i32_256 : BitVec 32 := 224#32
  let c0_i32_259 : BitVec 32 := 0#32
  let v344 : BitVec 1 := Scalar.cmpi .sgt c224_i32_256 c0_i32_259
  let v345 : BitVec 32 := Scalar.extui v344
  let c0_i32_260 : BitVec 32 := 0#32
  let v346 : BitVec 1 := Scalar.cmpi .slt c224_i32_256 c0_i32_260
  let v347 : BitVec 32 := Scalar.extui v346
  let v348 : BitVec 32 := Scalar.subi v345 v347
  let v349 : BitVec 1 := Scalar.cmpi .ne v343 v348
  let v350 : BitVec 32 := Scalar.remsi v337 c224_i32_256
  let c0_i32_261 : BitVec 32 := 0#32
  let v351 : BitVec 1 := Scalar.cmpi .ne v350 c0_i32_261
  let v352 : BitVec 1 := Scalar.andi v349 v351
  let v338 : BitVec 32 := Scalar.divsi v337 c224_i32_256
  let c1_i32_262 : BitVec 32 := 1#32
  let v353 : BitVec 32 := Scalar.subi v338 c1_i32_262
  let v354 : BitVec 32 := Scalar.select v352 v353 v338
  let c224_i32_263 : BitVec 32 := 224#32
  let v355 : BitVec 32 := Scalar.muli v354 c224_i32_263
  let v356 : BitVec 32 := Scalar.subi v337 v355
  let c0_i32_264 : BitVec 32 := 0#32
  let c0_i32_265 : BitVec 32 := 0#32
  ![v354.toNat, v356.toNat, 0, 0]
@[reducible] def k0_t2_loop : Scf.Loop 32 :=
  let c0_i32_271 : BitVec 32 := 0#32
  let c16_i32_272 : BitVec 32 := 16#32
  let v365 : BitVec 32 := Scalar.addi c0_i32_271 c16_i32_272
  let c1_i32_273 : BitVec 32 := 1#32
  ⟨c0_i32_271, v365, c1_i32_273⟩

def k0_chk1 (v615 : IVec S16 32) (v619 : IVec S16 32) : Prop :=
  (∀ a x, ((![v619, v615] : Fin 2 → IVec S16 32) a x).toNat < S224x128.size a)
instance k0_chk1.dec : ∀ (v615 : IVec S16 32) (v619 : IVec S16 32), Decidable (k0_chk1 v615 v619) := fun v615 v619 => decidable_of_iff' _ (Iff.of_eq (k0_chk1.eq_1 v615 v619))
theorem k0_idx1_inb : ∀ (v615 : IVec S16 32) (v619 : IVec S16 32) (k0_hw1 : k0_chk1 v615 v619), ∀ a x, ((![v619, v615] : Fin 2 → IVec S16 32) a x).toNat < S224x128.size a := fun v615 v619 k0_hw1 => k0_hw1

def k0_chk2 (v621 : IVec S16 32) : Prop :=
  (∀ a x, ((![v621] : Fin 1 → IVec S16 32) a x).toNat < S3584.size a)
instance k0_chk2.dec : ∀ (v621 : IVec S16 32), Decidable (k0_chk2 v621) := fun v621 => decidable_of_iff' _ (Iff.of_eq (k0_chk2.eq_1 v621))
theorem k0_idx2_inb : ∀ (v621 : IVec S16 32) (k0_hw2 : k0_chk2 v621), ∀ a x, ((![v621] : Fin 1 → IVec S16 32) a x).toNat < S3584.size a := fun v621 k0_hw2 => k0_hw2

def k0_chk3 (v615 : IVec S16 32) (v623 : IVec S16 32) : Prop :=
  (∀ a x, ((![v623, v615] : Fin 2 → IVec S16 32) a x).toNat < S224x128.size a)
instance k0_chk3.dec : ∀ (v615 : IVec S16 32) (v623 : IVec S16 32), Decidable (k0_chk3 v615 v623) := fun v615 v623 => decidable_of_iff' _ (Iff.of_eq (k0_chk3.eq_1 v615 v623))
theorem k0_idx3_inb : ∀ (v615 : IVec S16 32) (v623 : IVec S16 32) (k0_hw3 : k0_chk3 v615 v623), ∀ a x, ((![v623, v615] : Fin 2 → IVec S16 32) a x).toNat < S224x128.size a := fun v615 v623 k0_hw3 => k0_hw3

def k0_chk4 (v625 : IVec S16 32) : Prop :=
  (∀ a x, ((![v625] : Fin 1 → IVec S16 32) a x).toNat < S3584.size a)
instance k0_chk4.dec : ∀ (v625 : IVec S16 32), Decidable (k0_chk4 v625) := fun v625 => decidable_of_iff' _ (Iff.of_eq (k0_chk4.eq_1 v625))
theorem k0_idx4_inb : ∀ (v625 : IVec S16 32) (k0_hw4 : k0_chk4 v625), ∀ a x, ((![v625] : Fin 1 → IVec S16 32) a x).toNat < S3584.size a := fun v625 k0_hw4 => k0_hw4

def k0_chk5 (v615 : IVec S16 32) (v627 : IVec S16 32) : Prop :=
  (∀ a x, ((![v627, v615] : Fin 2 → IVec S16 32) a x).toNat < S224x128.size a)
instance k0_chk5.dec : ∀ (v615 : IVec S16 32) (v627 : IVec S16 32), Decidable (k0_chk5 v615 v627) := fun v615 v627 => decidable_of_iff' _ (Iff.of_eq (k0_chk5.eq_1 v615 v627))
theorem k0_idx5_inb : ∀ (v615 : IVec S16 32) (v627 : IVec S16 32) (k0_hw5 : k0_chk5 v615 v627), ∀ a x, ((![v627, v615] : Fin 2 → IVec S16 32) a x).toNat < S224x128.size a := fun v615 v627 k0_hw5 => k0_hw5

def k0_chk6 (v629 : IVec S16 32) : Prop :=
  (∀ a x, ((![v629] : Fin 1 → IVec S16 32) a x).toNat < S3584.size a)
instance k0_chk6.dec : ∀ (v629 : IVec S16 32), Decidable (k0_chk6 v629) := fun v629 => decidable_of_iff' _ (Iff.of_eq (k0_chk6.eq_1 v629))
theorem k0_idx6_inb : ∀ (v629 : IVec S16 32) (k0_hw6 : k0_chk6 v629), ∀ a x, ((![v629] : Fin 1 → IVec S16 32) a x).toNat < S3584.size a := fun v629 k0_hw6 => k0_hw6

def k0_chk7 (v615 : IVec S16 32) (v631 : IVec S16 32) : Prop :=
  (∀ a x, ((![v631, v615] : Fin 2 → IVec S16 32) a x).toNat < S224x128.size a)
instance k0_chk7.dec : ∀ (v615 : IVec S16 32) (v631 : IVec S16 32), Decidable (k0_chk7 v615 v631) := fun v615 v631 => decidable_of_iff' _ (Iff.of_eq (k0_chk7.eq_1 v615 v631))
theorem k0_idx7_inb : ∀ (v615 : IVec S16 32) (v631 : IVec S16 32) (k0_hw7 : k0_chk7 v615 v631), ∀ a x, ((![v631, v615] : Fin 2 → IVec S16 32) a x).toNat < S224x128.size a := fun v615 v631 k0_hw7 => k0_hw7

def k0_chk8 (v633 : IVec S16 32) : Prop :=
  (∀ a x, ((![v633] : Fin 1 → IVec S16 32) a x).toNat < S3584.size a)
instance k0_chk8.dec : ∀ (v633 : IVec S16 32), Decidable (k0_chk8 v633) := fun v633 => decidable_of_iff' _ (Iff.of_eq (k0_chk8.eq_1 v633))
theorem k0_idx8_inb : ∀ (v633 : IVec S16 32) (k0_hw8 : k0_chk8 v633), ∀ a x, ((![v633] : Fin 1 → IVec S16 32) a x).toNat < S3584.size a := fun v633 k0_hw8 => k0_hw8

def k0_chk9 (v615 : IVec S16 32) (v635 : IVec S16 32) : Prop :=
  (∀ a x, ((![v635, v615] : Fin 2 → IVec S16 32) a x).toNat < S224x128.size a)
instance k0_chk9.dec : ∀ (v615 : IVec S16 32) (v635 : IVec S16 32), Decidable (k0_chk9 v615 v635) := fun v615 v635 => decidable_of_iff' _ (Iff.of_eq (k0_chk9.eq_1 v615 v635))
theorem k0_idx9_inb : ∀ (v615 : IVec S16 32) (v635 : IVec S16 32) (k0_hw9 : k0_chk9 v615 v635), ∀ a x, ((![v635, v615] : Fin 2 → IVec S16 32) a x).toNat < S224x128.size a := fun v615 v635 k0_hw9 => k0_hw9

def k0_chk10 (v637 : IVec S16 32) : Prop :=
  (∀ a x, ((![v637] : Fin 1 → IVec S16 32) a x).toNat < S3584.size a)
instance k0_chk10.dec : ∀ (v637 : IVec S16 32), Decidable (k0_chk10 v637) := fun v637 => decidable_of_iff' _ (Iff.of_eq (k0_chk10.eq_1 v637))
theorem k0_idx10_inb : ∀ (v637 : IVec S16 32) (k0_hw10 : k0_chk10 v637), ∀ a x, ((![v637] : Fin 1 → IVec S16 32) a x).toNat < S3584.size a := fun v637 k0_hw10 => k0_hw10

def k0_chk11 (v615 : IVec S16 32) (v639 : IVec S16 32) : Prop :=
  (∀ a x, ((![v639, v615] : Fin 2 → IVec S16 32) a x).toNat < S224x128.size a)
instance k0_chk11.dec : ∀ (v615 : IVec S16 32) (v639 : IVec S16 32), Decidable (k0_chk11 v615 v639) := fun v615 v639 => decidable_of_iff' _ (Iff.of_eq (k0_chk11.eq_1 v615 v639))
theorem k0_idx11_inb : ∀ (v615 : IVec S16 32) (v639 : IVec S16 32) (k0_hw11 : k0_chk11 v615 v639), ∀ a x, ((![v639, v615] : Fin 2 → IVec S16 32) a x).toNat < S224x128.size a := fun v615 v639 k0_hw11 => k0_hw11

def k0_chk12 (v641 : IVec S16 32) : Prop :=
  (∀ a x, ((![v641] : Fin 1 → IVec S16 32) a x).toNat < S3584.size a)
instance k0_chk12.dec : ∀ (v641 : IVec S16 32), Decidable (k0_chk12 v641) := fun v641 => decidable_of_iff' _ (Iff.of_eq (k0_chk12.eq_1 v641))
theorem k0_idx12_inb : ∀ (v641 : IVec S16 32) (k0_hw12 : k0_chk12 v641), ∀ a x, ((![v641] : Fin 1 → IVec S16 32) a x).toNat < S3584.size a := fun v641 k0_hw12 => k0_hw12

def k0_chk13 (v615 : IVec S16 32) (v643 : IVec S16 32) : Prop :=
  (∀ a x, ((![v643, v615] : Fin 2 → IVec S16 32) a x).toNat < S224x128.size a)
instance k0_chk13.dec : ∀ (v615 : IVec S16 32) (v643 : IVec S16 32), Decidable (k0_chk13 v615 v643) := fun v615 v643 => decidable_of_iff' _ (Iff.of_eq (k0_chk13.eq_1 v615 v643))
theorem k0_idx13_inb : ∀ (v615 : IVec S16 32) (v643 : IVec S16 32) (k0_hw13 : k0_chk13 v615 v643), ∀ a x, ((![v643, v615] : Fin 2 → IVec S16 32) a x).toNat < S224x128.size a := fun v615 v643 k0_hw13 => k0_hw13

def k0_chk14 (v645 : IVec S16 32) : Prop :=
  (∀ a x, ((![v645] : Fin 1 → IVec S16 32) a x).toNat < S3584.size a)
instance k0_chk14.dec : ∀ (v645 : IVec S16 32), Decidable (k0_chk14 v645) := fun v645 => decidable_of_iff' _ (Iff.of_eq (k0_chk14.eq_1 v645))
theorem k0_idx14_inb : ∀ (v645 : IVec S16 32) (k0_hw14 : k0_chk14 v645), ∀ a x, ((![v645] : Fin 1 → IVec S16 32) a x).toNat < S3584.size a := fun v645 k0_hw14 => k0_hw14

def k0_chk15 (v615 : IVec S16 32) (v647 : IVec S16 32) : Prop :=
  (∀ a x, ((![v647, v615] : Fin 2 → IVec S16 32) a x).toNat < S224x128.size a)
instance k0_chk15.dec : ∀ (v615 : IVec S16 32) (v647 : IVec S16 32), Decidable (k0_chk15 v615 v647) := fun v615 v647 => decidable_of_iff' _ (Iff.of_eq (k0_chk15.eq_1 v615 v647))
theorem k0_idx15_inb : ∀ (v615 : IVec S16 32) (v647 : IVec S16 32) (k0_hw15 : k0_chk15 v615 v647), ∀ a x, ((![v647, v615] : Fin 2 → IVec S16 32) a x).toNat < S224x128.size a := fun v615 v647 k0_hw15 => k0_hw15

def k0_chk16 (v649 : IVec S16 32) : Prop :=
  (∀ a x, ((![v649] : Fin 1 → IVec S16 32) a x).toNat < S3584.size a)
instance k0_chk16.dec : ∀ (v649 : IVec S16 32), Decidable (k0_chk16 v649) := fun v649 => decidable_of_iff' _ (Iff.of_eq (k0_chk16.eq_1 v649))
theorem k0_idx16_inb : ∀ (v649 : IVec S16 32) (k0_hw16 : k0_chk16 v649), ∀ a x, ((![v649] : Fin 1 → IVec S16 32) a x).toNat < S3584.size a := fun v649 k0_hw16 => k0_hw16

def k0_chk17 (v615 : IVec S16 32) (v651 : IVec S16 32) : Prop :=
  (∀ a x, ((![v651, v615] : Fin 2 → IVec S16 32) a x).toNat < S224x128.size a)
instance k0_chk17.dec : ∀ (v615 : IVec S16 32) (v651 : IVec S16 32), Decidable (k0_chk17 v615 v651) := fun v615 v651 => decidable_of_iff' _ (Iff.of_eq (k0_chk17.eq_1 v615 v651))
theorem k0_idx17_inb : ∀ (v615 : IVec S16 32) (v651 : IVec S16 32) (k0_hw17 : k0_chk17 v615 v651), ∀ a x, ((![v651, v615] : Fin 2 → IVec S16 32) a x).toNat < S224x128.size a := fun v615 v651 k0_hw17 => k0_hw17

def k0_chk18 (v653 : IVec S16 32) : Prop :=
  (∀ a x, ((![v653] : Fin 1 → IVec S16 32) a x).toNat < S3584.size a)
instance k0_chk18.dec : ∀ (v653 : IVec S16 32), Decidable (k0_chk18 v653) := fun v653 => decidable_of_iff' _ (Iff.of_eq (k0_chk18.eq_1 v653))
theorem k0_idx18_inb : ∀ (v653 : IVec S16 32) (k0_hw18 : k0_chk18 v653), ∀ a x, ((![v653] : Fin 1 → IVec S16 32) a x).toNat < S3584.size a := fun v653 k0_hw18 => k0_hw18

def k0_chk19 (v615 : IVec S16 32) (v655 : IVec S16 32) : Prop :=
  (∀ a x, ((![v655, v615] : Fin 2 → IVec S16 32) a x).toNat < S224x128.size a)
instance k0_chk19.dec : ∀ (v615 : IVec S16 32) (v655 : IVec S16 32), Decidable (k0_chk19 v615 v655) := fun v615 v655 => decidable_of_iff' _ (Iff.of_eq (k0_chk19.eq_1 v615 v655))
theorem k0_idx19_inb : ∀ (v615 : IVec S16 32) (v655 : IVec S16 32) (k0_hw19 : k0_chk19 v615 v655), ∀ a x, ((![v655, v615] : Fin 2 → IVec S16 32) a x).toNat < S224x128.size a := fun v615 v655 k0_hw19 => k0_hw19

def k0_chk20 (v657 : IVec S16 32) : Prop :=
  (∀ a x, ((![v657] : Fin 1 → IVec S16 32) a x).toNat < S3584.size a)
instance k0_chk20.dec : ∀ (v657 : IVec S16 32), Decidable (k0_chk20 v657) := fun v657 => decidable_of_iff' _ (Iff.of_eq (k0_chk20.eq_1 v657))
theorem k0_idx20_inb : ∀ (v657 : IVec S16 32) (k0_hw20 : k0_chk20 v657), ∀ a x, ((![v657] : Fin 1 → IVec S16 32) a x).toNat < S3584.size a := fun v657 k0_hw20 => k0_hw20

def k0_chk21 (v615 : IVec S16 32) (v659 : IVec S16 32) : Prop :=
  (∀ a x, ((![v659, v615] : Fin 2 → IVec S16 32) a x).toNat < S224x128.size a)
instance k0_chk21.dec : ∀ (v615 : IVec S16 32) (v659 : IVec S16 32), Decidable (k0_chk21 v615 v659) := fun v615 v659 => decidable_of_iff' _ (Iff.of_eq (k0_chk21.eq_1 v615 v659))
theorem k0_idx21_inb : ∀ (v615 : IVec S16 32) (v659 : IVec S16 32) (k0_hw21 : k0_chk21 v615 v659), ∀ a x, ((![v659, v615] : Fin 2 → IVec S16 32) a x).toNat < S224x128.size a := fun v615 v659 k0_hw21 => k0_hw21

def k0_chk22 (v661 : IVec S16 32) : Prop :=
  (∀ a x, ((![v661] : Fin 1 → IVec S16 32) a x).toNat < S3584.size a)
instance k0_chk22.dec : ∀ (v661 : IVec S16 32), Decidable (k0_chk22 v661) := fun v661 => decidable_of_iff' _ (Iff.of_eq (k0_chk22.eq_1 v661))
theorem k0_idx22_inb : ∀ (v661 : IVec S16 32) (k0_hw22 : k0_chk22 v661), ∀ a x, ((![v661] : Fin 1 → IVec S16 32) a x).toNat < S3584.size a := fun v661 k0_hw22 => k0_hw22

def k0_chk23 (v615 : IVec S16 32) (v663 : IVec S16 32) : Prop :=
  (∀ a x, ((![v663, v615] : Fin 2 → IVec S16 32) a x).toNat < S224x128.size a)
instance k0_chk23.dec : ∀ (v615 : IVec S16 32) (v663 : IVec S16 32), Decidable (k0_chk23 v615 v663) := fun v615 v663 => decidable_of_iff' _ (Iff.of_eq (k0_chk23.eq_1 v615 v663))
theorem k0_idx23_inb : ∀ (v615 : IVec S16 32) (v663 : IVec S16 32) (k0_hw23 : k0_chk23 v615 v663), ∀ a x, ((![v663, v615] : Fin 2 → IVec S16 32) a x).toNat < S224x128.size a := fun v615 v663 k0_hw23 => k0_hw23

def k0_chk24 (v665 : IVec S16 32) : Prop :=
  (∀ a x, ((![v665] : Fin 1 → IVec S16 32) a x).toNat < S3584.size a)
instance k0_chk24.dec : ∀ (v665 : IVec S16 32), Decidable (k0_chk24 v665) := fun v665 => decidable_of_iff' _ (Iff.of_eq (k0_chk24.eq_1 v665))
theorem k0_idx24_inb : ∀ (v665 : IVec S16 32) (k0_hw24 : k0_chk24 v665), ∀ a x, ((![v665] : Fin 1 → IVec S16 32) a x).toNat < S3584.size a := fun v665 k0_hw24 => k0_hw24

def k0_chk25 (v615 : IVec S16 32) (v667 : IVec S16 32) : Prop :=
  (∀ a x, ((![v667, v615] : Fin 2 → IVec S16 32) a x).toNat < S224x128.size a)
instance k0_chk25.dec : ∀ (v615 : IVec S16 32) (v667 : IVec S16 32), Decidable (k0_chk25 v615 v667) := fun v615 v667 => decidable_of_iff' _ (Iff.of_eq (k0_chk25.eq_1 v615 v667))
theorem k0_idx25_inb : ∀ (v615 : IVec S16 32) (v667 : IVec S16 32) (k0_hw25 : k0_chk25 v615 v667), ∀ a x, ((![v667, v615] : Fin 2 → IVec S16 32) a x).toNat < S224x128.size a := fun v615 v667 k0_hw25 => k0_hw25

def k0_chk26 (v669 : IVec S16 32) : Prop :=
  (∀ a x, ((![v669] : Fin 1 → IVec S16 32) a x).toNat < S3584.size a)
instance k0_chk26.dec : ∀ (v669 : IVec S16 32), Decidable (k0_chk26 v669) := fun v669 => decidable_of_iff' _ (Iff.of_eq (k0_chk26.eq_1 v669))
theorem k0_idx26_inb : ∀ (v669 : IVec S16 32) (k0_hw26 : k0_chk26 v669), ∀ a x, ((![v669] : Fin 1 → IVec S16 32) a x).toNat < S3584.size a := fun v669 k0_hw26 => k0_hw26

def k0_chk27 (v615 : IVec S16 32) (v671 : IVec S16 32) : Prop :=
  (∀ a x, ((![v671, v615] : Fin 2 → IVec S16 32) a x).toNat < S224x128.size a)
instance k0_chk27.dec : ∀ (v615 : IVec S16 32) (v671 : IVec S16 32), Decidable (k0_chk27 v615 v671) := fun v615 v671 => decidable_of_iff' _ (Iff.of_eq (k0_chk27.eq_1 v615 v671))
theorem k0_idx27_inb : ∀ (v615 : IVec S16 32) (v671 : IVec S16 32) (k0_hw27 : k0_chk27 v615 v671), ∀ a x, ((![v671, v615] : Fin 2 → IVec S16 32) a x).toNat < S224x128.size a := fun v615 v671 k0_hw27 => k0_hw27

def k0_chk28 (v673 : IVec S16 32) : Prop :=
  (∀ a x, ((![v673] : Fin 1 → IVec S16 32) a x).toNat < S3584.size a)
instance k0_chk28.dec : ∀ (v673 : IVec S16 32), Decidable (k0_chk28 v673) := fun v673 => decidable_of_iff' _ (Iff.of_eq (k0_chk28.eq_1 v673))
theorem k0_idx28_inb : ∀ (v673 : IVec S16 32) (k0_hw28 : k0_chk28 v673), ∀ a x, ((![v673] : Fin 1 → IVec S16 32) a x).toNat < S3584.size a := fun v673 k0_hw28 => k0_hw28
def k0_off3 (i : grid0.Coords) (k0_t1 : Fin k0_t1_loop.trips) (c0_i32_287 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32 : BitVec 32 := 21#32
  let v2 : BitVec 32 := Scalar.muli v1 c21_i32
  let c2_i32_248 : BitVec 32 := 2#32
  let c0_i32_10 : BitVec 32 := 0#32
  let c1_i32_11 : BitVec 32 := 1#32
  let arg12 : BitVec 32 := Scf.iv c0_i32_10 c1_i32_11 k0_t1
  let v331 : BitVec 32 := Scalar.muli c2_i32_248 arg12
  let v332 : BitVec 32 := Scalar.addi v2 v331
  let c0_i32_276 : BitVec 32 := 0#32
  let v367 : BitVec 1 := Scalar.cmpi .sgt v332 c0_i32_276
  let v368 : BitVec 32 := Scalar.extui v367
  let c0_i32_277 : BitVec 32 := 0#32
  let v369 : BitVec 1 := Scalar.cmpi .slt v332 c0_i32_277
  let v370 : BitVec 32 := Scalar.extui v369
  let v371 : BitVec 32 := Scalar.subi v368 v370
  let c224_i32_275 : BitVec 32 := 224#32
  let c0_i32_278 : BitVec 32 := 0#32
  let v372 : BitVec 1 := Scalar.cmpi .sgt c224_i32_275 c0_i32_278
  let v373 : BitVec 32 := Scalar.extui v372
  let c0_i32_279 : BitVec 32 := 0#32
  let v374 : BitVec 1 := Scalar.cmpi .slt c224_i32_275 c0_i32_279
  let v375 : BitVec 32 := Scalar.extui v374
  let v376 : BitVec 32 := Scalar.subi v373 v375
  let v377 : BitVec 1 := Scalar.cmpi .ne v371 v376
  let v378 : BitVec 32 := Scalar.remsi v332 c224_i32_275
  let c0_i32_280 : BitVec 32 := 0#32
  let v379 : BitVec 1 := Scalar.cmpi .ne v378 c0_i32_280
  let v380 : BitVec 1 := Scalar.andi v377 v379
  let v366 : BitVec 32 := Scalar.divsi v332 c224_i32_275
  let c1_i32_281 : BitVec 32 := 1#32
  let v381 : BitVec 32 := Scalar.subi v366 c1_i32_281
  let v382 : BitVec 32 := Scalar.select v380 v381 v366
  let c16_i32_283 : BitVec 32 := 16#32
  let v385 : BitVec 32 := Scalar.muli v382 c16_i32_283
  let c224_i32_284 : BitVec 32 := 224#32
  let v386 : BitVec 32 := Scalar.muli v385 c224_i32_284
  let c224_i32_285 : BitVec 32 := 224#32
  let v387 : BitVec 32 := Scalar.muli v386 c224_i32_285
  let c224_i32_282 : BitVec 32 := 224#32
  let v383 : BitVec 32 := Scalar.muli v382 c224_i32_282
  let v384 : BitVec 32 := Scalar.subi v332 v383
  let c224_i32_286 : BitVec 32 := 224#32
  let v388 : BitVec 32 := Scalar.muli v384 c224_i32_286
  let v389 : BitVec 32 := Scalar.addi v387 v388
  let v390 : BitVec 32 := Scalar.addi v389 c0_i32_287
  ![v390.toNat]
@[reducible] def k0_t3_loop : Scf.Loop 32 :=
  let c0_i32_357 : BitVec 32 := 0#32
  let c16_i32_358 : BitVec 32 := 16#32
  let v502 : BitVec 32 := Scalar.addi c0_i32_357 c16_i32_358
  let c1_i32_359 : BitVec 32 := 1#32
  ⟨c0_i32_357, v502, c1_i32_359⟩

def k0_chk29 (v615 : IVec S16 32) (v619 : IVec S16 32) : Prop :=
  (∀ a x, ((![v619, v615] : Fin 2 → IVec S16 32) a x).toNat < S224x128.size a)
instance k0_chk29.dec : ∀ (v615 : IVec S16 32) (v619 : IVec S16 32), Decidable (k0_chk29 v615 v619) := fun v615 v619 => decidable_of_iff' _ (Iff.of_eq (k0_chk29.eq_1 v615 v619))
theorem k0_idx29_inb : ∀ (v615 : IVec S16 32) (v619 : IVec S16 32) (k0_hw29 : k0_chk29 v615 v619), ∀ a x, ((![v619, v615] : Fin 2 → IVec S16 32) a x).toNat < S224x128.size a := fun v615 v619 k0_hw29 => k0_hw29

def k0_chk30 (v621 : IVec S16 32) : Prop :=
  (∀ a x, ((![v621] : Fin 1 → IVec S16 32) a x).toNat < S3584.size a)
instance k0_chk30.dec : ∀ (v621 : IVec S16 32), Decidable (k0_chk30 v621) := fun v621 => decidable_of_iff' _ (Iff.of_eq (k0_chk30.eq_1 v621))
theorem k0_idx30_inb : ∀ (v621 : IVec S16 32) (k0_hw30 : k0_chk30 v621), ∀ a x, ((![v621] : Fin 1 → IVec S16 32) a x).toNat < S3584.size a := fun v621 k0_hw30 => k0_hw30

def k0_chk31 (v615 : IVec S16 32) (v623 : IVec S16 32) : Prop :=
  (∀ a x, ((![v623, v615] : Fin 2 → IVec S16 32) a x).toNat < S224x128.size a)
instance k0_chk31.dec : ∀ (v615 : IVec S16 32) (v623 : IVec S16 32), Decidable (k0_chk31 v615 v623) := fun v615 v623 => decidable_of_iff' _ (Iff.of_eq (k0_chk31.eq_1 v615 v623))
theorem k0_idx31_inb : ∀ (v615 : IVec S16 32) (v623 : IVec S16 32) (k0_hw31 : k0_chk31 v615 v623), ∀ a x, ((![v623, v615] : Fin 2 → IVec S16 32) a x).toNat < S224x128.size a := fun v615 v623 k0_hw31 => k0_hw31

def k0_chk32 (v625 : IVec S16 32) : Prop :=
  (∀ a x, ((![v625] : Fin 1 → IVec S16 32) a x).toNat < S3584.size a)
instance k0_chk32.dec : ∀ (v625 : IVec S16 32), Decidable (k0_chk32 v625) := fun v625 => decidable_of_iff' _ (Iff.of_eq (k0_chk32.eq_1 v625))
theorem k0_idx32_inb : ∀ (v625 : IVec S16 32) (k0_hw32 : k0_chk32 v625), ∀ a x, ((![v625] : Fin 1 → IVec S16 32) a x).toNat < S3584.size a := fun v625 k0_hw32 => k0_hw32

def k0_chk33 (v615 : IVec S16 32) (v627 : IVec S16 32) : Prop :=
  (∀ a x, ((![v627, v615] : Fin 2 → IVec S16 32) a x).toNat < S224x128.size a)
instance k0_chk33.dec : ∀ (v615 : IVec S16 32) (v627 : IVec S16 32), Decidable (k0_chk33 v615 v627) := fun v615 v627 => decidable_of_iff' _ (Iff.of_eq (k0_chk33.eq_1 v615 v627))
theorem k0_idx33_inb : ∀ (v615 : IVec S16 32) (v627 : IVec S16 32) (k0_hw33 : k0_chk33 v615 v627), ∀ a x, ((![v627, v615] : Fin 2 → IVec S16 32) a x).toNat < S224x128.size a := fun v615 v627 k0_hw33 => k0_hw33

def k0_chk34 (v629 : IVec S16 32) : Prop :=
  (∀ a x, ((![v629] : Fin 1 → IVec S16 32) a x).toNat < S3584.size a)
instance k0_chk34.dec : ∀ (v629 : IVec S16 32), Decidable (k0_chk34 v629) := fun v629 => decidable_of_iff' _ (Iff.of_eq (k0_chk34.eq_1 v629))
theorem k0_idx34_inb : ∀ (v629 : IVec S16 32) (k0_hw34 : k0_chk34 v629), ∀ a x, ((![v629] : Fin 1 → IVec S16 32) a x).toNat < S3584.size a := fun v629 k0_hw34 => k0_hw34

def k0_chk35 (v615 : IVec S16 32) (v631 : IVec S16 32) : Prop :=
  (∀ a x, ((![v631, v615] : Fin 2 → IVec S16 32) a x).toNat < S224x128.size a)
instance k0_chk35.dec : ∀ (v615 : IVec S16 32) (v631 : IVec S16 32), Decidable (k0_chk35 v615 v631) := fun v615 v631 => decidable_of_iff' _ (Iff.of_eq (k0_chk35.eq_1 v615 v631))
theorem k0_idx35_inb : ∀ (v615 : IVec S16 32) (v631 : IVec S16 32) (k0_hw35 : k0_chk35 v615 v631), ∀ a x, ((![v631, v615] : Fin 2 → IVec S16 32) a x).toNat < S224x128.size a := fun v615 v631 k0_hw35 => k0_hw35

def k0_chk36 (v633 : IVec S16 32) : Prop :=
  (∀ a x, ((![v633] : Fin 1 → IVec S16 32) a x).toNat < S3584.size a)
instance k0_chk36.dec : ∀ (v633 : IVec S16 32), Decidable (k0_chk36 v633) := fun v633 => decidable_of_iff' _ (Iff.of_eq (k0_chk36.eq_1 v633))
theorem k0_idx36_inb : ∀ (v633 : IVec S16 32) (k0_hw36 : k0_chk36 v633), ∀ a x, ((![v633] : Fin 1 → IVec S16 32) a x).toNat < S3584.size a := fun v633 k0_hw36 => k0_hw36

def k0_chk37 (v615 : IVec S16 32) (v635 : IVec S16 32) : Prop :=
  (∀ a x, ((![v635, v615] : Fin 2 → IVec S16 32) a x).toNat < S224x128.size a)
instance k0_chk37.dec : ∀ (v615 : IVec S16 32) (v635 : IVec S16 32), Decidable (k0_chk37 v615 v635) := fun v615 v635 => decidable_of_iff' _ (Iff.of_eq (k0_chk37.eq_1 v615 v635))
theorem k0_idx37_inb : ∀ (v615 : IVec S16 32) (v635 : IVec S16 32) (k0_hw37 : k0_chk37 v615 v635), ∀ a x, ((![v635, v615] : Fin 2 → IVec S16 32) a x).toNat < S224x128.size a := fun v615 v635 k0_hw37 => k0_hw37

def k0_chk38 (v637 : IVec S16 32) : Prop :=
  (∀ a x, ((![v637] : Fin 1 → IVec S16 32) a x).toNat < S3584.size a)
instance k0_chk38.dec : ∀ (v637 : IVec S16 32), Decidable (k0_chk38 v637) := fun v637 => decidable_of_iff' _ (Iff.of_eq (k0_chk38.eq_1 v637))
theorem k0_idx38_inb : ∀ (v637 : IVec S16 32) (k0_hw38 : k0_chk38 v637), ∀ a x, ((![v637] : Fin 1 → IVec S16 32) a x).toNat < S3584.size a := fun v637 k0_hw38 => k0_hw38

def k0_chk39 (v615 : IVec S16 32) (v639 : IVec S16 32) : Prop :=
  (∀ a x, ((![v639, v615] : Fin 2 → IVec S16 32) a x).toNat < S224x128.size a)
instance k0_chk39.dec : ∀ (v615 : IVec S16 32) (v639 : IVec S16 32), Decidable (k0_chk39 v615 v639) := fun v615 v639 => decidable_of_iff' _ (Iff.of_eq (k0_chk39.eq_1 v615 v639))
theorem k0_idx39_inb : ∀ (v615 : IVec S16 32) (v639 : IVec S16 32) (k0_hw39 : k0_chk39 v615 v639), ∀ a x, ((![v639, v615] : Fin 2 → IVec S16 32) a x).toNat < S224x128.size a := fun v615 v639 k0_hw39 => k0_hw39

def k0_chk40 (v641 : IVec S16 32) : Prop :=
  (∀ a x, ((![v641] : Fin 1 → IVec S16 32) a x).toNat < S3584.size a)
instance k0_chk40.dec : ∀ (v641 : IVec S16 32), Decidable (k0_chk40 v641) := fun v641 => decidable_of_iff' _ (Iff.of_eq (k0_chk40.eq_1 v641))
theorem k0_idx40_inb : ∀ (v641 : IVec S16 32) (k0_hw40 : k0_chk40 v641), ∀ a x, ((![v641] : Fin 1 → IVec S16 32) a x).toNat < S3584.size a := fun v641 k0_hw40 => k0_hw40

def k0_chk41 (v615 : IVec S16 32) (v643 : IVec S16 32) : Prop :=
  (∀ a x, ((![v643, v615] : Fin 2 → IVec S16 32) a x).toNat < S224x128.size a)
instance k0_chk41.dec : ∀ (v615 : IVec S16 32) (v643 : IVec S16 32), Decidable (k0_chk41 v615 v643) := fun v615 v643 => decidable_of_iff' _ (Iff.of_eq (k0_chk41.eq_1 v615 v643))
theorem k0_idx41_inb : ∀ (v615 : IVec S16 32) (v643 : IVec S16 32) (k0_hw41 : k0_chk41 v615 v643), ∀ a x, ((![v643, v615] : Fin 2 → IVec S16 32) a x).toNat < S224x128.size a := fun v615 v643 k0_hw41 => k0_hw41

def k0_chk42 (v645 : IVec S16 32) : Prop :=
  (∀ a x, ((![v645] : Fin 1 → IVec S16 32) a x).toNat < S3584.size a)
instance k0_chk42.dec : ∀ (v645 : IVec S16 32), Decidable (k0_chk42 v645) := fun v645 => decidable_of_iff' _ (Iff.of_eq (k0_chk42.eq_1 v645))
theorem k0_idx42_inb : ∀ (v645 : IVec S16 32) (k0_hw42 : k0_chk42 v645), ∀ a x, ((![v645] : Fin 1 → IVec S16 32) a x).toNat < S3584.size a := fun v645 k0_hw42 => k0_hw42

def k0_chk43 (v615 : IVec S16 32) (v647 : IVec S16 32) : Prop :=
  (∀ a x, ((![v647, v615] : Fin 2 → IVec S16 32) a x).toNat < S224x128.size a)
instance k0_chk43.dec : ∀ (v615 : IVec S16 32) (v647 : IVec S16 32), Decidable (k0_chk43 v615 v647) := fun v615 v647 => decidable_of_iff' _ (Iff.of_eq (k0_chk43.eq_1 v615 v647))
theorem k0_idx43_inb : ∀ (v615 : IVec S16 32) (v647 : IVec S16 32) (k0_hw43 : k0_chk43 v615 v647), ∀ a x, ((![v647, v615] : Fin 2 → IVec S16 32) a x).toNat < S224x128.size a := fun v615 v647 k0_hw43 => k0_hw43

def k0_chk44 (v649 : IVec S16 32) : Prop :=
  (∀ a x, ((![v649] : Fin 1 → IVec S16 32) a x).toNat < S3584.size a)
instance k0_chk44.dec : ∀ (v649 : IVec S16 32), Decidable (k0_chk44 v649) := fun v649 => decidable_of_iff' _ (Iff.of_eq (k0_chk44.eq_1 v649))
theorem k0_idx44_inb : ∀ (v649 : IVec S16 32) (k0_hw44 : k0_chk44 v649), ∀ a x, ((![v649] : Fin 1 → IVec S16 32) a x).toNat < S3584.size a := fun v649 k0_hw44 => k0_hw44

def k0_chk45 (v615 : IVec S16 32) (v651 : IVec S16 32) : Prop :=
  (∀ a x, ((![v651, v615] : Fin 2 → IVec S16 32) a x).toNat < S224x128.size a)
instance k0_chk45.dec : ∀ (v615 : IVec S16 32) (v651 : IVec S16 32), Decidable (k0_chk45 v615 v651) := fun v615 v651 => decidable_of_iff' _ (Iff.of_eq (k0_chk45.eq_1 v615 v651))
theorem k0_idx45_inb : ∀ (v615 : IVec S16 32) (v651 : IVec S16 32) (k0_hw45 : k0_chk45 v615 v651), ∀ a x, ((![v651, v615] : Fin 2 → IVec S16 32) a x).toNat < S224x128.size a := fun v615 v651 k0_hw45 => k0_hw45

def k0_chk46 (v653 : IVec S16 32) : Prop :=
  (∀ a x, ((![v653] : Fin 1 → IVec S16 32) a x).toNat < S3584.size a)
instance k0_chk46.dec : ∀ (v653 : IVec S16 32), Decidable (k0_chk46 v653) := fun v653 => decidable_of_iff' _ (Iff.of_eq (k0_chk46.eq_1 v653))
theorem k0_idx46_inb : ∀ (v653 : IVec S16 32) (k0_hw46 : k0_chk46 v653), ∀ a x, ((![v653] : Fin 1 → IVec S16 32) a x).toNat < S3584.size a := fun v653 k0_hw46 => k0_hw46

def k0_chk47 (v615 : IVec S16 32) (v655 : IVec S16 32) : Prop :=
  (∀ a x, ((![v655, v615] : Fin 2 → IVec S16 32) a x).toNat < S224x128.size a)
instance k0_chk47.dec : ∀ (v615 : IVec S16 32) (v655 : IVec S16 32), Decidable (k0_chk47 v615 v655) := fun v615 v655 => decidable_of_iff' _ (Iff.of_eq (k0_chk47.eq_1 v615 v655))
theorem k0_idx47_inb : ∀ (v615 : IVec S16 32) (v655 : IVec S16 32) (k0_hw47 : k0_chk47 v615 v655), ∀ a x, ((![v655, v615] : Fin 2 → IVec S16 32) a x).toNat < S224x128.size a := fun v615 v655 k0_hw47 => k0_hw47

def k0_chk48 (v657 : IVec S16 32) : Prop :=
  (∀ a x, ((![v657] : Fin 1 → IVec S16 32) a x).toNat < S3584.size a)
instance k0_chk48.dec : ∀ (v657 : IVec S16 32), Decidable (k0_chk48 v657) := fun v657 => decidable_of_iff' _ (Iff.of_eq (k0_chk48.eq_1 v657))
theorem k0_idx48_inb : ∀ (v657 : IVec S16 32) (k0_hw48 : k0_chk48 v657), ∀ a x, ((![v657] : Fin 1 → IVec S16 32) a x).toNat < S3584.size a := fun v657 k0_hw48 => k0_hw48

def k0_chk49 (v615 : IVec S16 32) (v659 : IVec S16 32) : Prop :=
  (∀ a x, ((![v659, v615] : Fin 2 → IVec S16 32) a x).toNat < S224x128.size a)
instance k0_chk49.dec : ∀ (v615 : IVec S16 32) (v659 : IVec S16 32), Decidable (k0_chk49 v615 v659) := fun v615 v659 => decidable_of_iff' _ (Iff.of_eq (k0_chk49.eq_1 v615 v659))
theorem k0_idx49_inb : ∀ (v615 : IVec S16 32) (v659 : IVec S16 32) (k0_hw49 : k0_chk49 v615 v659), ∀ a x, ((![v659, v615] : Fin 2 → IVec S16 32) a x).toNat < S224x128.size a := fun v615 v659 k0_hw49 => k0_hw49

def k0_chk50 (v661 : IVec S16 32) : Prop :=
  (∀ a x, ((![v661] : Fin 1 → IVec S16 32) a x).toNat < S3584.size a)
instance k0_chk50.dec : ∀ (v661 : IVec S16 32), Decidable (k0_chk50 v661) := fun v661 => decidable_of_iff' _ (Iff.of_eq (k0_chk50.eq_1 v661))
theorem k0_idx50_inb : ∀ (v661 : IVec S16 32) (k0_hw50 : k0_chk50 v661), ∀ a x, ((![v661] : Fin 1 → IVec S16 32) a x).toNat < S3584.size a := fun v661 k0_hw50 => k0_hw50

def k0_chk51 (v615 : IVec S16 32) (v663 : IVec S16 32) : Prop :=
  (∀ a x, ((![v663, v615] : Fin 2 → IVec S16 32) a x).toNat < S224x128.size a)
instance k0_chk51.dec : ∀ (v615 : IVec S16 32) (v663 : IVec S16 32), Decidable (k0_chk51 v615 v663) := fun v615 v663 => decidable_of_iff' _ (Iff.of_eq (k0_chk51.eq_1 v615 v663))
theorem k0_idx51_inb : ∀ (v615 : IVec S16 32) (v663 : IVec S16 32) (k0_hw51 : k0_chk51 v615 v663), ∀ a x, ((![v663, v615] : Fin 2 → IVec S16 32) a x).toNat < S224x128.size a := fun v615 v663 k0_hw51 => k0_hw51

def k0_chk52 (v665 : IVec S16 32) : Prop :=
  (∀ a x, ((![v665] : Fin 1 → IVec S16 32) a x).toNat < S3584.size a)
instance k0_chk52.dec : ∀ (v665 : IVec S16 32), Decidable (k0_chk52 v665) := fun v665 => decidable_of_iff' _ (Iff.of_eq (k0_chk52.eq_1 v665))
theorem k0_idx52_inb : ∀ (v665 : IVec S16 32) (k0_hw52 : k0_chk52 v665), ∀ a x, ((![v665] : Fin 1 → IVec S16 32) a x).toNat < S3584.size a := fun v665 k0_hw52 => k0_hw52

def k0_chk53 (v615 : IVec S16 32) (v667 : IVec S16 32) : Prop :=
  (∀ a x, ((![v667, v615] : Fin 2 → IVec S16 32) a x).toNat < S224x128.size a)
instance k0_chk53.dec : ∀ (v615 : IVec S16 32) (v667 : IVec S16 32), Decidable (k0_chk53 v615 v667) := fun v615 v667 => decidable_of_iff' _ (Iff.of_eq (k0_chk53.eq_1 v615 v667))
theorem k0_idx53_inb : ∀ (v615 : IVec S16 32) (v667 : IVec S16 32) (k0_hw53 : k0_chk53 v615 v667), ∀ a x, ((![v667, v615] : Fin 2 → IVec S16 32) a x).toNat < S224x128.size a := fun v615 v667 k0_hw53 => k0_hw53

def k0_chk54 (v669 : IVec S16 32) : Prop :=
  (∀ a x, ((![v669] : Fin 1 → IVec S16 32) a x).toNat < S3584.size a)
instance k0_chk54.dec : ∀ (v669 : IVec S16 32), Decidable (k0_chk54 v669) := fun v669 => decidable_of_iff' _ (Iff.of_eq (k0_chk54.eq_1 v669))
theorem k0_idx54_inb : ∀ (v669 : IVec S16 32) (k0_hw54 : k0_chk54 v669), ∀ a x, ((![v669] : Fin 1 → IVec S16 32) a x).toNat < S3584.size a := fun v669 k0_hw54 => k0_hw54

def k0_chk55 (v615 : IVec S16 32) (v671 : IVec S16 32) : Prop :=
  (∀ a x, ((![v671, v615] : Fin 2 → IVec S16 32) a x).toNat < S224x128.size a)
instance k0_chk55.dec : ∀ (v615 : IVec S16 32) (v671 : IVec S16 32), Decidable (k0_chk55 v615 v671) := fun v615 v671 => decidable_of_iff' _ (Iff.of_eq (k0_chk55.eq_1 v615 v671))
theorem k0_idx55_inb : ∀ (v615 : IVec S16 32) (v671 : IVec S16 32) (k0_hw55 : k0_chk55 v615 v671), ∀ a x, ((![v671, v615] : Fin 2 → IVec S16 32) a x).toNat < S224x128.size a := fun v615 v671 k0_hw55 => k0_hw55

def k0_chk56 (v673 : IVec S16 32) : Prop :=
  (∀ a x, ((![v673] : Fin 1 → IVec S16 32) a x).toNat < S3584.size a)
instance k0_chk56.dec : ∀ (v673 : IVec S16 32), Decidable (k0_chk56 v673) := fun v673 => decidable_of_iff' _ (Iff.of_eq (k0_chk56.eq_1 v673))
theorem k0_idx56_inb : ∀ (v673 : IVec S16 32) (k0_hw56 : k0_chk56 v673), ∀ a x, ((![v673] : Fin 1 → IVec S16 32) a x).toNat < S3584.size a := fun v673 k0_hw56 => k0_hw56
def k0_off4 (i : grid0.Coords) (k0_t1 : Fin k0_t1_loop.trips) (c0_i32_374 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32 : BitVec 32 := 21#32
  let v2 : BitVec 32 := Scalar.muli v1 c21_i32
  let c2_i32_248 : BitVec 32 := 2#32
  let c0_i32_10 : BitVec 32 := 0#32
  let c1_i32_11 : BitVec 32 := 1#32
  let arg12 : BitVec 32 := Scf.iv c0_i32_10 c1_i32_11 k0_t1
  let v331 : BitVec 32 := Scalar.muli c2_i32_248 arg12
  let v332 : BitVec 32 := Scalar.addi v2 v331
  let c1_i32_361 : BitVec 32 := 1#32
  let v503 : BitVec 32 := Scalar.addi v332 c1_i32_361
  let c0_i32_363 : BitVec 32 := 0#32
  let v505 : BitVec 1 := Scalar.cmpi .sgt v503 c0_i32_363
  let v506 : BitVec 32 := Scalar.extui v505
  let c0_i32_364 : BitVec 32 := 0#32
  let v507 : BitVec 1 := Scalar.cmpi .slt v503 c0_i32_364
  let v508 : BitVec 32 := Scalar.extui v507
  let v509 : BitVec 32 := Scalar.subi v506 v508
  let c224_i32_362 : BitVec 32 := 224#32
  let c0_i32_365 : BitVec 32 := 0#32
  let v510 : BitVec 1 := Scalar.cmpi .sgt c224_i32_362 c0_i32_365
  let v511 : BitVec 32 := Scalar.extui v510
  let c0_i32_366 : BitVec 32 := 0#32
  let v512 : BitVec 1 := Scalar.cmpi .slt c224_i32_362 c0_i32_366
  let v513 : BitVec 32 := Scalar.extui v512
  let v514 : BitVec 32 := Scalar.subi v511 v513
  let v515 : BitVec 1 := Scalar.cmpi .ne v509 v514
  let v516 : BitVec 32 := Scalar.remsi v503 c224_i32_362
  let c0_i32_367 : BitVec 32 := 0#32
  let v517 : BitVec 1 := Scalar.cmpi .ne v516 c0_i32_367
  let v518 : BitVec 1 := Scalar.andi v515 v517
  let v504 : BitVec 32 := Scalar.divsi v503 c224_i32_362
  let c1_i32_368 : BitVec 32 := 1#32
  let v519 : BitVec 32 := Scalar.subi v504 c1_i32_368
  let v520 : BitVec 32 := Scalar.select v518 v519 v504
  let c16_i32_370 : BitVec 32 := 16#32
  let v523 : BitVec 32 := Scalar.muli v520 c16_i32_370
  let c224_i32_371 : BitVec 32 := 224#32
  let v524 : BitVec 32 := Scalar.muli v523 c224_i32_371
  let c224_i32_372 : BitVec 32 := 224#32
  let v525 : BitVec 32 := Scalar.muli v524 c224_i32_372
  let c224_i32_369 : BitVec 32 := 224#32
  let v521 : BitVec 32 := Scalar.muli v520 c224_i32_369
  let v522 : BitVec 32 := Scalar.subi v503 v521
  let c224_i32_373 : BitVec 32 := 224#32
  let v526 : BitVec 32 := Scalar.muli v522 c224_i32_373
  let v527 : BitVec 32 := Scalar.addi v525 v526
  let v528 : BitVec 32 := Scalar.addi v527 c0_i32_374
  ![v528.toNat]
@[reducible] def k0_t4_loop : Scf.Loop 32 :=
  let c0_i32_70 : BitVec 32 := 0#32
  let c16_i32 : BitVec 32 := 16#32
  let v96 : BitVec 32 := Scalar.addi c0_i32_70 c16_i32
  let c1_i32_71 : BitVec 32 := 1#32
  ⟨c0_i32_70, v96, c1_i32_71⟩

def k0_chk57 (v338 : IVec S16 32) (v342 : IVec S16 32) : Prop :=
  (∀ a x, ((![v342, v338] : Fin 2 → IVec S16 32) a x).toNat < S224x128.size a)
instance k0_chk57.dec : ∀ (v338 : IVec S16 32) (v342 : IVec S16 32), Decidable (k0_chk57 v338 v342) := fun v338 v342 => decidable_of_iff' _ (Iff.of_eq (k0_chk57.eq_1 v338 v342))
theorem k0_idx57_inb : ∀ (v338 : IVec S16 32) (v342 : IVec S16 32) (k0_hw57 : k0_chk57 v338 v342), ∀ a x, ((![v342, v338] : Fin 2 → IVec S16 32) a x).toNat < S224x128.size a := fun v338 v342 k0_hw57 => k0_hw57

def k0_chk58 (v344 : IVec S16 32) : Prop :=
  (∀ a x, ((![v344] : Fin 1 → IVec S16 32) a x).toNat < S3584.size a)
instance k0_chk58.dec : ∀ (v344 : IVec S16 32), Decidable (k0_chk58 v344) := fun v344 => decidable_of_iff' _ (Iff.of_eq (k0_chk58.eq_1 v344))
theorem k0_idx58_inb : ∀ (v344 : IVec S16 32) (k0_hw58 : k0_chk58 v344), ∀ a x, ((![v344] : Fin 1 → IVec S16 32) a x).toNat < S3584.size a := fun v344 k0_hw58 => k0_hw58

def k0_chk59 (v338 : IVec S16 32) (v346 : IVec S16 32) : Prop :=
  (∀ a x, ((![v346, v338] : Fin 2 → IVec S16 32) a x).toNat < S224x128.size a)
instance k0_chk59.dec : ∀ (v338 : IVec S16 32) (v346 : IVec S16 32), Decidable (k0_chk59 v338 v346) := fun v338 v346 => decidable_of_iff' _ (Iff.of_eq (k0_chk59.eq_1 v338 v346))
theorem k0_idx59_inb : ∀ (v338 : IVec S16 32) (v346 : IVec S16 32) (k0_hw59 : k0_chk59 v338 v346), ∀ a x, ((![v346, v338] : Fin 2 → IVec S16 32) a x).toNat < S224x128.size a := fun v338 v346 k0_hw59 => k0_hw59

def k0_chk60 (v348 : IVec S16 32) : Prop :=
  (∀ a x, ((![v348] : Fin 1 → IVec S16 32) a x).toNat < S3584.size a)
instance k0_chk60.dec : ∀ (v348 : IVec S16 32), Decidable (k0_chk60 v348) := fun v348 => decidable_of_iff' _ (Iff.of_eq (k0_chk60.eq_1 v348))
theorem k0_idx60_inb : ∀ (v348 : IVec S16 32) (k0_hw60 : k0_chk60 v348), ∀ a x, ((![v348] : Fin 1 → IVec S16 32) a x).toNat < S3584.size a := fun v348 k0_hw60 => k0_hw60

def k0_chk61 (v338 : IVec S16 32) (v350 : IVec S16 32) : Prop :=
  (∀ a x, ((![v350, v338] : Fin 2 → IVec S16 32) a x).toNat < S224x128.size a)
instance k0_chk61.dec : ∀ (v338 : IVec S16 32) (v350 : IVec S16 32), Decidable (k0_chk61 v338 v350) := fun v338 v350 => decidable_of_iff' _ (Iff.of_eq (k0_chk61.eq_1 v338 v350))
theorem k0_idx61_inb : ∀ (v338 : IVec S16 32) (v350 : IVec S16 32) (k0_hw61 : k0_chk61 v338 v350), ∀ a x, ((![v350, v338] : Fin 2 → IVec S16 32) a x).toNat < S224x128.size a := fun v338 v350 k0_hw61 => k0_hw61

def k0_chk62 (v352 : IVec S16 32) : Prop :=
  (∀ a x, ((![v352] : Fin 1 → IVec S16 32) a x).toNat < S3584.size a)
instance k0_chk62.dec : ∀ (v352 : IVec S16 32), Decidable (k0_chk62 v352) := fun v352 => decidable_of_iff' _ (Iff.of_eq (k0_chk62.eq_1 v352))
theorem k0_idx62_inb : ∀ (v352 : IVec S16 32) (k0_hw62 : k0_chk62 v352), ∀ a x, ((![v352] : Fin 1 → IVec S16 32) a x).toNat < S3584.size a := fun v352 k0_hw62 => k0_hw62

def k0_chk63 (v338 : IVec S16 32) (v354 : IVec S16 32) : Prop :=
  (∀ a x, ((![v354, v338] : Fin 2 → IVec S16 32) a x).toNat < S224x128.size a)
instance k0_chk63.dec : ∀ (v338 : IVec S16 32) (v354 : IVec S16 32), Decidable (k0_chk63 v338 v354) := fun v338 v354 => decidable_of_iff' _ (Iff.of_eq (k0_chk63.eq_1 v338 v354))
theorem k0_idx63_inb : ∀ (v338 : IVec S16 32) (v354 : IVec S16 32) (k0_hw63 : k0_chk63 v338 v354), ∀ a x, ((![v354, v338] : Fin 2 → IVec S16 32) a x).toNat < S224x128.size a := fun v338 v354 k0_hw63 => k0_hw63

def k0_chk64 (v356 : IVec S16 32) : Prop :=
  (∀ a x, ((![v356] : Fin 1 → IVec S16 32) a x).toNat < S3584.size a)
instance k0_chk64.dec : ∀ (v356 : IVec S16 32), Decidable (k0_chk64 v356) := fun v356 => decidable_of_iff' _ (Iff.of_eq (k0_chk64.eq_1 v356))
theorem k0_idx64_inb : ∀ (v356 : IVec S16 32) (k0_hw64 : k0_chk64 v356), ∀ a x, ((![v356] : Fin 1 → IVec S16 32) a x).toNat < S3584.size a := fun v356 k0_hw64 => k0_hw64

def k0_chk65 (v338 : IVec S16 32) (v358 : IVec S16 32) : Prop :=
  (∀ a x, ((![v358, v338] : Fin 2 → IVec S16 32) a x).toNat < S224x128.size a)
instance k0_chk65.dec : ∀ (v338 : IVec S16 32) (v358 : IVec S16 32), Decidable (k0_chk65 v338 v358) := fun v338 v358 => decidable_of_iff' _ (Iff.of_eq (k0_chk65.eq_1 v338 v358))
theorem k0_idx65_inb : ∀ (v338 : IVec S16 32) (v358 : IVec S16 32) (k0_hw65 : k0_chk65 v338 v358), ∀ a x, ((![v358, v338] : Fin 2 → IVec S16 32) a x).toNat < S224x128.size a := fun v338 v358 k0_hw65 => k0_hw65

def k0_chk66 (v360 : IVec S16 32) : Prop :=
  (∀ a x, ((![v360] : Fin 1 → IVec S16 32) a x).toNat < S3584.size a)
instance k0_chk66.dec : ∀ (v360 : IVec S16 32), Decidable (k0_chk66 v360) := fun v360 => decidable_of_iff' _ (Iff.of_eq (k0_chk66.eq_1 v360))
theorem k0_idx66_inb : ∀ (v360 : IVec S16 32) (k0_hw66 : k0_chk66 v360), ∀ a x, ((![v360] : Fin 1 → IVec S16 32) a x).toNat < S3584.size a := fun v360 k0_hw66 => k0_hw66

def k0_chk67 (v338 : IVec S16 32) (v362 : IVec S16 32) : Prop :=
  (∀ a x, ((![v362, v338] : Fin 2 → IVec S16 32) a x).toNat < S224x128.size a)
instance k0_chk67.dec : ∀ (v338 : IVec S16 32) (v362 : IVec S16 32), Decidable (k0_chk67 v338 v362) := fun v338 v362 => decidable_of_iff' _ (Iff.of_eq (k0_chk67.eq_1 v338 v362))
theorem k0_idx67_inb : ∀ (v338 : IVec S16 32) (v362 : IVec S16 32) (k0_hw67 : k0_chk67 v338 v362), ∀ a x, ((![v362, v338] : Fin 2 → IVec S16 32) a x).toNat < S224x128.size a := fun v338 v362 k0_hw67 => k0_hw67

def k0_chk68 (v364 : IVec S16 32) : Prop :=
  (∀ a x, ((![v364] : Fin 1 → IVec S16 32) a x).toNat < S3584.size a)
instance k0_chk68.dec : ∀ (v364 : IVec S16 32), Decidable (k0_chk68 v364) := fun v364 => decidable_of_iff' _ (Iff.of_eq (k0_chk68.eq_1 v364))
theorem k0_idx68_inb : ∀ (v364 : IVec S16 32) (k0_hw68 : k0_chk68 v364), ∀ a x, ((![v364] : Fin 1 → IVec S16 32) a x).toNat < S3584.size a := fun v364 k0_hw68 => k0_hw68

def k0_chk69 (v338 : IVec S16 32) (v366 : IVec S16 32) : Prop :=
  (∀ a x, ((![v366, v338] : Fin 2 → IVec S16 32) a x).toNat < S224x128.size a)
instance k0_chk69.dec : ∀ (v338 : IVec S16 32) (v366 : IVec S16 32), Decidable (k0_chk69 v338 v366) := fun v338 v366 => decidable_of_iff' _ (Iff.of_eq (k0_chk69.eq_1 v338 v366))
theorem k0_idx69_inb : ∀ (v338 : IVec S16 32) (v366 : IVec S16 32) (k0_hw69 : k0_chk69 v338 v366), ∀ a x, ((![v366, v338] : Fin 2 → IVec S16 32) a x).toNat < S224x128.size a := fun v338 v366 k0_hw69 => k0_hw69

def k0_chk70 (v368 : IVec S16 32) : Prop :=
  (∀ a x, ((![v368] : Fin 1 → IVec S16 32) a x).toNat < S3584.size a)
instance k0_chk70.dec : ∀ (v368 : IVec S16 32), Decidable (k0_chk70 v368) := fun v368 => decidable_of_iff' _ (Iff.of_eq (k0_chk70.eq_1 v368))
theorem k0_idx70_inb : ∀ (v368 : IVec S16 32) (k0_hw70 : k0_chk70 v368), ∀ a x, ((![v368] : Fin 1 → IVec S16 32) a x).toNat < S3584.size a := fun v368 k0_hw70 => k0_hw70

def k0_chk71 (v338 : IVec S16 32) (v370 : IVec S16 32) : Prop :=
  (∀ a x, ((![v370, v338] : Fin 2 → IVec S16 32) a x).toNat < S224x128.size a)
instance k0_chk71.dec : ∀ (v338 : IVec S16 32) (v370 : IVec S16 32), Decidable (k0_chk71 v338 v370) := fun v338 v370 => decidable_of_iff' _ (Iff.of_eq (k0_chk71.eq_1 v338 v370))
theorem k0_idx71_inb : ∀ (v338 : IVec S16 32) (v370 : IVec S16 32) (k0_hw71 : k0_chk71 v338 v370), ∀ a x, ((![v370, v338] : Fin 2 → IVec S16 32) a x).toNat < S224x128.size a := fun v338 v370 k0_hw71 => k0_hw71

def k0_chk72 (v372 : IVec S16 32) : Prop :=
  (∀ a x, ((![v372] : Fin 1 → IVec S16 32) a x).toNat < S3584.size a)
instance k0_chk72.dec : ∀ (v372 : IVec S16 32), Decidable (k0_chk72 v372) := fun v372 => decidable_of_iff' _ (Iff.of_eq (k0_chk72.eq_1 v372))
theorem k0_idx72_inb : ∀ (v372 : IVec S16 32) (k0_hw72 : k0_chk72 v372), ∀ a x, ((![v372] : Fin 1 → IVec S16 32) a x).toNat < S3584.size a := fun v372 k0_hw72 => k0_hw72

def k0_chk73 (v338 : IVec S16 32) (v374 : IVec S16 32) : Prop :=
  (∀ a x, ((![v374, v338] : Fin 2 → IVec S16 32) a x).toNat < S224x128.size a)
instance k0_chk73.dec : ∀ (v338 : IVec S16 32) (v374 : IVec S16 32), Decidable (k0_chk73 v338 v374) := fun v338 v374 => decidable_of_iff' _ (Iff.of_eq (k0_chk73.eq_1 v338 v374))
theorem k0_idx73_inb : ∀ (v338 : IVec S16 32) (v374 : IVec S16 32) (k0_hw73 : k0_chk73 v338 v374), ∀ a x, ((![v374, v338] : Fin 2 → IVec S16 32) a x).toNat < S224x128.size a := fun v338 v374 k0_hw73 => k0_hw73

def k0_chk74 (v376 : IVec S16 32) : Prop :=
  (∀ a x, ((![v376] : Fin 1 → IVec S16 32) a x).toNat < S3584.size a)
instance k0_chk74.dec : ∀ (v376 : IVec S16 32), Decidable (k0_chk74 v376) := fun v376 => decidable_of_iff' _ (Iff.of_eq (k0_chk74.eq_1 v376))
theorem k0_idx74_inb : ∀ (v376 : IVec S16 32) (k0_hw74 : k0_chk74 v376), ∀ a x, ((![v376] : Fin 1 → IVec S16 32) a x).toNat < S3584.size a := fun v376 k0_hw74 => k0_hw74

def k0_chk75 (v338 : IVec S16 32) (v378 : IVec S16 32) : Prop :=
  (∀ a x, ((![v378, v338] : Fin 2 → IVec S16 32) a x).toNat < S224x128.size a)
instance k0_chk75.dec : ∀ (v338 : IVec S16 32) (v378 : IVec S16 32), Decidable (k0_chk75 v338 v378) := fun v338 v378 => decidable_of_iff' _ (Iff.of_eq (k0_chk75.eq_1 v338 v378))
theorem k0_idx75_inb : ∀ (v338 : IVec S16 32) (v378 : IVec S16 32) (k0_hw75 : k0_chk75 v338 v378), ∀ a x, ((![v378, v338] : Fin 2 → IVec S16 32) a x).toNat < S224x128.size a := fun v338 v378 k0_hw75 => k0_hw75

def k0_chk76 (v380 : IVec S16 32) : Prop :=
  (∀ a x, ((![v380] : Fin 1 → IVec S16 32) a x).toNat < S3584.size a)
instance k0_chk76.dec : ∀ (v380 : IVec S16 32), Decidable (k0_chk76 v380) := fun v380 => decidable_of_iff' _ (Iff.of_eq (k0_chk76.eq_1 v380))
theorem k0_idx76_inb : ∀ (v380 : IVec S16 32) (k0_hw76 : k0_chk76 v380), ∀ a x, ((![v380] : Fin 1 → IVec S16 32) a x).toNat < S3584.size a := fun v380 k0_hw76 => k0_hw76

def k0_chk77 (v338 : IVec S16 32) (v382 : IVec S16 32) : Prop :=
  (∀ a x, ((![v382, v338] : Fin 2 → IVec S16 32) a x).toNat < S224x128.size a)
instance k0_chk77.dec : ∀ (v338 : IVec S16 32) (v382 : IVec S16 32), Decidable (k0_chk77 v338 v382) := fun v338 v382 => decidable_of_iff' _ (Iff.of_eq (k0_chk77.eq_1 v338 v382))
theorem k0_idx77_inb : ∀ (v338 : IVec S16 32) (v382 : IVec S16 32) (k0_hw77 : k0_chk77 v338 v382), ∀ a x, ((![v382, v338] : Fin 2 → IVec S16 32) a x).toNat < S224x128.size a := fun v338 v382 k0_hw77 => k0_hw77

def k0_chk78 (v384 : IVec S16 32) : Prop :=
  (∀ a x, ((![v384] : Fin 1 → IVec S16 32) a x).toNat < S3584.size a)
instance k0_chk78.dec : ∀ (v384 : IVec S16 32), Decidable (k0_chk78 v384) := fun v384 => decidable_of_iff' _ (Iff.of_eq (k0_chk78.eq_1 v384))
theorem k0_idx78_inb : ∀ (v384 : IVec S16 32) (k0_hw78 : k0_chk78 v384), ∀ a x, ((![v384] : Fin 1 → IVec S16 32) a x).toNat < S3584.size a := fun v384 k0_hw78 => k0_hw78

def k0_chk79 (v338 : IVec S16 32) (v386 : IVec S16 32) : Prop :=
  (∀ a x, ((![v386, v338] : Fin 2 → IVec S16 32) a x).toNat < S224x128.size a)
instance k0_chk79.dec : ∀ (v338 : IVec S16 32) (v386 : IVec S16 32), Decidable (k0_chk79 v338 v386) := fun v338 v386 => decidable_of_iff' _ (Iff.of_eq (k0_chk79.eq_1 v338 v386))
theorem k0_idx79_inb : ∀ (v338 : IVec S16 32) (v386 : IVec S16 32) (k0_hw79 : k0_chk79 v338 v386), ∀ a x, ((![v386, v338] : Fin 2 → IVec S16 32) a x).toNat < S224x128.size a := fun v338 v386 k0_hw79 => k0_hw79

def k0_chk80 (v388 : IVec S16 32) : Prop :=
  (∀ a x, ((![v388] : Fin 1 → IVec S16 32) a x).toNat < S3584.size a)
instance k0_chk80.dec : ∀ (v388 : IVec S16 32), Decidable (k0_chk80 v388) := fun v388 => decidable_of_iff' _ (Iff.of_eq (k0_chk80.eq_1 v388))
theorem k0_idx80_inb : ∀ (v388 : IVec S16 32) (k0_hw80 : k0_chk80 v388), ∀ a x, ((![v388] : Fin 1 → IVec S16 32) a x).toNat < S3584.size a := fun v388 k0_hw80 => k0_hw80

def k0_chk81 (v338 : IVec S16 32) (v390 : IVec S16 32) : Prop :=
  (∀ a x, ((![v390, v338] : Fin 2 → IVec S16 32) a x).toNat < S224x128.size a)
instance k0_chk81.dec : ∀ (v338 : IVec S16 32) (v390 : IVec S16 32), Decidable (k0_chk81 v338 v390) := fun v338 v390 => decidable_of_iff' _ (Iff.of_eq (k0_chk81.eq_1 v338 v390))
theorem k0_idx81_inb : ∀ (v338 : IVec S16 32) (v390 : IVec S16 32) (k0_hw81 : k0_chk81 v338 v390), ∀ a x, ((![v390, v338] : Fin 2 → IVec S16 32) a x).toNat < S224x128.size a := fun v338 v390 k0_hw81 => k0_hw81

def k0_chk82 (v392 : IVec S16 32) : Prop :=
  (∀ a x, ((![v392] : Fin 1 → IVec S16 32) a x).toNat < S3584.size a)
instance k0_chk82.dec : ∀ (v392 : IVec S16 32), Decidable (k0_chk82 v392) := fun v392 => decidable_of_iff' _ (Iff.of_eq (k0_chk82.eq_1 v392))
theorem k0_idx82_inb : ∀ (v392 : IVec S16 32) (k0_hw82 : k0_chk82 v392), ∀ a x, ((![v392] : Fin 1 → IVec S16 32) a x).toNat < S3584.size a := fun v392 k0_hw82 => k0_hw82

def k0_chk83 (v338 : IVec S16 32) (v394 : IVec S16 32) : Prop :=
  (∀ a x, ((![v394, v338] : Fin 2 → IVec S16 32) a x).toNat < S224x128.size a)
instance k0_chk83.dec : ∀ (v338 : IVec S16 32) (v394 : IVec S16 32), Decidable (k0_chk83 v338 v394) := fun v338 v394 => decidable_of_iff' _ (Iff.of_eq (k0_chk83.eq_1 v338 v394))
theorem k0_idx83_inb : ∀ (v338 : IVec S16 32) (v394 : IVec S16 32) (k0_hw83 : k0_chk83 v338 v394), ∀ a x, ((![v394, v338] : Fin 2 → IVec S16 32) a x).toNat < S224x128.size a := fun v338 v394 k0_hw83 => k0_hw83

def k0_chk84 (v396 : IVec S16 32) : Prop :=
  (∀ a x, ((![v396] : Fin 1 → IVec S16 32) a x).toNat < S3584.size a)
instance k0_chk84.dec : ∀ (v396 : IVec S16 32), Decidable (k0_chk84 v396) := fun v396 => decidable_of_iff' _ (Iff.of_eq (k0_chk84.eq_1 v396))
theorem k0_idx84_inb : ∀ (v396 : IVec S16 32) (k0_hw84 : k0_chk84 v396), ∀ a x, ((![v396] : Fin 1 → IVec S16 32) a x).toNat < S3584.size a := fun v396 k0_hw84 => k0_hw84
def k0_off5 (i : grid0.Coords) (c0_i32_87 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32 : BitVec 32 := 21#32
  let v2 : BitVec 32 := Scalar.muli v1 c21_i32
  let c21_i32_73 : BitVec 32 := 21#32
  let v97 : BitVec 32 := Scalar.addi v2 c21_i32_73
  let c1_i32_74 : BitVec 32 := 1#32
  let v98 : BitVec 32 := Scalar.subi v97 c1_i32_74
  let c0_i32_76 : BitVec 32 := 0#32
  let v100 : BitVec 1 := Scalar.cmpi .sgt v98 c0_i32_76
  let v101 : BitVec 32 := Scalar.extui v100
  let c0_i32_77 : BitVec 32 := 0#32
  let v102 : BitVec 1 := Scalar.cmpi .slt v98 c0_i32_77
  let v103 : BitVec 32 := Scalar.extui v102
  let v104 : BitVec 32 := Scalar.subi v101 v103
  let c224_i32_75 : BitVec 32 := 224#32
  let c0_i32_78 : BitVec 32 := 0#32
  let v105 : BitVec 1 := Scalar.cmpi .sgt c224_i32_75 c0_i32_78
  let v106 : BitVec 32 := Scalar.extui v105
  let c0_i32_79 : BitVec 32 := 0#32
  let v107 : BitVec 1 := Scalar.cmpi .slt c224_i32_75 c0_i32_79
  let v108 : BitVec 32 := Scalar.extui v107
  let v109 : BitVec 32 := Scalar.subi v106 v108
  let v110 : BitVec 1 := Scalar.cmpi .ne v104 v109
  let v111 : BitVec 32 := Scalar.remsi v98 c224_i32_75
  let c0_i32_80 : BitVec 32 := 0#32
  let v112 : BitVec 1 := Scalar.cmpi .ne v111 c0_i32_80
  let v113 : BitVec 1 := Scalar.andi v110 v112
  let v99 : BitVec 32 := Scalar.divsi v98 c224_i32_75
  let c1_i32_81 : BitVec 32 := 1#32
  let v114 : BitVec 32 := Scalar.subi v99 c1_i32_81
  let v115 : BitVec 32 := Scalar.select v113 v114 v99
  let c16_i32_83 : BitVec 32 := 16#32
  let v118 : BitVec 32 := Scalar.muli v115 c16_i32_83
  let c224_i32_84 : BitVec 32 := 224#32
  let v119 : BitVec 32 := Scalar.muli v118 c224_i32_84
  let c224_i32_85 : BitVec 32 := 224#32
  let v120 : BitVec 32 := Scalar.muli v119 c224_i32_85
  let c224_i32_82 : BitVec 32 := 224#32
  let v116 : BitVec 32 := Scalar.muli v115 c224_i32_82
  let v117 : BitVec 32 := Scalar.subi v98 v116
  let c224_i32_86 : BitVec 32 := 224#32
  let v121 : BitVec 32 := Scalar.muli v117 c224_i32_86
  let v122 : BitVec 32 := Scalar.addi v120 v121
  let v123 : BitVec 32 := Scalar.addi v122 c0_i32_87
  ![v123.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S3x128x224x224_S3x224x224x128_0_2_3_1 : S3x128x224x224.Transposes [0, 2, 3, 1] S3x224x224x128
  squeezes_S1x1x224x128_S224x128 : S1x1x224x128.Squeezes S224x128
  inb_S3x224x224x128_S1x1x224x128_0_0_0_0 : ∀ a, (![0, 0, 0, 0] : Fin 4 → Nat) a + S1x1x224x128.size a ≤ S3x224x224x128.size a
  inb_S3584_S224_0 : ∀ a, (![0] : Fin 1 → Nat) a + S224.size a ≤ S3584.size a
  inb_S2408448_S224_0 : ∀ a, (![0] : Fin 1 → Nat) a + S224.size a ≤ S2408448.size a
  inb_S3584_S224_224 : ∀ a, (![224] : Fin 1 → Nat) a + S224.size a ≤ S3584.size a
  inb_S3584_S224_448 : ∀ a, (![448] : Fin 1 → Nat) a + S224.size a ≤ S3584.size a
  inb_S3584_S224_672 : ∀ a, (![672] : Fin 1 → Nat) a + S224.size a ≤ S3584.size a
  inb_S3584_S224_896 : ∀ a, (![896] : Fin 1 → Nat) a + S224.size a ≤ S3584.size a
  inb_S3584_S224_1120 : ∀ a, (![1120] : Fin 1 → Nat) a + S224.size a ≤ S3584.size a
  inb_S3584_S224_1344 : ∀ a, (![1344] : Fin 1 → Nat) a + S224.size a ≤ S3584.size a
  inb_S3584_S224_1568 : ∀ a, (![1568] : Fin 1 → Nat) a + S224.size a ≤ S3584.size a
  inb_S3584_S224_1792 : ∀ a, (![1792] : Fin 1 → Nat) a + S224.size a ≤ S3584.size a
  inb_S3584_S224_2016 : ∀ a, (![2016] : Fin 1 → Nat) a + S224.size a ≤ S3584.size a
  inb_S3584_S224_2240 : ∀ a, (![2240] : Fin 1 → Nat) a + S224.size a ≤ S3584.size a
  inb_S3584_S224_2464 : ∀ a, (![2464] : Fin 1 → Nat) a + S224.size a ≤ S3584.size a
  inb_S3584_S224_2688 : ∀ a, (![2688] : Fin 1 → Nat) a + S224.size a ≤ S3584.size a
  inb_S3584_S224_2912 : ∀ a, (![2912] : Fin 1 → Nat) a + S224.size a ≤ S3584.size a
  inb_S3584_S224_3136 : ∀ a, (![3136] : Fin 1 → Nat) a + S224.size a ≤ S3584.size a
  inb_S3584_S224_3360 : ∀ a, (![3360] : Fin 1 → Nat) a + S224.size a ≤ S3584.size a
  iota_S16_d0_w32_scVector : S16.Iotas .scVector 32 [0]
  h_S224x128 : 0 < S224x128.numel
  h_S3584 : 0 < S3584.numel
  shapeCasts_S2408448_S3x16x224x224 : S2408448.ShapeCasts S3x16x224x224
  hcc0_scratch4 : 0 + S_.numel ≤ 4
  hcc0_scratch5 : 1 + S_.numel ≤ 4
  hcc0_scratch6 : 2 + S_.numel ≤ 4
  hcc0_scratch7 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x1x224x128.size a ≤ S3x224x224x128.size a
  k0_t1_ok : k0_t1_loop.OK
  k0_off2_inb : ∀ (i : grid0.Coords) (k0_t1 : Fin k0_t1_loop.trips), ∀ (r : Fin 2), ∀ a, (k0_off2 i k0_t1 (BitVec.ofNat 32 (1 + r.val))) a + S1x1x224x128.size a ≤ S3x224x224x128.size a
  k0_t2_ok : k0_t2_loop.OK
  k0_off3_inb : ∀ (i : grid0.Coords) (k0_t1 : Fin k0_t1_loop.trips), ∀ (r : Fin 16), ∀ a, (k0_off3 i k0_t1 (BitVec.ofNat 32 (50176 * r.val))) a + S224.size a ≤ S2408448.size a
  k0_t3_ok : k0_t3_loop.OK
  k0_off4_inb : ∀ (i : grid0.Coords) (k0_t1 : Fin k0_t1_loop.trips), ∀ (r : Fin 16), ∀ a, (k0_off4 i k0_t1 (BitVec.ofNat 32 (50176 * r.val))) a + S224.size a ≤ S2408448.size a
  k0_t4_ok : k0_t4_loop.OK
  k0_off5_inb : ∀ i : grid0.Coords, ∀ (r : Fin 16), ∀ a, (k0_off5 i (BitVec.ofNat 32 (50176 * r.val))) a + S224.size a ≤ S2408448.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7

class Facts : Prop extends Facts₀ where

variable [Facts]
-- ==== ReferenceIdeal.lean ====
abbrev S3x128x224x224 : Shape := ⟨4, ![3, 128, 224, 224]⟩
abbrev S16 : Shape := ⟨1, ![16]⟩
abbrev S_ : Shape := ⟨0, ![]⟩
abbrev S16x1 : Shape := ⟨2, ![16, 1]⟩
abbrev S1 : Shape := ⟨1, ![1]⟩
abbrev S1x1 : Shape := ⟨2, ![1, 1]⟩
abbrev S3x16x224x224 : Shape := ⟨4, ![3, 16, 224, 224]⟩

abbrev nBuf : Space → Nat
  | .hbm => 36
  | .vmem => 0
  | .smem => 0
  | _ => 0

abbrev bufTy : (tb : Table) → Fin (tcTables nBuf tb) → BufTy
  | .hbm, ⟨0, _⟩ => ⟨S3x128x224x224, .f32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16, .i32⟩
  | .hbm, ⟨20, _⟩ => ⟨S16x1, .i32⟩
  | .hbm, ⟨21, _⟩ => ⟨S1, .i32⟩
  | .hbm, ⟨22, _⟩ => ⟨S_, .i32⟩
  | .hbm, ⟨23, _⟩ => ⟨S16x1, .i32⟩
  | .hbm, ⟨24, _⟩ => ⟨S16x1, .i1⟩
  | .hbm, ⟨25, _⟩ => ⟨S1x1, .i32⟩
  | .hbm, ⟨26, _⟩ => ⟨S16x1, .i32⟩
  | .hbm, ⟨27, _⟩ => ⟨S16x1, .i1⟩
  | .hbm, ⟨28, _⟩ => ⟨S16x1, .i1⟩
  | .hbm, ⟨29, _⟩ => ⟨S_, .i1⟩
  | .hbm, ⟨30, _⟩ => ⟨S16, .i1⟩
  | .hbm, ⟨31, _⟩ => ⟨S3x16x224x224, .f32⟩
  | .hbm, ⟨32, _⟩ => ⟨S3x16x224x224, .i1⟩
  | .hbm, ⟨33, _⟩ => ⟨S_, .f32⟩
  | .hbm, ⟨34, _⟩ => ⟨S3x16x224x224, .f32⟩
  | .hbm, ⟨35, _⟩ => ⟨S3x16x224x224, .f32⟩
  | _, _ => ⟨S3x128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_c_2 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_call1_cst : Ref sig .tc := ⟨.hbm, 33, rfl⟩
abbrev main_call1_v15 : Ref sig .tc := ⟨.hbm, 34, rfl⟩
abbrev main_v3 : Ref sig .tc := ⟨.hbm, 35, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x1_S16_d1 : S16x1.ReducesTo [1] S16
  h_S_ : 0 < S_.numel
  bcast_S16_S3x16x224x224_1 : S16.BroadcastsInDim S3x16x224x224 (![1] : Fin 1 → Fin S3x16x224x224.rank)
  bcast_S_S3x16x224x224 : S_.BroadcastsInDim S3x16x224x224 (![] : Fin 0 → Fin S3x16x224x224.rank)
  gather_S3x128x224x224_S16x1_S3x16x224x224_023_1_n_n_1_1_31224224_wf : GatherDims.WF S3x128x224x224 S16x1 S3x16x224x224 [0, 2, 3] [1] [] [1] [] 1 ![3, 1, 224, 224]

variable [Facts₀]

def gather_S3x128x224x224_S16x1_S3x16x224x224_023_1_n_n_1_1_31224224 : GatherDims S3x128x224x224 S16x1 S3x16x224x224 where
  offsetDims := [0, 2, 3]
  collapsedSliceDims := [1]
  operandBatchingDims := []
  startIndicesBatchingDims := []
  startIndexMap := [1]
  indexVectorDim := 1
  sliceSizes := ![3, 1, 224, 224]
  wf := gather_S3x128x224x224_S16x1_S3x16x224x224_023_1_n_n_1_1_31224224_wf

class Facts : Prop extends Facts₀ where

variable [Facts]
-- ==== Proof.Spec.lean ====
/-
  What both programs compute, as one function of the input array: from a clip x of shape [3, 128, 224, 224]
  (channel, frame, row, column) the sixteen frames 33, 37, …, 93 of each channel, in that order — frame 33 + 4 j
  is sample j. The sampling offsets come from 128 frames, 16 samples and a rate of 4: the window of 64 frames
  starts at (1 + 128 - 64) / 2 = 32, sample j sits at ((4 j + 32) mod 128) + 1 = 4 j + 33, and clipping to [0, 127]
  changes nothing. Pure data movement: no arithmetic on the elements, so the function is stated for any element type.
-/
import Idealize.ShloMosaic.Lib.ValueIdx

namespace Cert.Proof.Spec

open Idealize.ShloMosaic Idealize.ShloMosaic.ValueIdx

/-- The clip's shape and the sampled clip's. -/
abbrev SX : Shape := ⟨4, ![3, 128, 224, 224]⟩
abbrev SO : Shape := ⟨4, ![3, 16, 224, 224]⟩

/-- Sample `j` is frame `33 + 4 j`. -/
def frame (j : Fin 16) : Fin 128 := ⟨33 + 4 * j.val, by have := j.isLt; omega⟩

/-- Where element `i` of the sampled clip comes from. -/
def srcIdx (i : SO.Idx) : SX.Idx :=
  ix4 (n0 := 3) (n1 := 128) (n2 := 224) (n3 := 224) (i 0) (frame (i 1)) (i 2) (i 3)

/-- The sampled clip: channel `c`, sample `j`, row `h`, column `w` is the clip at channel `c`, frame `33 + 4 j`, row `h`, column `w`. -/
def sampled {α : Type} (x : SX.Idx → α) : SO.Idx → α := fun i => x (srcIdx i)

theorem sampled_apply {α : Type} (x : SX.Idx → α) (c : Fin 3) (j : Fin 16) (h w : Fin 224) :
    sampled x (ix4 c j h w) = x (ix4 c (frame j) h w) := rfl

end Cert.Proof.Spec
-- ==== Proof.KISetup.lean ====
/-
  The idealized kernel's program as the launch theorem for SparseCore programs sees it, and the names the proof of its
  run is written over: the one SparseCore call (a vector-subcore kernel on 2 SparseCores × 16 subcores), the ghost state
  (the launch handshakes' rounds beside the counters of the subcores' own copies), the arrays in HBM — the clip `x`, its
  transpose `xt` of shape [3, 224, 224, 128] (channel, row, column, frame), the flat result `o` of 3·16·224·224 words and
  its reshape — and each subcore's four scratch buffers: two slabs of 224 × 128 (one (channel, row) pair: every column's
  128 frames) and two staging buffers of 16 × 224 words (the sixteen sampled frames of that slab, frame-major).
-/
import proofs.«216812_g82557861364368_cont_9to1c4b_466_28_alg».proof.KernelIdeal
import proofs.«216812_g82557861364368_cont_9to1c4b_466_28_alg».proof.Proof.GenKernelIdealSkelP
import proofs.«216812_g82557861364368_cont_9to1c4b_466_28_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KI

open Cert.KernelIdeal Cert.KernelIdeal.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the copies' counters -/

abbrev UH : Type := URounds (GSem nD τ sig) ℕ
abbrev UU : Type := UH × Counters

abbrev EH : Emb UH (MT nD τ sig (HIx 1) (Elt F) ℕ UU ℕ) := embL

/-! ## The arrays -/

abbrev xLoc (d : Dev nD) : Loc nD τ sig := (SparseCore.T d).loc main_arg0
abbrev xtLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

end Cert.Proof.KI

end
-- ==== Proof.KIPay.lean ====
/-
  What the one SparseCore call hands each vector subcore and takes back, and the pure functions the run is stated over.

  Subcore `s` of SparseCore `c` is worker `w = 2 s + c`; it handles the 21 slabs `g = 21 w + t`, `t < 21`, a slab being one
  (channel, row) pair `(g / 224, g % 224)` of the transposed clip `xt`: a 224 × 128 array (column, frame). From slab `g` it
  writes sixteen row pieces of 224 words of the flat result, piece `j` at word `802816 (g / 224) + 50176 j + 224 (g % 224)`:
  the words of (channel g / 224, sample j, row g % 224) in the row-major [3, 16, 224, 224] layout. The 32 · 21 · 16 pieces
  tile the result. Each piece ends holding column `r ↦ xt[g / 224, g % 224, r, 33 + 4 j]`; `outSpec` is that, for the whole
  result at once.

  A subcore only reads `xt`: it is handed two read shares of the whole array (one per slab buffer it fetches into, so that
  two fetches may be outstanding), and owns its 21 · 16 pieces of the result outright.
-/
import proofs.«216812_g82557861364368_cont_9to1c4b_466_28_alg».proof.Proof.KISetup

noncomputable section

namespace Cert.Proof.KI

open Cert.KernelIdeal Cert.KernelIdeal.GenP

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Workers, slabs, pieces -/

/-- The worker number of the subcore at grid coordinates `L` (SparseCore `L 0`, subcore `L 1`). -/
def wid (L : grid0.Coords) : Nat := 2 * (L 1).val + (L 0).val
theorem wid_lt (L : grid0.Coords) : wid L < 32 := by
  have h0 : (L 0).val < 2 := (L 0).isLt
  have h1 : (L 1).val < 16 := (L 1).isLt
  unfold wid; omega

/-- Slab `t` of the worker at `L`. -/
def slab (L : grid0.Coords) (t : Nat) : Nat := 21 * wid L + t
theorem slab_lt (L : grid0.Coords) {t : Nat} (ht : t < 21) : slab L t < 672 := by
  have := wid_lt L; unfold slab; omega

/-- The first word of row piece `j` of slab `g` in the flat result. -/
def off (g : Nat) (j : Nat) : Nat := 802816 * (g / 224) + 50176 * j + 224 * (g % 224)
theorem off_inb {g j : Nat} (hg : g < 672) (hj : j < 16) : ∀ a, (![off g j] : Fin 1 → Nat) a + S224.size a ≤ S2408448.size a := by
  intro a
  obtain rfl : a = 0 := Subsingleton.elim _ _
  show off g j + 224 ≤ 2408448
  have h1 : g / 224 ≤ 2 := by omega
  have h2 : g % 224 < 224 := Nat.mod_lt _ (by omega)
  unfold off; omega

/-- Row piece `j` of slab `g`, as a rectangle of the flat result. -/
abbrev pieceRect (g j : Nat) (hg : g < 672) (hj : j < 16) : Rect S2408448 := Rect.unit (s := S2408448) ![off g j] S224.size (off_inb hg hj)
/-- Its words. -/
def pieceSet (g j : Nat) (hg : g < 672) (hj : j < 16) : Finset S2408448.Idx := (pieceRect g j hg hj).set

/-! ## The pure functions -/

/-- What the result holds at word `p`, from the transposed clip: with `p = 802816 c + 50176 j + 224 h + r`,
    `xt[c, h, r, 33 + 4 j]`. -/
def outSpec {α : Type} (X : S3x224x224x128.Idx → α) : S2408448.Idx → α := fun p =>
  X (ix4 (n0 := 3) (n1 := 224) (n2 := 224) (n3 := 128)
    ⟨(p 0).val / 802816, by have := (p 0).isLt; change (p 0).val < 2408448 at this; omega⟩
    ⟨(p 0).val % 50176 / 224, by have := Nat.mod_lt (p 0).val (show 0 < 50176 by omega); omega⟩
    ⟨(p 0).val % 224, Nat.mod_lt _ (by omega)⟩
    ⟨33 + 4 * ((p 0).val % 802816 / 50176), by have := Nat.mod_lt (p 0).val (show 0 < 802816 by omega); omega⟩)

section
variable [FloatOps F] (m : (ℓ : Loc nD τ sig) → Buf (Elt F) ℓ)

/-- The transposed clip, as @main's first operation leaves it. -/
def XT (d : Dev nD) : Buf (Elt F) (xtLoc d) :=
  (transpose S3x224x224x128 [0, 2, 3, 1] (m (xLoc d)) transposes_S3x128x224x224_S3x224x224x128_0_2_3_1 :
    (⟨S3x224x224x128, .f32⟩ : BufTy).Contents (Elt F))

/-- What the kernel leaves in the flat result. -/
def OUT (d : Dev nD) : Buf (Elt F) (oLoc d) := (outSpec (XT m d) : (⟨S2408448, .f32⟩ : BufTy).Contents (Elt F))

/-! ## What a subcore is handed, and hands back -/

theorem tokA_lt (L : grid0.Coords) : 2 * wid L < 64 := by have := wid_lt L; omega
theorem tokB_lt (L : grid0.Coords) : 2 * wid L + 1 < 64 := by have := wid_lt L; omega

/-- The two read shares of `xt` of the subcore at `L`. -/
abbrev shA (L : grid0.Coords) : PosShare TreeShare := Transfers.shareTok fullShare 64 ⟨2 * wid L, tokA_lt L⟩
abbrev shB (L : grid0.Coords) : PosShare TreeShare := Transfers.shareTok fullShare 64 ⟨2 * wid L + 1, tokB_lt L⟩

/-- The subcore's 21 · 16 row pieces of the result, all at the contents `f`. -/
def pieces (d : Dev nD) (L : grid0.Coords) (f : Buf (Elt F) (oLoc d)) : sProp 𝕄 :=
  bigSep Finset.univ fun t : Fin 21 => bigSep Finset.univ fun j : Fin 16 =>
    (oLoc d ↦[pieceSet (slab L t.val) j.val (slab_lt L t.isLt) j.isLt]{fullShare} f)

/-- What the subcore at `L` is handed: two read shares of `xt` and its pieces of the result as the launch left them. -/
def tileGo (d : Dev nD) (L : grid0.Coords) : sProp 𝕄 :=
  iprop((xtLoc d ↦{shA L} XT m d) ∗ (xtLoc d ↦{shB L} XT m d) ∗ pieces d L (m (oLoc d)))

/-- What it hands back: the shares, and its pieces holding the sampled frames. -/
def tileTd (d : Dev nD) (L : grid0.Coords) : sProp 𝕄 :=
  iprop((xtLoc d ↦{shA L} XT m d) ∗ (xtLoc d ↦{shB L} XT m d) ∗ pieces d L (OUT m d))

end

/-! ## The tile's task, as a statement -/

/-- The vector subcore at grid coordinates `L` of device `d`. -/
abbrev thr (d : Dev nD) (L : grid0.Coords) : Thread nD τ := V d ((L 0).castLE hcore0) ((L 1).castLE hsub0)

/-- The task of one vector subcore, run at a symbolic place: from what it is handed (`tileGo`), its own scratch and
    semaphores and what it owes the launch, the kernel function runs to its end, hands back `tileTd`, its scratch and
    semaphores (the semaphores at zero again), and owes what it owed, having waited only on its own semaphores. -/
def TileBodyStmt [FloatOps F] (m : (ℓ : Loc nD τ sig) → Buf (Elt F) ℓ) : Prop :=
  ∀ (_hF : (K (F := F)).Facts) (d : Dev nD) (L : grid0.Coords) (O : CellTallies nD τ sig (HIx 1)) (W : Waits sig (HIx 1)),
    (∀ g, O g none = 0) →
    (iprop(levAts (K (F := F)).L (K (F := F)).lev ∗ emp ∗ tileGo m d L
        ∗ scopedBufs (thr d L) ∗ scopedSems0 (thr d L) ∗ owes (thr d L) O W) : sProp 𝕄)
      ⊢ wp frame (wpE (defs₀ (F := F)) 𝒱₀ (thr d L) none) Set.univ
          (cc0_temporal_gather L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7)
          fun _ => iprop(tileTd m d L ∗ scopedBufs (thr d L) ∗ scopedSems0 (thr d L)
            ∗ ∃ W', ⌜∀ p ∈ W', p ∈ W ∨ p.2 = none⌝ ∗ owes (thr d L) O W')

end Cert.Proof.KI

end
-- ==== Proof.KILaunchPay.lean ====
/-
  What the launch handshakes of the one SparseCore call carry: each SparseCore is handed, and hands back, what its
  sixteen subcores are handed and hand back (so the split among the subcores only regroups); the statement of one
  subcore's task in the launch theorem's own spelling, from the task proved at a symbolic place; the launch element of
  the ghost state (the handshakes' rounds; the counters are dropped).
-/
import proofs.«216812_g82557861364368_cont_9to1c4b_466_28_alg».proof.Proof.KIPay

noncomputable section

namespace Cert.Proof.KI

open Cert.KernelIdeal Cert.KernelIdeal.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Grid coordinates -/

/-- The grid coordinates of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

theorem coordsV_zero (c : Fin (grid0.bound 0)) (s : Fin (grid0.bound 1)) : coordsV c s 0 = c := rfl
theorem coordsV_one (c : Fin (grid0.bound 0)) (s : Fin (grid0.bound 1)) : coordsV c s 1 = s := rfl

theorem wid_coordsV (c : Fin (grid0.bound 0)) (s : Fin (grid0.bound 1)) : wid (coordsV c s) = 2 * s.val + c.val := rfl

/-- The coordinates of SparseCore `c`, subcore `i` of the call's grid. -/
def coordsK (c : Fin ((K (F := F)).nCore 0)) (i : Fin ((K (F := F)).nSub 0)) : grid0.Coords :=
  coordsV (Fin.cast nCore_zero c) (Fin.cast nSub_zero i)

variable [FloatOps F] (m : (ℓ : Loc nD τ sig) → Buf (Elt F) ℓ) (ρ : Dev nD → PrngReg)

/-! ## What the handshakes carry -/

/-- What SparseCore `c` is handed: what its sixteen subcores are. -/
def coreGo (d : Dev nD) (c : Fin ((K (F := F)).nCore 0)) : sProp 𝕄 :=
  bigSep Finset.univ fun i : Fin ((K (F := F)).nSub 0) => tileGo m d (coordsK c i)
/-- What it hands back: what they do. -/
def coreTd (d : Dev nD) (c : Fin ((K (F := F)).nCore 0)) : sProp 𝕄 :=
  bigSep Finset.univ fun i : Fin ((K (F := F)).nSub 0) => tileTd m d (coordsK c i)

instance tileGo_storable (d : Dev nD) (L : grid0.Coords) : BI.Storable (upEmb : UEmb _ 𝕄) (tileGo m d L) := by
  unfold tileGo pieces; infer_instance
instance tileTd_storable (d : Dev nD) (L : grid0.Coords) : BI.Storable (upEmb : UEmb _ 𝕄) (tileTd m d L) := by
  unfold tileTd pieces; infer_instance
instance coreGo_storable (d : Dev nD) (c : Fin ((K (F := F)).nCore 0)) : BI.Storable (upEmb : UEmb _ 𝕄) (coreGo m d c) := by
  unfold coreGo; infer_instance
instance coreTd_storable (d : Dev nD) (c : Fin ((K (F := F)).nCore 0)) : BI.Storable (upEmb : UEmb _ 𝕄) (coreTd m d c) := by
  unfold coreTd; infer_instance

/-- The one call's payloads; the kernel's proof consumes nothing of the launch's. -/
def P : (K (F := F)).Pay (nD := nD) (Val := Elt F) (Name := ℕ) (U := UU) where
  st := fun q d c => match q with | 0 => coreGo m d c
  dn := fun q d c => match q with | 0 => coreTd m d c
  go := fun q d c i => match q with | 0 => tileGo m d (coordsK c i)
  td := fun q d c i => match q with | 0 => tileTd m d (coordsK c i)
  x := fun _ _ => iprop(emp)

theorem P_st (d : Dev nD) (c : Fin ((K (F := F)).nCore 0)) : (P m).st 0 d c = coreGo m d c := rfl
theorem P_dn (d : Dev nD) (c : Fin ((K (F := F)).nCore 0)) : (P m).dn 0 d c = coreTd m d c := rfl
theorem P_go (d : Dev nD) (c : Fin ((K (F := F)).nCore 0)) (i : Fin ((K (F := F)).nSub 0)) : (P m).go 0 d c i = tileGo m d (coordsK c i) := rfl
theorem P_td (d : Dev nD) (c : Fin ((K (F := F)).nCore 0)) (i : Fin ((K (F := F)).nSub 0)) : (P m).td 0 d c i = tileTd m d (coordsK c i) := rfl
theorem P_x (q : Fin 1) (thr : Thread nD τ) : (P m).x q thr = iprop(emp) := rfl

instance P_storable : (P (F := F) m).IsStorable where
  st q d c := match q with | 0 => (inferInstance : BI.Storable (upEmb : UEmb _ 𝕄) (coreGo m d c))
  dn q d c := match q with | 0 => (inferInstance : BI.Storable (upEmb : UEmb _ 𝕄) (coreTd m d c))
  go q d c i := match q with | 0 => (inferInstance : BI.Storable (upEmb : UEmb _ 𝕄) (tileGo m d (coordsK c i)))
  td q d c i := match q with | 0 => (inferInstance : BI.Storable (upEmb : UEmb _ 𝕄) (tileTd m d (coordsK c i)))

/-! ## The launch theorem's obligations -/

theorem defs₀_vector (c : Fin τ.nSC) (s : Fin τ.nSub) :
    defs₀ (F := F) (.scVector c s) 0 ()
      = SparseCore.onTile hcore0 hsub0 (fun c s => cc0_temporal_gather (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- One subcore's task, in the launch theorem's spelling, from the task at a symbolic place. -/
theorem tileObl (hbody : TileBodyStmt m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody facts d (coordsV ⟨_, hc.1⟩ ⟨_, hc.2⟩) O W hO).trans (wp_mono frame _ _ fun _ => obl_post)

/-- The split among a SparseCore's subcores only regroups. -/
theorem vecSplit : (K (F := F)).VecSplit' (P m) 0 := by
  intro d c
  rw [P_st, P_dn]
  unfold coreGo coreTd
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KILaunchArith.lean ====
/-
  The arithmetic of the dealing: a word `p` of the flat result lies in exactly one row piece, piece `j` of slab `g` with
  `g = 224 (p / 802816) + (p % 50176) / 224` and `j = (p % 802816) / 50176`, so the 672 · 16 pieces are pairwise disjoint
  and cover the result; and the numberings of the read shares (`2 w + b`) and of the slabs (`21 w + t`) by worker
  `w = 2 i + c` are one-to-one onto 64 and 672.
-/
import proofs.«216812_g82557861364368_cont_9to1c4b_466_28_alg».proof.Proof.KIPay

noncomputable section

namespace Cert.Proof.KI

open Cert.KernelIdeal Cert.KernelIdeal.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## A word's piece -/

theorem mem_pieceSet {g j : Nat} (hg : g < 672) (hj : j < 16) (p : S2408448.Idx) :
    p ∈ pieceSet g j hg hj ↔ off g j ≤ (p 0).val ∧ (p 0).val < off g j + 224 := by
  unfold pieceSet pieceRect
  rw [Rect.mem_set_unit]
  constructor
  · intro h; exact h 0
  · intro h a; obtain rfl : a = 0 := Subsingleton.elim _ _; exact h

theorem piece_iff {g j v : Nat} (hg : g < 672) (hj : j < 16) :
    (off g j ≤ v ∧ v < off g j + 224)
      ↔ (v < 2408448 ∧ g = 224 * (v / 802816) + (v % 50176) / 224 ∧ j = (v % 802816) / 50176) := by
  unfold off; omega

/-- Row piece `x.2` of slab `x.1`. -/
def pieceOf (x : Fin 672 × Fin 16) : Finset S2408448.Idx := pieceSet x.1.val x.2.val x.1.isLt x.2.isLt

theorem pieces_disjoint : ∀ x ∈ (Finset.univ : Finset (Fin 672 × Fin 16)), ∀ y ∈ (Finset.univ : Finset (Fin 672 × Fin 16)),
    x ≠ y → Disjoint (pieceOf x) (pieceOf y) := by
  intro x _ y _ hxy
  refine Finset.disjoint_left.mpr fun p hx hy => hxy ?_
  have h1 := (piece_iff x.1.isLt x.2.isLt).mp ((mem_pieceSet _ _ p).mp hx)
  have h2 := (piece_iff y.1.isLt y.2.isLt).mp ((mem_pieceSet _ _ p).mp hy)
  exact Prod.ext (Fin.ext (h1.2.1.trans h2.2.1.symm)) (Fin.ext (h1.2.2.trans h2.2.2.symm))

theorem pieces_cover : (Finset.univ : Finset (Fin 672 × Fin 16)).biUnion pieceOf = Finset.univ := by
  refine Finset.eq_univ_of_forall fun p => ?_
  have hp : (p 0).val < 2408448 := (p 0).isLt
  have hg : 224 * ((p 0).val / 802816) + ((p 0).val % 50176) / 224 < 672 := by omega
  have hj : ((p 0).val % 802816) / 50176 < 16 := by omega
  rw [Finset.mem_biUnion]
  exact ⟨(⟨_, hg⟩, ⟨_, hj⟩), Finset.mem_univ _, (mem_pieceSet hg hj p).mpr ((piece_iff hg hj).mpr ⟨hp, rfl, rfl⟩)⟩

/-! ## Numbering by worker -/

/-- Slab `t` of worker `2 i + c` is slab `21 (2 i + c) + t`. -/
def slabFn (x : (Fin 2 × Fin 16) × Fin 21) : Fin 672 :=
  ⟨21 * (2 * x.1.2.val + x.1.1.val) + x.2.val, by have := x.1.1.isLt; have := x.1.2.isLt; have := x.2.isLt; omega⟩

theorem slabFn_bij : Function.Bijective slabFn := by
  refine (Fintype.bijective_iff_injective_and_card _).mpr ⟨?_, by simp [Fintype.card_prod]⟩
  rintro ⟨⟨c, i⟩, t⟩ ⟨⟨c', i'⟩, t'⟩ h
  have h' : 21 * (2 * i.val + c.val) + t.val = 21 * (2 * i'.val + c'.val) + t'.val := congrArg Fin.val h
  have := c.isLt; have := c'.isLt; have := t.isLt; have := t'.isLt
  refine Prod.ext (Prod.ext (Fin.ext ?_) (Fin.ext ?_)) (Fin.ext ?_) <;> simp only <;> omega

def slabEquiv : (Fin 2 × Fin 16) × Fin 21 ≃ Fin 672 := Equiv.ofBijective slabFn slabFn_bij

theorem slabEquiv_val (c : Fin 2) (i : Fin 16) (t : Fin 21) : (slabEquiv ((c, i), t)).val = 21 * (2 * i.val + c.val) + t.val := rfl

/-- Read share `b` of worker `2 i + c` is share `2 (2 i + c) + b`. -/
def tokFn (x : (Fin 2 × Fin 16) × Fin 2) : Fin 64 :=
  ⟨2 * (2 * x.1.2.val + x.1.1.val) + x.2.val, by have := x.1.1.isLt; have := x.1.2.isLt; have := x.2.isLt; omega⟩

theorem tokFn_bij : Function.Bijective tokFn := by
  refine (Fintype.bijective_iff_injective_and_card _).mpr ⟨?_, by simp [Fintype.card_prod]⟩
  rintro ⟨⟨c, i⟩, t⟩ ⟨⟨c', i'⟩, t'⟩ h
  have h' : 2 * (2 * i.val + c.val) + t.val = 2 * (2 * i'.val + c'.val) + t'.val := congrArg Fin.val h
  have := c.isLt; have := c'.isLt; have := t.isLt; have := t'.isLt
  refine Prod.ext (Prod.ext (Fin.ext ?_) (Fin.ext ?_)) (Fin.ext ?_) <;> simp only <;> omega

def tokEquiv : (Fin 2 × Fin 16) × Fin 2 ≃ Fin 64 := Equiv.ofBijective tokFn tokFn_bij

theorem tokEquiv_val (c : Fin 2) (i : Fin 16) (b : Fin 2) : (tokEquiv ((c, i), b)).val = 2 * (2 * i.val + c.val) + b.val := rfl

end Cert.Proof.KI

end
-- ==== Proof.KILaunchDeal.lean ====
/-
  The dealing, as equations and entailments between assertions: the 64 read shares of the transposed clip are the two
  shares of each of the 32 subcores, the flat result whole is the 32 · 21 · 16 row pieces, so the transposed clip's shares
  with the result whole are what the two SparseCores are handed, and what they hand back are the shares with the result
  whole again.
-/
import proofs.«216812_g82557861364368_cont_9to1c4b_466_28_alg».proof.Proof.KILaunchPay
import proofs.«216812_g82557861364368_cont_9to1c4b_466_28_alg».proof.Proof.KILaunchArith

noncomputable section

namespace Cert.Proof.KI

open Cert.KernelIdeal Cert.KernelIdeal.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (m : (ℓ : Loc nD τ sig) → Buf (Elt F) ℓ)

/-- What the subcore at `L` holds: its two read shares of the transposed clip, and its pieces of the result at `f`. -/
def tileRes (d : Dev nD) (L : grid0.Coords) (f : Buf (Elt F) (oLoc d)) : sProp 𝕄 :=
  iprop((xtLoc d ↦{shA L} XT m d) ∗ (xtLoc d ↦{shB L} XT m d) ∗ pieces d L f)

theorem tileGo_eq (d : Dev nD) (L : grid0.Coords) : tileGo m d L = tileRes m d L (m (oLoc d)) := rfl
theorem tileTd_eq (d : Dev nD) (L : grid0.Coords) : tileTd m d L = tileRes m d L (OUT m d) := rfl

omit [FloatOps F] in
/-- The 64 read shares, by subcore. -/
theorem toks_deal (d : Dev nD) (X : Buf (Elt F) (xtLoc d)) :
    (bigSep Finset.univ fun k : Fin 64 => (xtLoc d ↦{Transfers.shareTok fullShare 64 k} X : sProp 𝕄))
      = bigSep Finset.univ fun c : Fin 2 => bigSep Finset.univ fun i : Fin 16 =>
          iprop((xtLoc d ↦{shA (coordsV c i)} X) ∗ (xtLoc d ↦{shB (coordsV c i)} X)) := by
  rw [bigSep_univ_equiv tokEquiv, bigSep_univ_prod, bigSep_univ_prod]
  refine bigSep_congr fun c _ => bigSep_congr fun i _ => ?_
  rw [bigSep_univ_two]
  rfl

omit [FloatOps F] in
/-- The flat result whole is its 672 · 16 row pieces, -/
theorem oPts_pieces (d : Dev nD) (f : Buf (Elt F) (oLoc d)) :
    (oLoc d ↦{fullShare} f : sProp 𝕄) = bigSep Finset.univ fun x : Fin 672 × Fin 16 => oLoc d ↦[pieceOf x]{fullShare} f := by
  rw [← pointsTo_biUnion Finset.univ (ℓ := oLoc d) pieceOf pieces_disjoint, pieces_cover]; try rfl

omit [FloatOps F] in
/-- by subcore. -/
theorem pieces_deal (d : Dev nD) (f : Buf (Elt F) (oLoc d)) :
    (oLoc d ↦{fullShare} f : sProp 𝕄) = bigSep Finset.univ fun c : Fin 2 => bigSep Finset.univ fun i : Fin 16 => pieces d (coordsV c i) f := by
  rw [oPts_pieces, bigSep_univ_prod, bigSep_univ_equiv slabEquiv, bigSep_univ_prod, bigSep_univ_prod]
  rfl

/-- The shares and the result whole, dealt to the 32 subcores; -/
theorem deal_go (d : Dev nD) (f : Buf (Elt F) (oLoc d)) :
    iprop((bigSep Finset.univ fun k : Fin 64 => (xtLoc d ↦{Transfers.shareTok fullShare 64 k} XT m d)) ∗ oLoc d ↦{fullShare} f)
      ⊢ (bigSep Finset.univ fun c : Fin 2 => bigSep Finset.univ fun i : Fin 16 => tileRes m d (coordsV c i) f : sProp 𝕄) := by
  rw [toks_deal, pieces_deal d f]
  unfold tileRes
  simp only [bigSep_sep']
  iintro ⟨⟨HA, HB⟩, HP⟩
  isplitl [HA]; · iexact HA
  isplitl [HB]; · iexact HB
  iexact HP

/-- and collected from them. -/
theorem deal_td (d : Dev nD) (f : Buf (Elt F) (oLoc d)) :
    (bigSep Finset.univ fun c : Fin 2 => bigSep Finset.univ fun i : Fin 16 => tileRes m d (coordsV c i) f : sProp 𝕄)
      ⊢ iprop((bigSep Finset.univ fun k : Fin 64 => (xtLoc d ↦{Transfers.shareTok fullShare 64 k} XT m d)) ∗ oLoc d ↦{fullShare} f) := by
  rw [toks_deal, pieces_deal d f]
  unfold tileRes
  simp only [bigSep_sep']
  iintro ⟨HA, HB, HP⟩
  isplitl [HA HB]
  · isplitl [HA]; · iexact HA
    iexact HB
  iexact HP

omit [FloatOps F] in
theorem coordsK_eq (c : Fin 2) (i : Fin 16) : coordsK (F := F) c i = coordsV c i := rfl

/-- What the call takes for the two SparseCores, and what it hands back. -/
theorem st0_eq (d : Dev nD) :
    (bigSep Finset.univ fun c : Fin ((K (F := F)).nCore 0) => (P m).st 0 d c)
      = bigSep Finset.univ fun c : Fin 2 => bigSep Finset.univ fun i : Fin 16 => tileRes m d (coordsV c i) (m (oLoc d)) := by
  show (bigSep (Finset.univ : Finset (Fin 2)) fun c => coreGo m d c) = _
  refine bigSep_congr fun c _ => ?_
  unfold coreGo
  show (bigSep (Finset.univ : Finset (Fin 16)) fun i => tileGo m d (coordsK c i)) = _
  refine bigSep_congr fun i _ => ?_
  rw [tileGo_eq, coordsK_eq]
theorem dn0_eq (d : Dev nD) :
    (bigSep Finset.univ fun c : Fin ((K (F := F)).nCore 0) => (P m).dn 0 d c)
      = bigSep Finset.univ fun c : Fin 2 => bigSep Finset.univ fun i : Fin 16 => tileRes m d (coordsV c i) (OUT m d) := by
  show (bigSep (Finset.univ : Finset (Fin 2)) fun c => coreTd m d c) = _
  refine bigSep_congr fun c _ => ?_
  unfold coreTd
  show (bigSep (Finset.univ : Finset (Fin 16)) fun i => tileTd m d (coordsK c i)) = _
  refine bigSep_congr fun i _ => ?_
  rw [tileTd_eq, coordsK_eq]

end Cert.Proof.KI

end
-- ==== Proof.KILaunchRes.lean ====
/-
  The reshaped result, and what it is as a function of the clip: the row-major reshape to [3, 16, 224, 224] of the flat
  result, itself read off the transposed clip, is the clip at (channel, frame 33 + 4 · sample, row, column). Index
  arithmetic only.
-/
import proofs.«216812_g82557861364368_cont_9to1c4b_466_28_alg».proof.Proof.KIPay
import Idealize.ShloMosaic.Lib.Pipeline.Value

noncomputable section

namespace Cert.Proof.KI

open Cert.KernelIdeal Cert.KernelIdeal.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (m : (ℓ : Loc nD τ sig) → Buf (Elt F) ℓ)

/-- the reshaped result -/
def RES (d : Dev nD) : Buf (Elt F) (rLoc d) :=
  (shapeCast S3x16x224x224 (OUT m d : (⟨S2408448, .f32⟩ : BufTy).Contents (Elt F)) shapeCasts_S2408448_S3x16x224x224 :
    (⟨S3x16x224x224, .f32⟩ : BufTy).Contents (Elt F))

/-- The word of the flat result that element `i` of the reshaped result is: its row-major position. -/
def flatIdx (i : S3x16x224x224.Idx) : S2408448.Idx :=
  ix1 (n := 2408448) ⟨802816 * (i 0).val + 50176 * (i 1).val + 224 * (i 2).val + (i 3).val, by
    have h0 : (i 0).val < 3 := (i 0).isLt
    have h1 : (i 1).val < 16 := (i 1).isLt
    have h2 : (i 2).val < 224 := (i 2).isLt
    have h3 : (i 3).val < 224 := (i 3).isLt
    omega⟩

theorem flatIdx_rowMajor (i : S3x16x224x224.Idx) : (S2408448.rowMajor (flatIdx i)).val = (S3x16x224x224.rowMajor i).val := by
  rw [Shape.rowMajor_val_one, Shape.rowMajor_val_four]
  show 802816 * (i 0).val + 50176 * (i 1).val + 224 * (i 2).val + (i 3).val = (((i 0).val * 16 + (i 1).val) * 224 + (i 2).val) * 224 + (i 3).val
  omega

/-- The reshaped result at `i` is the flat result at `i`'s row-major position. -/
theorem RES_apply (d : Dev nD) (i : S3x16x224x224.Idx) : (RES m d : S3x16x224x224.Idx → Elt F .f32) i = (OUT m d : S2408448.Idx → Elt F .f32) (flatIdx i) := by
  unfold RES
  exact shapeCast_apply _ _ i (flatIdx i) (flatIdx_rowMajor i)

/-- The flat result at the row-major position of `[c, j, h, w]` is the transposed clip at `[c, h, w, 33 + 4 j]`. -/
theorem OUT_flat (d : Dev nD) (i : S3x16x224x224.Idx) :
    (OUT m d : S2408448.Idx → Elt F .f32) (flatIdx i)
      = (XT m d : S3x224x224x128.Idx → Elt F .f32) (ix4 (n0 := 3) (n1 := 224) (n2 := 224) (n3 := 128) (i 0) (i 2) (i 3) (Cert.Proof.Spec.frame (i 1))) := by
  have h0 : (i 0).val < 3 := (i 0).isLt
  have h1 : (i 1).val < 16 := (i 1).isLt
  have h2 : (i 2).val < 224 := (i 2).isLt
  have h3 : (i 3).val < 224 := (i 3).isLt
  unfold OUT outSpec
  refine congrArg (XT m d : S3x224x224x128.Idx → Elt F .f32) ?_
  funext a
  match a with
  | ⟨0, _⟩ => exact Fin.ext (show (802816 * (i 0).val + 50176 * (i 1).val + 224 * (i 2).val + (i 3).val) / 802816 = (i 0).val by omega)
  | ⟨1, _⟩ => exact Fin.ext (show (802816 * (i 0).val + 50176 * (i 1).val + 224 * (i 2).val + (i 3).val) % 50176 / 224 = (i 2).val by omega)
  | ⟨2, _⟩ => exact Fin.ext (show (802816 * (i 0).val + 50176 * (i 1).val + 224 * (i 2).val + (i 3).val) % 224 = (i 3).val by omega)
  | ⟨3, _⟩ => exact Fin.ext (show 33 + 4 * ((802816 * (i 0).val + 50176 * (i 1).val + 224 * (i 2).val + (i 3).val) % 802816 / 50176) = 33 + 4 * (i 1).val by omega)

/-- The transposed clip at `[c, h, w, f]` is the clip at `[c, f, h, w]`. -/
theorem XT_apply (d : Dev nD) (c : Fin 3) (h w : Fin 224) (f : Fin 128) :
    (XT m d : S3x224x224x128.Idx → Elt F .f32) (ix4 (n0 := 3) (n1 := 224) (n2 := 224) (n3 := 128) c h w f)
      = (m (xLoc d) : S3x128x224x224.Idx → Elt F .f32) (ix4 (n0 := 3) (n1 := 128) (n2 := 224) (n3 := 224) c f h w) := by
  unfold XT
  refine transpose_apply _ _ _ _ _ fun b => ?_
  match b with
  | ⟨0, _⟩ => rfl
  | ⟨1, _⟩ => rfl
  | ⟨2, _⟩ => rfl
  | ⟨3, _⟩ => rfl

theorem RES_eq (d : Dev nD) :
    (RES m d : Cert.Proof.Spec.SO.Idx → Elt F .f32) = Cert.Proof.Spec.sampled (m (xLoc d) : Cert.Proof.Spec.SX.Idx → Elt F .f32) := by
  funext i
  exact ((RES_apply m d i).trans (OUT_flat m d i)).trans (XT_apply m d (i 0) (i 2) (i 3) (Cert.Proof.Spec.frame (i 1)))

end Cert.Proof.KI

end
-- ==== Proof.KILaunch.lean ====
/-
  The run of the idealized kernel's program: @main on the TensorCore — the transpose, the one SparseCore call (the
  transposed clip dealt to the 32 subcores as read shares, the flat result as its 32 · 21 · 16 row pieces; both joined
  again after the call), the reshape — and the launch theorem applied to it and to one subcore's task.
-/
import proofs.«216812_g82557861364368_cont_9to1c4b_466_28_alg».proof.Proof.KILaunchDeal
import proofs.«216812_g82557861364368_cont_9to1c4b_466_28_alg».proof.Proof.KILaunchRes

noncomputable section

namespace Cert.Proof.KI

open Cert.KernelIdeal Cert.KernelIdeal.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## The TensorCore's arrays and @main's two host operations -/

abbrev x' : DevRef τ sig := Proc.devRef .tc (main_arg0 : Ref sig .tc)
abbrev xt' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opT : HloOp τ sig (Elt F) :=
  StableHlo.unary main_arg0 main_v0 ((transpose S3x224x224x128 [0, 2, 3, 1] · transposes_S3x128x224x224_S3x224x224x128_0_2_3_1) :
    (⟨S3x128x224x224, .f32⟩ : BufTy).Contents (Elt F) → (⟨S3x224x224x128, .f32⟩ : BufTy).Contents (Elt F))
abbrev opR : HloOp τ sig (Elt F) := StableHlo.reshape main_v1 main_v2 rfl shapeCasts_S2408448_S3x16x224x224

/-- The TensorCore's arrays, all unscoped: the clip, its transpose, the flat result, the reshaped result. -/
abbrev S4 : Finset (DevRef τ sig) := {x', xt', o', r'}

omit [FloatOps F] in
theorem held_S4 (d : Dev nD) (W : Valuation τ sig (Elt F)) :
    (held (T d) S4 W : sProp 𝕄)
      = iprop((xLoc d ↦{fullShare} W x') ∗ (xtLoc d ↦{fullShare} W xt') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (xtLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)
/-- The valuation with the four arrays at given contents. -/
def Vof (d : Dev nD) (a : Buf (Elt F) (xLoc d)) (b : Buf (Elt F) (xtLoc d)) (c : Buf (Elt F) (oLoc d)) (e : Buf (Elt F) (rLoc d)) :
    Valuation τ sig (Elt F) :=
  Function.update (Function.update (Function.update (Function.update (V0 m d) x' a) xt' b) o' c) r' e

theorem unscoped_held (d : Dev nD) : (unscopedBufs d (fun b => m ((SparseCore.T d).loc b)) : sProp 𝕄) = held (T d) S4 (V0 m d) := by
  rw [unscopedBufs_eq, held_S4]; rfl

section
variable (d : Dev nD) (a : Buf (Elt F) (xLoc d)) (b : Buf (Elt F) (xtLoc d)) (c : Buf (Elt F) (oLoc d)) (e : Buf (Elt F) (rLoc d))
theorem Vof_x : Vof m d a b c e x' = a := by
  unfold Vof
  rw [Function.update_of_ne (show x' ≠ r' by decide), Function.update_of_ne (show x' ≠ o' by decide),
    Function.update_of_ne (show x' ≠ xt' by decide), Function.update_self]
theorem Vof_xt : Vof m d a b c e xt' = b := by
  unfold Vof
  rw [Function.update_of_ne (show xt' ≠ r' by decide), Function.update_of_ne (show xt' ≠ o' by decide), Function.update_self]
theorem Vof_o : Vof m d a b c e o' = c := by
  unfold Vof
  rw [Function.update_of_ne (show o' ≠ r' by decide), Function.update_self]
theorem Vof_r : Vof m d a b c e r' = e := by
  unfold Vof
  rw [Function.update_self]
theorem held_Vof :
    (held (T d) S4 (Vof m d a b c e) : sProp 𝕄)
      = iprop((xLoc d ↦{fullShare} a) ∗ (xtLoc d ↦{fullShare} b) ∗ (oLoc d ↦{fullShare} c) ∗ rLoc d ↦{fullShare} e) := by
  rw [held_S4, Vof_x, Vof_xt, Vof_o, Vof_r]
end

theorem hT : (opT (F := F)).bufs ⊆ S4 := show ({x', xt'} : Finset (DevRef τ sig)) ⊆ S4 by decide
theorem hR : (opR (F := F)).bufs ⊆ S4 := show ({o', r'} : Finset (DevRef τ sig)) ⊆ S4 by decide

/-- After the transpose: the transposed clip holds `XT`, the rest what it held. -/
theorem held_T (d : Dev nD) :
    (held (T d) S4 ((opT (F := F)).result (V0 m d)) : sProp 𝕄)
      = iprop((xLoc d ↦{fullShare} m (xLoc d)) ∗ (xtLoc d ↦{fullShare} XT m d) ∗ (oLoc d ↦{fullShare} m (oLoc d)) ∗ rLoc d ↦{fullShare} m (rLoc d)) := by
  rw [held_S4,
    (opT (F := F)).result_of_not_mem (V0 m d) (b := x') (show x' ∉ ({xt'} : Finset (DevRef τ sig)) by decide),
    (opT (F := F)).result_of_not_mem (V0 m d) (b := o') (show o' ∉ ({xt'} : Finset (DevRef τ sig)) by decide),
    (opT (F := F)).result_of_not_mem (V0 m d) (b := r') (show r' ∉ ({xt'} : Finset (DevRef τ sig)) by decide),
    show (opT (F := F)).result (V0 m d) xt' = XT m d from StableHlo.unary_result _ _ _ _ _ _]
  rfl

/-- After the reshape: the reshaped result holds `RES`, the rest what it held. -/
theorem held_R (d : Dev nD) (e : Buf (Elt F) (rLoc d)) :
    (held (T d) S4 ((opR (F := F)).result (Vof m d (m (xLoc d)) (XT m d) (OUT m d) e)) : sProp 𝕄)
      = iprop((xLoc d ↦{fullShare} m (xLoc d)) ∗ (xtLoc d ↦{fullShare} XT m d) ∗ (oLoc d ↦{fullShare} OUT m d) ∗ rLoc d ↦{fullShare} RES m d) := by
  rw [held_S4,
    (opR (F := F)).result_of_not_mem _ (b := x') (show x' ∉ ({r'} : Finset (DevRef τ sig)) by decide),
    (opR (F := F)).result_of_not_mem _ (b := xt') (show xt' ∉ ({r'} : Finset (DevRef τ sig)) by decide),
    (opR (F := F)).result_of_not_mem _ (b := o') (show o' ∉ ({r'} : Finset (DevRef τ sig)) by decide),
    show (opR (F := F)).result (Vof m d (m (xLoc d)) (XT m d) (OUT m d) e) r' = RES m d from
      (StableHlo.reshape_result _ _ _ _ _ _ _).trans (by rw [Vof_o]; rfl),
    Vof_x, Vof_xt, Vof_o]

/-! ## @main on the TensorCore -/

/-- What @main leaves the claim: the clip at its launch contents, the reshaped result. -/
abbrev FIN (d : Dev nD) : sProp 𝕄 := iprop((xLoc d ↦{fullShare} m (xLoc d)) ∗ rLoc d ↦{fullShare} RES m d)

/-- @main on device `d`'s TensorCore: the transpose; the call, the transposed clip's 64 read shares and the flat
    result's pieces dealt to the subcores and collected again; the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose
  iapply (wp_hlo_within 𝒱 (SparseCore.T d) none Set.univ (op := opT) (S := S4) hT (V := V0 m d)) $$ [Hb Hheld]
  · isplitl [Hb]; · iexact Hb
    iexact Hheld
  iintro ⟨Hb, Hheld⟩
  ihave Hh := (Entails.of_eq (held_T (F := F) m d)) $$ Hheld
  icases Hh with ⟨Hx, Hxt, Ho, Hr⟩
  rw [wp_ret]; imodintro
  -- the transposed clip as 64 read shares and a remainder; the flat result as its pieces
  ihave Hs := (Transfers.pointsTo_toks_split fullShare 64) $$ Hxt
  icases Hs with ⟨Hrem, Htoks⟩
  ihave Hgo := (deal_go m d (m (oLoc d))) $$ [Htoks Ho]
  · isplitl [Htoks]; · iexact Htoks
    iexact Ho
  -- the call
  iapply ((K (F := F)).wp_run (D (F := F)) 𝒱 (EH := EH) (P := P m) κ d 0) $$ [Hst Hgo Hb Hx Hr Hrem]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Htd := (deal_td m d (OUT m d)) $$ Hdn'
  icases Htd with ⟨Htoks, Ho⟩
  ihave Hxt := (Transfers.pointsTo_toks_join fullShare 64) $$ [Hrem Htoks]
  · isplitl [Hrem]; · iexact Hrem
    iexact Htoks
  -- the reshape
  iapply (wp_hlo_within 𝒱 (SparseCore.T d) none Set.univ (op := opR) (S := S4) hR (V := Vof m d (m (xLoc d)) (XT m d) (OUT m d) (m (rLoc d)))) $$ [Hb Hx Hxt Ho Hr]
  · isplitl [Hb]; · iexact Hb
    rw [held_Vof]
    isplitl [Hx]; · iexact Hx
    isplitl [Hxt]; · iexact Hxt
    isplitl [Ho]; · iexact Ho
    iexact Hr
  iintro ⟨Hb, Hheld⟩
  ihave Hh := (Entails.of_eq (held_R (F := F) m d _)) $$ Hheld
  icases Hh with ⟨Hx, -, -, Hr⟩
  rw [wp_ret]; imodintro; imodintro
  isplitl [Hst]; · iexact Hst
  isplitl [Hx]; · iexact Hx
  iexact Hr

def fq (d : Dev nD) (s' : Phys nD τ sig (Elt F)) : Prop := s'.mem.mem (rLoc d) = RES m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := rLoc d) (I := Finset.univ) (q := fullShare) (f := RES m d)) $$ [HSI Hr]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop := fun r => ∀ c : Dev nD, r.2.mem (rLoc c) = RES m c ∧ r.2.mem (xLoc c) = m (xLoc c)

theorem run_main [∀ e, Nonempty (Elt F e)] (hbody : TileBodyStmt m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KBSetup.lean ====
/-
  The idealized kernel's program as the launch theorem for SparseCore programs sees it, and the names the proof of its
  run is written over: the one SparseCore call (a vector-subcore kernel on 2 SparseCores × 16 subcores), the ghost state
  (the launch handshakes' rounds beside the counters of the subcores' own copies), the arrays in HBM — the clip `x`, its
  transpose `xt` of shape [3, 224, 224, 128] (channel, row, column, frame), the flat result `o` of 3·16·224·224 words and
  its reshape — and each subcore's four scratch buffers: two slabs of 224 × 128 (one (channel, row) pair: every column's
  128 frames) and two staging buffers of 16 × 224 words (the sixteen sampled frames of that slab, frame-major).
-/
import proofs.«216812_g82557861364368_cont_9to1c4b_466_28_alg».proof.Kernel
import proofs.«216812_g82557861364368_cont_9to1c4b_466_28_alg».proof.Proof.GenKernelSkelP
import proofs.«216812_g82557861364368_cont_9to1c4b_466_28_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KB

open Cert.Kernel Cert.Kernel.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the copies' counters -/

abbrev UH : Type := URounds (GSem nD τ sig) ℕ
abbrev UU : Type := UH × Counters

abbrev EH : Emb UH (MT nD τ sig (HIx 1) (Elt F) ℕ UU ℕ) := embL

/-! ## The arrays -/

abbrev xLoc (d : Dev nD) : Loc nD τ sig := (SparseCore.T d).loc main_arg0
abbrev xtLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

end Cert.Proof.KB

end
-- ==== Proof.KBPay.lean ====
/-
  What the one SparseCore call hands each vector subcore and takes back, and the pure functions the run is stated over.

  Subcore `s` of SparseCore `c` is worker `w = 2 s + c`; it handles the 21 slabs `g = 21 w + t`, `t < 21`, a slab being one
  (channel, row) pair `(g / 224, g % 224)` of the transposed clip `xt`: a 224 × 128 array (column, frame). From slab `g` it
  writes sixteen row pieces of 224 words of the flat result, piece `j` at word `802816 (g / 224) + 50176 j + 224 (g % 224)`:
  the words of (channel g / 224, sample j, row g % 224) in the row-major [3, 16, 224, 224] layout. The 32 · 21 · 16 pieces
  tile the result. Each piece ends holding column `r ↦ xt[g / 224, g % 224, r, 33 + 4 j]`; `outSpec` is that, for the whole
  result at once.

  A subcore only reads `xt`: it is handed two read shares of the whole array (one per slab buffer it fetches into, so that
  two fetches may be outstanding), and owns its 21 · 16 pieces of the result outright.
-/
import proofs.«216812_g82557861364368_cont_9to1c4b_466_28_alg».proof.Proof.KBSetup

noncomputable section

namespace Cert.Proof.KB

open Cert.Kernel Cert.Kernel.GenP

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Workers, slabs, pieces -/

/-- The worker number of the subcore at grid coordinates `L` (SparseCore `L 0`, subcore `L 1`). -/
def wid (L : grid0.Coords) : Nat := 2 * (L 1).val + (L 0).val
theorem wid_lt (L : grid0.Coords) : wid L < 32 := by
  have h0 : (L 0).val < 2 := (L 0).isLt
  have h1 : (L 1).val < 16 := (L 1).isLt
  unfold wid; omega

/-- Slab `t` of the worker at `L`. -/
def slab (L : grid0.Coords) (t : Nat) : Nat := 21 * wid L + t
theorem slab_lt (L : grid0.Coords) {t : Nat} (ht : t < 21) : slab L t < 672 := by
  have := wid_lt L; unfold slab; omega

/-- The first word of row piece `j` of slab `g` in the flat result. -/
def off (g : Nat) (j : Nat) : Nat := 802816 * (g / 224) + 50176 * j + 224 * (g % 224)
theorem off_inb {g j : Nat} (hg : g < 672) (hj : j < 16) : ∀ a, (![off g j] : Fin 1 → Nat) a + S224.size a ≤ S2408448.size a := by
  intro a
  obtain rfl : a = 0 := Subsingleton.elim _ _
  show off g j + 224 ≤ 2408448
  have h1 : g / 224 ≤ 2 := by omega
  have h2 : g % 224 < 224 := Nat.mod_lt _ (by omega)
  unfold off; omega

/-- Row piece `j` of slab `g`, as a rectangle of the flat result. -/
abbrev pieceRect (g j : Nat) (hg : g < 672) (hj : j < 16) : Rect S2408448 := Rect.unit (s := S2408448) ![off g j] S224.size (off_inb hg hj)
/-- Its words. -/
def pieceSet (g j : Nat) (hg : g < 672) (hj : j < 16) : Finset S2408448.Idx := (pieceRect g j hg hj).set

/-! ## The pure functions -/

/-- What the result holds at word `p`, from the transposed clip: with `p = 802816 c + 50176 j + 224 h + r`,
    `xt[c, h, r, 33 + 4 j]`. -/
def outSpec {α : Type} (X : S3x224x224x128.Idx → α) : S2408448.Idx → α := fun p =>
  X (ix4 (n0 := 3) (n1 := 224) (n2 := 224) (n3 := 128)
    ⟨(p 0).val / 802816, by have := (p 0).isLt; change (p 0).val < 2408448 at this; omega⟩
    ⟨(p 0).val % 50176 / 224, by have := Nat.mod_lt (p 0).val (show 0 < 50176 by omega); omega⟩
    ⟨(p 0).val % 224, Nat.mod_lt _ (by omega)⟩
    ⟨33 + 4 * ((p 0).val % 802816 / 50176), by have := Nat.mod_lt (p 0).val (show 0 < 802816 by omega); omega⟩)

section
variable [FloatOps F] (m : (ℓ : Loc nD τ sig) → Buf (Elt F) ℓ)

/-- The transposed clip, as @main's first operation leaves it. -/
def XT (d : Dev nD) : Buf (Elt F) (xtLoc d) :=
  (transpose S3x224x224x128 [0, 2, 3, 1] (m (xLoc d)) transposes_S3x128x224x224_S3x224x224x128_0_2_3_1 :
    (⟨S3x224x224x128, .f32⟩ : BufTy).Contents (Elt F))

/-- What the kernel leaves in the flat result. -/
def OUT (d : Dev nD) : Buf (Elt F) (oLoc d) := (outSpec (XT m d) : (⟨S2408448, .f32⟩ : BufTy).Contents (Elt F))

/-! ## What a subcore is handed, and hands back -/

theorem tokA_lt (L : grid0.Coords) : 2 * wid L < 64 := by have := wid_lt L; omega
theorem tokB_lt (L : grid0.Coords) : 2 * wid L + 1 < 64 := by have := wid_lt L; omega

/-- The two read shares of `xt` of the subcore at `L`. -/
abbrev shA (L : grid0.Coords) : PosShare TreeShare := Transfers.shareTok fullShare 64 ⟨2 * wid L, tokA_lt L⟩
abbrev shB (L : grid0.Coords) : PosShare TreeShare := Transfers.shareTok fullShare 64 ⟨2 * wid L + 1, tokB_lt L⟩

/-- The subcore's 21 · 16 row pieces of the result, all at the contents `f`. -/
def pieces (d : Dev nD) (L : grid0.Coords) (f : Buf (Elt F) (oLoc d)) : sProp 𝕄 :=
  bigSep Finset.univ fun t : Fin 21 => bigSep Finset.univ fun j : Fin 16 =>
    (oLoc d ↦[pieceSet (slab L t.val) j.val (slab_lt L t.isLt) j.isLt]{fullShare} f)

/-- What the subcore at `L` is handed: two read shares of `xt` and its pieces of the result as the launch left them. -/
def tileGo (d : Dev nD) (L : grid0.Coords) : sProp 𝕄 :=
  iprop((xtLoc d ↦{shA L} XT m d) ∗ (xtLoc d ↦{shB L} XT m d) ∗ pieces d L (m (oLoc d)))

/-- What it hands back: the shares, and its pieces holding the sampled frames. -/
def tileTd (d : Dev nD) (L : grid0.Coords) : sProp 𝕄 :=
  iprop((xtLoc d ↦{shA L} XT m d) ∗ (xtLoc d ↦{shB L} XT m d) ∗ pieces d L (OUT m d))

end

/-! ## The tile's task, as a statement -/

/-- The vector subcore at grid coordinates `L` of device `d`. -/
abbrev thr (d : Dev nD) (L : grid0.Coords) : Thread nD τ := V d ((L 0).castLE hcore0) ((L 1).castLE hsub0)

/-- The task of one vector subcore, run at a symbolic place: from what it is handed (`tileGo`), its own scratch and
    semaphores and what it owes the launch, the kernel function runs to its end, hands back `tileTd`, its scratch and
    semaphores (the semaphores at zero again), and owes what it owed, having waited only on its own semaphores. -/
def TileBodyStmt [FloatOps F] (m : (ℓ : Loc nD τ sig) → Buf (Elt F) ℓ) : Prop :=
  ∀ (_hF : (K (F := F)).Facts) (d : Dev nD) (L : grid0.Coords) (O : CellTallies nD τ sig (HIx 1)) (W : Waits sig (HIx 1)),
    (∀ g, O g none = 0) →
    (iprop(levAts (K (F := F)).L (K (F := F)).lev ∗ emp ∗ tileGo m d L
        ∗ scopedBufs (thr d L) ∗ scopedSems0 (thr d L) ∗ owes (thr d L) O W) : sProp 𝕄)
      ⊢ wp frame (wpE (defs₀ (F := F)) 𝒱₀ (thr d L) none) Set.univ
          (cc0_temporal_gather L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7)
          fun _ => iprop(tileTd m d L ∗ scopedBufs (thr d L) ∗ scopedSems0 (thr d L)
            ∗ ∃ W', ⌜∀ p ∈ W', p ∈ W ∨ p.2 = none⌝ ∗ owes (thr d L) O W')

end Cert.Proof.KB

end
-- ==== Proof.KBLaunchPay.lean ====
/-
  What the launch handshakes of the one SparseCore call carry: each SparseCore is handed, and hands back, what its
  sixteen subcores are handed and hand back (so the split among the subcores only regroups); the statement of one
  subcore's task in the launch theorem's own spelling, from the task proved at a symbolic place; the launch element of
  the ghost state (the handshakes' rounds; the counters are dropped).
-/
import proofs.«216812_g82557861364368_cont_9to1c4b_466_28_alg».proof.Proof.KBPay

noncomputable section

namespace Cert.Proof.KB

open Cert.Kernel Cert.Kernel.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Grid coordinates -/

/-- The grid coordinates of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

theorem coordsV_zero (c : Fin (grid0.bound 0)) (s : Fin (grid0.bound 1)) : coordsV c s 0 = c := rfl
theorem coordsV_one (c : Fin (grid0.bound 0)) (s : Fin (grid0.bound 1)) : coordsV c s 1 = s := rfl

theorem wid_coordsV (c : Fin (grid0.bound 0)) (s : Fin (grid0.bound 1)) : wid (coordsV c s) = 2 * s.val + c.val := rfl

/-- The coordinates of SparseCore `c`, subcore `i` of the call's grid. -/
def coordsK (c : Fin ((K (F := F)).nCore 0)) (i : Fin ((K (F := F)).nSub 0)) : grid0.Coords :=
  coordsV (Fin.cast nCore_zero c) (Fin.cast nSub_zero i)

variable [FloatOps F] (m : (ℓ : Loc nD τ sig) → Buf (Elt F) ℓ) (ρ : Dev nD → PrngReg)

/-! ## What the handshakes carry -/

/-- What SparseCore `c` is handed: what its sixteen subcores are. -/
def coreGo (d : Dev nD) (c : Fin ((K (F := F)).nCore 0)) : sProp 𝕄 :=
  bigSep Finset.univ fun i : Fin ((K (F := F)).nSub 0) => tileGo m d (coordsK c i)
/-- What it hands back: what they do. -/
def coreTd (d : Dev nD) (c : Fin ((K (F := F)).nCore 0)) : sProp 𝕄 :=
  bigSep Finset.univ fun i : Fin ((K (F := F)).nSub 0) => tileTd m d (coordsK c i)

instance tileGo_storable (d : Dev nD) (L : grid0.Coords) : BI.Storable (upEmb : UEmb _ 𝕄) (tileGo m d L) := by
  unfold tileGo pieces; infer_instance
instance tileTd_storable (d : Dev nD) (L : grid0.Coords) : BI.Storable (upEmb : UEmb _ 𝕄) (tileTd m d L) := by
  unfold tileTd pieces; infer_instance
instance coreGo_storable (d : Dev nD) (c : Fin ((K (F := F)).nCore 0)) : BI.Storable (upEmb : UEmb _ 𝕄) (coreGo m d c) := by
  unfold coreGo; infer_instance
instance coreTd_storable (d : Dev nD) (c : Fin ((K (F := F)).nCore 0)) : BI.Storable (upEmb : UEmb _ 𝕄) (coreTd m d c) := by
  unfold coreTd; infer_instance

/-- The one call's payloads; the kernel's proof consumes nothing of the launch's. -/
def P : (K (F := F)).Pay (nD := nD) (Val := Elt F) (Name := ℕ) (U := UU) where
  st := fun q d c => match q with | 0 => coreGo m d c
  dn := fun q d c => match q with | 0 => coreTd m d c
  go := fun q d c i => match q with | 0 => tileGo m d (coordsK c i)
  td := fun q d c i => match q with | 0 => tileTd m d (coordsK c i)
  x := fun _ _ => iprop(emp)

theorem P_st (d : Dev nD) (c : Fin ((K (F := F)).nCore 0)) : (P m).st 0 d c = coreGo m d c := rfl
theorem P_dn (d : Dev nD) (c : Fin ((K (F := F)).nCore 0)) : (P m).dn 0 d c = coreTd m d c := rfl
theorem P_go (d : Dev nD) (c : Fin ((K (F := F)).nCore 0)) (i : Fin ((K (F := F)).nSub 0)) : (P m).go 0 d c i = tileGo m d (coordsK c i) := rfl
theorem P_td (d : Dev nD) (c : Fin ((K (F := F)).nCore 0)) (i : Fin ((K (F := F)).nSub 0)) : (P m).td 0 d c i = tileTd m d (coordsK c i) := rfl
theorem P_x (q : Fin 1) (thr : Thread nD τ) : (P m).x q thr = iprop(emp) := rfl

instance P_storable : (P (F := F) m).IsStorable where
  st q d c := match q with | 0 => (inferInstance : BI.Storable (upEmb : UEmb _ 𝕄) (coreGo m d c))
  dn q d c := match q with | 0 => (inferInstance : BI.Storable (upEmb : UEmb _ 𝕄) (coreTd m d c))
  go q d c i := match q with | 0 => (inferInstance : BI.Storable (upEmb : UEmb _ 𝕄) (tileGo m d (coordsK c i)))
  td q d c i := match q with | 0 => (inferInstance : BI.Storable (upEmb : UEmb _ 𝕄) (tileTd m d (coordsK c i)))

/-! ## The launch theorem's obligations -/

theorem defs₀_vector (c : Fin τ.nSC) (s : Fin τ.nSub) :
    defs₀ (F := F) (.scVector c s) 0 ()
      = SparseCore.onTile hcore0 hsub0 (fun c s => cc0_temporal_gather (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- One subcore's task, in the launch theorem's spelling, from the task at a symbolic place. -/
theorem tileObl (hbody : TileBodyStmt m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody facts d (coordsV ⟨_, hc.1⟩ ⟨_, hc.2⟩) O W hO).trans (wp_mono frame _ _ fun _ => obl_post)

/-- The split among a SparseCore's subcores only regroups. -/
theorem vecSplit : (K (F := F)).VecSplit' (P m) 0 := by
  intro d c
  rw [P_st, P_dn]
  unfold coreGo coreTd
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.KBLaunchArith.lean ====
/-
  The arithmetic of the dealing: a word `p` of the flat result lies in exactly one row piece, piece `j` of slab `g` with
  `g = 224 (p / 802816) + (p % 50176) / 224` and `j = (p % 802816) / 50176`, so the 672 · 16 pieces are pairwise disjoint
  and cover the result; and the numberings of the read shares (`2 w + b`) and of the slabs (`21 w + t`) by worker
  `w = 2 i + c` are one-to-one onto 64 and 672.
-/
import proofs.«216812_g82557861364368_cont_9to1c4b_466_28_alg».proof.Proof.KBPay

noncomputable section

namespace Cert.Proof.KB

open Cert.Kernel Cert.Kernel.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## A word's piece -/

theorem mem_pieceSet {g j : Nat} (hg : g < 672) (hj : j < 16) (p : S2408448.Idx) :
    p ∈ pieceSet g j hg hj ↔ off g j ≤ (p 0).val ∧ (p 0).val < off g j + 224 := by
  unfold pieceSet pieceRect
  rw [Rect.mem_set_unit]
  constructor
  · intro h; exact h 0
  · intro h a; obtain rfl : a = 0 := Subsingleton.elim _ _; exact h

theorem piece_iff {g j v : Nat} (hg : g < 672) (hj : j < 16) :
    (off g j ≤ v ∧ v < off g j + 224)
      ↔ (v < 2408448 ∧ g = 224 * (v / 802816) + (v % 50176) / 224 ∧ j = (v % 802816) / 50176) := by
  unfold off; omega

/-- Row piece `x.2` of slab `x.1`. -/
def pieceOf (x : Fin 672 × Fin 16) : Finset S2408448.Idx := pieceSet x.1.val x.2.val x.1.isLt x.2.isLt

theorem pieces_disjoint : ∀ x ∈ (Finset.univ : Finset (Fin 672 × Fin 16)), ∀ y ∈ (Finset.univ : Finset (Fin 672 × Fin 16)),
    x ≠ y → Disjoint (pieceOf x) (pieceOf y) := by
  intro x _ y _ hxy
  refine Finset.disjoint_left.mpr fun p hx hy => hxy ?_
  have h1 := (piece_iff x.1.isLt x.2.isLt).mp ((mem_pieceSet _ _ p).mp hx)
  have h2 := (piece_iff y.1.isLt y.2.isLt).mp ((mem_pieceSet _ _ p).mp hy)
  exact Prod.ext (Fin.ext (h1.2.1.trans h2.2.1.symm)) (Fin.ext (h1.2.2.trans h2.2.2.symm))

theorem pieces_cover : (Finset.univ : Finset (Fin 672 × Fin 16)).biUnion pieceOf = Finset.univ := by
  refine Finset.eq_univ_of_forall fun p => ?_
  have hp : (p 0).val < 2408448 := (p 0).isLt
  have hg : 224 * ((p 0).val / 802816) + ((p 0).val % 50176) / 224 < 672 := by omega
  have hj : ((p 0).val % 802816) / 50176 < 16 := by omega
  rw [Finset.mem_biUnion]
  exact ⟨(⟨_, hg⟩, ⟨_, hj⟩), Finset.mem_univ _, (mem_pieceSet hg hj p).mpr ((piece_iff hg hj).mpr ⟨hp, rfl, rfl⟩)⟩

/-! ## Numbering by worker -/

/-- Slab `t` of worker `2 i + c` is slab `21 (2 i + c) + t`. -/
def slabFn (x : (Fin 2 × Fin 16) × Fin 21) : Fin 672 :=
  ⟨21 * (2 * x.1.2.val + x.1.1.val) + x.2.val, by have := x.1.1.isLt; have := x.1.2.isLt; have := x.2.isLt; omega⟩

theorem slabFn_bij : Function.Bijective slabFn := by
  refine (Fintype.bijective_iff_injective_and_card _).mpr ⟨?_, by simp [Fintype.card_prod]⟩
  rintro ⟨⟨c, i⟩, t⟩ ⟨⟨c', i'⟩, t'⟩ h
  have h' : 21 * (2 * i.val + c.val) + t.val = 21 * (2 * i'.val + c'.val) + t'.val := congrArg Fin.val h
  have := c.isLt; have := c'.isLt; have := t.isLt; have := t'.isLt
  refine Prod.ext (Prod.ext (Fin.ext ?_) (Fin.ext ?_)) (Fin.ext ?_) <;> simp only <;> omega

def slabEquiv : (Fin 2 × Fin 16) × Fin 21 ≃ Fin 672 := Equiv.ofBijective slabFn slabFn_bij

theorem slabEquiv_val (c : Fin 2) (i : Fin 16) (t : Fin 21) : (slabEquiv ((c, i), t)).val = 21 * (2 * i.val + c.val) + t.val := rfl

/-- Read share `b` of worker `2 i + c` is share `2 (2 i + c) + b`. -/
def tokFn (x : (Fin 2 × Fin 16) × Fin 2) : Fin 64 :=
  ⟨2 * (2 * x.1.2.val + x.1.1.val) + x.2.val, by have := x.1.1.isLt; have := x.1.2.isLt; have := x.2.isLt; omega⟩

theorem tokFn_bij : Function.Bijective tokFn := by
  refine (Fintype.bijective_iff_injective_and_card _).mpr ⟨?_, by simp [Fintype.card_prod]⟩
  rintro ⟨⟨c, i⟩, t⟩ ⟨⟨c', i'⟩, t'⟩ h
  have h' : 2 * (2 * i.val + c.val) + t.val = 2 * (2 * i'.val + c'.val) + t'.val := congrArg Fin.val h
  have := c.isLt; have := c'.isLt; have := t.isLt; have := t'.isLt
  refine Prod.ext (Prod.ext (Fin.ext ?_) (Fin.ext ?_)) (Fin.ext ?_) <;> simp only <;> omega

def tokEquiv : (Fin 2 × Fin 16) × Fin 2 ≃ Fin 64 := Equiv.ofBijective tokFn tokFn_bij

theorem tokEquiv_val (c : Fin 2) (i : Fin 16) (b : Fin 2) : (tokEquiv ((c, i), b)).val = 2 * (2 * i.val + c.val) + b.val := rfl

end Cert.Proof.KB

end
-- ==== Proof.KBLaunchDeal.lean ====
/-
  The dealing, as equations and entailments between assertions: the 64 read shares of the transposed clip are the two
  shares of each of the 32 subcores, the flat result whole is the 32 · 21 · 16 row pieces, so the transposed clip's shares
  with the result whole are what the two SparseCores are handed, and what they hand back are the shares with the result
  whole again.
-/
import proofs.«216812_g82557861364368_cont_9to1c4b_466_28_alg».proof.Proof.KBLaunchPay
import proofs.«216812_g82557861364368_cont_9to1c4b_466_28_alg».proof.Proof.KBLaunchArith

noncomputable section

namespace Cert.Proof.KB

open Cert.Kernel Cert.Kernel.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (m : (ℓ : Loc nD τ sig) → Buf (Elt F) ℓ)

/-- What the subcore at `L` holds: its two read shares of the transposed clip, and its pieces of the result at `f`. -/
def tileRes (d : Dev nD) (L : grid0.Coords) (f : Buf (Elt F) (oLoc d)) : sProp 𝕄 :=
  iprop((xtLoc d ↦{shA L} XT m d) ∗ (xtLoc d ↦{shB L} XT m d) ∗ pieces d L f)

theorem tileGo_eq (d : Dev nD) (L : grid0.Coords) : tileGo m d L = tileRes m d L (m (oLoc d)) := rfl
theorem tileTd_eq (d : Dev nD) (L : grid0.Coords) : tileTd m d L = tileRes m d L (OUT m d) := rfl

omit [FloatOps F] in
/-- The 64 read shares, by subcore. -/
theorem toks_deal (d : Dev nD) (X : Buf (Elt F) (xtLoc d)) :
    (bigSep Finset.univ fun k : Fin 64 => (xtLoc d ↦{Transfers.shareTok fullShare 64 k} X : sProp 𝕄))
      = bigSep Finset.univ fun c : Fin 2 => bigSep Finset.univ fun i : Fin 16 =>
          iprop((xtLoc d ↦{shA (coordsV c i)} X) ∗ (xtLoc d ↦{shB (coordsV c i)} X)) := by
  rw [bigSep_univ_equiv tokEquiv, bigSep_univ_prod, bigSep_univ_prod]
  refine bigSep_congr fun c _ => bigSep_congr fun i _ => ?_
  rw [bigSep_univ_two]
  rfl

omit [FloatOps F] in
/-- The flat result whole is its 672 · 16 row pieces, -/
theorem oPts_pieces (d : Dev nD) (f : Buf (Elt F) (oLoc d)) :
    (oLoc d ↦{fullShare} f : sProp 𝕄) = bigSep Finset.univ fun x : Fin 672 × Fin 16 => oLoc d ↦[pieceOf x]{fullShare} f := by
  rw [← pointsTo_biUnion Finset.univ (ℓ := oLoc d) pieceOf pieces_disjoint, pieces_cover]; try rfl

omit [FloatOps F] in
/-- by subcore. -/
theorem pieces_deal (d : Dev nD) (f : Buf (Elt F) (oLoc d)) :
    (oLoc d ↦{fullShare} f : sProp 𝕄) = bigSep Finset.univ fun c : Fin 2 => bigSep Finset.univ fun i : Fin 16 => pieces d (coordsV c i) f := by
  rw [oPts_pieces, bigSep_univ_prod, bigSep_univ_equiv slabEquiv, bigSep_univ_prod, bigSep_univ_prod]
  rfl

/-- The shares and the result whole, dealt to the 32 subcores; -/
theorem deal_go (d : Dev nD) (f : Buf (Elt F) (oLoc d)) :
    iprop((bigSep Finset.univ fun k : Fin 64 => (xtLoc d ↦{Transfers.shareTok fullShare 64 k} XT m d)) ∗ oLoc d ↦{fullShare} f)
      ⊢ (bigSep Finset.univ fun c : Fin 2 => bigSep Finset.univ fun i : Fin 16 => tileRes m d (coordsV c i) f : sProp 𝕄) := by
  rw [toks_deal, pieces_deal d f]
  unfold tileRes
  simp only [bigSep_sep']
  iintro ⟨⟨HA, HB⟩, HP⟩
  isplitl [HA]; · iexact HA
  isplitl [HB]; · iexact HB
  iexact HP

/-- and collected from them. -/
theorem deal_td (d : Dev nD) (f : Buf (Elt F) (oLoc d)) :
    (bigSep Finset.univ fun c : Fin 2 => bigSep Finset.univ fun i : Fin 16 => tileRes m d (coordsV c i) f : sProp 𝕄)
      ⊢ iprop((bigSep Finset.univ fun k : Fin 64 => (xtLoc d ↦{Transfers.shareTok fullShare 64 k} XT m d)) ∗ oLoc d ↦{fullShare} f) := by
  rw [toks_deal, pieces_deal d f]
  unfold tileRes
  simp only [bigSep_sep']
  iintro ⟨HA, HB, HP⟩
  isplitl [HA HB]
  · isplitl [HA]; · iexact HA
    iexact HB
  iexact HP

omit [FloatOps F] in
theorem coordsK_eq (c : Fin 2) (i : Fin 16) : coordsK (F := F) c i = coordsV c i := rfl

/-- What the call takes for the two SparseCores, and what it hands back. -/
theorem st0_eq (d : Dev nD) :
    (bigSep Finset.univ fun c : Fin ((K (F := F)).nCore 0) => (P m).st 0 d c)
      = bigSep Finset.univ fun c : Fin 2 => bigSep Finset.univ fun i : Fin 16 => tileRes m d (coordsV c i) (m (oLoc d)) := by
  show (bigSep (Finset.univ : Finset (Fin 2)) fun c => coreGo m d c) = _
  refine bigSep_congr fun c _ => ?_
  unfold coreGo
  show (bigSep (Finset.univ : Finset (Fin 16)) fun i => tileGo m d (coordsK c i)) = _
  refine bigSep_congr fun i _ => ?_
  rw [tileGo_eq, coordsK_eq]
theorem dn0_eq (d : Dev nD) :
    (bigSep Finset.univ fun c : Fin ((K (F := F)).nCore 0) => (P m).dn 0 d c)
      = bigSep Finset.univ fun c : Fin 2 => bigSep Finset.univ fun i : Fin 16 => tileRes m d (coordsV c i) (OUT m d) := by
  show (bigSep (Finset.univ : Finset (Fin 2)) fun c => coreTd m d c) = _
  refine bigSep_congr fun c _ => ?_
  unfold coreTd
  show (bigSep (Finset.univ : Finset (Fin 16)) fun i => tileTd m d (coordsK c i)) = _
  refine bigSep_congr fun i _ => ?_
  rw [tileTd_eq, coordsK_eq]

end Cert.Proof.KB

end
-- ==== Proof.KBLaunchRes.lean ====
/-
  The reshaped result, and what it is as a function of the clip: the row-major reshape to [3, 16, 224, 224] of the flat
  result, itself read off the transposed clip, is the clip at (channel, frame 33 + 4 · sample, row, column). Index
  arithmetic only.
-/
import proofs.«216812_g82557861364368_cont_9to1c4b_466_28_alg».proof.Proof.KBPay
import Idealize.ShloMosaic.Lib.Pipeline.Value

noncomputable section

namespace Cert.Proof.KB

open Cert.Kernel Cert.Kernel.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (m : (ℓ : Loc nD τ sig) → Buf (Elt F) ℓ)

/-- the reshaped result -/
def RES (d : Dev nD) : Buf (Elt F) (rLoc d) :=
  (shapeCast S3x16x224x224 (OUT m d : (⟨S2408448, .f32⟩ : BufTy).Contents (Elt F)) shapeCasts_S2408448_S3x16x224x224 :
    (⟨S3x16x224x224, .f32⟩ : BufTy).Contents (Elt F))

/-- The word of the flat result that element `i` of the reshaped result is: its row-major position. -/
def flatIdx (i : S3x16x224x224.Idx) : S2408448.Idx :=
  ix1 (n := 2408448) ⟨802816 * (i 0).val + 50176 * (i 1).val + 224 * (i 2).val + (i 3).val, by
    have h0 : (i 0).val < 3 := (i 0).isLt
    have h1 : (i 1).val < 16 := (i 1).isLt
    have h2 : (i 2).val < 224 := (i 2).isLt
    have h3 : (i 3).val < 224 := (i 3).isLt
    omega⟩

theorem flatIdx_rowMajor (i : S3x16x224x224.Idx) : (S2408448.rowMajor (flatIdx i)).val = (S3x16x224x224.rowMajor i).val := by
  rw [Shape.rowMajor_val_one, Shape.rowMajor_val_four]
  show 802816 * (i 0).val + 50176 * (i 1).val + 224 * (i 2).val + (i 3).val = (((i 0).val * 16 + (i 1).val) * 224 + (i 2).val) * 224 + (i 3).val
  omega

/-- The reshaped result at `i` is the flat result at `i`'s row-major position. -/
theorem RES_apply (d : Dev nD) (i : S3x16x224x224.Idx) : (RES m d : S3x16x224x224.Idx → Elt F .f32) i = (OUT m d : S2408448.Idx → Elt F .f32) (flatIdx i) := by
  unfold RES
  exact shapeCast_apply _ _ i (flatIdx i) (flatIdx_rowMajor i)

/-- The flat result at the row-major position of `[c, j, h, w]` is the transposed clip at `[c, h, w, 33 + 4 j]`. -/
theorem OUT_flat (d : Dev nD) (i : S3x16x224x224.Idx) :
    (OUT m d : S2408448.Idx → Elt F .f32) (flatIdx i)
      = (XT m d : S3x224x224x128.Idx → Elt F .f32) (ix4 (n0 := 3) (n1 := 224) (n2 := 224) (n3 := 128) (i 0) (i 2) (i 3) (Cert.Proof.Spec.frame (i 1))) := by
  have h0 : (i 0).val < 3 := (i 0).isLt
  have h1 : (i 1).val < 16 := (i 1).isLt
  have h2 : (i 2).val < 224 := (i 2).isLt
  have h3 : (i 3).val < 224 := (i 3).isLt
  unfold OUT outSpec
  refine congrArg (XT m d : S3x224x224x128.Idx → Elt F .f32) ?_
  funext a
  match a with
  | ⟨0, _⟩ => exact Fin.ext (show (802816 * (i 0).val + 50176 * (i 1).val + 224 * (i 2).val + (i 3).val) / 802816 = (i 0).val by omega)
  | ⟨1, _⟩ => exact Fin.ext (show (802816 * (i 0).val + 50176 * (i 1).val + 224 * (i 2).val + (i 3).val) % 50176 / 224 = (i 2).val by omega)
  | ⟨2, _⟩ => exact Fin.ext (show (802816 * (i 0).val + 50176 * (i 1).val + 224 * (i 2).val + (i 3).val) % 224 = (i 3).val by omega)
  | ⟨3, _⟩ => exact Fin.ext (show 33 + 4 * ((802816 * (i 0).val + 50176 * (i 1).val + 224 * (i 2).val + (i 3).val) % 802816 / 50176) = 33 + 4 * (i 1).val by omega)

/-- The transposed clip at `[c, h, w, f]` is the clip at `[c, f, h, w]`. -/
theorem XT_apply (d : Dev nD) (c : Fin 3) (h w : Fin 224) (f : Fin 128) :
    (XT m d : S3x224x224x128.Idx → Elt F .f32) (ix4 (n0 := 3) (n1 := 224) (n2 := 224) (n3 := 128) c h w f)
      = (m (xLoc d) : S3x128x224x224.Idx → Elt F .f32) (ix4 (n0 := 3) (n1 := 128) (n2 := 224) (n3 := 224) c f h w) := by
  unfold XT
  refine transpose_apply _ _ _ _ _ fun b => ?_
  match b with
  | ⟨0, _⟩ => rfl
  | ⟨1, _⟩ => rfl
  | ⟨2, _⟩ => rfl
  | ⟨3, _⟩ => rfl

theorem RES_eq (d : Dev nD) :
    (RES m d : Cert.Proof.Spec.SO.Idx → Elt F .f32) = Cert.Proof.Spec.sampled (m (xLoc d) : Cert.Proof.Spec.SX.Idx → Elt F .f32) := by
  funext i
  exact ((RES_apply m d i).trans (OUT_flat m d i)).trans (XT_apply m d (i 0) (i 2) (i 3) (Cert.Proof.Spec.frame (i 1)))

end Cert.Proof.KB

end
-- ==== Proof.KBLaunch.lean ====
/-
  The run of the idealized kernel's program: @main on the TensorCore — the transpose, the one SparseCore call (the
  transposed clip dealt to the 32 subcores as read shares, the flat result as its 32 · 21 · 16 row pieces; both joined
  again after the call), the reshape — and the launch theorem applied to it and to one subcore's task.
-/
import proofs.«216812_g82557861364368_cont_9to1c4b_466_28_alg».proof.Proof.KBLaunchDeal
import proofs.«216812_g82557861364368_cont_9to1c4b_466_28_alg».proof.Proof.KBLaunchRes

noncomputable section

namespace Cert.Proof.KB

open Cert.Kernel Cert.Kernel.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## The TensorCore's arrays and @main's two host operations -/

abbrev x' : DevRef τ sig := Proc.devRef .tc (main_arg0 : Ref sig .tc)
abbrev xt' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opT : HloOp τ sig (Elt F) :=
  StableHlo.unary main_arg0 main_v0 ((transpose S3x224x224x128 [0, 2, 3, 1] · transposes_S3x128x224x224_S3x224x224x128_0_2_3_1) :
    (⟨S3x128x224x224, .f32⟩ : BufTy).Contents (Elt F) → (⟨S3x224x224x128, .f32⟩ : BufTy).Contents (Elt F))
abbrev opR : HloOp τ sig (Elt F) := StableHlo.reshape main_v1 main_v2 rfl shapeCasts_S2408448_S3x16x224x224

/-- The TensorCore's arrays, all unscoped: the clip, its transpose, the flat result, the reshaped result. -/
abbrev S4 : Finset (DevRef τ sig) := {x', xt', o', r'}

omit [FloatOps F] in
theorem held_S4 (d : Dev nD) (W : Valuation τ sig (Elt F)) :
    (held (T d) S4 W : sProp 𝕄)
      = iprop((xLoc d ↦{fullShare} W x') ∗ (xtLoc d ↦{fullShare} W xt') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (xtLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)
/-- The valuation with the four arrays at given contents. -/
def Vof (d : Dev nD) (a : Buf (Elt F) (xLoc d)) (b : Buf (Elt F) (xtLoc d)) (c : Buf (Elt F) (oLoc d)) (e : Buf (Elt F) (rLoc d)) :
    Valuation τ sig (Elt F) :=
  Function.update (Function.update (Function.update (Function.update (V0 m d) x' a) xt' b) o' c) r' e

theorem unscoped_held (d : Dev nD) : (unscopedBufs d (fun b => m ((SparseCore.T d).loc b)) : sProp 𝕄) = held (T d) S4 (V0 m d) := by
  rw [unscopedBufs_eq, held_S4]; rfl

section
variable (d : Dev nD) (a : Buf (Elt F) (xLoc d)) (b : Buf (Elt F) (xtLoc d)) (c : Buf (Elt F) (oLoc d)) (e : Buf (Elt F) (rLoc d))
theorem Vof_x : Vof m d a b c e x' = a := by
  unfold Vof
  rw [Function.update_of_ne (show x' ≠ r' by decide), Function.update_of_ne (show x' ≠ o' by decide),
    Function.update_of_ne (show x' ≠ xt' by decide), Function.update_self]
theorem Vof_xt : Vof m d a b c e xt' = b := by
  unfold Vof
  rw [Function.update_of_ne (show xt' ≠ r' by decide), Function.update_of_ne (show xt' ≠ o' by decide), Function.update_self]
theorem Vof_o : Vof m d a b c e o' = c := by
  unfold Vof
  rw [Function.update_of_ne (show o' ≠ r' by decide), Function.update_self]
theorem Vof_r : Vof m d a b c e r' = e := by
  unfold Vof
  rw [Function.update_self]
theorem held_Vof :
    (held (T d) S4 (Vof m d a b c e) : sProp 𝕄)
      = iprop((xLoc d ↦{fullShare} a) ∗ (xtLoc d ↦{fullShare} b) ∗ (oLoc d ↦{fullShare} c) ∗ rLoc d ↦{fullShare} e) := by
  rw [held_S4, Vof_x, Vof_xt, Vof_o, Vof_r]
end

theorem hT : (opT (F := F)).bufs ⊆ S4 := show ({x', xt'} : Finset (DevRef τ sig)) ⊆ S4 by decide
theorem hR : (opR (F := F)).bufs ⊆ S4 := show ({o', r'} : Finset (DevRef τ sig)) ⊆ S4 by decide

/-- After the transpose: the transposed clip holds `XT`, the rest what it held. -/
theorem held_T (d : Dev nD) :
    (held (T d) S4 ((opT (F := F)).result (V0 m d)) : sProp 𝕄)
      = iprop((xLoc d ↦{fullShare} m (xLoc d)) ∗ (xtLoc d ↦{fullShare} XT m d) ∗ (oLoc d ↦{fullShare} m (oLoc d)) ∗ rLoc d ↦{fullShare} m (rLoc d)) := by
  rw [held_S4,
    (opT (F := F)).result_of_not_mem (V0 m d) (b := x') (show x' ∉ ({xt'} : Finset (DevRef τ sig)) by decide),
    (opT (F := F)).result_of_not_mem (V0 m d) (b := o') (show o' ∉ ({xt'} : Finset (DevRef τ sig)) by decide),
    (opT (F := F)).result_of_not_mem (V0 m d) (b := r') (show r' ∉ ({xt'} : Finset (DevRef τ sig)) by decide),
    show (opT (F := F)).result (V0 m d) xt' = XT m d from StableHlo.unary_result _ _ _ _ _ _]
  rfl

/-- After the reshape: the reshaped result holds `RES`, the rest what it held. -/
theorem held_R (d : Dev nD) (e : Buf (Elt F) (rLoc d)) :
    (held (T d) S4 ((opR (F := F)).result (Vof m d (m (xLoc d)) (XT m d) (OUT m d) e)) : sProp 𝕄)
      = iprop((xLoc d ↦{fullShare} m (xLoc d)) ∗ (xtLoc d ↦{fullShare} XT m d) ∗ (oLoc d ↦{fullShare} OUT m d) ∗ rLoc d ↦{fullShare} RES m d) := by
  rw [held_S4,
    (opR (F := F)).result_of_not_mem _ (b := x') (show x' ∉ ({r'} : Finset (DevRef τ sig)) by decide),
    (opR (F := F)).result_of_not_mem _ (b := xt') (show xt' ∉ ({r'} : Finset (DevRef τ sig)) by decide),
    (opR (F := F)).result_of_not_mem _ (b := o') (show o' ∉ ({r'} : Finset (DevRef τ sig)) by decide),
    show (opR (F := F)).result (Vof m d (m (xLoc d)) (XT m d) (OUT m d) e) r' = RES m d from
      (StableHlo.reshape_result _ _ _ _ _ _ _).trans (by rw [Vof_o]; rfl),
    Vof_x, Vof_xt, Vof_o]

/-! ## @main on the TensorCore -/

/-- What @main leaves the claim: the clip at its launch contents, the reshaped result. -/
abbrev FIN (d : Dev nD) : sProp 𝕄 := iprop((xLoc d ↦{fullShare} m (xLoc d)) ∗ rLoc d ↦{fullShare} RES m d)

/-- @main on device `d`'s TensorCore: the transpose; the call, the transposed clip's 64 read shares and the flat
    result's pieces dealt to the subcores and collected again; the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose
  iapply (wp_hlo_within 𝒱 (SparseCore.T d) none Set.univ (op := opT) (S := S4) hT (V := V0 m d)) $$ [Hb Hheld]
  · isplitl [Hb]; · iexact Hb
    iexact Hheld
  iintro ⟨Hb, Hheld⟩
  ihave Hh := (Entails.of_eq (held_T (F := F) m d)) $$ Hheld
  icases Hh with ⟨Hx, Hxt, Ho, Hr⟩
  rw [wp_ret]; imodintro
  -- the transposed clip as 64 read shares and a remainder; the flat result as its pieces
  ihave Hs := (Transfers.pointsTo_toks_split fullShare 64) $$ Hxt
  icases Hs with ⟨Hrem, Htoks⟩
  ihave Hgo := (deal_go m d (m (oLoc d))) $$ [Htoks Ho]
  · isplitl [Htoks]; · iexact Htoks
    iexact Ho
  -- the call
  iapply ((K (F := F)).wp_run (D (F := F)) 𝒱 (EH := EH) (P := P m) κ d 0) $$ [Hst Hgo Hb Hx Hr Hrem]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Htd := (deal_td m d (OUT m d)) $$ Hdn'
  icases Htd with ⟨Htoks, Ho⟩
  ihave Hxt := (Transfers.pointsTo_toks_join fullShare 64) $$ [Hrem Htoks]
  · isplitl [Hrem]; · iexact Hrem
    iexact Htoks
  -- the reshape
  iapply (wp_hlo_within 𝒱 (SparseCore.T d) none Set.univ (op := opR) (S := S4) hR (V := Vof m d (m (xLoc d)) (XT m d) (OUT m d) (m (rLoc d)))) $$ [Hb Hx Hxt Ho Hr]
  · isplitl [Hb]; · iexact Hb
    rw [held_Vof]
    isplitl [Hx]; · iexact Hx
    isplitl [Hxt]; · iexact Hxt
    isplitl [Ho]; · iexact Ho
    iexact Hr
  iintro ⟨Hb, Hheld⟩
  ihave Hh := (Entails.of_eq (held_R (F := F) m d _)) $$ Hheld
  icases Hh with ⟨Hx, -, -, Hr⟩
  rw [wp_ret]; imodintro; imodintro
  isplitl [Hst]; · iexact Hst
  isplitl [Hx]; · iexact Hx
  iexact Hr

def fq (d : Dev nD) (s' : Phys nD τ sig (Elt F)) : Prop := s'.mem.mem (rLoc d) = RES m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := rLoc d) (I := Finset.univ) (q := fullShare) (f := RES m d)) $$ [HSI Hr]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop := fun r => ∀ c : Dev nD, r.2.mem (rLoc c) = RES m c ∧ r.2.mem (xLoc c) = m (xLoc c)

theorem run_main [∀ e, Nonempty (Elt F e)] (hbody : TileBodyStmt m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KIOffsets.lean ====
/-
  The kernel's five offset chains in closed form. The chains compute, in 32-bit words, a slab number
  `g = 21 (2 s + c) + (a trip's offset)`, its channel `g / 224` and row `g % 224` (a floor division spelt with its sign
  corrections), and from them either the slab's place in the transposed clip, `[g / 224, g % 224, 0, 0]`, or the first word
  of a row piece of the result, `802816 (g / 224) + 224 (g % 224) + 50176 j`. Every value involved is far below 2^31, so
  the words compute the natural numbers; the grid (2 × 16), the ten trips and the sixteen pieces are finite, and the
  equations are checked case by case.
-/
import proofs.«216812_g82557861364368_cont_9to1c4b_466_28_alg».proof.Proof.KIPay
import Idealize.ShloMosaic.Lib.Decide

namespace Cert.Proof.KI

open Cert.KernelIdeal Cert.KernelIdeal.GenP
open Idealize.ShloMosaic

/-- The worker's first slab, from the grid coordinates. -/
theorem slab_zero (L : grid0.Coords) : slab L 0 = 42 * (L 1).val + 21 * (L 0).val := by unfold slab wid; omega

theorem k0_off1_eq : ∀ i : grid0.Coords,
    k0_off1 i = ![(42 * (i 1).val + 21 * (i 0).val) / 224, (42 * (i 1).val + 21 * (i 0).val) % 224, 0, 0] := by decide +kernel

theorem k0_off2_eq : ∀ (i : grid0.Coords) (k : Fin k0_t1_loop.trips) (r : Fin 2),
    k0_off2 i k (BitVec.ofNat 32 (1 + r.val))
      = ![(42 * (i 1).val + 21 * (i 0).val + 2 * k.val + 1 + r.val) / 224, (42 * (i 1).val + 21 * (i 0).val + 2 * k.val + 1 + r.val) % 224, 0, 0] := by
  decide +kernel

theorem k0_off3_eq : ∀ (i : grid0.Coords) (k : Fin k0_t1_loop.trips) (r : Fin 16),
    k0_off3 i k (BitVec.ofNat 32 (50176 * r.val)) = ![off (42 * (i 1).val + 21 * (i 0).val + 2 * k.val) r.val] := by
  decide +kernel

theorem k0_off4_eq : ∀ (i : grid0.Coords) (k : Fin k0_t1_loop.trips) (r : Fin 16),
    k0_off4 i k (BitVec.ofNat 32 (50176 * r.val)) = ![off (42 * (i 1).val + 21 * (i 0).val + 2 * k.val + 1) r.val] := by
  decide +kernel

theorem k0_off5_eq : ∀ (i : grid0.Coords) (r : Fin 16),
    k0_off5 i (BitVec.ofNat 32 (50176 * r.val)) = ![off (42 * (i 1).val + 21 * (i 0).val + 20) r.val] := by
  decide +kernel

end Cert.Proof.KI
-- ==== Proof.KIChk.lean ====
/-
  The indices of every indexed load and store of the three transposition loops are in range, for every pass: lane l of a
  load names column 16 w + l < 224 and frame 33 + 4 ((n + l) % 16) < 128 of the slab, lane l of a store names word
  224 ((n + l) % 16) + 16 w + l < 3584 of the staging buffer (w < 14 the group of sixteen columns, n < 16 the pass). The index
  vectors are closed terms of the pass number, so each statement is checked over the sixteen passes by evaluation.
-/
import proofs.«216812_g82557861364368_cont_9to1c4b_466_28_alg».proof.Proof.KIPay
import Idealize.ShloMosaic.Lib.Decide

namespace Cert.Proof.KI

open Cert.KernelIdeal Cert.KernelIdeal.GenP
open Idealize.ShloMosaic

/-- The lane numbers 0 … 15. -/
abbrev iotaV : IVec S16 32 := iota .scVector S16 32 [0] iota_S16_d0_w32_scVector

theorem chk_1 : ∀ kk : Fin k0_t2_loop.trips, k0_chk1 (k0_pay2 iotaV 0#32 1#32 kk) (k0_pay4 iotaV) := by decide +kernel
theorem chk_2 : ∀ kk : Fin k0_t2_loop.trips, k0_chk2 (addi (k0_pay3 iotaV 0#32 1#32 kk) (k0_pay4 iotaV)) := by decide +kernel
theorem chk_3 : ∀ kk : Fin k0_t2_loop.trips, k0_chk3 (k0_pay2 iotaV 0#32 1#32 kk) (k0_pay5 iotaV) := by decide +kernel
theorem chk_4 : ∀ kk : Fin k0_t2_loop.trips, k0_chk4 (addi (k0_pay3 iotaV 0#32 1#32 kk) (k0_pay5 iotaV)) := by decide +kernel
theorem chk_5 : ∀ kk : Fin k0_t2_loop.trips, k0_chk5 (k0_pay2 iotaV 0#32 1#32 kk) (k0_pay6 iotaV) := by decide +kernel
theorem chk_6 : ∀ kk : Fin k0_t2_loop.trips, k0_chk6 (addi (k0_pay3 iotaV 0#32 1#32 kk) (k0_pay6 iotaV)) := by decide +kernel
theorem chk_7 : ∀ kk : Fin k0_t2_loop.trips, k0_chk7 (k0_pay2 iotaV 0#32 1#32 kk) (k0_pay7 iotaV) := by decide +kernel
theorem chk_8 : ∀ kk : Fin k0_t2_loop.trips, k0_chk8 (addi (k0_pay3 iotaV 0#32 1#32 kk) (k0_pay7 iotaV)) := by decide +kernel
theorem chk_9 : ∀ kk : Fin k0_t2_loop.trips, k0_chk9 (k0_pay2 iotaV 0#32 1#32 kk) (k0_pay8 iotaV) := by decide +kernel
theorem chk_10 : ∀ kk : Fin k0_t2_loop.trips, k0_chk10 (addi (k0_pay3 iotaV 0#32 1#32 kk) (k0_pay8 iotaV)) := by decide +kernel
theorem chk_11 : ∀ kk : Fin k0_t2_loop.trips, k0_chk11 (k0_pay2 iotaV 0#32 1#32 kk) (k0_pay9 iotaV) := by decide +kernel
theorem chk_12 : ∀ kk : Fin k0_t2_loop.trips, k0_chk12 (addi (k0_pay3 iotaV 0#32 1#32 kk) (k0_pay9 iotaV)) := by decide +kernel
theorem chk_13 : ∀ kk : Fin k0_t2_loop.trips, k0_chk13 (k0_pay2 iotaV 0#32 1#32 kk) (k0_pay10 iotaV) := by decide +kernel
theorem chk_14 : ∀ kk : Fin k0_t2_loop.trips, k0_chk14 (addi (k0_pay3 iotaV 0#32 1#32 kk) (k0_pay10 iotaV)) := by decide +kernel
theorem chk_15 : ∀ kk : Fin k0_t2_loop.trips, k0_chk15 (k0_pay2 iotaV 0#32 1#32 kk) (k0_pay11 iotaV) := by decide +kernel
theorem chk_16 : ∀ kk : Fin k0_t2_loop.trips, k0_chk16 (addi (k0_pay3 iotaV 0#32 1#32 kk) (k0_pay11 iotaV)) := by decide +kernel
theorem chk_17 : ∀ kk : Fin k0_t2_loop.trips, k0_chk17 (k0_pay2 iotaV 0#32 1#32 kk) (k0_pay12 iotaV) := by decide +kernel
theorem chk_18 : ∀ kk : Fin k0_t2_loop.trips, k0_chk18 (addi (k0_pay3 iotaV 0#32 1#32 kk) (k0_pay12 iotaV)) := by decide +kernel
theorem chk_19 : ∀ kk : Fin k0_t2_loop.trips, k0_chk19 (k0_pay2 iotaV 0#32 1#32 kk) (k0_pay13 iotaV) := by decide +kernel
theorem chk_20 : ∀ kk : Fin k0_t2_loop.trips, k0_chk20 (addi (k0_pay3 iotaV 0#32 1#32 kk) (k0_pay13 iotaV)) := by decide +kernel
theorem chk_21 : ∀ kk : Fin k0_t2_loop.trips, k0_chk21 (k0_pay2 iotaV 0#32 1#32 kk) (k0_pay14 iotaV) := by decide +kernel
theorem chk_22 : ∀ kk : Fin k0_t2_loop.trips, k0_chk22 (addi (k0_pay3 iotaV 0#32 1#32 kk) (k0_pay14 iotaV)) := by decide +kernel
theorem chk_23 : ∀ kk : Fin k0_t2_loop.trips, k0_chk23 (k0_pay2 iotaV 0#32 1#32 kk) (k0_pay15 iotaV) := by decide +kernel
theorem chk_24 : ∀ kk : Fin k0_t2_loop.trips, k0_chk24 (addi (k0_pay3 iotaV 0#32 1#32 kk) (k0_pay15 iotaV)) := by decide +kernel
theorem chk_25 : ∀ kk : Fin k0_t2_loop.trips, k0_chk25 (k0_pay2 iotaV 0#32 1#32 kk) (k0_pay16 iotaV) := by decide +kernel
theorem chk_26 : ∀ kk : Fin k0_t2_loop.trips, k0_chk26 (addi (k0_pay3 iotaV 0#32 1#32 kk) (k0_pay16 iotaV)) := by decide +kernel
theorem chk_27 : ∀ kk : Fin k0_t2_loop.trips, k0_chk27 (k0_pay2 iotaV 0#32 1#32 kk) (k0_pay33 iotaV 208#32) := by decide +kernel
theorem chk_28 : ∀ kk : Fin k0_t2_loop.trips, k0_chk28 (addi (k0_pay3 iotaV 0#32 1#32 kk) (k0_pay33 iotaV 208#32)) := by decide +kernel
theorem chk_29 : ∀ kk : Fin k0_t3_loop.trips, k0_chk29 (k0_pay18 iotaV 0#32 1#32 kk) (k0_pay20 iotaV) := by decide +kernel
theorem chk_30 : ∀ kk : Fin k0_t3_loop.trips, k0_chk30 (addi (k0_pay19 iotaV 0#32 1#32 kk) (k0_pay20 iotaV)) := by decide +kernel
theorem chk_31 : ∀ kk : Fin k0_t3_loop.trips, k0_chk31 (k0_pay18 iotaV 0#32 1#32 kk) (k0_pay21 iotaV) := by decide +kernel
theorem chk_32 : ∀ kk : Fin k0_t3_loop.trips, k0_chk32 (addi (k0_pay19 iotaV 0#32 1#32 kk) (k0_pay21 iotaV)) := by decide +kernel
theorem chk_33 : ∀ kk : Fin k0_t3_loop.trips, k0_chk33 (k0_pay18 iotaV 0#32 1#32 kk) (k0_pay22 iotaV) := by decide +kernel
theorem chk_34 : ∀ kk : Fin k0_t3_loop.trips, k0_chk34 (addi (k0_pay19 iotaV 0#32 1#32 kk) (k0_pay22 iotaV)) := by decide +kernel
theorem chk_35 : ∀ kk : Fin k0_t3_loop.trips, k0_chk35 (k0_pay18 iotaV 0#32 1#32 kk) (k0_pay23 iotaV) := by decide +kernel
theorem chk_36 : ∀ kk : Fin k0_t3_loop.trips, k0_chk36 (addi (k0_pay19 iotaV 0#32 1#32 kk) (k0_pay23 iotaV)) := by decide +kernel
theorem chk_37 : ∀ kk : Fin k0_t3_loop.trips, k0_chk37 (k0_pay18 iotaV 0#32 1#32 kk) (k0_pay24 iotaV) := by decide +kernel
theorem chk_38 : ∀ kk : Fin k0_t3_loop.trips, k0_chk38 (addi (k0_pay19 iotaV 0#32 1#32 kk) (k0_pay24 iotaV)) := by decide +kernel
theorem chk_39 : ∀ kk : Fin k0_t3_loop.trips, k0_chk39 (k0_pay18 iotaV 0#32 1#32 kk) (k0_pay25 iotaV) := by decide +kernel
theorem chk_40 : ∀ kk : Fin k0_t3_loop.trips, k0_chk40 (addi (k0_pay19 iotaV 0#32 1#32 kk) (k0_pay25 iotaV)) := by decide +kernel
theorem chk_41 : ∀ kk : Fin k0_t3_loop.trips, k0_chk41 (k0_pay18 iotaV 0#32 1#32 kk) (k0_pay26 iotaV) := by decide +kernel
theorem chk_42 : ∀ kk : Fin k0_t3_loop.trips, k0_chk42 (addi (k0_pay19 iotaV 0#32 1#32 kk) (k0_pay26 iotaV)) := by decide +kernel
theorem chk_43 : ∀ kk : Fin k0_t3_loop.trips, k0_chk43 (k0_pay18 iotaV 0#32 1#32 kk) (k0_pay27 iotaV) := by decide +kernel
theorem chk_44 : ∀ kk : Fin k0_t3_loop.trips, k0_chk44 (addi (k0_pay19 iotaV 0#32 1#32 kk) (k0_pay27 iotaV)) := by decide +kernel
theorem chk_45 : ∀ kk : Fin k0_t3_loop.trips, k0_chk45 (k0_pay18 iotaV 0#32 1#32 kk) (k0_pay28 iotaV) := by decide +kernel
theorem chk_46 : ∀ kk : Fin k0_t3_loop.trips, k0_chk46 (addi (k0_pay19 iotaV 0#32 1#32 kk) (k0_pay28 iotaV)) := by decide +kernel
theorem chk_47 : ∀ kk : Fin k0_t3_loop.trips, k0_chk47 (k0_pay18 iotaV 0#32 1#32 kk) (k0_pay29 iotaV) := by decide +kernel
theorem chk_48 : ∀ kk : Fin k0_t3_loop.trips, k0_chk48 (addi (k0_pay19 iotaV 0#32 1#32 kk) (k0_pay29 iotaV)) := by decide +kernel
theorem chk_49 : ∀ kk : Fin k0_t3_loop.trips, k0_chk49 (k0_pay18 iotaV 0#32 1#32 kk) (k0_pay30 iotaV) := by decide +kernel
theorem chk_50 : ∀ kk : Fin k0_t3_loop.trips, k0_chk50 (addi (k0_pay19 iotaV 0#32 1#32 kk) (k0_pay30 iotaV)) := by decide +kernel
theorem chk_51 : ∀ kk : Fin k0_t3_loop.trips, k0_chk51 (k0_pay18 iotaV 0#32 1#32 kk) (k0_pay31 iotaV) := by decide +kernel
theorem chk_52 : ∀ kk : Fin k0_t3_loop.trips, k0_chk52 (addi (k0_pay19 iotaV 0#32 1#32 kk) (k0_pay31 iotaV)) := by decide +kernel
theorem chk_53 : ∀ kk : Fin k0_t3_loop.trips, k0_chk53 (k0_pay18 iotaV 0#32 1#32 kk) (k0_pay32 iotaV) := by decide +kernel
theorem chk_54 : ∀ kk : Fin k0_t3_loop.trips, k0_chk54 (addi (k0_pay19 iotaV 0#32 1#32 kk) (k0_pay32 iotaV)) := by decide +kernel
theorem chk_55 : ∀ kk : Fin k0_t3_loop.trips, k0_chk55 (k0_pay18 iotaV 0#32 1#32 kk) (k0_pay34 208#32) := by decide +kernel
theorem chk_56 : ∀ kk : Fin k0_t3_loop.trips, k0_chk56 (addi (k0_pay19 iotaV 0#32 1#32 kk) (k0_pay34 208#32)) := by decide +kernel
theorem chk_57 : ∀ kk : Fin k0_t4_loop.trips, k0_chk57 (k0_pay36 iotaV 0#32 1#32 kk) (k0_pay38 iotaV) := by decide +kernel
theorem chk_58 : ∀ kk : Fin k0_t4_loop.trips, k0_chk58 (addi (k0_pay37 iotaV 0#32 1#32 kk) (k0_pay38 iotaV)) := by decide +kernel
theorem chk_59 : ∀ kk : Fin k0_t4_loop.trips, k0_chk59 (k0_pay36 iotaV 0#32 1#32 kk) (k0_pay39 iotaV) := by decide +kernel
theorem chk_60 : ∀ kk : Fin k0_t4_loop.trips, k0_chk60 (addi (k0_pay37 iotaV 0#32 1#32 kk) (k0_pay39 iotaV)) := by decide +kernel
theorem chk_61 : ∀ kk : Fin k0_t4_loop.trips, k0_chk61 (k0_pay36 iotaV 0#32 1#32 kk) (k0_pay40 iotaV) := by decide +kernel
theorem chk_62 : ∀ kk : Fin k0_t4_loop.trips, k0_chk62 (addi (k0_pay37 iotaV 0#32 1#32 kk) (k0_pay40 iotaV)) := by decide +kernel
theorem chk_63 : ∀ kk : Fin k0_t4_loop.trips, k0_chk63 (k0_pay36 iotaV 0#32 1#32 kk) (k0_pay41 iotaV) := by decide +kernel
theorem chk_64 : ∀ kk : Fin k0_t4_loop.trips, k0_chk64 (addi (k0_pay37 iotaV 0#32 1#32 kk) (k0_pay41 iotaV)) := by decide +kernel
theorem chk_65 : ∀ kk : Fin k0_t4_loop.trips, k0_chk65 (k0_pay36 iotaV 0#32 1#32 kk) (k0_pay42 iotaV) := by decide +kernel
theorem chk_66 : ∀ kk : Fin k0_t4_loop.trips, k0_chk66 (addi (k0_pay37 iotaV 0#32 1#32 kk) (k0_pay42 iotaV)) := by decide +kernel
theorem chk_67 : ∀ kk : Fin k0_t4_loop.trips, k0_chk67 (k0_pay36 iotaV 0#32 1#32 kk) (k0_pay43 iotaV) := by decide +kernel
theorem chk_68 : ∀ kk : Fin k0_t4_loop.trips, k0_chk68 (addi (k0_pay37 iotaV 0#32 1#32 kk) (k0_pay43 iotaV)) := by decide +kernel
theorem chk_69 : ∀ kk : Fin k0_t4_loop.trips, k0_chk69 (k0_pay36 iotaV 0#32 1#32 kk) (k0_pay44 iotaV) := by decide +kernel
theorem chk_70 : ∀ kk : Fin k0_t4_loop.trips, k0_chk70 (addi (k0_pay37 iotaV 0#32 1#32 kk) (k0_pay44 iotaV)) := by decide +kernel
theorem chk_71 : ∀ kk : Fin k0_t4_loop.trips, k0_chk71 (k0_pay36 iotaV 0#32 1#32 kk) (k0_pay45 iotaV) := by decide +kernel
theorem chk_72 : ∀ kk : Fin k0_t4_loop.trips, k0_chk72 (addi (k0_pay37 iotaV 0#32 1#32 kk) (k0_pay45 iotaV)) := by decide +kernel
theorem chk_73 : ∀ kk : Fin k0_t4_loop.trips, k0_chk73 (k0_pay36 iotaV 0#32 1#32 kk) (k0_pay46 iotaV) := by decide +kernel
theorem chk_74 : ∀ kk : Fin k0_t4_loop.trips, k0_chk74 (addi (k0_pay37 iotaV 0#32 1#32 kk) (k0_pay46 iotaV)) := by decide +kernel
theorem chk_75 : ∀ kk : Fin k0_t4_loop.trips, k0_chk75 (k0_pay36 iotaV 0#32 1#32 kk) (k0_pay47 iotaV) := by decide +kernel
theorem chk_76 : ∀ kk : Fin k0_t4_loop.trips, k0_chk76 (addi (k0_pay37 iotaV 0#32 1#32 kk) (k0_pay47 iotaV)) := by decide +kernel
theorem chk_77 : ∀ kk : Fin k0_t4_loop.trips, k0_chk77 (k0_pay36 iotaV 0#32 1#32 kk) (k0_pay48 iotaV) := by decide +kernel
theorem chk_78 : ∀ kk : Fin k0_t4_loop.trips, k0_chk78 (addi (k0_pay37 iotaV 0#32 1#32 kk) (k0_pay48 iotaV)) := by decide +kernel
theorem chk_79 : ∀ kk : Fin k0_t4_loop.trips, k0_chk79 (k0_pay36 iotaV 0#32 1#32 kk) (k0_pay49 iotaV) := by decide +kernel
theorem chk_80 : ∀ kk : Fin k0_t4_loop.trips, k0_chk80 (addi (k0_pay37 iotaV 0#32 1#32 kk) (k0_pay49 iotaV)) := by decide +kernel
theorem chk_81 : ∀ kk : Fin k0_t4_loop.trips, k0_chk81 (k0_pay36 iotaV 0#32 1#32 kk) (k0_pay50 iotaV) := by decide +kernel
theorem chk_82 : ∀ kk : Fin k0_t4_loop.trips, k0_chk82 (addi (k0_pay37 iotaV 0#32 1#32 kk) (k0_pay50 iotaV)) := by decide +kernel
theorem chk_83 : ∀ kk : Fin k0_t4_loop.trips, k0_chk83 (k0_pay36 iotaV 0#32 1#32 kk) (k0_pay51 208#32) := by decide +kernel
theorem chk_84 : ∀ kk : Fin k0_t4_loop.trips, k0_chk84 (addi (k0_pay37 iotaV 0#32 1#32 kk) (k0_pay51 208#32)) := by decide +kernel

end Cert.Proof.KI
-- ==== Proof.KITr.lean ====
/-
  The frame-major transpose of a slab's sixteen sampled frames, and its partial forms.

  A slab `B` is 224 columns × 128 frames; the staging buffer has 16 · 224 words, word `224 j + r` for sample `j` and
  column `r`. `tr B` puts `B[r, 33 + 4 j]` there. The kernel fills the staging buffer in sixteen passes, pass `n` writing
  the words with `j - r ≡ n (mod 16)` (sixteen lanes each take a different sample, so that no two lanes hit one bank):
  `passOf z` is the pass that writes word `z`, `trAcc B f n` the buffer after passes `0 … n - 1` started from `f`.
-/
import proofs.«216812_g82557861364368_cont_9to1c4b_466_28_alg».proof.Proof.KIChk

noncomputable section

namespace Cert.Proof.KI

open Cert.KernelIdeal Cert.KernelIdeal.GenP
open Idealize.ShloMosaic Idealize.ShloMosaic.ValueIdx

variable {F : FTy → Type} [FloatOps F]

/-- Staging word `z` is written in pass `((z / 224) - (z % 16)) mod 16`. -/
def passOf (z : S3584.Idx) : ℕ := ((z 0).val / 224 + 16 - (z 0).val % 16) % 16

/-- The frame-major transpose of the sixteen sampled frames of a slab: word `224 j + r` is `B[r, 33 + 4 j]`. -/
def tr (B : Vec F S224x128 .f32) : Vec F S3584 .f32 := fun z =>
  B (ix2 (n0 := 224) (n1 := 128) ⟨(z 0).val % 224, Nat.mod_lt _ (by omega)⟩
    ⟨33 + 4 * ((z 0).val / 224), by have := (z 0).isLt; change (z 0).val < 3584 at this; omega⟩)

/-- The staging buffer after passes `0 … n - 1`, started from `f`. -/
def trAcc (B : Vec F S224x128 .f32) (f : Vec F S3584 .f32) (n : ℕ) : Vec F S3584 .f32 :=
  fun z => if passOf z < n then tr B z else f z

end Cert.Proof.KI

end
-- ==== Proof.KIViewDefs.lean ====
/-
  The memrefs the kernel's copies name, spelt as the program spells them (through its own offset chains), and the slab a
  worker fetches as a function of the transposed clip.

  A fetch reads slab `g` of `xt` — the [1, 1, 224, 128] box at `[g / 224, g % 224, 0, 0]`, squeezed to 224 × 128 — into a
  slab buffer; a write-out copies row `j` of a staging buffer (words `224 j … 224 j + 223`) to row piece `j` of its slab in the
  flat result. The first fetch's offsets are the chain `k0_off1`, the loop's two fetches' `k0_off2` (at the literals 1 and
  2: the next slab and the one after), the write-outs' `k0_off3` (first slot), `k0_off4` (second slot) and `k0_off5` (the last
  slab, after the loop), at the literals `50176 j`.
-/
import proofs.«216812_g82557861364368_cont_9to1c4b_466_28_alg».proof.Proof.KIOffsets
import proofs.«216812_g82557861364368_cont_9to1c4b_466_28_alg».proof.Proof.KITr

noncomputable section

namespace Cert.Proof.KI

open Cert.KernelIdeal Cert.KernelIdeal.GenP
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-- Slab `g` of the transposed clip: column `r`, frame `t` ↦ `xt[g / 224, g % 224, r, t]`. -/
def slabC {α : Type} (X : S3x224x224x128.Idx → α) (g : ℕ) : S224x128.Idx → α := fun y =>
  X (ix4 (n0 := 3) (n1 := 224) (n2 := 224) (n3 := 128) ⟨g / 224 % 3, Nat.mod_lt _ (by omega)⟩ ⟨g % 224, Nat.mod_lt _ (by omega)⟩ (y 0) (y 1))

/-- The first fetch's source. -/
abbrev slabM1 (L : grid0.Coords) : Memref sig .scVector .hbm S224x128 .f32 :=
  ((Memref.whole main_v0_scv : Memref sig .scVector .hbm S3x224x224x128 .f32).slice
    (Rect.unit (s := S3x224x224x128) (k0_off1 L) S1x1x224x128.size (k0_off1_inb L)) (fun _ => rfl)).squeeze S224x128 squeezes_S1x1x224x128_S224x128

/-- The loop's fetches' sources: `r = 0` the next slab (`2 k + 1`), `r = 1` the one after (`2 k + 2`). -/
abbrev slabM2 (L : grid0.Coords) (k : Fin k0_t1_loop.trips) (r : Fin 2) : Memref sig .scVector .hbm S224x128 .f32 :=
  ((Memref.whole main_v0_scv : Memref sig .scVector .hbm S3x224x224x128 .f32).slice
    (Rect.unit (s := S3x224x224x128) (k0_off2 L k (BitVec.ofNat 32 (1 + r.val))) S1x1x224x128.size (k0_off2_inb L k r)) (fun _ => rfl)).squeeze S224x128 squeezes_S1x1x224x128_S224x128

/-- The write-outs' destinations: piece `j` of slab `2 k` (first slot), of slab `2 k + 1` (second slot), of slab 20 (after the loop). -/
abbrev dstM3 (L : grid0.Coords) (k : Fin k0_t1_loop.trips) (j : Fin 16) : Memref sig .scVector .hbm S224 .f32 :=
  (Memref.whole main_v1_scv : Memref sig .scVector .hbm S2408448 .f32).slice
    (Rect.unit (s := S2408448) (k0_off3 L k (BitVec.ofNat 32 (50176 * j.val))) S224.size (k0_off3_inb L k j)) (fun _ => rfl)
abbrev dstM4 (L : grid0.Coords) (k : Fin k0_t1_loop.trips) (j : Fin 16) : Memref sig .scVector .hbm S224 .f32 :=
  (Memref.whole main_v1_scv : Memref sig .scVector .hbm S2408448 .f32).slice
    (Rect.unit (s := S2408448) (k0_off4 L k (BitVec.ofNat 32 (50176 * j.val))) S224.size (k0_off4_inb L k j)) (fun _ => rfl)
abbrev dstM5 (L : grid0.Coords) (j : Fin 16) : Memref sig .scVector .hbm S224 .f32 :=
  (Memref.whole main_v1_scv : Memref sig .scVector .hbm S2408448 .f32).slice
    (Rect.unit (s := S2408448) (k0_off5 L (BitVec.ofNat 32 (50176 * j.val))) S224.size (k0_off5_inb L j)) (fun _ => rfl)

theorem inb_row (j : Fin 16) : ∀ a, (![224 * j.val] : Fin 1 → Nat) a + S224.size a ≤ S3584.size a := by
  intro a; obtain rfl : a = 0 := Subsingleton.elim _ _
  show 224 * j.val + 224 ≤ 3584; have := j.isLt; omega

/-- Row `j` of the first, and of the second, staging buffer. -/
abbrev rowM0 (j : Fin 16) : Memref sig .scVector .vmem S224 .f32 :=
  (Memref.whole cc0_scratch2 : Memref sig .scVector .vmem S3584 .f32).slice (Rect.unit (s := S3584) ![224 * j.val] S224.size (inb_row j)) (fun _ => rfl)
abbrev rowM1 (j : Fin 16) : Memref sig .scVector .vmem S224 .f32 :=
  (Memref.whole cc0_scratch3 : Memref sig .scVector .vmem S3584 .f32).slice (Rect.unit (s := S3584) ![224 * j.val] S224.size (inb_row j)) (fun _ => rfl)

/-- What a write-out leaves in its piece: the staging row written whole over what the piece held. -/
abbrev landedW (d : Dev nD) (L : grid0.Coords) (dst : Memref sig .scVector .hbm S224 .f32) (src : Memref sig .scVector .vmem S224 .f32)
    (fo : Buf (Elt F) (dst.view.loc (thr d L))) (T : Buf (Elt F) (src.view.loc (thr d L))) : Buf (Elt F) (dst.view.loc (thr d L)) :=
  dst.view.writes (Elt F) fo [⟨Rect.whole S224, ReadAs.same.apply (src.view.read (Elt F) T)⟩]

end Cert.Proof.KI

end
-- ==== Proof.KIViews.lean ====
/-
  The views the kernel's copies name, as index arithmetic.

  A fetch's source is the [1, 1, 224, 128] box of the transposed clip at [g / 224, g % 224, 0, 0], squeezed to 224 × 128:
  read through it, the clip is slab `g`. A write-out's destination is 224 consecutive words of the flat result from word
  `off g j`: row piece `j` of slab `g`; after the write-out it holds row `j` of the staging buffer, and when that buffer is
  the frame-major transpose of slab `g` the piece holds the words the result is to hold there. A staging buffer of
  16 · 224 words is its sixteen rows of 224.
-/
import proofs.«216812_g82557861364368_cont_9to1c4b_466_28_alg».proof.Proof.KIViewDefs
import Idealize.ShloMosaic.Lib.Writes
import Idealize.ShloMosaic.Lib.ValueLayout

noncomputable section

namespace Cert.Proof.KI

open Cert.KernelIdeal Cert.KernelIdeal.GenP
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## A product over sixteen, spelt out -/

theorem univ_fin16 : (Finset.univ : Finset (Fin 16)) = {0, 1, 2, 3, 4, 5, 6, 7, 8, 9, 10, 11, 12, 13, 14, 15} := by decide

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [univ_fin16,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

/-! ## Slabs and trips, as numbers -/

theorem slab_eq (L : grid0.Coords) (t : ℕ) : slab L t = 42 * (L 1).val + 21 * (L 0).val + t := by unfold slab wid; omega

/-- The loop's trips are at most ten, so the slabs a trip touches are among the worker's twenty-one. -/
theorem two_k_lt (k : Fin k0_t1_loop.trips) : 2 * k.val + 1 < 21 := by
  have := Nat.lt_of_lt_of_le k.isLt k0_t1_abs.2.1
  omega

/-! ## What a fetch reads -/

/-- The [1, 1, 224, 128] box of the transposed clip at the offsets `o`, squeezed to 224 × 128, as the program's fetches name it. -/
abbrev boxM (o : Fin 4 → ℕ) (inb : ∀ a, o a + S1x1x224x128.size a ≤ S3x224x224x128.size a) : Memref sig .scVector .hbm S224x128 .f32 :=
  ((Memref.whole main_v0_scv : Memref sig .scVector .hbm S3x224x224x128 .f32).slice
    (Rect.unit (s := S3x224x224x128) o S1x1x224x128.size inb) (fun _ => rfl)).squeeze S224x128 squeezes_S1x1x224x128_S224x128

/-- Read through the box at `[g / 224, g % 224, 0, 0]`, the clip is slab `g`: index `(p, q)` of the squeezed box is
    `(0, 0, p, q)` of the box, which sits at `(g / 224, g % 224, p, q)` of the clip; `g < 672`, so `g / 224 < 3`. -/
theorem boxM_read (o : Fin 4 → ℕ) (inb : ∀ a, o a + S1x1x224x128.size a ≤ S3x224x224x128.size a) (g : ℕ) (hg : g < 672)
    (ho : o = ![g / 224, g % 224, 0, 0]) (d : Dev nD) (L : grid0.Coords)
    (X : Buf (Elt F) ((boxM o inb).view.loc (thr d L))) :
    (boxM o inb).view.read (Elt F) X = slabC (α := Elt F .f32) X g := by
  subst ho
  funext y
  obtain ⟨p, q, rfl⟩ : ∃ (p : Fin 224) (q : Fin 128), y = ix2 p q := ⟨y 0, y 1, eq_ix2 y⟩
  refine (View.read_apply _ _).trans ((cast_eq _ _).trans ?_)
  unfold slabC
  refine congrArg X ?_
  show (Rect.unit (s := S3x224x224x128) ![g / 224, g % 224, 0, 0] S1x1x224x128.size inb).emb
      (Shape.reshapeEquiv squeezes_S1x1x224x128_S224x128.numel_eq (ix2 p q)) = _
  rw [reshapeEquiv_ix2_11ab]
  funext a
  apply Fin.ext
  rw [Rect.emb_apply]
  match a with
  | 0 => show g / 224 + 1 * 0 = g / 224 % 3; omega
  | 1 => show g % 224 + 1 * 0 = g % 224; omega
  | 2 => show 0 + 1 * p.val = p.val; omega
  | 3 => show 0 + 1 * q.val = q.val; omega

theorem slabM1_read (d : Dev nD) (L : grid0.Coords) (X : Buf (Elt F) ((slabM1 L).view.loc (thr d L))) :
    (slabM1 L).view.read (Elt F) X = slabC (α := Elt F .f32) X (slab L 0) :=
  boxM_read _ _ (slab L 0) (slab_lt L (by omega)) (by rw [k0_off1_eq, slab_zero]) d L X

theorem slabM2_read (d : Dev nD) (L : grid0.Coords) (k : Fin k0_t1_loop.trips) (r : Fin 2) (X : Buf (Elt F) ((slabM2 L k r).view.loc (thr d L))) :
    (slabM2 L k r).view.read (Elt F) X = slabC (α := Elt F .f32) X (slab L (2 * k.val + 1 + r.val)) := by
  have e : slab L (2 * k.val + 1 + r.val) = 42 * (L 1).val + 21 * (L 0).val + 2 * k.val + 1 + r.val := by unfold slab wid; omega
  have hr : r.val < 2 := r.isLt
  exact boxM_read _ _ (slab L (2 * k.val + 1 + r.val)) (slab_lt L (by have := two_k_lt k; omega)) (by rw [k0_off2_eq, e]) d L X

/-! ## The write-outs' destinations are the row pieces -/

/-- 224 consecutive words of the flat result from word `o 0`, as the program's write-outs name them. -/
abbrev oRowM (o : Fin 1 → ℕ) (inb : ∀ a, o a + S224.size a ≤ S2408448.size a) : Memref sig .scVector .hbm S224 .f32 :=
  (Memref.whole main_v1_scv : Memref sig .scVector .hbm S2408448 .f32).slice (Rect.unit (s := S2408448) o S224.size inb) (fun _ => rfl)

/-- From word `off g j` they are row piece `j` of slab `g`. -/
theorem oRowM_set (o : Fin 1 → ℕ) (inb : ∀ a, o a + S224.size a ≤ S2408448.size a) (g j : ℕ) (hg : g < 672) (hj : j < 16)
    (h : o = ![off g j]) : (oRowM o inb).view.set = pieceSet g j hg hj := by
  subst h
  show ((View.whole (main_v1_scv : Ref sig .scVector)).slice (pieceRect g j hg hj)).set = (pieceRect g j hg hj).set
  rw [View.set_slice_whole]

theorem dstM3_set (L : grid0.Coords) (k : Fin k0_t1_loop.trips) (j : Fin 16) :
    (dstM3 L k j).view.set = pieceSet (slab L (2 * k.val)) j.val (slab_lt L (by have := two_k_lt k; omega)) j.isLt :=
  oRowM_set _ _ _ _ _ _ (by rw [k0_off3_eq, slab_eq])
theorem dstM4_set (L : grid0.Coords) (k : Fin k0_t1_loop.trips) (j : Fin 16) :
    (dstM4 L k j).view.set = pieceSet (slab L (2 * k.val + 1)) j.val (slab_lt L (two_k_lt k)) j.isLt :=
  oRowM_set _ _ _ _ _ _ (by rw [k0_off4_eq, slab_eq]; rfl)
theorem dstM5_set (L : grid0.Coords) (j : Fin 16) :
    (dstM5 L j).view.set = pieceSet (slab L 20) j.val (slab_lt L (by omega)) j.isLt :=
  oRowM_set _ _ _ _ _ _ (by rw [k0_off5_eq, slab_eq])

/-! ## A piece handed to a write-out -/

theorem piece_in3 (d : Dev nD) (L : grid0.Coords) (k : Fin k0_t1_loop.trips) (j : Fin 16) (f : Buf (Elt F) (oLoc d)) :
    ((oLoc d ↦[pieceSet (slab L (2 * k.val)) j.val (slab_lt L (by have := two_k_lt k; omega)) j.isLt]{fullShare} f : sProp 𝕄))
      = ((dstM3 L k j).view.loc (thr d L) ↦[(dstM3 L k j).view.set]{fullShare} f) := by
  rw [dstM3_set]
theorem piece_in4 (d : Dev nD) (L : grid0.Coords) (k : Fin k0_t1_loop.trips) (j : Fin 16) (f : Buf (Elt F) (oLoc d)) :
    ((oLoc d ↦[pieceSet (slab L (2 * k.val + 1)) j.val (slab_lt L (two_k_lt k)) j.isLt]{fullShare} f : sProp 𝕄))
      = ((dstM4 L k j).view.loc (thr d L) ↦[(dstM4 L k j).view.set]{fullShare} f) := by
  rw [dstM4_set]
theorem piece_in5 (d : Dev nD) (L : grid0.Coords) (j : Fin 16) (f : Buf (Elt F) (oLoc d)) :
    ((oLoc d ↦[pieceSet (slab L 20) j.val (slab_lt L (by omega)) j.isLt]{fullShare} f : sProp 𝕄))
      = ((dstM5 L j).view.loc (thr d L) ↦[(dstM5 L j).view.set]{fullShare} f) := by
  rw [dstM5_set]

/-! ## The rows of a staging buffer -/

/-- Row `j` of a staging buffer, as a rectangle: words `224 j … 224 j + 223`. -/
abbrev rowRect (j : Fin 16) : Rect S3584 := Rect.unit (s := S3584) ![224 * j.val] S224.size (inb_row j)

theorem rowM0_set (j : Fin 16) : (rowM0 j).view.set = (rowRect j).set := by
  show ((View.whole (cc0_scratch2 : Ref sig .scVector)).slice (rowRect j)).set = (rowRect j).set
  rw [View.set_slice_whole]
theorem rowM1_set (j : Fin 16) : (rowM1 j).view.set = (rowRect j).set := by
  show ((View.whole (cc0_scratch3 : Ref sig .scVector)).slice (rowRect j)).set = (rowRect j).set
  rw [View.set_slice_whole]

/-- Read through row `j`, a staging buffer's contents at word `x` of the row are its word `224 j + x`. -/
theorem rowM0_read (d : Dev nD) (L : grid0.Coords) (j : Fin 16) (T : Buf (Elt F) ((rowM0 j).view.loc (thr d L))) (x : S224.Idx) :
    (rowM0 j).view.read (Elt F) T x = T ((rowRect j).emb x) := (View.read_apply _ _).trans (cast_eq _ _)
theorem rowM1_read (d : Dev nD) (L : grid0.Coords) (j : Fin 16) (T : Buf (Elt F) ((rowM1 j).view.loc (thr d L))) (x : S224.Idx) :
    (rowM1 j).view.read (Elt F) T x = T ((rowRect j).emb x) := (View.read_apply _ _).trans (cast_eq _ _)

/-- Two different rows share no word: one ends before the other begins. -/
theorem rowRect_disjoint : ∀ i ∈ (Finset.univ : Finset (Fin 16)), ∀ j ∈ (Finset.univ : Finset (Fin 16)), i ≠ j →
    Disjoint (rowRect i).set (rowRect j).set := fun i _ j _ h => by
  refine Rect.unit_disjoint (0 : Fin 1) ?_
  show 224 * i.val + 224 ≤ 224 * j.val ∨ 224 * j.val + 224 ≤ 224 * i.val
  have : i.val ≠ j.val := fun e => h (Fin.ext e)
  omega

/-- Word `z` lies in row `z / 224`. -/
theorem rowRect_cover : (Finset.univ : Finset (Fin 16)).biUnion (fun j => (rowRect j).set) = Finset.univ := by
  ext z
  simp only [Finset.mem_biUnion, Finset.mem_univ, true_and, iff_true]
  have hz : (z 0).val < 3584 := (z 0).isLt
  refine ⟨⟨(z 0).val / 224, by omega⟩, Rect.mem_set_unit.mpr fun a => ?_⟩
  obtain rfl : a = 0 := Subsingleton.elim _ _
  show 224 * ((z 0).val / 224) ≤ (z 0).val ∧ (z 0).val < 224 * ((z 0).val / 224) + 224
  omega

theorem bo0_rows (d : Dev nD) (L : grid0.Coords)
    (f : Buf (Elt F) ((Memref.whole cc0_scratch2 : Memref sig .scVector .vmem S3584 .f32).view.loc (thr d L))) :
    (((Memref.whole cc0_scratch2 : Memref sig .scVector .vmem S3584 .f32).view.loc (thr d L) ↦{fullShare} f : sProp 𝕄))
      = bigSep Finset.univ fun j : Fin 16 => ((rowM0 j).view.loc (thr d L) ↦[(rowM0 j).view.set]{fullShare} f) := by
  have e : ∀ j : Fin 16, ((rowM0 j).view.loc (thr d L) ↦[(rowM0 j).view.set]{fullShare} f : sProp 𝕄)
      = ((thr d L).loc cc0_scratch2 ↦[(rowRect j).set]{fullShare} f) := fun j => by rw [rowM0_set]
  refine Eq.trans ?_ (bigSep_congr fun j _ => (e j).symm)
  rw [← pointsTo_biUnion Finset.univ (ℓ := (thr d L).loc cc0_scratch2) (fun j => (rowRect j).set) rowRect_disjoint, rowRect_cover]; try rfl
theorem bo1_rows (d : Dev nD) (L : grid0.Coords)
    (f : Buf (Elt F) ((Memref.whole cc0_scratch3 : Memref sig .scVector .vmem S3584 .f32).view.loc (thr d L))) :
    (((Memref.whole cc0_scratch3 : Memref sig .scVector .vmem S3584 .f32).view.loc (thr d L) ↦{fullShare} f : sProp 𝕄))
      = bigSep Finset.univ fun j : Fin 16 => ((rowM1 j).view.loc (thr d L) ↦[(rowM1 j).view.set]{fullShare} f) := by
  have e : ∀ j : Fin 16, ((rowM1 j).view.loc (thr d L) ↦[(rowM1 j).view.set]{fullShare} f : sProp 𝕄)
      = ((thr d L).loc cc0_scratch3 ↦[(rowRect j).set]{fullShare} f) := fun j => by rw [rowM1_set]
  refine Eq.trans ?_ (bigSep_congr fun j _ => (e j).symm)
  rw [← pointsTo_biUnion Finset.univ (ℓ := (thr d L).loc cc0_scratch3) (fun j => (rowRect j).set) rowRect_disjoint, rowRect_cover]; try rfl

/-! ## What a piece holds after its write-out -/

/-- Four coordinates, equal one by one. -/
theorem ix4_congr {n0 n1 n2 n3 : ℕ} {a a' : Fin n0} {b b' : Fin n1} {c c' : Fin n2} {e e' : Fin n3}
    (ha : a.val = a'.val) (hb : b.val = b'.val) (hc : c.val = c'.val) (he : e.val = e'.val) : ix4 a b c e = ix4 a' b' c' e' := by
  rw [Fin.ext ha, Fin.ext hb, Fin.ext hc, Fin.ext he]

/-- Word `r` of row `j` of the transposed slab `g` is what the result is to hold at word `r` of row piece `j` of slab `g`:
    the staging word is `224 j + r`, so it holds column `r`, frame `33 + 4 j` of the slab, `xt[g / 224, g % 224, r, 33 + 4 j]`;
    the result's word is `p = 802816 (g / 224) + 50176 j + 224 (g % 224) + r`, with `p / 802816 = g / 224`,
    `p % 50176 / 224 = g % 224`, `p % 224 = r` and `p % 802816 / 50176 = j`. -/
theorem tr_slabC_row (X : S3x224x224x128.Idx → Elt F .f32) (g : ℕ) (hg : g < 672) (j : Fin 16) (x : S224.Idx) :
    tr (F := F) (slabC X g) ((rowRect j).emb x) = outSpec X ((pieceRect g j.val hg j.isLt).emb x) := by
  have hx : (x 0).val < 224 := (x 0).isLt
  have hj : j.val < 16 := j.isLt
  have e1 : (((rowRect j).emb x) 0).val = 224 * j.val + (x 0).val := by rw [Rect.emb_apply]; show 224 * j.val + 1 * (x 0).val = _; omega
  have e2 : (((pieceRect g j.val hg j.isLt).emb x) 0).val = off g j.val + (x 0).val := by
    rw [Rect.emb_apply]; show off g j.val + 1 * (x 0).val = _; omega
  unfold tr slabC outSpec
  refine congrArg X (ix4_congr ?_ ?_ ?_ ?_)
  · show g / 224 % 3 = (((pieceRect g j.val hg j.isLt).emb x) 0).val / 802816
    rw [e2]; unfold off; omega
  · show g % 224 = (((pieceRect g j.val hg j.isLt).emb x) 0).val % 50176 / 224
    rw [e2]; unfold off; omega
  · show (((rowRect j).emb x) 0).val % 224 = (((pieceRect g j.val hg j.isLt).emb x) 0).val % 224
    rw [e1, e2]; unfold off; omega
  · show 33 + 4 * ((((rowRect j).emb x) 0).val / 224) = 33 + 4 * ((((pieceRect g j.val hg j.isLt).emb x) 0).val % 802816 / 50176)
    rw [e1, e2]; unfold off; omega

/-- A whole-row write through the view of a piece leaves the payload's word `x` at the piece's word `x`. -/
theorem oRowM_landed (o : Fin 1 → ℕ) (inb : ∀ a, o a + S224.size a ≤ S2408448.size a) (g j : ℕ) (hg : g < 672) (hj : j < 16)
    (h : o = ![off g j]) (d : Dev nD) (L : grid0.Coords) (fo : Buf (Elt F) ((oRowM o inb).view.loc (thr d L)))
    (w : S224.Idx → Elt F .f32) (x : S224.Idx) :
    (oRowM o inb).view.writes (Elt F) fo [⟨Rect.whole S224, w⟩] ((pieceRect g j hg hj).emb x) = w x := by
  subst h
  have e := View.read_writes_cons_emb (oRowM ![off g j] inb).view fo (Rect.whole S224) w [] x
  rw [Rect.emb_whole_apply, View.read_apply] at e
  exact (cast_eq _ _).symm.trans e

/-- After the write-out of row `j` of a staging buffer that holds the transposed slab `g`, piece `j` of slab `g` holds the
    result's words: the two contents agree on the piece's words. -/
theorem oRowM_out (m : (ℓ : Loc nD τ sig) → Buf (Elt F) ℓ) (d : Dev nD) (L : grid0.Coords)
    (o : Fin 1 → ℕ) (inb : ∀ a, o a + S224.size a ≤ S2408448.size a) (g : ℕ) (hg : g < 672) (j : Fin 16)
    (h : o = ![off g j.val]) (fo : Buf (Elt F) ((oRowM o inb).view.loc (thr d L)))
    (w : S224.Idx → Elt F .f32) (hw : ∀ x, w x = tr (F := F) (slabC (XT m d) g) ((rowRect j).emb x)) :
    ((oRowM o inb).view.loc (thr d L) ↦[(oRowM o inb).view.set]{fullShare}
        (oRowM o inb).view.writes (Elt F) fo [⟨Rect.whole S224, w⟩] : sProp 𝕄)
      ⊢ (oLoc d ↦[pieceSet g j.val hg j.isLt]{fullShare} OUT m d) := by
  rw [oRowM_set o inb g j.val hg j.isLt h]
  refine Entails.of_eq (pointsTo_congr fun i hi => ?_)
  obtain ⟨x, rfl⟩ := (pieceRect g j.val hg j.isLt).exists_idx_of_mem hi
  exact (oRowM_landed o inb g j.val hg j.isLt h d L fo w x).trans ((hw x).trans (tr_slabC_row (XT m d) g hg j x))

theorem piece_out3 (m : (ℓ : Loc nD τ sig) → Buf (Elt F) ℓ) (d : Dev nD) (L : grid0.Coords) (k : Fin k0_t1_loop.trips) (j : Fin 16)
    (fo : Buf (Elt F) ((dstM3 L k j).view.loc (thr d L))) :
    ((dstM3 L k j).view.loc (thr d L) ↦[(dstM3 L k j).view.set]{fullShare}
        landedW d L (dstM3 L k j) (rowM0 j) fo (tr (slabC (XT m d) (slab L (2 * k.val)))) : sProp 𝕄)
      ⊢ (oLoc d ↦[pieceSet (slab L (2 * k.val)) j.val (slab_lt L (by have := two_k_lt k; omega)) j.isLt]{fullShare} OUT m d) :=
  oRowM_out m d L _ (k0_off3_inb L k j) _ _ j (by rw [k0_off3_eq, slab_eq]) fo _ (fun x => rowM0_read d L j _ x)
theorem piece_out4 (m : (ℓ : Loc nD τ sig) → Buf (Elt F) ℓ) (d : Dev nD) (L : grid0.Coords) (k : Fin k0_t1_loop.trips) (j : Fin 16)
    (fo : Buf (Elt F) ((dstM4 L k j).view.loc (thr d L))) :
    ((dstM4 L k j).view.loc (thr d L) ↦[(dstM4 L k j).view.set]{fullShare}
        landedW d L (dstM4 L k j) (rowM1 j) fo (tr (slabC (XT m d) (slab L (2 * k.val + 1)))) : sProp 𝕄)
      ⊢ (oLoc d ↦[pieceSet (slab L (2 * k.val + 1)) j.val (slab_lt L (two_k_lt k)) j.isLt]{fullShare} OUT m d) :=
  oRowM_out m d L _ (k0_off4_inb L k j) _ _ j (by rw [k0_off4_eq, slab_eq]; rfl) fo _ (fun x => rowM1_read d L j _ x)
theorem piece_out5 (m : (ℓ : Loc nD τ sig) → Buf (Elt F) ℓ) (d : Dev nD) (L : grid0.Coords) (j : Fin 16)
    (fo : Buf (Elt F) ((dstM5 L j).view.loc (thr d L))) :
    ((dstM5 L j).view.loc (thr d L) ↦[(dstM5 L j).view.set]{fullShare}
        landedW d L (dstM5 L j) (rowM0 j) fo (tr (slabC (XT m d) (slab L 20))) : sProp 𝕄)
      ⊢ (oLoc d ↦[pieceSet (slab L 20) j.val (slab_lt L (by omega)) j.isLt]{fullShare} OUT m d) :=
  oRowM_out m d L _ (k0_off5_inb L j) _ _ j (by rw [k0_off5_eq, slab_eq]) fo _ (fun x => rowM0_read d L j _ x)

end Cert.Proof.KI

end
-- ==== Proof.KIPieces.lean ====
/-
  The bookkeeping of the result's row pieces across the main loop.

  The worker's 21 slabs each own sixteen row pieces of the result. Trip k of the main loop handles slabs 2k and 2k + 1 and
  drains the write-outs of slabs 2k - 2 and 2k - 1. Entering trip k the worker therefore holds, of slab t: its pieces at
  their final contents when t < 2k - 2, nothing when t is 2k - 2 or 2k - 1 (their write-outs are in flight), and its pieces
  as the launch left them when t ≥ 2k. Passing from trip k to trip k + 1 changes four slabs only — 2k and 2k + 1 are taken,
  2k - 2 and 2k - 1 come back finished — and every other slab's entry is the same on both sides. The last trip (k = 10)
  leaves slab 20 to take and slabs 18, 19, 20 to put back.
-/
import proofs.«216812_g82557861364368_cont_9to1c4b_466_28_alg».proof.Proof.KIPay

noncomputable section

namespace Cert.Proof.KI

open Cert.KernelIdeal Cert.KernelIdeal.GenP

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## A product over the 21 slabs with two, three or four factors taken out -/

section Splits

theorem split2 (Φ : Fin 21 → sProp 𝕄) (a b : Fin 21) (hba : b ≠ a) :
    bigSep Finset.univ Φ = iprop(Φ a ∗ Φ b ∗ bigSep ((Finset.univ.erase a).erase b) Φ) := by
  rw [SparseCore.bigSep_erase' (Finset.mem_univ a),
    SparseCore.bigSep_erase' (Finset.mem_erase.mpr ⟨hba, Finset.mem_univ b⟩)]

theorem split3 (Φ : Fin 21 → sProp 𝕄) (a b c : Fin 21) (hba : b ≠ a) (hca : c ≠ a) (hcb : c ≠ b) :
    bigSep Finset.univ Φ = iprop(Φ a ∗ Φ b ∗ Φ c ∗ bigSep (((Finset.univ.erase a).erase b).erase c) Φ) := by
  rw [SparseCore.bigSep_erase' (Finset.mem_univ a),
    SparseCore.bigSep_erase' (Finset.mem_erase.mpr ⟨hba, Finset.mem_univ b⟩),
    SparseCore.bigSep_erase' (Finset.mem_erase.mpr ⟨hcb, Finset.mem_erase.mpr ⟨hca, Finset.mem_univ c⟩⟩)]

theorem split4 (Φ : Fin 21 → sProp 𝕄) (a b c e : Fin 21) (hba : b ≠ a) (hca : c ≠ a) (hcb : c ≠ b) (hea : e ≠ a) (heb : e ≠ b) (hec : e ≠ c) :
    bigSep Finset.univ Φ
      = iprop(Φ a ∗ Φ b ∗ Φ c ∗ Φ e ∗ bigSep ((((Finset.univ.erase a).erase b).erase c).erase e) Φ) := by
  rw [SparseCore.bigSep_erase' (Finset.mem_univ a),
    SparseCore.bigSep_erase' (Finset.mem_erase.mpr ⟨hba, Finset.mem_univ b⟩),
    SparseCore.bigSep_erase' (Finset.mem_erase.mpr ⟨hcb, Finset.mem_erase.mpr ⟨hca, Finset.mem_univ c⟩⟩),
    SparseCore.bigSep_erase' (Finset.mem_erase.mpr ⟨hec, Finset.mem_erase.mpr ⟨heb, Finset.mem_erase.mpr ⟨hea, Finset.mem_univ e⟩⟩⟩)]

end Splits

section
variable [FloatOps F] (m : (ℓ : Loc nD τ sig) → Buf (Elt F) ℓ) (d : Dev nD) (L : grid0.Coords)

/-- the sixteen row pieces of the worker's slab t, all at contents f -/
def slabPieces (t : Fin 21) (f : Buf (Elt F) (oLoc d)) : sProp 𝕄 :=
  bigSep Finset.univ fun j : Fin 16 => (oLoc d ↦[pieceSet (slab L t.val) j.val (slab_lt L t.isLt) j.isLt]{fullShare} f)

theorem pieces_eq (f : Buf (Elt F) (oLoc d)) : pieces d L f = bigSep Finset.univ fun t : Fin 21 => slabPieces d L t f := rfl

/-- what the worker holds of slab t's pieces when it enters trip k of the main loop (which handles slabs 2k and 2k+1, and
    drains the write-outs of slabs 2k-2 and 2k-1): finished pieces, nothing (the write-outs are in flight), or untouched pieces -/
def slabRes (k : ℕ) (t : Fin 21) : sProp 𝕄 :=
  if t.val + 2 < 2 * k then slabPieces d L t (OUT m d) else if t.val < 2 * k then iprop(emp) else slabPieces d L t (m (oLoc d))

/-- A slab finished and drained before trip k. -/
theorem slabRes_done {k : ℕ} {t : Fin 21} (h : t.val + 2 < 2 * k) : slabRes m d L k t = slabPieces d L t (OUT m d) := if_pos h
/-- A slab whose write-outs are in flight at trip k. -/
theorem slabRes_flight {k : ℕ} {t : Fin 21} (h1 : ¬ t.val + 2 < 2 * k) (h2 : t.val < 2 * k) : slabRes m d L k t = iprop(emp) := by
  unfold slabRes; rw [if_neg h1, if_pos h2]
/-- A slab not yet handled at trip k. -/
theorem slabRes_todo {k : ℕ} {t : Fin 21} (h : ¬ t.val < 2 * k) : slabRes m d L k t = slabPieces d L t (m (oLoc d)) := by
  unfold slabRes; rw [if_neg (by omega), if_neg h]

theorem slabRes_zero : (bigSep Finset.univ fun t : Fin 21 => slabRes m d L 0 t) = pieces d L (m (oLoc d)) := by
  rw [pieces_eq]
  exact bigSep_congr fun t _ => slabRes_todo m d L (by omega)

/-- the pieces of slabs 2k-2, 2k-1 as the drains of trip k hand them back (none at the first trip) -/
def drained (k : ℕ) (hk : k ≤ 10) : sProp 𝕄 :=
  if h : 0 < k then iprop(slabPieces d L ⟨2 * k - 2, by omega⟩ (OUT m d) ∗ slabPieces d L ⟨2 * k - 1, by omega⟩ (OUT m d)) else iprop(emp)

/-- The first trip: slabs 0 and 1 are taken, nothing comes back. -/
theorem take_zero (a b : Fin 21) (ha : a.val = 0) (hb : b.val = 1) :
    (bigSep Finset.univ fun t : Fin 21 => slabRes m d L 0 t)
      ⊢ iprop(slabPieces d L a (m (oLoc d)) ∗ slabPieces d L b (m (oLoc d))
          ∗ (emp -∗ bigSep Finset.univ fun t : Fin 21 => slabRes m d L (0 + 1) t)) := by
  have hba : b ≠ a := fun h => by have := congrArg Fin.val h; omega
  have hrest : bigSep ((Finset.univ.erase a).erase b) (fun t : Fin 21 => slabRes m d L 0 t)
      = bigSep ((Finset.univ.erase a).erase b) (fun t : Fin 21 => slabRes m d L (0 + 1) t) := bigSep_congr fun t ht => by
    have htb : t.val ≠ b.val := fun h => Finset.ne_of_mem_erase ht (Fin.ext h)
    have hta : t.val ≠ a.val := fun h => Finset.ne_of_mem_erase (Finset.mem_of_mem_erase ht) (Fin.ext h)
    show slabRes m d L 0 t = slabRes m d L (0 + 1) t
    rw [slabRes_todo m d L (k := 0) (by omega), slabRes_todo m d L (k := 0 + 1) (by omega)]
  rw [split2 (fun t : Fin 21 => slabRes m d L 0 t) a b hba, split2 (fun t : Fin 21 => slabRes m d L (0 + 1) t) a b hba, hrest]
  beta_reduce
  rw [slabRes_todo m d L (k := 0) (t := a) (by omega), slabRes_todo m d L (k := 0) (t := b) (by omega),
    slabRes_flight m d L (k := 0 + 1) (t := a) (by omega) (by omega), slabRes_flight m d L (k := 0 + 1) (t := b) (by omega) (by omega)]
  iintro ⟨Ha, Hb, Hrest⟩
  isplitl [Ha]; · iexact Ha
  isplitl [Hb]; · iexact Hb
  iintro -
  isplitr; · iempintro
  isplitr; · iempintro
  iexact Hrest

/-- A later trip k: slabs 2k and 2k + 1 are taken, slabs 2k - 2 and 2k - 1 come back finished. -/
theorem take_pos (k : ℕ) (a b c e : Fin 21) (ha : a.val = 2 * k) (hb : b.val = 2 * k + 1) (hc : c.val + 2 = 2 * k) (he : e.val + 1 = 2 * k) :
    (bigSep Finset.univ fun t : Fin 21 => slabRes m d L k t)
      ⊢ iprop(slabPieces d L a (m (oLoc d)) ∗ slabPieces d L b (m (oLoc d))
          ∗ ((slabPieces d L c (OUT m d) ∗ slabPieces d L e (OUT m d)) -∗ bigSep Finset.univ fun t : Fin 21 => slabRes m d L (k + 1) t)) := by
  have hba : b ≠ a := fun h => by have := congrArg Fin.val h; omega
  have hca : c ≠ a := fun h => by have := congrArg Fin.val h; omega
  have hcb : c ≠ b := fun h => by have := congrArg Fin.val h; omega
  have hea : e ≠ a := fun h => by have := congrArg Fin.val h; omega
  have heb : e ≠ b := fun h => by have := congrArg Fin.val h; omega
  have hec : e ≠ c := fun h => by have := congrArg Fin.val h; omega
  have hrest : bigSep ((((Finset.univ.erase a).erase b).erase c).erase e) (fun t : Fin 21 => slabRes m d L k t)
      = bigSep ((((Finset.univ.erase a).erase b).erase c).erase e) (fun t : Fin 21 => slabRes m d L (k + 1) t) := bigSep_congr fun t ht => by
    have ht3 := Finset.mem_of_mem_erase ht
    have ht2 := Finset.mem_of_mem_erase ht3
    have hte : t.val ≠ e.val := fun h => Finset.ne_of_mem_erase ht (Fin.ext h)
    have htc : t.val ≠ c.val := fun h => Finset.ne_of_mem_erase ht3 (Fin.ext h)
    have htb : t.val ≠ b.val := fun h => Finset.ne_of_mem_erase ht2 (Fin.ext h)
    have hta : t.val ≠ a.val := fun h => Finset.ne_of_mem_erase (Finset.mem_of_mem_erase ht2) (Fin.ext h)
    show slabRes m d L k t = slabRes m d L (k + 1) t
    by_cases h1 : t.val + 2 < 2 * k
    · rw [slabRes_done m d L h1, slabRes_done m d L (k := k + 1) (by omega)]
    · rw [slabRes_todo m d L (k := k) (by omega), slabRes_todo m d L (k := k + 1) (by omega)]
  rw [split4 (fun t : Fin 21 => slabRes m d L k t) a b c e hba hca hcb hea heb hec,
    split4 (fun t : Fin 21 => slabRes m d L (k + 1) t) a b c e hba hca hcb hea heb hec, hrest]
  beta_reduce
  rw [slabRes_todo m d L (k := k) (t := a) (by omega), slabRes_todo m d L (k := k) (t := b) (by omega),
    slabRes_flight m d L (k := k) (t := c) (by omega) (by omega), slabRes_flight m d L (k := k) (t := e) (by omega) (by omega),
    slabRes_flight m d L (k := k + 1) (t := a) (by omega) (by omega), slabRes_flight m d L (k := k + 1) (t := b) (by omega) (by omega),
    slabRes_done m d L (k := k + 1) (t := c) (by omega), slabRes_done m d L (k := k + 1) (t := e) (by omega)]
  iintro ⟨Ha, Hb, -, -, Hrest⟩
  isplitl [Ha]; · iexact Ha
  isplitl [Hb]; · iexact Hb
  iintro ⟨Hc, He⟩
  isplitr; · iempintro
  isplitr; · iempintro
  isplitl [Hc]; · iexact Hc
  isplitl [He]; · iexact He
  iexact Hrest

theorem slabRes_take (k : ℕ) (hk : k ≤ 9) :
    (bigSep Finset.univ fun t : Fin 21 => slabRes m d L k t)
      ⊢ iprop(slabPieces d L ⟨2 * k, by omega⟩ (m (oLoc d)) ∗ slabPieces d L ⟨2 * k + 1, by omega⟩ (m (oLoc d))
          ∗ (drained m d L k (by omega) -∗ bigSep Finset.univ fun t : Fin 21 => slabRes m d L (k + 1) t)) := by
  unfold drained
  by_cases h0 : 0 < k
  · rw [dif_pos h0]
    exact take_pos m d L k ⟨2 * k, by omega⟩ ⟨2 * k + 1, by omega⟩ ⟨2 * k - 2, by omega⟩ ⟨2 * k - 1, by omega⟩ rfl rfl
      (by show 2 * k - 2 + 2 = 2 * k; omega) (by show 2 * k - 1 + 1 = 2 * k; omega)
  · rw [dif_neg h0]
    obtain rfl : k = 0 := by omega
    exact take_zero m d L ⟨2 * 0, by omega⟩ ⟨2 * 0 + 1, by omega⟩ rfl rfl

theorem slabRes_last :
    (bigSep Finset.univ fun t : Fin 21 => slabRes m d L 10 t)
      ⊢ iprop(slabPieces d L ⟨20, by omega⟩ (m (oLoc d))
          ∗ ((slabPieces d L ⟨18, by omega⟩ (OUT m d) ∗ slabPieces d L ⟨19, by omega⟩ (OUT m d) ∗ slabPieces d L ⟨20, by omega⟩ (OUT m d)) -∗ pieces d L (OUT m d))) := by
  have hrest : bigSep (((Finset.univ.erase (⟨20, by omega⟩ : Fin 21)).erase ⟨18, by omega⟩).erase ⟨19, by omega⟩) (fun t : Fin 21 => slabRes m d L 10 t)
      = bigSep (((Finset.univ.erase (⟨20, by omega⟩ : Fin 21)).erase ⟨18, by omega⟩).erase ⟨19, by omega⟩) (fun t : Fin 21 => slabPieces d L t (OUT m d)) :=
    bigSep_congr fun t ht => by
      have ht2 := Finset.mem_of_mem_erase ht
      have h19 : t.val ≠ 19 := fun h => Finset.ne_of_mem_erase ht (Fin.ext h)
      have h18 : t.val ≠ 18 := fun h => Finset.ne_of_mem_erase ht2 (Fin.ext h)
      have h20 : t.val ≠ 20 := fun h => Finset.ne_of_mem_erase (Finset.mem_of_mem_erase ht2) (Fin.ext h)
      have := t.isLt
      show slabRes m d L 10 t = slabPieces d L t (OUT m d)
      exact slabRes_done m d L (by omega)
  rw [pieces_eq,
    split3 (fun t : Fin 21 => slabRes m d L 10 t) ⟨20, by omega⟩ ⟨18, by omega⟩ ⟨19, by omega⟩ (by decide) (by decide) (by decide),
    split3 (fun t : Fin 21 => slabPieces d L t (OUT m d)) ⟨20, by omega⟩ ⟨18, by omega⟩ ⟨19, by omega⟩ (by decide) (by decide) (by decide), hrest]
  beta_reduce
  rw [slabRes_todo m d L (k := 10) (t := ⟨20, by omega⟩) (by show ¬ 20 < 2 * 10; omega),
    slabRes_flight m d L (k := 10) (t := ⟨18, by omega⟩) (by show ¬ 18 + 2 < 2 * 10; omega) (by show 18 < 2 * 10; omega),
    slabRes_flight m d L (k := 10) (t := ⟨19, by omega⟩) (by show ¬ 19 + 2 < 2 * 10; omega) (by show 19 < 2 * 10; omega)]
  iintro ⟨Ha, -, -, Hrest⟩
  isplitl [Ha]; · iexact Ha
  iintro ⟨H18, H19, H20⟩
  isplitl [H20]; · iexact H20
  isplitl [H18]; · iexact H18
  isplitl [H19]; · iexact H19
  iexact Hrest

end

end Cert.Proof.KI

end
-- ==== Proof.KIGlue.lean ====
/-
  The row pieces and the staging rows, sixteen at a time. A slab's sixteen row pieces of the result are the words its
  sixteen copies out name, so the product over the pieces is the sixteen-fold product of what the copies own, spelt out;
  after the copies, each piece holding its staging row, they are the slab's pieces at the contents the result is to have;
  and the sixteen rows of a staging buffer, owned at one contents, are the buffer whole.
-/
import proofs.«216812_g82557861364368_cont_9to1c4b_466_28_alg».proof.Proof.KIViews
import proofs.«216812_g82557861364368_cont_9to1c4b_466_28_alg».proof.Proof.KIPieces

noncomputable section

namespace Cert.Proof.KI

open Cert.KernelIdeal Cert.KernelIdeal.GenP
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (d : Dev nD) (L : grid0.Coords)

/-- The words a memref names, owned outright at contents `f`. -/
abbrev ownP {sp : Space} {s : Shape} (M : Memref sig .scVector sp s .f32) (f : Buf (Elt F) (M.view.loc (thr d L))) : sProp 𝕄 :=
  M.view.loc (thr d L) ↦[M.view.set]{fullShare} f

/-! ## A slab's sixteen row pieces, handed to its sixteen copies out -/

theorem slab_in3 (k : Fin k0_t1_loop.trips) (f : Buf (Elt F) (oLoc d)) :
    slabPieces d L ⟨2 * k.val, by have := two_k_lt k; omega⟩ f
      = iprop(ownP d L (dstM3 L k 0) f ∗ ownP d L (dstM3 L k 1) f ∗ ownP d L (dstM3 L k 2) f ∗ ownP d L (dstM3 L k 3) f ∗ ownP d L (dstM3 L k 4) f ∗ ownP d L (dstM3 L k 5) f ∗ ownP d L (dstM3 L k 6) f ∗ ownP d L (dstM3 L k 7) f ∗ ownP d L (dstM3 L k 8) f ∗ ownP d L (dstM3 L k 9) f ∗ ownP d L (dstM3 L k 10) f ∗ ownP d L (dstM3 L k 11) f ∗ ownP d L (dstM3 L k 12) f ∗ ownP d L (dstM3 L k 13) f ∗ ownP d L (dstM3 L k 14) f ∗ ownP d L (dstM3 L k 15) f) :=
  (bigSep_congr fun j _ => piece_in3 (F := F) d L k j f).trans (bigSep_fin16 _)

theorem slab_in4 (k : Fin k0_t1_loop.trips) (f : Buf (Elt F) (oLoc d)) :
    slabPieces d L ⟨2 * k.val + 1, two_k_lt k⟩ f
      = iprop(ownP d L (dstM4 L k 0) f ∗ ownP d L (dstM4 L k 1) f ∗ ownP d L (dstM4 L k 2) f ∗ ownP d L (dstM4 L k 3) f ∗ ownP d L (dstM4 L k 4) f ∗ ownP d L (dstM4 L k 5) f ∗ ownP d L (dstM4 L k 6) f ∗ ownP d L (dstM4 L k 7) f ∗ ownP d L (dstM4 L k 8) f ∗ ownP d L (dstM4 L k 9) f ∗ ownP d L (dstM4 L k 10) f ∗ ownP d L (dstM4 L k 11) f ∗ ownP d L (dstM4 L k 12) f ∗ ownP d L (dstM4 L k 13) f ∗ ownP d L (dstM4 L k 14) f ∗ ownP d L (dstM4 L k 15) f) :=
  (bigSep_congr fun j _ => piece_in4 (F := F) d L k j f).trans (bigSep_fin16 _)

theorem slab_in5 (f : Buf (Elt F) (oLoc d)) :
    slabPieces d L ⟨20, by omega⟩ f
      = iprop(ownP d L (dstM5 L 0) f ∗ ownP d L (dstM5 L 1) f ∗ ownP d L (dstM5 L 2) f ∗ ownP d L (dstM5 L 3) f ∗ ownP d L (dstM5 L 4) f ∗ ownP d L (dstM5 L 5) f ∗ ownP d L (dstM5 L 6) f ∗ ownP d L (dstM5 L 7) f ∗ ownP d L (dstM5 L 8) f ∗ ownP d L (dstM5 L 9) f ∗ ownP d L (dstM5 L 10) f ∗ ownP d L (dstM5 L 11) f ∗ ownP d L (dstM5 L 12) f ∗ ownP d L (dstM5 L 13) f ∗ ownP d L (dstM5 L 14) f ∗ ownP d L (dstM5 L 15) f) :=
  (bigSep_congr fun j _ => piece_in5 (F := F) d L j f).trans (bigSep_fin16 _)

/-! ## The sixteen pieces after their copies out: the slab's pieces at the result's contents -/

/-- One piece after its copy out, the contents it overwrote read at the result's location. -/
theorem pout3 (k : Fin k0_t1_loop.trips) (j : Fin 16) (fo : Buf (Elt F) (oLoc d)) :
    ownP d L (dstM3 L k j) (landedW d L (dstM3 L k j) (rowM0 j) fo (tr (slabC (XT m d) (slab L (2 * k.val)))))
      ⊢ (oLoc d ↦[pieceSet (slab L (2 * k.val)) j.val (slab_lt L (by have := two_k_lt k; omega)) j.isLt]{fullShare} OUT m d : sProp 𝕄) :=
  piece_out3 m d L k j fo

theorem slab_out3 (k : Fin k0_t1_loop.trips) (fo : Buf (Elt F) (oLoc d)) :
    iprop(ownP d L (dstM3 L k 0) (landedW d L (dstM3 L k 0) (rowM0 0) fo (tr (slabC (XT m d) (slab L (2 * k.val))))) ∗ ownP d L (dstM3 L k 1) (landedW d L (dstM3 L k 1) (rowM0 1) fo (tr (slabC (XT m d) (slab L (2 * k.val))))) ∗ ownP d L (dstM3 L k 2) (landedW d L (dstM3 L k 2) (rowM0 2) fo (tr (slabC (XT m d) (slab L (2 * k.val))))) ∗ ownP d L (dstM3 L k 3) (landedW d L (dstM3 L k 3) (rowM0 3) fo (tr (slabC (XT m d) (slab L (2 * k.val))))) ∗ ownP d L (dstM3 L k 4) (landedW d L (dstM3 L k 4) (rowM0 4) fo (tr (slabC (XT m d) (slab L (2 * k.val))))) ∗ ownP d L (dstM3 L k 5) (landedW d L (dstM3 L k 5) (rowM0 5) fo (tr (slabC (XT m d) (slab L (2 * k.val))))) ∗ ownP d L (dstM3 L k 6) (landedW d L (dstM3 L k 6) (rowM0 6) fo (tr (slabC (XT m d) (slab L (2 * k.val))))) ∗ ownP d L (dstM3 L k 7) (landedW d L (dstM3 L k 7) (rowM0 7) fo (tr (slabC (XT m d) (slab L (2 * k.val))))) ∗ ownP d L (dstM3 L k 8) (landedW d L (dstM3 L k 8) (rowM0 8) fo (tr (slabC (XT m d) (slab L (2 * k.val))))) ∗ ownP d L (dstM3 L k 9) (landedW d L (dstM3 L k 9) (rowM0 9) fo (tr (slabC (XT m d) (slab L (2 * k.val))))) ∗ ownP d L (dstM3 L k 10) (landedW d L (dstM3 L k 10) (rowM0 10) fo (tr (slabC (XT m d) (slab L (2 * k.val))))) ∗ ownP d L (dstM3 L k 11) (landedW d L (dstM3 L k 11) (rowM0 11) fo (tr (slabC (XT m d) (slab L (2 * k.val))))) ∗ ownP d L (dstM3 L k 12) (landedW d L (dstM3 L k 12) (rowM0 12) fo (tr (slabC (XT m d) (slab L (2 * k.val))))) ∗ ownP d L (dstM3 L k 13) (landedW d L (dstM3 L k 13) (rowM0 13) fo (tr (slabC (XT m d) (slab L (2 * k.val))))) ∗ ownP d L (dstM3 L k 14) (landedW d L (dstM3 L k 14) (rowM0 14) fo (tr (slabC (XT m d) (slab L (2 * k.val))))) ∗ ownP d L (dstM3 L k 15) (landedW d L (dstM3 L k 15) (rowM0 15) fo (tr (slabC (XT m d) (slab L (2 * k.val))))))
      ⊢ slabPieces d L ⟨2 * k.val, by have := two_k_lt k; omega⟩ (OUT m d) :=
  (Entails.of_eq (bigSep_fin16 (F := F) fun j : Fin 16 =>
      ownP d L (dstM3 L k j) (landedW d L (dstM3 L k j) (rowM0 j) fo (tr (slabC (XT m d) (slab L (2 * k.val)))))).symm).trans
    (bigSep_mono fun j _ => pout3 m d L k j fo)

/-- One piece after its copy out, the contents it overwrote read at the result's location. -/
theorem pout4 (k : Fin k0_t1_loop.trips) (j : Fin 16) (fo : Buf (Elt F) (oLoc d)) :
    ownP d L (dstM4 L k j) (landedW d L (dstM4 L k j) (rowM1 j) fo (tr (slabC (XT m d) (slab L (2 * k.val + 1)))))
      ⊢ (oLoc d ↦[pieceSet (slab L (2 * k.val + 1)) j.val (slab_lt L (two_k_lt k)) j.isLt]{fullShare} OUT m d : sProp 𝕄) :=
  piece_out4 m d L k j fo

theorem slab_out4 (k : Fin k0_t1_loop.trips) (fo : Buf (Elt F) (oLoc d)) :
    iprop(ownP d L (dstM4 L k 0) (landedW d L (dstM4 L k 0) (rowM1 0) fo (tr (slabC (XT m d) (slab L (2 * k.val + 1))))) ∗ ownP d L (dstM4 L k 1) (landedW d L (dstM4 L k 1) (rowM1 1) fo (tr (slabC (XT m d) (slab L (2 * k.val + 1))))) ∗ ownP d L (dstM4 L k 2) (landedW d L (dstM4 L k 2) (rowM1 2) fo (tr (slabC (XT m d) (slab L (2 * k.val + 1))))) ∗ ownP d L (dstM4 L k 3) (landedW d L (dstM4 L k 3) (rowM1 3) fo (tr (slabC (XT m d) (slab L (2 * k.val + 1))))) ∗ ownP d L (dstM4 L k 4) (landedW d L (dstM4 L k 4) (rowM1 4) fo (tr (slabC (XT m d) (slab L (2 * k.val + 1))))) ∗ ownP d L (dstM4 L k 5) (landedW d L (dstM4 L k 5) (rowM1 5) fo (tr (slabC (XT m d) (slab L (2 * k.val + 1))))) ∗ ownP d L (dstM4 L k 6) (landedW d L (dstM4 L k 6) (rowM1 6) fo (tr (slabC (XT m d) (slab L (2 * k.val + 1))))) ∗ ownP d L (dstM4 L k 7) (landedW d L (dstM4 L k 7) (rowM1 7) fo (tr (slabC (XT m d) (slab L (2 * k.val + 1))))) ∗ ownP d L (dstM4 L k 8) (landedW d L (dstM4 L k 8) (rowM1 8) fo (tr (slabC (XT m d) (slab L (2 * k.val + 1))))) ∗ ownP d L (dstM4 L k 9) (landedW d L (dstM4 L k 9) (rowM1 9) fo (tr (slabC (XT m d) (slab L (2 * k.val + 1))))) ∗ ownP d L (dstM4 L k 10) (landedW d L (dstM4 L k 10) (rowM1 10) fo (tr (slabC (XT m d) (slab L (2 * k.val + 1))))) ∗ ownP d L (dstM4 L k 11) (landedW d L (dstM4 L k 11) (rowM1 11) fo (tr (slabC (XT m d) (slab L (2 * k.val + 1))))) ∗ ownP d L (dstM4 L k 12) (landedW d L (dstM4 L k 12) (rowM1 12) fo (tr (slabC (XT m d) (slab L (2 * k.val + 1))))) ∗ ownP d L (dstM4 L k 13) (landedW d L (dstM4 L k 13) (rowM1 13) fo (tr (slabC (XT m d) (slab L (2 * k.val + 1))))) ∗ ownP d L (dstM4 L k 14) (landedW d L (dstM4 L k 14) (rowM1 14) fo (tr (slabC (XT m d) (slab L (2 * k.val + 1))))) ∗ ownP d L (dstM4 L k 15) (landedW d L (dstM4 L k 15) (rowM1 15) fo (tr (slabC (XT m d) (slab L (2 * k.val + 1))))))
      ⊢ slabPieces d L ⟨2 * k.val + 1, two_k_lt k⟩ (OUT m d) :=
  (Entails.of_eq (bigSep_fin16 (F := F) fun j : Fin 16 =>
      ownP d L (dstM4 L k j) (landedW d L (dstM4 L k j) (rowM1 j) fo (tr (slabC (XT m d) (slab L (2 * k.val + 1)))))).symm).trans
    (bigSep_mono fun j _ => pout4 m d L k j fo)

/-- One piece after its copy out, the contents it overwrote read at the result's location. -/
theorem pout5 (j : Fin 16) (fo : Buf (Elt F) (oLoc d)) :
    ownP d L (dstM5 L j) (landedW d L (dstM5 L j) (rowM0 j) fo (tr (slabC (XT m d) (slab L 20))))
      ⊢ (oLoc d ↦[pieceSet (slab L 20) j.val (slab_lt L (by omega)) j.isLt]{fullShare} OUT m d : sProp 𝕄) :=
  piece_out5 m d L j fo

theorem slab_out5 (fo : Buf (Elt F) (oLoc d)) :
    iprop(ownP d L (dstM5 L 0) (landedW d L (dstM5 L 0) (rowM0 0) fo (tr (slabC (XT m d) (slab L 20)))) ∗ ownP d L (dstM5 L 1) (landedW d L (dstM5 L 1) (rowM0 1) fo (tr (slabC (XT m d) (slab L 20)))) ∗ ownP d L (dstM5 L 2) (landedW d L (dstM5 L 2) (rowM0 2) fo (tr (slabC (XT m d) (slab L 20)))) ∗ ownP d L (dstM5 L 3) (landedW d L (dstM5 L 3) (rowM0 3) fo (tr (slabC (XT m d) (slab L 20)))) ∗ ownP d L (dstM5 L 4) (landedW d L (dstM5 L 4) (rowM0 4) fo (tr (slabC (XT m d) (slab L 20)))) ∗ ownP d L (dstM5 L 5) (landedW d L (dstM5 L 5) (rowM0 5) fo (tr (slabC (XT m d) (slab L 20)))) ∗ ownP d L (dstM5 L 6) (landedW d L (dstM5 L 6) (rowM0 6) fo (tr (slabC (XT m d) (slab L 20)))) ∗ ownP d L (dstM5 L 7) (landedW d L (dstM5 L 7) (rowM0 7) fo (tr (slabC (XT m d) (slab L 20)))) ∗ ownP d L (dstM5 L 8) (landedW d L (dstM5 L 8) (rowM0 8) fo (tr (slabC (XT m d) (slab L 20)))) ∗ ownP d L (dstM5 L 9) (landedW d L (dstM5 L 9) (rowM0 9) fo (tr (slabC (XT m d) (slab L 20)))) ∗ ownP d L (dstM5 L 10) (landedW d L (dstM5 L 10) (rowM0 10) fo (tr (slabC (XT m d) (slab L 20)))) ∗ ownP d L (dstM5 L 11) (landedW d L (dstM5 L 11) (rowM0 11) fo (tr (slabC (XT m d) (slab L 20)))) ∗ ownP d L (dstM5 L 12) (landedW d L (dstM5 L 12) (rowM0 12) fo (tr (slabC (XT m d) (slab L 20)))) ∗ ownP d L (dstM5 L 13) (landedW d L (dstM5 L 13) (rowM0 13) fo (tr (slabC (XT m d) (slab L 20)))) ∗ ownP d L (dstM5 L 14) (landedW d L (dstM5 L 14) (rowM0 14) fo (tr (slabC (XT m d) (slab L 20)))) ∗ ownP d L (dstM5 L 15) (landedW d L (dstM5 L 15) (rowM0 15) fo (tr (slabC (XT m d) (slab L 20)))))
      ⊢ slabPieces d L ⟨20, by omega⟩ (OUT m d) :=
  (Entails.of_eq (bigSep_fin16 (F := F) fun j : Fin 16 =>
      ownP d L (dstM5 L j) (landedW d L (dstM5 L j) (rowM0 j) fo (tr (slabC (XT m d) (slab L 20))))).symm).trans
    (bigSep_mono fun j _ => pout5 m d L j fo)

/-! ## A staging buffer's sixteen rows, joined -/

theorem rows_join0 (T : Buf (Elt F) ((Memref.whole cc0_scratch2 : Memref sig .scVector .vmem S3584 .f32).view.loc (thr d L))) :
    iprop(ownP d L (rowM0 0) T ∗ ownP d L (rowM0 1) T ∗ ownP d L (rowM0 2) T ∗ ownP d L (rowM0 3) T ∗ ownP d L (rowM0 4) T ∗ ownP d L (rowM0 5) T ∗ ownP d L (rowM0 6) T ∗ ownP d L (rowM0 7) T ∗ ownP d L (rowM0 8) T ∗ ownP d L (rowM0 9) T ∗ ownP d L (rowM0 10) T ∗ ownP d L (rowM0 11) T ∗ ownP d L (rowM0 12) T ∗ ownP d L (rowM0 13) T ∗ ownP d L (rowM0 14) T ∗ ownP d L (rowM0 15) T)
      ⊢ ((Memref.whole cc0_scratch2 : Memref sig .scVector .vmem S3584 .f32).view.loc (thr d L) ↦{fullShare} T) :=
  Entails.of_eq ((bo0_rows d L T).trans (bigSep_fin16 _)).symm

theorem rows_join1 (T : Buf (Elt F) ((Memref.whole cc0_scratch3 : Memref sig .scVector .vmem S3584 .f32).view.loc (thr d L))) :
    iprop(ownP d L (rowM1 0) T ∗ ownP d L (rowM1 1) T ∗ ownP d L (rowM1 2) T ∗ ownP d L (rowM1 3) T ∗ ownP d L (rowM1 4) T ∗ ownP d L (rowM1 5) T ∗ ownP d L (rowM1 6) T ∗ ownP d L (rowM1 7) T ∗ ownP d L (rowM1 8) T ∗ ownP d L (rowM1 9) T ∗ ownP d L (rowM1 10) T ∗ ownP d L (rowM1 11) T ∗ ownP d L (rowM1 12) T ∗ ownP d L (rowM1 13) T ∗ ownP d L (rowM1 14) T ∗ ownP d L (rowM1 15) T)
      ⊢ ((Memref.whole cc0_scratch3 : Memref sig .scVector .vmem S3584 .f32).view.loc (thr d L) ↦{fullShare} T) :=
  Entails.of_eq ((bo1_rows d L T).trans (bigSep_fin16 _)).symm

end Cert.Proof.KI

end
-- ==== Proof.KIInner.lean ====
/-
  One pass of a transposition loop, run on a vector subcore: fourteen times, an indexed load of sixteen entries of the
  slab (sixteen consecutive columns, each at the frame its lane samples in this pass) and an indexed store of them into the
  staging buffer (each at its sample's row). The slab is only read; the staging buffer ends at the fourteen stores applied
  in order to what it held, `passN B n g`. The three loops of the kernel (the two slots' in the main loop, the first slot's
  after it) are the same text over different names.
-/
import proofs.«216812_g82557861364368_cont_9to1c4b_466_28_alg».proof.Proof.KIChk

set_option maxHeartbeats 4000000

noncomputable section

namespace Cert.Proof.KI

open Cert.KernelIdeal Cert.KernelIdeal.GenP
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xtW" => (Memref.whole Cert.KernelIdeal.main_v0_scv : Memref Cert.KernelIdeal.sig Kind.scVector Space.hbm Cert.KernelIdeal.S3x224x224x128 EltTy.f32)
local notation "oW" => (Memref.whole Cert.KernelIdeal.main_v1_scv : Memref Cert.KernelIdeal.sig Kind.scVector Space.hbm Cert.KernelIdeal.S2408448 EltTy.f32)
local notation "bi0" => (Memref.whole Cert.KernelIdeal.cc0_scratch0 : Memref Cert.KernelIdeal.sig Kind.scVector Space.vmem Cert.KernelIdeal.S224x128 EltTy.f32)
local notation "bi1" => (Memref.whole Cert.KernelIdeal.cc0_scratch1 : Memref Cert.KernelIdeal.sig Kind.scVector Space.vmem Cert.KernelIdeal.S224x128 EltTy.f32)
local notation "bo0" => (Memref.whole Cert.KernelIdeal.cc0_scratch2 : Memref Cert.KernelIdeal.sig Kind.scVector Space.vmem Cert.KernelIdeal.S3584 EltTy.f32)
local notation "bo1" => (Memref.whole Cert.KernelIdeal.cc0_scratch3 : Memref Cert.KernelIdeal.sig Kind.scVector Space.vmem Cert.KernelIdeal.S3584 EltTy.f32)

/-! ## The indexed load and store of a scratch buffer held whole

The library's rules speak through the whole-rectangle access of the buffer; through a buffer held whole the access reads
the contents themselves and writes the payload itself, so the rules take these forms. -/

section Rules
variable (d : Dev nD) (L : grid0.Coords)

theorem ld_bi0 {t : Shape} {idxs : Fin S224x128.rank → IVec t 32} {h : ∀ a x, (idxs a x).toNat < S224x128.size a} {hl : (bi0).view.Loads} {α : Type} {Q : α → sProp 𝕄}
    {k : Vec F t .f32 → Prog (TpuEff nD τ sig (Elt F) Λ₀ (thr d L).2) α} {q : PosShare TreeShare} {f : Buf (Elt F) ((bi0).view.loc (thr d L))} :
    (((bi0).view.loc (thr d L) ↦{q} f : sProp 𝕄))
      ⊢ iprop(((((bi0).view.loc (thr d L) ↦{q} f))
          -∗ wp frame (wpE (defs₀ (F := F)) 𝒱₀ (thr d L) none) Set.univ (k (loadIdx f idxs h)) Q)
        -∗ wp frame (wpE (defs₀ (F := F)) 𝒱₀ (thr d L) none) Set.univ (SparseCore.vectorLoadIdx (bi0) idxs h hl >>= k) Q) := by
  have key := SparseCore.wp_vectorLoadIdx (F := F) (defs := defs₀ (F := F)) 𝒱₀ (thr d L) none Set.univ (base := bi0) (idxs := idxs) (h := h) (hl := hl) (k := k)
    (S := Finset.univ) (q := q) (f := f) (Q := Q) (Finset.subset_univ _)
  simp only [Memref.read_access_whole] at key
  exact key

theorem ld_bi1 {t : Shape} {idxs : Fin S224x128.rank → IVec t 32} {h : ∀ a x, (idxs a x).toNat < S224x128.size a} {hl : (bi1).view.Loads} {α : Type} {Q : α → sProp 𝕄}
    {k : Vec F t .f32 → Prog (TpuEff nD τ sig (Elt F) Λ₀ (thr d L).2) α} {q : PosShare TreeShare} {f : Buf (Elt F) ((bi1).view.loc (thr d L))} :
    (((bi1).view.loc (thr d L) ↦{q} f : sProp 𝕄))
      ⊢ iprop(((((bi1).view.loc (thr d L) ↦{q} f))
          -∗ wp frame (wpE (defs₀ (F := F)) 𝒱₀ (thr d L) none) Set.univ (k (loadIdx f idxs h)) Q)
        -∗ wp frame (wpE (defs₀ (F := F)) 𝒱₀ (thr d L) none) Set.univ (SparseCore.vectorLoadIdx (bi1) idxs h hl >>= k) Q) := by
  have key := SparseCore.wp_vectorLoadIdx (F := F) (defs := defs₀ (F := F)) 𝒱₀ (thr d L) none Set.univ (base := bi1) (idxs := idxs) (h := h) (hl := hl) (k := k)
    (S := Finset.univ) (q := q) (f := f) (Q := Q) (Finset.subset_univ _)
  simp only [Memref.read_access_whole] at key
  exact key

theorem st_bo0 {dd : Fin 1 → Nat} {idxs : Fin S3584.rank → IVec ⟨1, dd⟩ 32} {v : Vec F ⟨1, dd⟩ .f32} {mask : IVec ⟨1, dd⟩ 1} {add : Bool}
    {h : ∀ a x, (idxs a x).toNat < S3584.size a} {hs : ((bo0).access (.whole S3584)).Stores Finset.univ} {α : Type} {Q : α → sProp 𝕄}
    {k : PUnit → Prog (TpuEff nD τ sig (Elt F) Λ₀ (thr d L).2) α} {f : Buf (Elt F) ((bo0).view.loc (thr d L))} :
    (((bo0).view.loc (thr d L) ↦{fullShare} f : sProp 𝕄))
      ⊢ iprop(((((bo0).view.loc (thr d L) ↦{fullShare} storeIdx f idxs v mask add h))
          -∗ wp frame (wpE (defs₀ (F := F)) 𝒱₀ (thr d L) none) Set.univ (k ⟨⟩) Q)
        -∗ wp frame (wpE (defs₀ (F := F)) 𝒱₀ (thr d L) none) Set.univ (SparseCore.vectorStoreIdx (bo0) idxs v mask add h hs >>= k) Q) := by
  have key := SparseCore.wp_vectorStoreIdx (F := F) (defs := defs₀ (F := F)) 𝒱₀ (thr d L) none Set.univ (base := bo0) (idxs := idxs) (v := v) (mask := mask) (add := add)
    (h := h) (hs := hs) (k := k) (f := f) (Q := Q)
  simp only [Memref.read_access_whole, Memref.write_access_whole_univ, Memref.set_access_whole] at key
  exact key

theorem st_bo1 {dd : Fin 1 → Nat} {idxs : Fin S3584.rank → IVec ⟨1, dd⟩ 32} {v : Vec F ⟨1, dd⟩ .f32} {mask : IVec ⟨1, dd⟩ 1} {add : Bool}
    {h : ∀ a x, (idxs a x).toNat < S3584.size a} {hs : ((bo1).access (.whole S3584)).Stores Finset.univ} {α : Type} {Q : α → sProp 𝕄}
    {k : PUnit → Prog (TpuEff nD τ sig (Elt F) Λ₀ (thr d L).2) α} {f : Buf (Elt F) ((bo1).view.loc (thr d L))} :
    (((bo1).view.loc (thr d L) ↦{fullShare} f : sProp 𝕄))
      ⊢ iprop(((((bo1).view.loc (thr d L) ↦{fullShare} storeIdx f idxs v mask add h))
          -∗ wp frame (wpE (defs₀ (F := F)) 𝒱₀ (thr d L) none) Set.univ (k ⟨⟩) Q)
        -∗ wp frame (wpE (defs₀ (F := F)) 𝒱₀ (thr d L) none) Set.univ (SparseCore.vectorStoreIdx (bo1) idxs v mask add h hs >>= k) Q) := by
  have key := SparseCore.wp_vectorStoreIdx (F := F) (defs := defs₀ (F := F)) 𝒱₀ (thr d L) none Set.univ (base := bo1) (idxs := idxs) (v := v) (mask := mask) (add := add)
    (h := h) (hs := hs) (k := k) (f := f) (Q := Q)
  simp only [Memref.read_access_whole, Memref.write_access_whole_univ, Memref.set_access_whole] at key
  exact key

end Rules

/-! ## Loop 1 -/

/-- The column groups' index vectors: lane l of group w is column 16 w + l. -/
def rowsP2 : Fin 14 → IVec S16 32 := ![k0_pay4 iotaV, k0_pay5 iotaV, k0_pay6 iotaV, k0_pay7 iotaV, k0_pay8 iotaV, k0_pay9 iotaV, k0_pay10 iotaV, k0_pay11 iotaV, k0_pay12 iotaV, k0_pay13 iotaV, k0_pay14 iotaV, k0_pay15 iotaV, k0_pay16 iotaV, k0_pay33 iotaV 208#32]

theorem ldok2 (kk : Fin k0_t2_loop.trips) : ∀ w : Fin 14, ∀ a x, ((![rowsP2 w, k0_pay2 iotaV 0#32 1#32 kk] : Fin 2 → IVec S16 32) a x).toNat < S224x128.size a
  | ⟨0, _⟩ => chk_1 kk
  | ⟨1, _⟩ => chk_3 kk
  | ⟨2, _⟩ => chk_5 kk
  | ⟨3, _⟩ => chk_7 kk
  | ⟨4, _⟩ => chk_9 kk
  | ⟨5, _⟩ => chk_11 kk
  | ⟨6, _⟩ => chk_13 kk
  | ⟨7, _⟩ => chk_15 kk
  | ⟨8, _⟩ => chk_17 kk
  | ⟨9, _⟩ => chk_19 kk
  | ⟨10, _⟩ => chk_21 kk
  | ⟨11, _⟩ => chk_23 kk
  | ⟨12, _⟩ => chk_25 kk
  | ⟨13, _⟩ => chk_27 kk
theorem stok2 (kk : Fin k0_t2_loop.trips) : ∀ w : Fin 14, ∀ a x, ((![addi (k0_pay3 iotaV 0#32 1#32 kk) (rowsP2 w)] : Fin 1 → IVec S16 32) a x).toNat < S3584.size a
  | ⟨0, _⟩ => chk_2 kk
  | ⟨1, _⟩ => chk_4 kk
  | ⟨2, _⟩ => chk_6 kk
  | ⟨3, _⟩ => chk_8 kk
  | ⟨4, _⟩ => chk_10 kk
  | ⟨5, _⟩ => chk_12 kk
  | ⟨6, _⟩ => chk_14 kk
  | ⟨7, _⟩ => chk_16 kk
  | ⟨8, _⟩ => chk_18 kk
  | ⟨9, _⟩ => chk_20 kk
  | ⟨10, _⟩ => chk_22 kk
  | ⟨11, _⟩ => chk_24 kk
  | ⟨12, _⟩ => chk_26 kk
  | ⟨13, _⟩ => chk_28 kk

/-- One load-and-store pair of pass `kk`, for column group `w`. -/
def st2 (B : Vec F S224x128 .f32) (kk : Fin k0_t2_loop.trips) (w : Fin 14) (g : Vec F S3584 .f32) : Vec F S3584 .f32 :=
  storeIdx g ![addi (k0_pay3 iotaV 0#32 1#32 kk) (rowsP2 w)] (loadIdx B ![rowsP2 w, k0_pay2 iotaV 0#32 1#32 kk] (ldok2 kk w))
    (fun _ => 1#1) false (stok2 kk w)

/-- The staging buffer after pass `kk`, from what it held. -/
def pass2 (B : Vec F S224x128 .f32) (kk : Fin k0_t2_loop.trips) (g : Vec F S3584 .f32) : Vec F S3584 .f32 :=
  st2 B kk 13 (st2 B kk 12 (st2 B kk 11 (st2 B kk 10 (st2 B kk 9 (st2 B kk 8 (st2 B kk 7
    (st2 B kk 6 (st2 B kk 5 (st2 B kk 4 (st2 B kk 3 (st2 B kk 2 (st2 B kk 1 (st2 B kk 0 g)))))))))))))

section
variable (d : Dev nD) (L : grid0.Coords)

theorem trip2 (k : Fin k0_t1_loop.trips) (v332 : BitVec 32) (kk : Fin k0_t2_loop.trips)
    (B : Buf (Elt F) ((bi0).view.loc (thr d L))) (g : Buf (Elt F) ((bo0).view.loc (thr d L))) :
    iprop(((bi0).view.loc (thr d L) ↦{fullShare} B) ∗ ((bo0).view.loc (thr d L) ↦{fullShare} g))
      ⊢ (wp frame (wpE (defs₀ (F := F)) 𝒱₀ (thr d L) none) Set.univ
          (k0_t2_body L xtW (Memref.isWhole_whole _) oW (Memref.isWhole_whole _) bi0 (Memref.isWhole_whole _) bi1 (Memref.isWhole_whole _)
            bo0 (Memref.isWhole_whole _) bo1 (Memref.isWhole_whole _) cc0_scratch4 cc0_scratch5 cc0_scratch6 cc0_scratch7 k v332 iotaV kk ())
          fun _ => iprop(((bi0).view.loc (thr d L) ↦{fullShare} B) ∗ ∃ g', ⌜g' = pass2 (F := F) B kk g⌝ ∗ ((bo0).view.loc (thr d L) ↦{fullShare} g')) : sProp 𝕄) := by
  iintro ⟨H0, H2⟩
  unfold k0_t2_body
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  sl_step
  isplitl [H0]; · iexact H0
  iexists _
  isplitr
  rotate_left
  · iexact H2
  · ipureintro; rfl
end

/-! ## Loop 2 -/

/-- The column groups' index vectors: lane l of group w is column 16 w + l. -/
def rowsP3 : Fin 14 → IVec S16 32 := ![k0_pay20 iotaV, k0_pay21 iotaV, k0_pay22 iotaV, k0_pay23 iotaV, k0_pay24 iotaV, k0_pay25 iotaV, k0_pay26 iotaV, k0_pay27 iotaV, k0_pay28 iotaV, k0_pay29 iotaV, k0_pay30 iotaV, k0_pay31 iotaV, k0_pay32 iotaV, k0_pay34 208#32]

theorem ldok3 (kk : Fin k0_t3_loop.trips) : ∀ w : Fin 14, ∀ a x, ((![rowsP3 w, k0_pay18 iotaV 0#32 1#32 kk] : Fin 2 → IVec S16 32) a x).toNat < S224x128.size a
  | ⟨0, _⟩ => chk_29 kk
  | ⟨1, _⟩ => chk_31 kk
  | ⟨2, _⟩ => chk_33 kk
  | ⟨3, _⟩ => chk_35 kk
  | ⟨4, _⟩ => chk_37 kk
  | ⟨5, _⟩ => chk_39 kk
  | ⟨6, _⟩ => chk_41 kk
  | ⟨7, _⟩ => chk_43 kk
  | ⟨8, _⟩ => chk_45 kk
  | ⟨9, _⟩ => chk_47 kk
  | ⟨10, _⟩ => chk_49 kk
  | ⟨11, _⟩ => chk_51 kk
  | ⟨12, _⟩ => chk_53 kk
  | ⟨13, _⟩ => chk_55 kk
theorem stok3 (kk : Fin k0_t3_loop.trips) : ∀ w : Fin 14, ∀ a x, ((![addi (k0_pay19 iotaV 0#32 1#32 kk) (rowsP3 w)] : Fin 1 → IVec S16 32) a x).toNat < S3584.size a
  | ⟨0, _⟩ => chk_30 kk
  | ⟨1, _⟩ => chk_32 kk
  | ⟨2, _⟩ => chk_34 kk
  | ⟨3, _⟩ => chk_36 kk
  | ⟨4, _⟩ => chk_38 kk
  | ⟨5, _⟩ => chk_40 kk
  | ⟨6, _⟩ => chk_42 kk
  | ⟨7, _⟩ => chk_44 kk
  | ⟨8, _⟩ => chk_46 kk
  | ⟨9, _⟩ => chk_48 kk
  | ⟨10, _⟩ => chk_50 kk
  | ⟨11, _⟩ => chk_52 kk
  | ⟨12, _⟩ => chk_54 kk
  | ⟨13, _⟩ => chk_56 kk

/-- One load-and-store pair of pass `kk`, for column group `w`. -/
def st3 (B : Vec F S224x128 .f32) (kk : Fin k0_t3_loop.trips) (w : Fin 14) (g : Vec F S3584 .f32) : Vec F S3584 .f32 :=
  storeIdx g ![addi (k0_pay19 iotaV 0#32 1#32 kk) (rowsP3 w)] (loadIdx B ![rowsP3 w, k0_pay18 iotaV 0#32 1#32 kk] (ldok3 kk w))
    (fun _ => 1#1) false (stok3 kk w)

/-- The staging buffer after pass `kk`, from what it held. -/
def pass3 (B : Vec F S224x128 .f32) (kk : Fin k0_t3_loop.trips) (g : Vec F S3584 .f32) : Vec F S3584 .f32 :=
  st3 B kk 13 (st3 B kk 12 (st3 B kk 11 (st3 B kk 10 (st3 B kk 9 (st3 B kk 8 (st3 B kk 7
    (st3 B kk 6 (st3 B kk 5 (st3 B kk 4 (st3 B kk 3 (st3 B kk 2 (st3 B kk 1 (st3 B kk 0 g)))))))))))))

section
variable (d : Dev nD) (L : grid0.Coords)

theorem trip3 (k : Fin k0_t1_loop.trips) (v332 v499 c355 : BitVec 32) (kk : Fin k0_t3_loop.trips)
    (B : Buf (Elt F) ((bi1).view.loc (thr d L))) (g : Buf (Elt F) ((bo1).view.loc (thr d L))) :
    iprop(((bi1).view.loc (thr d L) ↦{fullShare} B) ∗ ((bo1).view.loc (thr d L) ↦{fullShare} g))
      ⊢ (wp frame (wpE (defs₀ (F := F)) 𝒱₀ (thr d L) none) Set.univ
          (k0_t3_body L xtW (Memref.isWhole_whole _) oW (Memref.isWhole_whole _) bi0 (Memref.isWhole_whole _) bi1 (Memref.isWhole_whole _)
            bo0 (Memref.isWhole_whole _) bo1 (Memref.isWhole_whole _) cc0_scratch4 cc0_scratch5 cc0_scratch6 cc0_scratch7 k v332 v499 c355 iotaV kk ())
          fun _ => iprop(((bi1).view.loc (thr d L) ↦{fullShare} B) ∗ ∃ g', ⌜g' = pass3 (F := F) B kk g⌝ ∗ ((bo1).view.loc (thr d L) ↦{fullShare} g')) : sProp 𝕄) := by
  iintro ⟨H0, H2⟩
  unfold k0_t3_body
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  sl_step
  isplitl [H0]; · iexact H0
  iexists _
  isplitr
  rotate_left
  · iexact H2
  · ipureintro; rfl
end

/-! ## Loop 3 -/

/-- The column groups' index vectors: lane l of group w is column 16 w + l. -/
def rowsP4 : Fin 14 → IVec S16 32 := ![k0_pay38 iotaV, k0_pay39 iotaV, k0_pay40 iotaV, k0_pay41 iotaV, k0_pay42 iotaV, k0_pay43 iotaV, k0_pay44 iotaV, k0_pay45 iotaV, k0_pay46 iotaV, k0_pay47 iotaV, k0_pay48 iotaV, k0_pay49 iotaV, k0_pay50 iotaV, k0_pay51 208#32]

theorem ldok4 (kk : Fin k0_t4_loop.trips) : ∀ w : Fin 14, ∀ a x, ((![rowsP4 w, k0_pay36 iotaV 0#32 1#32 kk] : Fin 2 → IVec S16 32) a x).toNat < S224x128.size a
  | ⟨0, _⟩ => chk_57 kk
  | ⟨1, _⟩ => chk_59 kk
  | ⟨2, _⟩ => chk_61 kk
  | ⟨3, _⟩ => chk_63 kk
  | ⟨4, _⟩ => chk_65 kk
  | ⟨5, _⟩ => chk_67 kk
  | ⟨6, _⟩ => chk_69 kk
  | ⟨7, _⟩ => chk_71 kk
  | ⟨8, _⟩ => chk_73 kk
  | ⟨9, _⟩ => chk_75 kk
  | ⟨10, _⟩ => chk_77 kk
  | ⟨11, _⟩ => chk_79 kk
  | ⟨12, _⟩ => chk_81 kk
  | ⟨13, _⟩ => chk_83 kk
theorem stok4 (kk : Fin k0_t4_loop.trips) : ∀ w : Fin 14, ∀ a x, ((![addi (k0_pay37 iotaV 0#32 1#32 kk) (rowsP4 w)] : Fin 1 → IVec S16 32) a x).toNat < S3584.size a
  | ⟨0, _⟩ => chk_58 kk
  | ⟨1, _⟩ => chk_60 kk
  | ⟨2, _⟩ => chk_62 kk
  | ⟨3, _⟩ => chk_64 kk
  | ⟨4, _⟩ => chk_66 kk
  | ⟨5, _⟩ => chk_68 kk
  | ⟨6, _⟩ => chk_70 kk
  | ⟨7, _⟩ => chk_72 kk
  | ⟨8, _⟩ => chk_74 kk
  | ⟨9, _⟩ => chk_76 kk
  | ⟨10, _⟩ => chk_78 kk
  | ⟨11, _⟩ => chk_80 kk
  | ⟨12, _⟩ => chk_82 kk
  | ⟨13, _⟩ => chk_84 kk

/-- One load-and-store pair of pass `kk`, for column group `w`. -/
def st4 (B : Vec F S224x128 .f32) (kk : Fin k0_t4_loop.trips) (w : Fin 14) (g : Vec F S3584 .f32) : Vec F S3584 .f32 :=
  storeIdx g ![addi (k0_pay37 iotaV 0#32 1#32 kk) (rowsP4 w)] (loadIdx B ![rowsP4 w, k0_pay36 iotaV 0#32 1#32 kk] (ldok4 kk w))
    (fun _ => 1#1) false (stok4 kk w)

/-- The staging buffer after pass `kk`, from what it held. -/
def pass4 (B : Vec F S224x128 .f32) (kk : Fin k0_t4_loop.trips) (g : Vec F S3584 .f32) : Vec F S3584 .f32 :=
  st4 B kk 13 (st4 B kk 12 (st4 B kk 11 (st4 B kk 10 (st4 B kk 9 (st4 B kk 8 (st4 B kk 7
    (st4 B kk 6 (st4 B kk 5 (st4 B kk 4 (st4 B kk 3 (st4 B kk 2 (st4 B kk 1 (st4 B kk 0 g)))))))))))))

section
variable (d : Dev nD) (L : grid0.Coords)

theorem trip4 (v2 : BitVec 32) (kk : Fin k0_t4_loop.trips)
    (B : Buf (Elt F) ((bi0).view.loc (thr d L))) (g : Buf (Elt F) ((bo0).view.loc (thr d L))) :
    iprop(((bi0).view.loc (thr d L) ↦{fullShare} B) ∗ ((bo0).view.loc (thr d L) ↦{fullShare} g))
      ⊢ (wp frame (wpE (defs₀ (F := F)) 𝒱₀ (thr d L) none) Set.univ
          (k0_t4_body L xtW (Memref.isWhole_whole _) oW (Memref.isWhole_whole _) bi0 (Memref.isWhole_whole _) bi1 (Memref.isWhole_whole _)
            bo0 (Memref.isWhole_whole _) bo1 (Memref.isWhole_whole _) cc0_scratch4 cc0_scratch5 cc0_scratch6 cc0_scratch7 v2 iotaV kk ())
          fun _ => iprop(((bi0).view.loc (thr d L) ↦{fullShare} B) ∗ ∃ g', ⌜g' = pass4 (F := F) B kk g⌝ ∗ ((bo0).view.loc (thr d L) ↦{fullShare} g')) : sProp 𝕄) := by
  iintro ⟨H0, H2⟩
  unfold k0_t4_body
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  sl_step
  isplitl [H0]; · iexact H0
  iexists _
  isplitr
  rotate_left
  · iexact H2
  · ipureintro; rfl
end

end Cert.Proof.KI

end
-- ==== Proof.KIValue.lean ====
/-
  One pass of the transposition loop, as a function on the staging buffer.

  A slab B holds 224 columns × 128 frames; the staging buffer holds 3584 = 16 × 224 words. Pass n (n < 16) does fourteen
  indexed loads and stores: store w writes, for each lane l < 16, the slab's element at column 16 w + l and frame
  33 + 4 ((n + l) mod 16) to staging word 224 ((n + l) mod 16) + 16 w + l. Writing a staging word as 224 j + r with r < 224,
  pass n therefore writes B[r, 33 + 4 j] to exactly the words with (n + r mod 16) mod 16 = j, that is, with
  (j + 16 - r mod 16) mod 16 = n: each word belongs to one pass (`passOf`), and after passes 0 … 15 the staging buffer is the
  frame-major transpose of the sixteen sampled frames (`tr`).

  The sixteen lanes of one store name sixteen distinct words, so an unmasked store is "the stored element where a lane
  names the word, the old element elsewhere"; the fourteen stores of a pass name disjoint sets of words, so the pass is
  "the transposed element at the words of pass n, the old element elsewhere".
-/
import proofs.«216812_g82557861364368_cont_9to1c4b_466_28_alg».proof.Proof.KITr

noncomputable section

namespace Cert.Proof.KI

open Cert.KernelIdeal Cert.KernelIdeal.GenP
open Idealize.ShloMosaic Idealize.ShloMosaic.ValueIdx

variable {F : FTy → Type} [FloatOps F]

theorem passOf_lt (z : S3584.Idx) : passOf z < 16 := Nat.mod_lt _ (by omega)

theorem trAcc_zero (B : Vec F S224x128 .f32) (f : Vec F S3584 .f32) : trAcc B f 0 = f := by
  funext z; unfold trAcc; rw [if_neg (Nat.not_lt_zero _)]

theorem trAcc_full (B : Vec F S224x128 .f32) (f : Vec F S3584 .f32) : trAcc B f 16 = tr B := by
  funext z; unfold trAcc; rw [if_pos (passOf_lt z)]

/-! ## An unmasked store whose lanes name distinct words -/

section Store
variable {s : Shape} {e : EltTy} {d : Fin 1 → Nat}

/-- What one lane of an unmasked store does: the stored element at the word the lane names, the rest unchanged. -/
def put (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

/-- An unmasked store without accumulation is the lanes' writes in ascending order. -/
theorem storeIdx_ones (g : Vec F s e) (idxs : Fin s.rank → IVec ⟨1, d⟩ 32) (v : Vec F ⟨1, d⟩ e)
    (h : ∀ a x, (idxs a x).toNat < s.size a) :
    storeIdx g idxs v (fun _ => 1#1) false h = (List.finRange (d 0)).foldl (put idxs v h) g := by
  unfold storeIdx
  refine congrArg (fun φ => List.foldl φ g (List.finRange (d 0))) ?_
  funext g' k
  unfold put
  simp

/-- A word no lane of the list names keeps its element. -/
theorem foldl_put_miss (idxs : Fin s.rank → IVec ⟨1, d⟩ 32) (v : Vec F ⟨1, d⟩ e) (h : ∀ a x, (idxs a x).toNat < s.size a)
    (z : s.Idx) : ∀ (l : List (Fin (d 0))) (g : Vec F s e),
      (∀ k ∈ l, idxAt idxs h (Shape.ofLane k) ≠ z) → l.foldl (put idxs v h) g z = g z
  | [], _, _ => rfl
  | a :: l, g, hz => by
    rw [List.foldl_cons, foldl_put_miss idxs v h z l _ (fun k hk => hz k (List.mem_cons_of_mem _ hk))]
    unfold put
    exact if_neg (fun hall => hz a List.mem_cons_self (funext fun b => Fin.ext (hall b).symm))

/-- A word exactly one lane of a duplicate-free list names ends holding that lane's element. -/
theorem foldl_put_hit (idxs : Fin s.rank → IVec ⟨1, d⟩ 32) (v : Vec F ⟨1, d⟩ e) (h : ∀ a x, (idxs a x).toNat < s.size a)
    (z : s.Idx) (k : Fin (d 0)) (hk : idxAt idxs h (Shape.ofLane k) = z) :
    ∀ (l : List (Fin (d 0))) (g : Vec F s e), l.Nodup → k ∈ l →
      (∀ k' ∈ l, idxAt idxs h (Shape.ofLane k') = z → k' = k) → l.foldl (put idxs v h) g z = v (Shape.ofLane k)
  | [], _, _, hm, _ => absurd hm List.not_mem_nil
  | a :: l, g, hnd, hm, hinj => by
    rw [List.foldl_cons]
    by_cases hak : a = k
    · -- written by this lane, and by no later one
      rw [foldl_put_miss idxs v h z l _ (fun k' hk' he =>
        (List.nodup_cons.mp hnd).1 (hak ▸ (hinj k' (List.mem_cons_of_mem _ hk') he) ▸ hk'))]
      unfold put
      rw [hak]
      exact if_pos (fun b => by rw [hk])
    · have hm' : k ∈ l := by
        rcases List.mem_cons.mp hm with h0 | h0
        · exact absurd h0.symm hak
        · exact h0
      exact foldl_put_hit idxs v h z k hk l _ (List.nodup_cons.mp hnd).2 hm'
        (fun k' hk' => hinj k' (List.mem_cons_of_mem _ hk'))

/-- The store at a word one lane names, and no other lane: that lane's element. -/
theorem storeIdx_apply_hit (g : Vec F s e) (idxs : Fin s.rank → IVec ⟨1, d⟩ 32) (v : Vec F ⟨1, d⟩ e)
    (h : ∀ a x, (idxs a x).toNat < s.size a) (z : s.Idx) (k : Fin (d 0)) (hk : idxAt idxs h (Shape.ofLane k) = z)
    (hinj : ∀ k', idxAt idxs h (Shape.ofLane k') = z → k' = k) :
    storeIdx g idxs v (fun _ => 1#1) false h z = v (Shape.ofLane k) := by
  rw [storeIdx_ones]
  exact foldl_put_hit idxs v h z k hk _ g (List.nodup_finRange _) (List.mem_finRange k) (fun k' _ => hinj k')

/-- The store at a word no lane names: the old element. -/
theorem storeIdx_apply_miss (g : Vec F s e) (idxs : Fin s.rank → IVec ⟨1, d⟩ 32) (v : Vec F ⟨1, d⟩ e)
    (h : ∀ a x, (idxs a x).toNat < s.size a) (z : s.Idx) (hz : ∀ k, idxAt idxs h (Shape.ofLane k) ≠ z) :
    storeIdx g idxs v (fun _ => 1#1) false h z = g z := by
  rw [storeIdx_ones]
  exact foldl_put_miss idxs v h z _ g (fun k _ => hz k)

end Store

/-- A fold of conditional overwrites by one function: overwritten where some step's condition holds. -/
theorem foldl_cond {ι α β : Type} (G : ι → (α → β) → (α → β)) (c : ι → α → Prop) [∀ i a, Decidable (c i a)]
    [∀ (l : List ι) a, Decidable (∃ i ∈ l, c i a)] (t : α → β)
    (hG : ∀ i g a, G i g a = if c i a then t a else g a) :
    ∀ (l : List ι) (g : α → β) (a : α),
      l.foldl (fun g i => G i g) g a = if (∃ i ∈ l, c i a) then t a else g a
  | [], g, a => by
    rw [List.foldl_nil, if_neg]; rintro ⟨i, hi, _⟩; exact absurd hi List.not_mem_nil
  | i :: l, g, a => by
    rw [List.foldl_cons, foldl_cond G c t hG l _ a, hG]
    by_cases h1 : ∃ j ∈ l, c j a
    · obtain ⟨j, hj, hc⟩ := h1
      rw [if_pos ⟨j, hj, hc⟩, if_pos ⟨j, List.mem_cons_of_mem _ hj, hc⟩]
    · rw [if_neg h1]
      by_cases h2 : c i a
      · rw [if_pos h2, if_pos ⟨i, List.mem_cons_self, h2⟩]
      · rw [if_neg h2, if_neg]
        rintro ⟨j, hj, hc⟩
        rcases List.mem_cons.mp hj with h0 | h0
        · exact h2 (h0 ▸ hc)
        · exact h1 ⟨j, h0, hc⟩

/-! ## One pass -/

/-- Lane k of a sixteen-lane vector, as the index with that coordinate. -/
theorem ofLane_eq_ix1 (k : Fin 16) : (Shape.ofLane (d := ![16]) k : S16.Idx) = ix1 k := by
  funext a; match a with | ⟨0, _⟩ => rfl

/-- A sixteen-lane unmasked store at a word lane k names, and no other lane: lane k's element. -/
theorem store16_hit {s : Shape} {e : EltTy} (g : Vec F s e) (idxs : Fin s.rank → IVec S16 32) (v : Vec F S16 e)
    (h : ∀ a x, (idxs a x).toNat < s.size a) (z : s.Idx) (k : Fin 16) (hk : idxAt idxs h (ix1 k) = z)
    (hinj : ∀ k' : Fin 16, idxAt idxs h (ix1 k') = z → k' = k) :
    storeIdx g idxs v (fun _ => 1#1) false h z = v (ix1 k) :=
  (storeIdx_apply_hit (d := ![16]) g idxs v h z k ((congrArg (idxAt idxs h) (ofLane_eq_ix1 k)).trans hk)
    (fun k' he => hinj k' ((congrArg (idxAt idxs h) (ofLane_eq_ix1 k')).symm.trans he))).trans
    (congrArg v (ofLane_eq_ix1 k))

/-- A sixteen-lane unmasked store at a word no lane names: the old element. -/
theorem store16_miss {s : Shape} {e : EltTy} (g : Vec F s e) (idxs : Fin s.rank → IVec S16 32) (v : Vec F S16 e)
    (h : ∀ a x, (idxs a x).toNat < s.size a) (z : s.Idx) (hz : ∀ k : Fin 16, idxAt idxs h (ix1 k) ≠ z) :
    storeIdx g idxs v (fun _ => 1#1) false h z = g z :=
  storeIdx_apply_miss (d := ![16]) g idxs v h z
    (fun k he => hz k ((congrArg (idxAt idxs h) (ofLane_eq_ix1 k)).symm.trans he))

/-- The staging word lane l of store w names in pass n. -/
theorem target_val (n : ℕ) (bv : IVec S16 32) (rv : Fin 14 → IVec S16 32)
    (hbv : ∀ l : Fin 16, (bv (ix1 l)).toNat = 224 * ((n + l.val) % 16))
    (hrv : ∀ (w : Fin 14) (l : Fin 16), (rv w (ix1 l)).toNat = 16 * w.val + l.val) (w : Fin 14) (l : Fin 16) :
    (addi bv (rv w) (ix1 l)).toNat = 224 * ((n + l.val) % 16) + (16 * w.val + l.val) := by
  show (bv (ix1 l) + rv w (ix1 l)).toNat = _
  rw [BitVec.toNat_add, hbv, hrv]
  have := w.isLt; have := l.isLt
  omega

/-- Store w of pass n at staging word z: the transposed element when z is in column group w and belongs to pass n,
    the old element otherwise. -/
theorem store_w_apply (B : Vec F S224x128 .f32) (n : ℕ) (hn : n < 16)
    (cv bv : IVec S16 32) (rv : Fin 14 → IVec S16 32)
    (hcv : ∀ l : Fin 16, (cv (ix1 l)).toNat = 33 + 4 * ((n + l.val) % 16))
    (hbv : ∀ l : Fin 16, (bv (ix1 l)).toNat = 224 * ((n + l.val) % 16))
    (hrv : ∀ (w : Fin 14) (l : Fin 16), (rv w (ix1 l)).toNat = 16 * w.val + l.val)
    (w : Fin 14)
    (h1 : ∀ a x, ((![rv w, cv] : Fin 2 → IVec S16 32) a x).toNat < S224x128.size a)
    (h2 : ∀ a x, ((![addi bv (rv w)] : Fin 1 → IVec S16 32) a x).toNat < S3584.size a)
    (g : Vec F S3584 .f32) (z : S3584.Idx) :
    storeIdx g ![addi bv (rv w)] (loadIdx B ![rv w, cv] h1) (fun _ => 1#1) false h2 z
      = if ((z 0).val % 224 / 16 = w.val ∧ passOf z = n) then tr B z else g z := by
  have hz : (z 0).val < 3584 := (z 0).isLt
  have hw := w.isLt
  have htv := target_val n bv rv hbv hrv w
  by_cases hc : ((z 0).val % 224 / 16 = w.val ∧ passOf z = n)
  · rw [if_pos hc]
    obtain ⟨hcw, hp⟩ := hc
    unfold passOf at hp
    have hklt : (z 0).val % 16 < 16 := Nat.mod_lt _ (by omega)
    have hk : idxAt ![addi bv (rv w)] h2 (ix1 (⟨(z 0).val % 16, hklt⟩ : Fin 16)) = z := by
      funext a
      obtain rfl : a = 0 := Subsingleton.elim _ _
      refine Fin.ext ?_
      show (addi bv (rv w) (ix1 (⟨(z 0).val % 16, hklt⟩ : Fin 16))).toNat = (z 0).val
      rw [htv]
      show 224 * ((n + (z 0).val % 16) % 16) + (16 * w.val + (z 0).val % 16) = (z 0).val
      omega
    have hinj : ∀ k' : Fin 16, idxAt ![addi bv (rv w)] h2 (ix1 k') = z → k' = ⟨(z 0).val % 16, hklt⟩ := by
      intro k' he
      have h0 : (addi bv (rv w) (ix1 k')).toNat = (z 0).val := congrArg (fun i : S3584.Idx => (i 0).val) he
      rw [htv] at h0
      have := k'.isLt
      refine Fin.ext ?_
      show k'.val = (z 0).val % 16
      omega
    rw [store16_hit g _ _ h2 z ⟨(z 0).val % 16, hklt⟩ hk hinj]
    show B (idxAt ![rv w, cv] h1 (ix1 (⟨(z 0).val % 16, hklt⟩ : Fin 16))) = tr B z
    unfold tr
    refine congrArg B ?_
    funext a
    refine Fin.ext ?_
    match a with
    | ⟨0, _⟩ =>
      show (rv w (ix1 (⟨(z 0).val % 16, hklt⟩ : Fin 16))).toNat = (z 0).val % 224
      rw [hrv]
      show 16 * w.val + (z 0).val % 16 = (z 0).val % 224
      omega
    | ⟨1, _⟩ =>
      show (cv (ix1 (⟨(z 0).val % 16, hklt⟩ : Fin 16))).toNat = 33 + 4 * ((z 0).val / 224)
      rw [hcv]
      show 33 + 4 * ((n + (z 0).val % 16) % 16) = 33 + 4 * ((z 0).val / 224)
      omega
  · rw [if_neg hc]
    refine store16_miss g _ _ h2 z fun k he => hc ?_
    have h0 : (addi bv (rv w) (ix1 k)).toNat = (z 0).val := congrArg (fun i : S3584.Idx => (i 0).val) he
    rw [htv] at h0
    have hk16 := k.isLt
    have hA : (n + k.val) % 16 < 16 := Nat.mod_lt _ (by omega)
    have hdiv : (z 0).val / 224 = (n + k.val) % 16 := by omega
    have hmod : (z 0).val % 224 = 16 * w.val + k.val := by omega
    have h16 : (z 0).val % 16 = k.val := by omega
    unfold passOf
    refine ⟨?_, ?_⟩
    · rw [hmod]; omega
    · rw [hdiv, h16]; omega

theorem trip_acc (B : Vec F S224x128 .f32) (f : Vec F S3584 .f32) (n : ℕ) (hn : n < 16)
    (cv bv : IVec S16 32) (rv : Fin 14 → IVec S16 32)
    (hcv : ∀ l : Fin 16, (cv (ix1 l)).toNat = 33 + 4 * ((n + l.val) % 16))
    (hbv : ∀ l : Fin 16, (bv (ix1 l)).toNat = 224 * ((n + l.val) % 16))
    (hrv : ∀ (w : Fin 14) (l : Fin 16), (rv w (ix1 l)).toNat = 16 * w.val + l.val)
    (h1 : ∀ w : Fin 14, ∀ a x, ((![rv w, cv] : Fin 2 → IVec S16 32) a x).toNat < S224x128.size a)
    (h2 : ∀ w : Fin 14, ∀ a x, ((![addi bv (rv w)] : Fin 1 → IVec S16 32) a x).toNat < S3584.size a) :
    (List.finRange 14).foldl (fun g w => storeIdx g ![addi bv (rv w)] (loadIdx B ![rv w, cv] (h1 w)) (fun _ => 1#1) false (h2 w)) (trAcc B f n)
      = trAcc B f (n + 1) := by
  funext z
  refine (foldl_cond
    (fun (w : Fin 14) (g : Vec F S3584 .f32) => storeIdx g ![addi bv (rv w)] (loadIdx B ![rv w, cv] (h1 w)) (fun _ => 1#1) false (h2 w))
    (fun w z => (z 0).val % 224 / 16 = w.val ∧ passOf z = n) (tr B)
    (fun w g z => store_w_apply B n hn cv bv rv hcv hbv hrv w (h1 w) (h2 w) g z) (List.finRange 14) (trAcc B f n) z).trans ?_
  have hz : (z 0).val < 3584 := (z 0).isLt
  unfold trAcc
  by_cases hp : passOf z = n
  · rw [if_pos ⟨⟨(z 0).val % 224 / 16, by omega⟩, List.mem_finRange _, rfl, hp⟩, if_pos (by omega)]
  · rw [if_neg (fun ⟨_, _, _, h⟩ => hp h)]
    by_cases h3 : passOf z < n
    · rw [if_pos h3, if_pos (by omega)]
    · rw [if_neg h3, if_neg (by omega)]

end Cert.Proof.KI

end
-- ==== Proof.KIValueIdx.lean ====
/-
  The lane values of the index vectors the three transposition loops compute, for every pass: in pass kk lane l reads
  frame 33 + 4 ((kk + l) mod 16), its sample's staging row starts at word 224 ((kk + l) mod 16), and column vector w
  holds the columns 16 w + l. Each loop runs sixteen passes. The vectors are closed terms of the pass number — the lane
  numbers plus a constant, masked to four bits, scaled —, every value is far below 2^31, and the ranges (sixteen passes,
  sixteen lanes, fourteen column groups) are finite: the equations are checked case by case by evaluation.
-/
import proofs.«216812_g82557861364368_cont_9to1c4b_466_28_alg».proof.Proof.KIChk

noncomputable section

namespace Cert.Proof.KI

open Cert.KernelIdeal Cert.KernelIdeal.GenP
open Idealize.ShloMosaic Idealize.ShloMosaic.ValueIdx

/-! ## The three loops run sixteen passes -/

theorem trips2 : k0_t2_loop.trips = 16 := by decide +kernel
theorem trips3 : k0_t3_loop.trips = 16 := by decide +kernel
theorem trips4 : k0_t4_loop.trips = 16 := by decide +kernel

/-! ## First loop -/

/-- The frame lane l reads in pass kk. -/
theorem col2_val : ∀ (kk : Fin k0_t2_loop.trips) (l : Fin 16), (k0_pay2 iotaV 0#32 1#32 kk (ix1 l)).toNat = 33 + 4 * ((kk.val + l.val) % 16) := by
  decide +kernel
/-- The first staging word of that frame's sample. -/
theorem base2_val : ∀ (kk : Fin k0_t2_loop.trips) (l : Fin 16), (k0_pay3 iotaV 0#32 1#32 kk (ix1 l)).toNat = 224 * ((kk.val + l.val) % 16) := by
  decide +kernel
/-- The fourteen column vectors: group w holds columns 16 w … 16 w + 15. -/
def rows2 : Fin 14 → IVec S16 32 := ![k0_pay4 iotaV, k0_pay5 iotaV, k0_pay6 iotaV, k0_pay7 iotaV, k0_pay8 iotaV, k0_pay9 iotaV, k0_pay10 iotaV, k0_pay11 iotaV, k0_pay12 iotaV, k0_pay13 iotaV, k0_pay14 iotaV, k0_pay15 iotaV, k0_pay16 iotaV, k0_pay33 iotaV 208#32]
theorem rows2_val : ∀ (w : Fin 14) (l : Fin 16), (rows2 w (ix1 l)).toNat = 16 * w.val + l.val := by decide +kernel

/-! ## Second loop -/

theorem col3_val : ∀ (kk : Fin k0_t3_loop.trips) (l : Fin 16), (k0_pay18 iotaV 0#32 1#32 kk (ix1 l)).toNat = 33 + 4 * ((kk.val + l.val) % 16) := by
  decide +kernel
theorem base3_val : ∀ (kk : Fin k0_t3_loop.trips) (l : Fin 16), (k0_pay19 iotaV 0#32 1#32 kk (ix1 l)).toNat = 224 * ((kk.val + l.val) % 16) := by
  decide +kernel
def rows3 : Fin 14 → IVec S16 32 := ![k0_pay20 iotaV, k0_pay21 iotaV, k0_pay22 iotaV, k0_pay23 iotaV, k0_pay24 iotaV, k0_pay25 iotaV, k0_pay26 iotaV, k0_pay27 iotaV, k0_pay28 iotaV, k0_pay29 iotaV, k0_pay30 iotaV, k0_pay31 iotaV, k0_pay32 iotaV, k0_pay34 208#32]
theorem rows3_val : ∀ (w : Fin 14) (l : Fin 16), (rows3 w (ix1 l)).toNat = 16 * w.val + l.val := by decide +kernel

/-! ## Third loop -/

theorem col4_val : ∀ (kk : Fin k0_t4_loop.trips) (l : Fin 16), (k0_pay36 iotaV 0#32 1#32 kk (ix1 l)).toNat = 33 + 4 * ((kk.val + l.val) % 16) := by
  decide +kernel
theorem base4_val : ∀ (kk : Fin k0_t4_loop.trips) (l : Fin 16), (k0_pay37 iotaV 0#32 1#32 kk (ix1 l)).toNat = 224 * ((kk.val + l.val) % 16) := by
  decide +kernel
def rows4 : Fin 14 → IVec S16 32 := ![k0_pay38 iotaV, k0_pay39 iotaV, k0_pay40 iotaV, k0_pay41 iotaV, k0_pay42 iotaV, k0_pay43 iotaV, k0_pay44 iotaV, k0_pay45 iotaV, k0_pay46 iotaV, k0_pay47 iotaV, k0_pay48 iotaV, k0_pay49 iotaV, k0_pay50 iotaV, k0_pay51 208#32]
theorem rows4_val : ∀ (w : Fin 14) (l : Fin 16), (rows4 w (ix1 l)).toNat = 16 * w.val + l.val := by decide +kernel

end Cert.Proof.KI

end
-- ==== Proof.KIAcc.lean ====
/-
  The staging buffer through the passes of a transposition loop. A pass is fourteen indexed load-and-store pairs, one per
  group of sixteen columns, applied in order; pass `n` writes exactly the staging words that belong to pass `n`, each with
  its transposed element. So after the first `n` passes, from any contents `f`, the words of the passes below `n` hold the
  transposed elements and the rest hold `f`; after all sixteen the buffer is the frame-major transpose of the slab's sixteen
  sampled frames, whatever it held before. The kernel's three loops are the same text over different names.
-/
import proofs.«216812_g82557861364368_cont_9to1c4b_466_28_alg».proof.Proof.KIInner
import proofs.«216812_g82557861364368_cont_9to1c4b_466_28_alg».proof.Proof.KIValue
import proofs.«216812_g82557861364368_cont_9to1c4b_466_28_alg».proof.Proof.KIValueIdx

noncomputable section

namespace Cert.Proof.KI

open Cert.KernelIdeal Cert.KernelIdeal.GenP
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Loop 1 -/

omit [FloatOps F] in
theorem rowsP2_eq : rowsP2 = rows2 := rfl

/-- A pass is the fold of its fourteen load-and-store pairs over the column groups in order. -/
theorem pass2_fold (B : Vec F S224x128 .f32) (kk : Fin k0_t2_loop.trips) (g : Vec F S3584 .f32) :
    pass2 B kk g = (List.finRange 14).foldl (fun g w => st2 B kk w g) g := by
  rw [show List.finRange 14 = [0, 1, 2, 3, 4, 5, 6, 7, 8, 9, 10, 11, 12, 13] from by decide]
  rfl

/-- the staging buffer after the first n passes of the loop, started from f -/
def acc2 (B : Vec F S224x128 .f32) (f : Vec F S3584 .f32) : ℕ → Vec F S3584 .f32
  | 0 => f
  | n + 1 => if h : n < k0_t2_loop.trips then pass2 B ⟨n, h⟩ (acc2 B f n) else acc2 B f n

theorem acc2_step (B : Vec F S224x128 .f32) (f : Vec F S3584 .f32) (n : ℕ) (h : n < k0_t2_loop.trips) :
    acc2 B f (n + 1) = pass2 B ⟨n, h⟩ (acc2 B f n) := by
  rw [acc2, dif_pos h]

theorem acc2_succ (B : Vec F S224x128 .f32) (f : Vec F S3584 .f32) (kk : Fin k0_t2_loop.trips) :
    acc2 B f (kk.val + 1) = pass2 B kk (acc2 B f kk.val) :=
  acc2_step B f kk.val kk.isLt

/-- After n ≤ 16 passes the words of the passes below n hold the transposed elements, the others what they held. -/
theorem acc2_eq (B : Vec F S224x128 .f32) (f : Vec F S3584 .f32) (n : ℕ) (hn : n ≤ 16) : acc2 B f n = trAcc B f n := by
  induction n with
  | zero => exact (trAcc_zero B f).symm
  | succ n ih =>
    have hn' : n < 16 := by omega
    have hlt : n < k0_t2_loop.trips := by rw [trips2]; exact hn'
    rw [acc2_step B f n hlt, ih (by omega), pass2_fold]
    unfold st2
    exact trip_acc B f n hn' (k0_pay2 iotaV 0#32 1#32 ⟨n, hlt⟩) (k0_pay3 iotaV 0#32 1#32 ⟨n, hlt⟩) rows2
      (fun l => col2_val ⟨n, hlt⟩ l) (fun l => base2_val ⟨n, hlt⟩ l) rows2_val (ldok2 ⟨n, hlt⟩) (stok2 ⟨n, hlt⟩)

/-- After all its passes the staging buffer is the frame-major transpose of the slab's sixteen sampled frames. -/
theorem acc2_full (B : Vec F S224x128 .f32) (f : Vec F S3584 .f32) : acc2 B f k0_t2_loop.trips = tr B := by
  rw [trips2, acc2_eq B f 16 (Nat.le_refl _), trAcc_full]

/-! ## Loop 2 -/

omit [FloatOps F] in
theorem rowsP3_eq : rowsP3 = rows3 := rfl

/-- A pass is the fold of its fourteen load-and-store pairs over the column groups in order. -/
theorem pass3_fold (B : Vec F S224x128 .f32) (kk : Fin k0_t3_loop.trips) (g : Vec F S3584 .f32) :
    pass3 B kk g = (List.finRange 14).foldl (fun g w => st3 B kk w g) g := by
  rw [show List.finRange 14 = [0, 1, 2, 3, 4, 5, 6, 7, 8, 9, 10, 11, 12, 13] from by decide]
  rfl

/-- the staging buffer after the first n passes of the loop, started from f -/
def acc3 (B : Vec F S224x128 .f32) (f : Vec F S3584 .f32) : ℕ → Vec F S3584 .f32
  | 0 => f
  | n + 1 => if h : n < k0_t3_loop.trips then pass3 B ⟨n, h⟩ (acc3 B f n) else acc3 B f n

theorem acc3_step (B : Vec F S224x128 .f32) (f : Vec F S3584 .f32) (n : ℕ) (h : n < k0_t3_loop.trips) :
    acc3 B f (n + 1) = pass3 B ⟨n, h⟩ (acc3 B f n) := by
  rw [acc3, dif_pos h]

theorem acc3_succ (B : Vec F S224x128 .f32) (f : Vec F S3584 .f32) (kk : Fin k0_t3_loop.trips) :
    acc3 B f (kk.val + 1) = pass3 B kk (acc3 B f kk.val) :=
  acc3_step B f kk.val kk.isLt

/-- After n ≤ 16 passes the words of the passes below n hold the transposed elements, the others what they held. -/
theorem acc3_eq (B : Vec F S224x128 .f32) (f : Vec F S3584 .f32) (n : ℕ) (hn : n ≤ 16) : acc3 B f n = trAcc B f n := by
  induction n with
  | zero => exact (trAcc_zero B f).symm
  | succ n ih =>
    have hn' : n < 16 := by omega
    have hlt : n < k0_t3_loop.trips := by rw [trips3]; exact hn'
    rw [acc3_step B f n hlt, ih (by omega), pass3_fold]
    unfold st3
    exact trip_acc B f n hn' (k0_pay18 iotaV 0#32 1#32 ⟨n, hlt⟩) (k0_pay19 iotaV 0#32 1#32 ⟨n, hlt⟩) rows3
      (fun l => col3_val ⟨n, hlt⟩ l) (fun l => base3_val ⟨n, hlt⟩ l) rows3_val (ldok3 ⟨n, hlt⟩) (stok3 ⟨n, hlt⟩)

/-- After all its passes the staging buffer is the frame-major transpose of the slab's sixteen sampled frames. -/
theorem acc3_full (B : Vec F S224x128 .f32) (f : Vec F S3584 .f32) : acc3 B f k0_t3_loop.trips = tr B := by
  rw [trips3, acc3_eq B f 16 (Nat.le_refl _), trAcc_full]

/-! ## Loop 3 -/

omit [FloatOps F] in
theorem rowsP4_eq : rowsP4 = rows4 := rfl

/-- A pass is the fold of its fourteen load-and-store pairs over the column groups in order. -/
theorem pass4_fold (B : Vec F S224x128 .f32) (kk : Fin k0_t4_loop.trips) (g : Vec F S3584 .f32) :
    pass4 B kk g = (List.finRange 14).foldl (fun g w => st4 B kk w g) g := by
  rw [show List.finRange 14 = [0, 1, 2, 3, 4, 5, 6, 7, 8, 9, 10, 11, 12, 13] from by decide]
  rfl

/-- the staging buffer after the first n passes of the loop, started from f -/
def acc4 (B : Vec F S224x128 .f32) (f : Vec F S3584 .f32) : ℕ → Vec F S3584 .f32
  | 0 => f
  | n + 1 => if h : n < k0_t4_loop.trips then pass4 B ⟨n, h⟩ (acc4 B f n) else acc4 B f n

theorem acc4_step (B : Vec F S224x128 .f32) (f : Vec F S3584 .f32) (n : ℕ) (h : n < k0_t4_loop.trips) :
    acc4 B f (n + 1) = pass4 B ⟨n, h⟩ (acc4 B f n) := by
  rw [acc4, dif_pos h]

theorem acc4_succ (B : Vec F S224x128 .f32) (f : Vec F S3584 .f32) (kk : Fin k0_t4_loop.trips) :
    acc4 B f (kk.val + 1) = pass4 B kk (acc4 B f kk.val) :=
  acc4_step B f kk.val kk.isLt

/-- After n ≤ 16 passes the words of the passes below n hold the transposed elements, the others what they held. -/
theorem acc4_eq (B : Vec F S224x128 .f32) (f : Vec F S3584 .f32) (n : ℕ) (hn : n ≤ 16) : acc4 B f n = trAcc B f n := by
  induction n with
  | zero => exact (trAcc_zero B f).symm
  | succ n ih =>
    have hn' : n < 16 := by omega
    have hlt : n < k0_t4_loop.trips := by rw [trips4]; exact hn'
    rw [acc4_step B f n hlt, ih (by omega), pass4_fold]
    unfold st4
    exact trip_acc B f n hn' (k0_pay36 iotaV 0#32 1#32 ⟨n, hlt⟩) (k0_pay37 iotaV 0#32 1#32 ⟨n, hlt⟩) rows4
      (fun l => col4_val ⟨n, hlt⟩ l) (fun l => base4_val ⟨n, hlt⟩ l) rows4_val (ldok4 ⟨n, hlt⟩) (stok4 ⟨n, hlt⟩)

/-- After all its passes the staging buffer is the frame-major transpose of the slab's sixteen sampled frames. -/
theorem acc4_full (B : Vec F S224x128 .f32) (f : Vec F S3584 .f32) : acc4 B f k0_t4_loop.trips = tr B := by
  rw [trips4, acc4_eq B f 16 (Nat.le_refl _), trAcc_full]

end Cert.Proof.KI

end
-- ==== Proof.KICoreStmt.lean ====
/-
  One vector subcore's task over explicit resources: the evidence that it may wait on its own semaphores, what the call
  hands it (two read shares of the transposed clip, its row pieces of the result), its four scratch buffers at any
  contents, its four copy semaphores at zero, and what it owes the launch. The task ends with the shares back, the pieces
  holding the sampled frames, the scratch at some contents, the semaphores at zero again, and the same debt, having waited
  only on its own semaphores.
-/
import proofs.«216812_g82557861364368_cont_9to1c4b_466_28_alg».proof.Proof.KIPay

noncomputable section

namespace Cert.Proof.KI

open Cert.KernelIdeal Cert.KernelIdeal.GenP
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The subcore's four scratch buffers, each whole at some contents. -/
def scratchAny (d : Dev nD) (L : grid0.Coords) : sProp 𝕄 :=
  iprop((∃ f, (Memref.whole cc0_scratch0 : Memref sig .scVector .vmem S224x128 .f32).view.loc (thr d L) ↦{fullShare} f)
    ∗ (∃ f, (Memref.whole cc0_scratch1 : Memref sig .scVector .vmem S224x128 .f32).view.loc (thr d L) ↦{fullShare} f)
    ∗ (∃ f, (Memref.whole cc0_scratch2 : Memref sig .scVector .vmem S3584 .f32).view.loc (thr d L) ↦{fullShare} f)
    ∗ (∃ f, (Memref.whole cc0_scratch3 : Memref sig .scVector .vmem S3584 .f32).view.loc (thr d L) ↦{fullShare} f))

/-- Its four copy semaphores at zero. -/
def semsZero (d : Dev nD) (L : grid0.Coords) : sProp 𝕄 :=
  iprop(semVal (thr d L, SemLoc.dma cc0_scratch4.sem) 0 ∗ semVal (thr d L, SemLoc.dma cc0_scratch5.sem) 0
    ∗ semVal (thr d L, SemLoc.dma cc0_scratch6.sem) 0 ∗ semVal (thr d L, SemLoc.dma cc0_scratch7.sem) 0)

/-- The task over explicit resources. -/
def TileCoreStmt [FloatOps F] (m : (ℓ : Loc nD τ sig) → Buf (Elt F) ℓ) : Prop :=
  ∀ (d : Dev nD) (L : grid0.Coords) (O : CellTallies nD τ sig (HIx 1)) (W : Waits sig (HIx 1)),
    (iprop(Transfers.MayWaits (thr d L) (none : HIx 1) O ∗ tileGo m d L ∗ scratchAny d L ∗ semsZero d L ∗ owes (thr d L) O W) : sProp 𝕄)
      ⊢ wp frame (wpE (defs₀ (F := F)) 𝒱₀ (thr d L) none) Set.univ
          (cc0_temporal_gather L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7)
          fun _ => iprop(tileTd m d L ∗ scratchAny d L ∗ semsZero d L
            ∗ ∃ W', ⌜∀ p ∈ W', p ∈ W ∨ p.2 = none⌝ ∗ owes (thr d L) O W')

end Cert.Proof.KI

end
-- ==== Proof.KITrip.lean ====
/-
  One trip of the worker's main loop. Trip `k` handles the slabs `2 k` (first slot) and `2 k + 1` (second slot): it waits for
  the first slot's fetch, starts the second slot's, drains the previous trip's first-slot write-outs (not at the first trip),
  transposes the first slab's sixteen sampled frames into the first staging buffer and starts its sixteen write-outs; then the
  same for the second slot, after starting the fetch of slab `2 k + 2`. The invariant `inv` says what is in flight when a trip
  is entered: one fetch into the first slab buffer (from one of the worker's two read shares of the transposed clip, the rest of
  that share and the other share held), the two batches of sixteen write-outs of the previous trip (each delivering a finished
  row piece and a staging row back), and, of the worker's row pieces, the finished ones, none for the two slabs in flight, the
  untouched ones. Between the last wait of a batch and the next write of its staging buffer nothing touches the buffer or the
  pieces, which is what makes sixteen copies on one semaphore sound here.
-/
import proofs.«216812_g82557861364368_cont_9to1c4b_466_28_alg».proof.Proof.KIGlue
import proofs.«216812_g82557861364368_cont_9to1c4b_466_28_alg».proof.Proof.KIAcc
import proofs.«216812_g82557861364368_cont_9to1c4b_466_28_alg».proof.Proof.KICoreStmt

set_option maxHeartbeats 4000000

noncomputable section

namespace Cert.Proof.KI

open Cert.KernelIdeal Cert.KernelIdeal.GenP
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

open Idealize.ShloMosaic.Tactic Idealize.ShloMosaic.ValueIdx

local notation "xtW" => (Memref.whole Cert.KernelIdeal.main_v0_scv : Memref Cert.KernelIdeal.sig Kind.scVector Space.hbm Cert.KernelIdeal.S3x224x224x128 EltTy.f32)
local notation "oW" => (Memref.whole Cert.KernelIdeal.main_v1_scv : Memref Cert.KernelIdeal.sig Kind.scVector Space.hbm Cert.KernelIdeal.S2408448 EltTy.f32)
local notation "bi0" => (Memref.whole Cert.KernelIdeal.cc0_scratch0 : Memref Cert.KernelIdeal.sig Kind.scVector Space.vmem Cert.KernelIdeal.S224x128 EltTy.f32)
local notation "bi1" => (Memref.whole Cert.KernelIdeal.cc0_scratch1 : Memref Cert.KernelIdeal.sig Kind.scVector Space.vmem Cert.KernelIdeal.S224x128 EltTy.f32)
local notation "bo0" => (Memref.whole Cert.KernelIdeal.cc0_scratch2 : Memref Cert.KernelIdeal.sig Kind.scVector Space.vmem Cert.KernelIdeal.S3584 EltTy.f32)
local notation "bo1" => (Memref.whole Cert.KernelIdeal.cc0_scratch3 : Memref Cert.KernelIdeal.sig Kind.scVector Space.vmem Cert.KernelIdeal.S3584 EltTy.f32)

/-- The guard of the loop's two drains: trip `k` drains the previous trip's write-outs iff `k > 0`. -/
theorem cond_pos : ∀ k : Fin k0_t1_loop.trips, 0 < k.val →
    Scalar.cmpi .ne (Scalar.extui (Scalar.cmpi .sgt (Scf.iv 0#32 1#32 k) 0#32)) 0#32 = 1#1 := by decide +kernel
theorem cond_neg : ∀ k : Fin k0_t1_loop.trips, k.val = 0 →
    ¬ Scalar.cmpi .ne (Scalar.extui (Scalar.cmpi .sgt (Scf.iv 0#32 1#32 k) 0#32)) 0#32 = 1#1 := by decide +kernel

theorem trips1 : k0_t1_loop.trips = 10 := by decide

/-- One more wait on one of the subcore's own semaphores keeps the record of waits within what the launch allows. -/
theorem ins_ok {W W' : Waits sig (HIx 1)} (h : ∀ p ∈ W', p ∈ W ∨ p.2 = none) (s : SemLoc sig) :
    ∀ p ∈ insert (s, (none : HIx 1)) W', p ∈ W ∨ p.2 = none := by
  intro p hp
  rcases Finset.mem_insert.mp hp with rfl | hp
  · exact .inr rfl
  · exact h p hp

section
variable (m : (ℓ : Loc nD τ sig) → Buf (Elt F) ℓ) (d : Dev nD) (L : grid0.Coords)

/-! The finished pieces of a slab, from the sixteen write-outs' deliveries as the drain hands them back (each over the
    contents its piece held before, which the write covers). -/

theorem slab_outJ3 (k : Fin k0_t1_loop.trips) :
    iprop(ownP d L (dstM3 L k 0) (landedW d L (dstM3 L k 0) (rowM0 0) ((dstM3 L k 0).view.junk) (tr (slabC (XT m d) (slab L (2 * k.val))))) ∗ ownP d L (dstM3 L k 1) (landedW d L (dstM3 L k 1) (rowM0 1) ((dstM3 L k 1).view.junk) (tr (slabC (XT m d) (slab L (2 * k.val))))) ∗ ownP d L (dstM3 L k 2) (landedW d L (dstM3 L k 2) (rowM0 2) ((dstM3 L k 2).view.junk) (tr (slabC (XT m d) (slab L (2 * k.val))))) ∗ ownP d L (dstM3 L k 3) (landedW d L (dstM3 L k 3) (rowM0 3) ((dstM3 L k 3).view.junk) (tr (slabC (XT m d) (slab L (2 * k.val))))) ∗ ownP d L (dstM3 L k 4) (landedW d L (dstM3 L k 4) (rowM0 4) ((dstM3 L k 4).view.junk) (tr (slabC (XT m d) (slab L (2 * k.val))))) ∗ ownP d L (dstM3 L k 5) (landedW d L (dstM3 L k 5) (rowM0 5) ((dstM3 L k 5).view.junk) (tr (slabC (XT m d) (slab L (2 * k.val))))) ∗ ownP d L (dstM3 L k 6) (landedW d L (dstM3 L k 6) (rowM0 6) ((dstM3 L k 6).view.junk) (tr (slabC (XT m d) (slab L (2 * k.val))))) ∗ ownP d L (dstM3 L k 7) (landedW d L (dstM3 L k 7) (rowM0 7) ((dstM3 L k 7).view.junk) (tr (slabC (XT m d) (slab L (2 * k.val))))) ∗ ownP d L (dstM3 L k 8) (landedW d L (dstM3 L k 8) (rowM0 8) ((dstM3 L k 8).view.junk) (tr (slabC (XT m d) (slab L (2 * k.val))))) ∗ ownP d L (dstM3 L k 9) (landedW d L (dstM3 L k 9) (rowM0 9) ((dstM3 L k 9).view.junk) (tr (slabC (XT m d) (slab L (2 * k.val))))) ∗ ownP d L (dstM3 L k 10) (landedW d L (dstM3 L k 10) (rowM0 10) ((dstM3 L k 10).view.junk) (tr (slabC (XT m d) (slab L (2 * k.val))))) ∗ ownP d L (dstM3 L k 11) (landedW d L (dstM3 L k 11) (rowM0 11) ((dstM3 L k 11).view.junk) (tr (slabC (XT m d) (slab L (2 * k.val))))) ∗ ownP d L (dstM3 L k 12) (landedW d L (dstM3 L k 12) (rowM0 12) ((dstM3 L k 12).view.junk) (tr (slabC (XT m d) (slab L (2 * k.val))))) ∗ ownP d L (dstM3 L k 13) (landedW d L (dstM3 L k 13) (rowM0 13) ((dstM3 L k 13).view.junk) (tr (slabC (XT m d) (slab L (2 * k.val))))) ∗ ownP d L (dstM3 L k 14) (landedW d L (dstM3 L k 14) (rowM0 14) ((dstM3 L k 14).view.junk) (tr (slabC (XT m d) (slab L (2 * k.val))))) ∗ ownP d L (dstM3 L k 15) (landedW d L (dstM3 L k 15) (rowM0 15) ((dstM3 L k 15).view.junk) (tr (slabC (XT m d) (slab L (2 * k.val))))))
      ⊢ slabPieces d L ⟨2 * k.val, by have := two_k_lt k; omega⟩ (OUT m d) :=
  (Entails.of_eq (bigSep_fin16 (F := F) fun j : Fin 16 =>
      ownP d L (dstM3 L k j) (landedW d L (dstM3 L k j) (rowM0 j) ((dstM3 L k j).view.junk) (tr (slabC (XT m d) (slab L (2 * k.val)))))).symm).trans
    (bigSep_mono fun j _ => pout3 m d L k j _)

theorem slab_outJ4 (k : Fin k0_t1_loop.trips) :
    iprop(ownP d L (dstM4 L k 0) (landedW d L (dstM4 L k 0) (rowM1 0) ((dstM4 L k 0).view.junk) (tr (slabC (XT m d) (slab L (2 * k.val + 1))))) ∗ ownP d L (dstM4 L k 1) (landedW d L (dstM4 L k 1) (rowM1 1) ((dstM4 L k 1).view.junk) (tr (slabC (XT m d) (slab L (2 * k.val + 1))))) ∗ ownP d L (dstM4 L k 2) (landedW d L (dstM4 L k 2) (rowM1 2) ((dstM4 L k 2).view.junk) (tr (slabC (XT m d) (slab L (2 * k.val + 1))))) ∗ ownP d L (dstM4 L k 3) (landedW d L (dstM4 L k 3) (rowM1 3) ((dstM4 L k 3).view.junk) (tr (slabC (XT m d) (slab L (2 * k.val + 1))))) ∗ ownP d L (dstM4 L k 4) (landedW d L (dstM4 L k 4) (rowM1 4) ((dstM4 L k 4).view.junk) (tr (slabC (XT m d) (slab L (2 * k.val + 1))))) ∗ ownP d L (dstM4 L k 5) (landedW d L (dstM4 L k 5) (rowM1 5) ((dstM4 L k 5).view.junk) (tr (slabC (XT m d) (slab L (2 * k.val + 1))))) ∗ ownP d L (dstM4 L k 6) (landedW d L (dstM4 L k 6) (rowM1 6) ((dstM4 L k 6).view.junk) (tr (slabC (XT m d) (slab L (2 * k.val + 1))))) ∗ ownP d L (dstM4 L k 7) (landedW d L (dstM4 L k 7) (rowM1 7) ((dstM4 L k 7).view.junk) (tr (slabC (XT m d) (slab L (2 * k.val + 1))))) ∗ ownP d L (dstM4 L k 8) (landedW d L (dstM4 L k 8) (rowM1 8) ((dstM4 L k 8).view.junk) (tr (slabC (XT m d) (slab L (2 * k.val + 1))))) ∗ ownP d L (dstM4 L k 9) (landedW d L (dstM4 L k 9) (rowM1 9) ((dstM4 L k 9).view.junk) (tr (slabC (XT m d) (slab L (2 * k.val + 1))))) ∗ ownP d L (dstM4 L k 10) (landedW d L (dstM4 L k 10) (rowM1 10) ((dstM4 L k 10).view.junk) (tr (slabC (XT m d) (slab L (2 * k.val + 1))))) ∗ ownP d L (dstM4 L k 11) (landedW d L (dstM4 L k 11) (rowM1 11) ((dstM4 L k 11).view.junk) (tr (slabC (XT m d) (slab L (2 * k.val + 1))))) ∗ ownP d L (dstM4 L k 12) (landedW d L (dstM4 L k 12) (rowM1 12) ((dstM4 L k 12).view.junk) (tr (slabC (XT m d) (slab L (2 * k.val + 1))))) ∗ ownP d L (dstM4 L k 13) (landedW d L (dstM4 L k 13) (rowM1 13) ((dstM4 L k 13).view.junk) (tr (slabC (XT m d) (slab L (2 * k.val + 1))))) ∗ ownP d L (dstM4 L k 14) (landedW d L (dstM4 L k 14) (rowM1 14) ((dstM4 L k 14).view.junk) (tr (slabC (XT m d) (slab L (2 * k.val + 1))))) ∗ ownP d L (dstM4 L k 15) (landedW d L (dstM4 L k 15) (rowM1 15) ((dstM4 L k 15).view.junk) (tr (slabC (XT m d) (slab L (2 * k.val + 1))))))
      ⊢ slabPieces d L ⟨2 * k.val + 1, two_k_lt k⟩ (OUT m d) :=
  (Entails.of_eq (bigSep_fin16 (F := F) fun j : Fin 16 =>
      ownP d L (dstM4 L k j) (landedW d L (dstM4 L k j) (rowM1 j) ((dstM4 L k j).view.junk) (tr (slabC (XT m d) (slab L (2 * k.val + 1)))))).symm).trans
    (bigSep_mono fun j _ => pout4 m d L k j _)

theorem slab_outJ5  :
    iprop(ownP d L (dstM5 L 0) (landedW d L (dstM5 L 0) (rowM0 0) ((dstM5 L 0).view.junk) (tr (slabC (XT m d) (slab L 20)))) ∗ ownP d L (dstM5 L 1) (landedW d L (dstM5 L 1) (rowM0 1) ((dstM5 L 1).view.junk) (tr (slabC (XT m d) (slab L 20)))) ∗ ownP d L (dstM5 L 2) (landedW d L (dstM5 L 2) (rowM0 2) ((dstM5 L 2).view.junk) (tr (slabC (XT m d) (slab L 20)))) ∗ ownP d L (dstM5 L 3) (landedW d L (dstM5 L 3) (rowM0 3) ((dstM5 L 3).view.junk) (tr (slabC (XT m d) (slab L 20)))) ∗ ownP d L (dstM5 L 4) (landedW d L (dstM5 L 4) (rowM0 4) ((dstM5 L 4).view.junk) (tr (slabC (XT m d) (slab L 20)))) ∗ ownP d L (dstM5 L 5) (landedW d L (dstM5 L 5) (rowM0 5) ((dstM5 L 5).view.junk) (tr (slabC (XT m d) (slab L 20)))) ∗ ownP d L (dstM5 L 6) (landedW d L (dstM5 L 6) (rowM0 6) ((dstM5 L 6).view.junk) (tr (slabC (XT m d) (slab L 20)))) ∗ ownP d L (dstM5 L 7) (landedW d L (dstM5 L 7) (rowM0 7) ((dstM5 L 7).view.junk) (tr (slabC (XT m d) (slab L 20)))) ∗ ownP d L (dstM5 L 8) (landedW d L (dstM5 L 8) (rowM0 8) ((dstM5 L 8).view.junk) (tr (slabC (XT m d) (slab L 20)))) ∗ ownP d L (dstM5 L 9) (landedW d L (dstM5 L 9) (rowM0 9) ((dstM5 L 9).view.junk) (tr (slabC (XT m d) (slab L 20)))) ∗ ownP d L (dstM5 L 10) (landedW d L (dstM5 L 10) (rowM0 10) ((dstM5 L 10).view.junk) (tr (slabC (XT m d) (slab L 20)))) ∗ ownP d L (dstM5 L 11) (landedW d L (dstM5 L 11) (rowM0 11) ((dstM5 L 11).view.junk) (tr (slabC (XT m d) (slab L 20)))) ∗ ownP d L (dstM5 L 12) (landedW d L (dstM5 L 12) (rowM0 12) ((dstM5 L 12).view.junk) (tr (slabC (XT m d) (slab L 20)))) ∗ ownP d L (dstM5 L 13) (landedW d L (dstM5 L 13) (rowM0 13) ((dstM5 L 13).view.junk) (tr (slabC (XT m d) (slab L 20)))) ∗ ownP d L (dstM5 L 14) (landedW d L (dstM5 L 14) (rowM0 14) ((dstM5 L 14).view.junk) (tr (slabC (XT m d) (slab L 20)))) ∗ ownP d L (dstM5 L 15) (landedW d L (dstM5 L 15) (rowM0 15) ((dstM5 L 15).view.junk) (tr (slabC (XT m d) (slab L 20)))))
      ⊢ slabPieces d L ⟨20, by omega⟩ (OUT m d) :=
  (Entails.of_eq (bigSep_fin16 (F := F) fun j : Fin 16 =>
      ownP d L (dstM5 L j) (landedW d L (dstM5 L j) (rowM0 j) ((dstM5 L j).view.junk) (tr (slabC (XT m d) (slab L 20))))).symm).trans
    (bigSep_mono fun j _ => pout5 m d L  j _)

/-- The transposed clip and the result's launch contents, as the subcore's memrefs address them. -/
abbrev XX : Buf (Elt F) ((xtW).view.loc (thr d L)) := XT m d
abbrev FO : Buf (Elt F) ((oW).view.loc (thr d L)) := m (oLoc d)
/-- Slab `g` of the transposed clip, and its sampled frames' transpose. -/
abbrev Bs (g : ℕ) : Buf (Elt F) ((bi0).view.loc (thr d L)) := slabC (α := Elt F .f32) (XT m d) g
abbrev Ts0 (g : ℕ) : Buf (Elt F) ((bo0).view.loc (thr d L)) := tr (F := F) (slabC (α := Elt F .f32) (XT m d) g)
abbrev Ts1 (g : ℕ) : Buf (Elt F) ((bo1).view.loc (thr d L)) := tr (F := F) (slabC (α := Elt F .f32) (XT m d) g)

/-- The write-outs' deliveries: piece `j` landed, staging row `j` back. -/
abbrev D3 (k : Fin k0_t1_loop.trips) (T : Buf (Elt F) ((bo0).view.loc (thr d L))) (j : Fin 16) : sProp 𝕄 :=
  iprop(ownP d L (dstM3 L k j) (landedW d L (dstM3 L k j) (rowM0 j) (m (oLoc d)) T) ∗ ownP d L (rowM0 j) T)
abbrev D4 (k : Fin k0_t1_loop.trips) (T : Buf (Elt F) ((bo1).view.loc (thr d L))) (j : Fin 16) : sProp 𝕄 :=
  iprop(ownP d L (dstM4 L k j) (landedW d L (dstM4 L k j) (rowM1 j) (m (oLoc d)) T) ∗ ownP d L (rowM1 j) T)
abbrev D5 (T : Buf (Elt F) ((bo0).view.loc (thr d L))) (j : Fin 16) : sProp 𝕄 :=
  iprop(ownP d L (dstM5 L j) (landedW d L (dstM5 L j) (rowM0 j) (m (oLoc d)) T) ∗ ownP d L (rowM0 j) T)
abbrev N3 (k : Fin k0_t1_loop.trips) : ℕ := (dstM3 L k 0).view.amount (SemLoc.dma (sig := sig) cc0_scratch6.sem)
abbrev N4 (k : Fin k0_t1_loop.trips) : ℕ := (dstM4 L k 0).view.amount (SemLoc.dma (sig := sig) cc0_scratch7.sem)
abbrev N5 : ℕ := (dstM5 L 0).view.amount (SemLoc.dma (sig := sig) cc0_scratch6.sem)

/-- The staging buffers inside the transposition loops. -/
def J2 (B : Buf (Elt F) ((bi0).view.loc (thr d L))) (f : Buf (Elt F) ((bo0).view.loc (thr d L))) (n : Nat) (_ : PUnit) : sProp 𝕄 :=
  iprop(((bi0).view.loc (thr d L) ↦{fullShare} B) ∗ ((bo0).view.loc (thr d L) ↦{fullShare} acc2 (F := F) B f n))
def J3 (B : Buf (Elt F) ((bi1).view.loc (thr d L))) (f : Buf (Elt F) ((bo1).view.loc (thr d L))) (n : Nat) (_ : PUnit) : sProp 𝕄 :=
  iprop(((bi1).view.loc (thr d L) ↦{fullShare} B) ∗ ((bo1).view.loc (thr d L) ↦{fullShare} acc3 (F := F) B f n))
def J4 (B : Buf (Elt F) ((bi0).view.loc (thr d L))) (f : Buf (Elt F) ((bo0).view.loc (thr d L))) (n : Nat) (_ : PUnit) : sProp 𝕄 :=
  iprop(((bi0).view.loc (thr d L) ↦{fullShare} B) ∗ ((bo0).view.loc (thr d L) ↦{fullShare} acc4 (F := F) B f n))

/-- What is in flight on the first slot and the two write-out semaphores when trip `n` is entered. -/
def head0 (qa : PosShare TreeShare) : sProp 𝕄 :=
  iprop(Transfers.Flight (countersEmb (U := UU)) (thr d L) (SemLoc.dma cc0_scratch4.sem) (none : HIx 1) 917504
        iprop(((bi0).view.loc (thr d L) ↦{fullShare} Bs m d L (slab L 0)) ∗ ((xtW).view.loc (thr d L) ↦[(slabM1 L).view.set]{qa} XX m d L))
    ∗ ((xtW).view.loc (thr d L) ↦[Finset.univ \ (slabM1 L).view.set]{qa} XX m d L)
    ∗ (∃ f, (bo0).view.loc (thr d L) ↦{fullShare} f) ∗ semVal (thr d L, SemLoc.dma cc0_scratch6.sem) 0
    ∗ (∃ f, (bo1).view.loc (thr d L) ↦{fullShare} f) ∗ semVal (thr d L, SemLoc.dma cc0_scratch7.sem) 0)
def headS (qa : PosShare TreeShare) (kp : Fin k0_t1_loop.trips) : sProp 𝕄 :=
  iprop(Transfers.Flight (countersEmb (U := UU)) (thr d L) (SemLoc.dma cc0_scratch4.sem) (none : HIx 1) 917504
        iprop(((bi0).view.loc (thr d L) ↦{fullShare} Bs m d L (slab L (2 * kp.val + 2))) ∗ ((xtW).view.loc (thr d L) ↦[(slabM2 L kp 1).view.set]{qa} XX m d L))
    ∗ ((xtW).view.loc (thr d L) ↦[Finset.univ \ (slabM2 L kp 1).view.set]{qa} XX m d L)
    ∗ Transfers.Batch (countersEmb (U := UU)) (thr d L) (SemLoc.dma cc0_scratch6.sem) (none : HIx 1) (N3 L kp) (D3 m d L kp (Ts0 m d L (slab L (2 * kp.val)))) 16 0
    ∗ Transfers.Batch (countersEmb (U := UU)) (thr d L) (SemLoc.dma cc0_scratch7.sem) (none : HIx 1) (N4 L kp) (D4 m d L kp (Ts1 m d L (slab L (2 * kp.val + 1)))) 16 0)
def head (qa : PosShare TreeShare) (n : ℕ) : sProp 𝕄 :=
  if n = 0 then head0 m d L qa else if h : n - 1 < k0_t1_loop.trips then headS m d L qa ⟨n - 1, h⟩ else iprop(False)

/-- The main loop's invariant at trip `n`. -/
def inv (O : CellTallies nD τ sig (HIx 1)) (W : Waits sig (HIx 1)) (n : ℕ) (_ : PUnit) : sProp 𝕄 :=
  iprop(∃ qa qb : PosShare TreeShare, ⌜(qa = shA L ∧ qb = shB L) ∨ (qa = shB L ∧ qb = shA L)⌝
    ∗ Transfers.MayWaits (thr d L) (none : HIx 1) O
    ∗ head m d L qa n
    ∗ ((xtW).view.loc (thr d L) ↦{qb} XX m d L)
    ∗ (∃ f, (bi1).view.loc (thr d L) ↦{fullShare} f) ∗ semVal (thr d L, SemLoc.dma cc0_scratch5.sem) 0
    ∗ (bigSep Finset.univ fun t : Fin 21 => slabRes m d L n t)
    ∗ ∃ W', ⌜∀ p ∈ W', p ∈ W ∨ p.2 = none⌝ ∗ owes (thr d L) O W')

theorem head_succ (qa : PosShare TreeShare) (k : Fin k0_t1_loop.trips) : head m d L qa (k.val + 1) = headS m d L qa k := by
  unfold head
  rw [if_neg (Nat.succ_ne_zero _), dif_pos (show k.val + 1 - 1 < k0_t1_loop.trips from by have := k.isLt; omega)]
  exact congrArg (headS m d L qa) (Fin.ext (Nat.add_sub_cancel ..))

theorem trip_first (O : CellTallies nD τ sig (HIx 1)) (W : Waits sig (HIx 1)) (k : Fin k0_t1_loop.trips) (hk : k.val = 0) (v2 : BitVec 32) (u : PUnit) :
    inv m d L O W k.val u
      ⊢ wp frame (wpE (defs₀ (F := F)) 𝒱₀ (thr d L) none) Set.univ
          (k0_t1_body L xtW (Memref.isWhole_whole _) oW (Memref.isWhole_whole _) bi0 (Memref.isWhole_whole _) bi1 (Memref.isWhole_whole _)
            bo0 (Memref.isWhole_whole _) bo1 (Memref.isWhole_whole _) cc0_scratch4 cc0_scratch5 cc0_scratch6 cc0_scratch7 v2 k u)
          (inv m d L O W (k.val + 1)) := by
  unfold inv
  iintro ⟨%qa, %qb, %hperm, Hmw, Hhead, Hxb, ⟨%f1, H1⟩, S1, Hres, %W', %hW', HO⟩
  ihave Hh := (Entails.of_eq (show head m d L qa k.val = head0 m d L qa from if_pos hk)) $$ Hhead
  unfold head0
  have e0 : slab L 0 = slab L (2 * k.val) := by rw [hk]
  rw [e0]
  icases Hh with ⟨HF0, Hxr, ⟨%f2, H2⟩, S2, ⟨%f3, H3⟩, S3⟩
  ihave Hr := (slabRes_take m d L k.val (by have h1 := k.isLt; have h2 := trips1; omega)) $$ Hres
  icases Hr with ⟨Pa, Pb, Hback⟩
  ihave Pa' := (Entails.of_eq (slab_in3 (F := F) d L k (m (oLoc d)))) $$ Pa
  icases Pa' with ⟨P0, P1, P2, P3, P4, P5, P6, P7, P8, P9, P10, P11, P12, P13, P14, P15⟩
  ihave Pb' := (Entails.of_eq (slab_in4 (F := F) d L k (m (oLoc d)))) $$ Pb
  icases Pb' with ⟨R0, R1, R2, R3, R4, R5, R6, R7, R8, R9, R10, R11, R12, R13, R14, R15⟩
  unfold k0_t1_body
  sl_exec (disch := first | exact cond_neg k (by omega) | exact cond_pos k (by omega))

  sl_for (J2 (F := F) d L (Bs m d L (slab L (2 * k.val))) f2) $$ [HF0_dst H2]
  case region =>
    intro kk u'
    unfold J2
    refine (trip2 (F := F) d L k _ kk _ _).trans (wp_mono frame _ _ fun _ => ?_)
    iintro ⟨Ha, %g', %hg, Hb⟩
    subst hg
    isplitl [Ha]; · iexact Ha
    rw [acc2_succ]; iexact Hb
  · unfold J2
    isplitl [HF0_dst]; · iexact HF0_dst
    iexact H2
  iintro %acc2u HI
  unfold J2
  icases HI with ⟨H0, H2⟩
  ihave H2 := (Entails.of_eq (congrArg (fun f => (((bo0).view.loc (thr d L) ↦{fullShare} f : sProp 𝕄))) (acc2_full (F := F) (Bs m d L (slab L (2 * k.val))) f2))) $$ H2
  imod (Transfers.batch_alloc' (Lvl := ℕ) (countersEmb (U := UU)) (thr d L) (none : HIx 1) (N3 L k)
    (D3 (F := F) m d L k (Ts0 m d L (slab L (2 * k.val)))) (sm := .dma cc0_scratch6.sem) (E := Set.univ)) $$ S2 with HB2
  sl_exec (disch := first | exact cond_neg k (by omega) | exact cond_pos k (by omega))
  -- the second slot's slab has landed: slab 2k + 1
  ihave H1 := (Entails.of_eq (congrArg (fun f => (((bi1).view.loc (thr d L) ↦{fullShare} f : sProp 𝕄)))
    ((View.write_whole_univ _ _ _).trans (slabM2_read (F := F) d L k 0 (XX m d L))))) $$ H1

  sl_for (J3 (F := F) d L (slabC (α := Elt F .f32) (XT m d) (slab L (2 * k.val + 1 + (0 : Fin 2).val))) f3) $$ [H1 H3]
  case region =>
    intro kk u'
    unfold J3
    refine (trip3 (F := F) d L k _ _ _ kk _ _).trans (wp_mono frame _ _ fun _ => ?_)
    iintro ⟨Ha, %g', %hg, Hb⟩
    subst hg
    isplitl [Ha]; · iexact Ha
    rw [acc3_succ]; iexact Hb
  · unfold J3
    isplitl [H1]; · iexact H1
    iexact H3
  iintro %acc3u HI
  unfold J3
  icases HI with ⟨H1, H3⟩
  ihave H3 := (Entails.of_eq (congrArg (fun f => (((bo1).view.loc (thr d L) ↦{fullShare} f : sProp 𝕄))) (acc3_full (F := F) (slabC (α := Elt F .f32) (XT m d) (slab L (2 * k.val + 1 + (0 : Fin 2).val))) f3))) $$ H3
  imod (Transfers.batch_alloc' (Lvl := ℕ) (countersEmb (U := UU)) (thr d L) (none : HIx 1) (N4 L k)
    (D4 (F := F) m d L k (Ts1 m d L (slab L (2 * k.val + 1)))) (sm := .dma cc0_scratch7.sem) (E := Set.univ)) $$ S3 with HB3
  sl_exec (disch := first | exact cond_neg k (by omega) | exact cond_pos k (by omega))
  sl_step
  iexists qa, qb
  isplitr; · ipureintro; exact hperm
  isplitl [Hmw]; · iexact Hmw
  isplitl [HF0 Hxr HB2 HB3]
  · rw [head_succ]; unfold headS
    isplitl [HF0]
    · iapply (Transfers.Flight_mono (countersEmb (U := UU)) (thr d L)
        (BI.sep_mono (Entails.of_eq (congrArg (fun f => (((bi0).view.loc (thr d L) ↦{fullShare} f : sProp 𝕄)))
          ((View.write_whole_univ (Val := Elt F) (cc0_scratch0 : Ref sig .scVector) _ _).trans (slabM2_read (F := F) d L k 1 (XX m d L))))) (BI.Entails.refl _)))
      iexact HF0
    isplitl [Hxr]; · iexact Hxr
    isplitl [HB2]; · iexact HB2
    iexact HB3
  isplitl [Hxb]; · iexact Hxb
  isplitl [H1]; · iexists _; iexact H1
  isplitl [S1]; · iexact S1
  isplitl [Hback]
  · iapply Hback
    unfold drained; rw [dif_neg (by omega)]; iempintro
  iexists _; isplitr
  rotate_left
  · iexact HO
  · ipureintro
    repeat (first | exact hW' | refine ins_ok ?_ _)

theorem trip_next (O : CellTallies nD τ sig (HIx 1)) (W : Waits sig (HIx 1)) (k : Fin k0_t1_loop.trips) (hk : 0 < k.val) (v2 : BitVec 32) (u : PUnit) :
    inv m d L O W k.val u
      ⊢ wp frame (wpE (defs₀ (F := F)) 𝒱₀ (thr d L) none) Set.univ
          (k0_t1_body L xtW (Memref.isWhole_whole _) oW (Memref.isWhole_whole _) bi0 (Memref.isWhole_whole _) bi1 (Memref.isWhole_whole _)
            bo0 (Memref.isWhole_whole _) bo1 (Memref.isWhole_whole _) cc0_scratch4 cc0_scratch5 cc0_scratch6 cc0_scratch7 v2 k u)
          (inv m d L O W (k.val + 1)) := by
  unfold inv
  iintro ⟨%qa, %qb, %hperm, Hmw, Hhead, Hxb, ⟨%f1, H1⟩, S1, Hres, %W', %hW', HO⟩
  have hkp : k.val - 1 < k0_t1_loop.trips := by have := k.isLt; omega
  ihave Hh := (Entails.of_eq (show head m d L qa k.val = headS m d L qa ⟨k.val - 1, hkp⟩ from by
      unfold head; rw [if_neg (by omega), dif_pos hkp])) $$ Hhead
  unfold headS
  have e0 : slab L (2 * (⟨k.val - 1, hkp⟩ : Fin k0_t1_loop.trips).val + 2) = slab L (2 * k.val) := by
    show slab L (2 * (k.val - 1) + 2) = _
    congr 1; omega
  rw [e0]
  icases Hh with ⟨HF0, Hxr, HB2o, HB3o⟩
  ihave Hr := (slabRes_take m d L k.val (by have h1 := k.isLt; have h2 := trips1; omega)) $$ Hres
  icases Hr with ⟨Pa, Pb, Hback⟩
  ihave Pa' := (Entails.of_eq (slab_in3 (F := F) d L k (m (oLoc d)))) $$ Pa
  icases Pa' with ⟨P0, P1, P2, P3, P4, P5, P6, P7, P8, P9, P10, P11, P12, P13, P14, P15⟩
  ihave Pb' := (Entails.of_eq (slab_in4 (F := F) d L k (m (oLoc d)))) $$ Pb
  icases Pb' with ⟨R0, R1, R2, R3, R4, R5, R6, R7, R8, R9, R10, R11, R12, R13, R14, R15⟩
  unfold k0_t1_body
  sl_exec (disch := first | exact cond_neg k (by omega) | exact cond_pos k (by omega))

  -- the previous trip's first-slot write-outs have landed: the staging buffer is whole again, slab 2k - 2 is finished
  ihave H2 := (rows_join0 (F := F) d L (Ts0 m d L (slab L (2 * (⟨k.val - 1, hkp⟩ : Fin k0_t1_loop.trips).val)))) $$ [HB2o_src0 HB2o_src1 HB2o_src2 HB2o_src3 HB2o_src4 HB2o_src5 HB2o_src6 HB2o_src7 HB2o_src8 HB2o_src9 HB2o_src10 HB2o_src11 HB2o_src12 HB2o_src13 HB2o_src14 HB2o_src15]
  · iframe
  ihave Pd2 := (slab_outJ3 (F := F) m d L ⟨k.val - 1, hkp⟩) $$ [HB2o_dst0 HB2o_dst1 HB2o_dst2 HB2o_dst3 HB2o_dst4 HB2o_dst5 HB2o_dst6 HB2o_dst7 HB2o_dst8 HB2o_dst9 HB2o_dst10 HB2o_dst11 HB2o_dst12 HB2o_dst13 HB2o_dst14 HB2o_dst15]
  · iframe
  sl_for (J2 (F := F) d L (Bs m d L (slab L (2 * k.val))) (Ts0 m d L (slab L (2 * (⟨k.val - 1, hkp⟩ : Fin k0_t1_loop.trips).val)))) $$ [HF0_dst H2]
  case region =>
    intro kk u'
    unfold J2
    refine (trip2 (F := F) d L k _ kk _ _).trans (wp_mono frame _ _ fun _ => ?_)
    iintro ⟨Ha, %g', %hg, Hb⟩
    subst hg
    isplitl [Ha]; · iexact Ha
    rw [acc2_succ]; iexact Hb
  · unfold J2
    isplitl [HF0_dst]; · iexact HF0_dst
    iexact H2
  iintro %acc2u HI
  unfold J2
  icases HI with ⟨H0, H2⟩
  ihave H2 := (Entails.of_eq (congrArg (fun f => (((bo0).view.loc (thr d L) ↦{fullShare} f : sProp 𝕄))) (acc2_full (F := F) (Bs m d L (slab L (2 * k.val))) (Ts0 m d L (slab L (2 * (⟨k.val - 1, hkp⟩ : Fin k0_t1_loop.trips).val)))))) $$ H2
  ihave S2n : (semVal (thr d L, SemLoc.dma cc0_scratch6.sem) 0 : sProp 𝕄) $$ [HB2o]; · iexact HB2o
  imod (Transfers.batch_alloc' (Lvl := ℕ) (countersEmb (U := UU)) (thr d L) (none : HIx 1) (N3 L k)
    (D3 (F := F) m d L k (Ts0 m d L (slab L (2 * k.val)))) (sm := .dma cc0_scratch6.sem) (E := Set.univ)) $$ S2n with HB2
  sl_exec (disch := first | exact cond_neg k (by omega) | exact cond_pos k (by omega))
  -- the second slot's slab has landed: slab 2k + 1
  ihave H1 := (Entails.of_eq (congrArg (fun f => (((bi1).view.loc (thr d L) ↦{fullShare} f : sProp 𝕄)))
    ((View.write_whole_univ _ _ _).trans (slabM2_read (F := F) d L k 0 (XX m d L))))) $$ H1
  -- the previous trip's second-slot write-outs have landed
  ihave H3 := (rows_join1 (F := F) d L (Ts1 m d L (slab L (2 * (⟨k.val - 1, hkp⟩ : Fin k0_t1_loop.trips).val + 1)))) $$ [HB3o_src0 HB3o_src1 HB3o_src2 HB3o_src3 HB3o_src4 HB3o_src5 HB3o_src6 HB3o_src7 HB3o_src8 HB3o_src9 HB3o_src10 HB3o_src11 HB3o_src12 HB3o_src13 HB3o_src14 HB3o_src15]
  · iframe
  ihave Pd3 := (slab_outJ4 (F := F) m d L ⟨k.val - 1, hkp⟩) $$ [HB3o_dst0 HB3o_dst1 HB3o_dst2 HB3o_dst3 HB3o_dst4 HB3o_dst5 HB3o_dst6 HB3o_dst7 HB3o_dst8 HB3o_dst9 HB3o_dst10 HB3o_dst11 HB3o_dst12 HB3o_dst13 HB3o_dst14 HB3o_dst15]
  · iframe
  sl_for (J3 (F := F) d L (slabC (α := Elt F .f32) (XT m d) (slab L (2 * k.val + 1 + (0 : Fin 2).val))) (Ts1 m d L (slab L (2 * (⟨k.val - 1, hkp⟩ : Fin k0_t1_loop.trips).val + 1)))) $$ [H1 H3]
  case region =>
    intro kk u'
    unfold J3
    refine (trip3 (F := F) d L k _ _ _ kk _ _).trans (wp_mono frame _ _ fun _ => ?_)
    iintro ⟨Ha, %g', %hg, Hb⟩
    subst hg
    isplitl [Ha]; · iexact Ha
    rw [acc3_succ]; iexact Hb
  · unfold J3
    isplitl [H1]; · iexact H1
    iexact H3
  iintro %acc3u HI
  unfold J3
  icases HI with ⟨H1, H3⟩
  ihave H3 := (Entails.of_eq (congrArg (fun f => (((bo1).view.loc (thr d L) ↦{fullShare} f : sProp 𝕄))) (acc3_full (F := F) (slabC (α := Elt F .f32) (XT m d) (slab L (2 * k.val + 1 + (0 : Fin 2).val))) (Ts1 m d L (slab L (2 * (⟨k.val - 1, hkp⟩ : Fin k0_t1_loop.trips).val + 1)))))) $$ H3
  ihave S3n : (semVal (thr d L, SemLoc.dma cc0_scratch7.sem) 0 : sProp 𝕄) $$ [HB3o]; · iexact HB3o
  imod (Transfers.batch_alloc' (Lvl := ℕ) (countersEmb (U := UU)) (thr d L) (none : HIx 1) (N4 L k)
    (D4 (F := F) m d L k (Ts1 m d L (slab L (2 * k.val + 1)))) (sm := .dma cc0_scratch7.sem) (E := Set.univ)) $$ S3n with HB3
  sl_exec (disch := first | exact cond_neg k (by omega) | exact cond_pos k (by omega))
  sl_step
  iexists qa, qb
  isplitr; · ipureintro; exact hperm
  isplitl [Hmw]; · iexact Hmw
  isplitl [HF0 Hxr HB2 HB3]
  · rw [head_succ]; unfold headS
    isplitl [HF0]
    · iapply (Transfers.Flight_mono (countersEmb (U := UU)) (thr d L)
        (BI.sep_mono (Entails.of_eq (congrArg (fun f => (((bi0).view.loc (thr d L) ↦{fullShare} f : sProp 𝕄)))
          ((View.write_whole_univ (Val := Elt F) (cc0_scratch0 : Ref sig .scVector) _ _).trans (slabM2_read (F := F) d L k 1 (XX m d L))))) (BI.Entails.refl _)))
      iexact HF0
    isplitl [Hxr]; · iexact Hxr
    isplitl [HB2]; · iexact HB2
    iexact HB3
  isplitl [Hxb]; · iexact Hxb
  isplitl [H1]; · iexists _; iexact H1
  isplitl [S1]; · iexact S1
  isplitl [Hback Pd2 Pd3]
  · iapply Hback
    have hA : 2 * (k.val - 1) < 21 := by have h1 := k.isLt; have h2 := trips1; omega
    have hB : 2 * (k.val - 1) + 1 < 21 := by have h1 := k.isLt; have h2 := trips1; omega
    have hC : 2 * k.val - 2 < 21 := by have h1 := k.isLt; have h2 := trips1; omega
    have hD : 2 * k.val - 1 < 21 := by have h1 := k.isLt; have h2 := trips1; omega
    have e2 : (⟨2 * (k.val - 1), hA⟩ : Fin 21) = ⟨2 * k.val - 2, hC⟩ := Fin.ext (show 2 * (k.val - 1) = 2 * k.val - 2 by omega)
    have e3 : (⟨2 * (k.val - 1) + 1, hB⟩ : Fin 21) = ⟨2 * k.val - 1, hD⟩ := Fin.ext (show 2 * (k.val - 1) + 1 = 2 * k.val - 1 by omega)
    unfold drained; rw [dif_pos hk]
    isplitl [Pd2]
    · iapply (Entails.of_eq (congrArg (fun t => slabPieces d L t (OUT m d)) e2)); iexact Pd2
    · iapply (Entails.of_eq (congrArg (fun t => slabPieces d L t (OUT m d)) e3)); iexact Pd3
  iexists _; isplitr
  rotate_left
  · iexact HO
  · ipureintro
    repeat (first | exact hW' | refine ins_ok ?_ _)

end

end Cert.Proof.KI

end
-- ==== Proof.KIWrap.lean ====
/-
  From the task over explicit resources to the task as the launch hands it to a vector subcore.

  The launch gives the subcore its scoped storage as two bundles: every buffer it owns, whole at some contents, and every
  scoped semaphore it owns, at zero. Four of the buffers are the kernel's scratch operands and four of the semaphores its
  copy semaphores; each bundle is those four and the rest. The rest is carried across the task untouched and put back at the
  end. The evidence that the subcore may wait on its own semaphores comes from the levels: a kernel's own wait sits at level
  zero, below everything the subcore owes the launch.
-/
import proofs.«216812_g82557861364368_cont_9to1c4b_466_28_alg».proof.Proof.KICoreStmt

noncomputable section

namespace Cert.Proof.KI

open Cert.KernelIdeal Cert.KernelIdeal.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Split
variable (d : Dev nD) (L : grid0.Coords)

/-- The subcore's four copy semaphores, as cells. -/
abbrev cell4 : GSem nD τ sig := (thr d L, .dma cc0_scratch4.sem)
abbrev cell5 : GSem nD τ sig := (thr d L, .dma cc0_scratch5.sem)
abbrev cell6 : GSem nD τ sig := (thr d L, .dma cc0_scratch6.sem)
abbrev cell7 : GSem nD τ sig := (thr d L, .dma cc0_scratch7.sem)

theorem cell_ne {a b : SemLoc sig} (h : a ≠ b) : ((thr d L, a) : GSem nD τ sig) ≠ (thr d L, b) :=
  fun e => h (congrArg Prod.snd e)

/-- The subcore's scoped semaphores at zero: its four copy semaphores, and the rest. -/
theorem ownSems0_V4 :
    (ownSems0 (thr d L) : sProp 𝕄)
      = iprop(semVal (cell4 d L) 0 ∗ semVal (cell5 d L) 0 ∗ semVal (cell6 d L) 0 ∗ semVal (cell7 d L) 0
          ∗ bigSep (((((ownCells (thr d L)).erase (cell4 d L)).erase (cell5 d L)).erase (cell6 d L)).erase (cell7 d L))
              fun g => semVal g 0) := by
  unfold SparseCore.Cfg.ownSems0
  rw [SparseCore.bigSep_erase' ((mem_ownCells (g := cell4 d L)).mpr ⟨rfl, by
      show (SemLoc.dma cc0_scratch4.sem : SemLoc sig).isScoped .scVector = true; decide⟩),
    SparseCore.bigSep_erase' (Finset.mem_erase.mpr ⟨cell_ne d L (by decide), (mem_ownCells (g := cell5 d L)).mpr ⟨rfl, by
      show (SemLoc.dma cc0_scratch5.sem : SemLoc sig).isScoped .scVector = true; decide⟩⟩),
    SparseCore.bigSep_erase' (Finset.mem_erase.mpr ⟨cell_ne d L (by decide), Finset.mem_erase.mpr ⟨cell_ne d L (by decide),
      (mem_ownCells (g := cell6 d L)).mpr ⟨rfl, by show (SemLoc.dma cc0_scratch6.sem : SemLoc sig).isScoped .scVector = true; decide⟩⟩⟩),
    SparseCore.bigSep_erase' (Finset.mem_erase.mpr ⟨cell_ne d L (by decide), Finset.mem_erase.mpr ⟨cell_ne d L (by decide),
      Finset.mem_erase.mpr ⟨cell_ne d L (by decide),
      (mem_ownCells (g := cell7 d L)).mpr ⟨rfl, by show (SemLoc.dma cc0_scratch7.sem : SemLoc sig).isScoped .scVector = true; decide⟩⟩⟩⟩)]

/-- The subcore's processor. -/
abbrev prc : Proc τ := Proc.scVector ((L 0).castLE hcore0) ((L 1).castLE hsub0)

/-- The subcore's own buffers: its four scratch buffers, each at some contents, and the rest. -/
theorem ownBufs_V4 :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (prc L)).erase ((prc L).devRef cc0_scratch0)).erase ((prc L).devRef cc0_scratch1)).erase
              ((prc L).devRef cc0_scratch2)).erase ((prc L).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := prc L) (b := (prc L).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := prc L) (b := (prc L).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := prc L) (b := (prc L).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := prc L) (b := (prc L).devRef cc0_scratch3) rfl⟩⟩⟩)]

/-- The four scratch buffers as the task names them are the subcore's buffers of those references. -/
theorem scratchAny_eq :
    (scratchAny d L : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)) := rfl

theorem semsZero_eq :
    (semsZero d L : sProp 𝕄)
      = iprop(semVal (cell4 d L) 0 ∗ semVal (cell5 d L) 0 ∗ semVal (cell6 d L) 0 ∗ semVal (cell7 d L) 0) := rfl

end Split

/-- The task as the launch hands it over, from the task over explicit resources. -/
theorem tile_of_core [FloatOps F] (m : (ℓ : Loc nD τ sig) → Buf (Elt F) ℓ) (hcore : TileCoreStmt m) : TileBodyStmt m := by
  intro hF d L O W hO
  rw [(K (F := F)).scopedBufs_V hF d ((L 0).castLE hcore0) ((L 1).castLE hsub0),
    SparseCore.Cfg.scopedSems0_V (Val := Elt F) d ((L 0).castLE hcore0) ((L 1).castLE hsub0), ownSems0_V4, ownBufs_V4]
  iintro ⟨#Hlv, -, Hgo, ⟨HA, HB, HC, HD, Hbufs⟩, ⟨H4, H5, H6, H7, Hsems⟩, HO⟩
  ihave Hmw := ((K (F := F)).mayWaits_none (thr := thr d L) hO) $$ Hlv
  ihave Hwp := (hcore d L O W) $$ [Hmw Hgo HA HB HC HD H4 H5 H6 H7 HO]
  · isplitl [Hmw]; · iexact Hmw
    isplitl [Hgo]; · iexact Hgo
    isplitl [HA HB HC HD]
    · rw [scratchAny_eq]
      isplitl [HA]; · iexact HA
      isplitl [HB]; · iexact HB
      isplitl [HC]; · iexact HC
      iexact HD
    isplitl [H4 H5 H6 H7]
    · rw [semsZero_eq]
      isplitl [H4]; · iexact H4
      isplitl [H5]; · iexact H5
      isplitl [H6]; · iexact H6
      iexact H7
    iexact HO
  iapply (wp_wand frame (wpE (defs₀ (F := F)) 𝒱₀ (thr d L) none) Set.univ) $$ Hwp
  iintro %a ⟨Htd, Hscr, Hsz, HW⟩
  ihave Hscr' := (Entails.of_eq (scratchAny_eq (F := F) d L)) $$ Hscr
  ihave Hsz' := (Entails.of_eq (semsZero_eq (F := F) d L)) $$ Hsz
  icases Hscr' with ⟨HA, HB, HC, HD⟩
  icases Hsz' with ⟨H4, H5, H6, H7⟩
  isplitl [Htd]; · iexact Htd
  isplitl [HA HB HC HD Hbufs]
  · isplitl [HA]; · iexact HA
    isplitl [HB]; · iexact HB
    isplitl [HC]; · iexact HC
    isplitl [HD]; · iexact HD
    iexact Hbufs
  isplitl [H4 H5 H6 H7 Hsems]
  · isplitl [H4]; · iexact H4
    isplitl [H5]; · iexact H5
    isplitl [H6]; · iexact H6
    isplitl [H7]; · iexact H7
    iexact Hsems
  iexact HW

end Cert.Proof.KI

end
-- ==== Proof.KITile.lean ====
/-
  One vector subcore's whole task: it starts the fetch of its first slab, runs the ten trips of the main loop (the trip
  module's invariant), then handles its last slab — waits for its fetch and for the last first-slot write-outs, transposes
  it, starts its sixteen write-outs — and drains the two batches still in flight. At the end every row piece of its 21 slabs
  holds the sampled frames, the two read shares of the transposed clip are whole again, and the four copy semaphores are
  back at zero. The same statement in the form the launch theorem asks for follows by the wrapper.
-/
import proofs.«216812_g82557861364368_cont_9to1c4b_466_28_alg».proof.Proof.KITrip
import proofs.«216812_g82557861364368_cont_9to1c4b_466_28_alg».proof.Proof.KIWrap

set_option maxHeartbeats 4000000

noncomputable section

namespace Cert.Proof.KI

open Cert.KernelIdeal Cert.KernelIdeal.GenP
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

open Idealize.ShloMosaic.Tactic Idealize.ShloMosaic.ValueIdx

local notation "xtW" => (Memref.whole Cert.KernelIdeal.main_v0_scv : Memref Cert.KernelIdeal.sig Kind.scVector Space.hbm Cert.KernelIdeal.S3x224x224x128 EltTy.f32)
local notation "oW" => (Memref.whole Cert.KernelIdeal.main_v1_scv : Memref Cert.KernelIdeal.sig Kind.scVector Space.hbm Cert.KernelIdeal.S2408448 EltTy.f32)
local notation "bi0" => (Memref.whole Cert.KernelIdeal.cc0_scratch0 : Memref Cert.KernelIdeal.sig Kind.scVector Space.vmem Cert.KernelIdeal.S224x128 EltTy.f32)
local notation "bi1" => (Memref.whole Cert.KernelIdeal.cc0_scratch1 : Memref Cert.KernelIdeal.sig Kind.scVector Space.vmem Cert.KernelIdeal.S224x128 EltTy.f32)
local notation "bo0" => (Memref.whole Cert.KernelIdeal.cc0_scratch2 : Memref Cert.KernelIdeal.sig Kind.scVector Space.vmem Cert.KernelIdeal.S3584 EltTy.f32)
local notation "bo1" => (Memref.whole Cert.KernelIdeal.cc0_scratch3 : Memref Cert.KernelIdeal.sig Kind.scVector Space.vmem Cert.KernelIdeal.S3584 EltTy.f32)

section
variable (m : (ℓ : Loc nD τ sig) → Buf (Elt F) ℓ) (d : Dev nD) (L : grid0.Coords)

theorem tile_core_at (O : CellTallies nD τ sig (HIx 1)) (W : Waits sig (HIx 1)) :
    (iprop(Transfers.MayWaits (thr d L) (none : HIx 1) O ∗ tileGo m d L ∗ scratchAny d L ∗ semsZero d L ∗ owes (thr d L) O W) : sProp 𝕄)
      ⊢ wp frame (wpE (defs₀ (F := F)) 𝒱₀ (thr d L) none) Set.univ
          (cc0_temporal_gather L xtW (Memref.isWhole_whole _) oW (Memref.isWhole_whole _) bi0 (Memref.isWhole_whole _) bi1 (Memref.isWhole_whole _)
            bo0 (Memref.isWhole_whole _) bo1 (Memref.isWhole_whole _) cc0_scratch4 cc0_scratch5 cc0_scratch6 cc0_scratch7)
          fun _ => iprop(tileTd m d L ∗ scratchAny d L ∗ semsZero d L
            ∗ ∃ W', ⌜∀ p ∈ W', p ∈ W ∨ p.2 = none⌝ ∗ owes (thr d L) O W') := by
  unfold tileGo scratchAny semsZero
  iintro ⟨Hmw, ⟨Hxa, Hxb, Hp⟩, ⟨⟨%f0, H0⟩, ⟨%f1, H1⟩, ⟨%f2, H2⟩, ⟨%f3, H3⟩⟩, ⟨S0, S1, S2, S3⟩, HO⟩
  ihave Hxa' : ((xtW).view.loc (thr d L) ↦{shA L} XX m d L) $$ [Hxa]; · iexact Hxa
  sl_unfold [cc0_temporal_gather]
  sl_exec
  ihave Hxb' : ((xtW).view.loc (thr d L) ↦{shB L} XX m d L) $$ [Hxb]; · iexact Hxb
  sl_for (inv m d L O W) $$ [Hmw S0 Hxa' Hxb' H1 H2 H3 S1 S2 S3 Hp HO]
  case region =>
    intro k u
    by_cases hk : k.val = 0
    · exact trip_first m d L O W k hk _ u
    · exact trip_next m d L O W k (Nat.pos_of_ne_zero hk) _ u
  · unfold inv
    iexists (shA L), (shB L)
    isplitr; · ipureintro; exact .inl ⟨rfl, rfl⟩
    isplitl [Hmw]; · iexact Hmw
    isplitl [S0 Hxa' H2 S2 H3 S3]
    · rw [show head m d L (shA L) 0 = head0 m d L (shA L) from if_pos rfl]; unfold head0
      isplitl [S0]
      · iapply (Transfers.Flight_mono (countersEmb (U := UU)) (thr d L)
          (BI.sep_mono (Entails.of_eq (congrArg (fun f => (((bi0).view.loc (thr d L) ↦{fullShare} f : sProp 𝕄)))
            ((View.write_whole_univ (Val := Elt F) (cc0_scratch0 : Ref sig .scVector) _ _).trans (slabM1_read (F := F) d L (XX m d L))))) (BI.Entails.refl _)))
        iexact S0
      isplitl [Hxa']; · iexact Hxa'
      isplitl [H2]; · iexists _; iexact H2
      isplitl [S2]; · iexact S2
      isplitl [H3]; · iexists _; iexact H3
      iexact S3
    isplitl [Hxb']; · iexact Hxb'
    isplitl [H1]; · iexists _; iexact H1
    isplitl [S1]; · iexact S1
    isplitl [Hp]; · rw [slabRes_zero]; iexact Hp
    iexists W; isplitr
    · ipureintro; exact fun p hp => .inl hp
    · iexact HO
  iintro %accu HI
  have e10 : Scf.trips k0_t1_loop.lb k0_t1_loop.ub k0_t1_loop.st = 10 := trips1
  rw [e10]
  unfold inv
  icases HI with ⟨%qa, %qb, %hperm, Hmw, Hhead, Hxb, ⟨%f1, H1⟩, S1, Hres, %W', %hW', HO⟩
  have h9 : (10 : ℕ) - 1 < k0_t1_loop.trips := by rw [trips1]; omega
  ihave Hh := (Entails.of_eq (show head m d L qa 10 = headS m d L qa ⟨10 - 1, h9⟩ from by
      unfold head; rw [if_neg (by omega), dif_pos h9])) $$ Hhead
  unfold headS
  icases Hh with ⟨HF0, Hxr, HB2o, HB3o⟩
  ihave Hr := (slabRes_last m d L) $$ Hres
  icases Hr with ⟨Pa, Hfin⟩
  ihave Pa' := (Entails.of_eq (slab_in5 (F := F) d L (m (oLoc d)))) $$ Pa
  icases Pa' with ⟨Q0, Q1, Q2, Q3, Q4, Q5, Q6, Q7, Q8, Q9, Q10, Q11, Q12, Q13, Q14, Q15⟩
  sl_exec
  -- the last trip's first-slot write-outs have landed: slab 18 is finished, the staging buffer is whole again
  ihave H2 := (rows_join0 (F := F) d L (Ts0 m d L (slab L (2 * (⟨10 - 1, h9⟩ : Fin k0_t1_loop.trips).val)))) $$ [HB2o_src0 HB2o_src1 HB2o_src2 HB2o_src3 HB2o_src4 HB2o_src5 HB2o_src6 HB2o_src7 HB2o_src8 HB2o_src9 HB2o_src10 HB2o_src11 HB2o_src12 HB2o_src13 HB2o_src14 HB2o_src15]
  · iframe
  ihave Pd18 := (slab_outJ3 (F := F) m d L (⟨10 - 1, h9⟩ : Fin k0_t1_loop.trips)) $$ [HB2o_dst0 HB2o_dst1 HB2o_dst2 HB2o_dst3 HB2o_dst4 HB2o_dst5 HB2o_dst6 HB2o_dst7 HB2o_dst8 HB2o_dst9 HB2o_dst10 HB2o_dst11 HB2o_dst12 HB2o_dst13 HB2o_dst14 HB2o_dst15]
  · iframe
  sl_for (J4 (F := F) d L (Bs m d L (slab L (2 * (⟨10 - 1, h9⟩ : Fin k0_t1_loop.trips).val + 2))) (Ts0 m d L (slab L (2 * (⟨10 - 1, h9⟩ : Fin k0_t1_loop.trips).val)))) $$ [HF0_dst H2]
  case region =>
    intro kk u'
    unfold J4
    refine (trip4 (F := F) d L _ kk _ _).trans (wp_mono frame _ _ fun _ => ?_)
    iintro ⟨Ha, %g', %hg, Hb⟩
    subst hg
    isplitl [Ha]; · iexact Ha
    rw [acc4_succ]; iexact Hb
  · unfold J4
    isplitl [HF0_dst]; · iexact HF0_dst
    iexact H2
  iintro %acc4u HI
  unfold J4
  icases HI with ⟨H0, H2⟩
  ihave H2 := (Entails.of_eq (congrArg (fun f => (((bo0).view.loc (thr d L) ↦{fullShare} f : sProp 𝕄))) (acc4_full (F := F) (Bs m d L (slab L (2 * (⟨10 - 1, h9⟩ : Fin k0_t1_loop.trips).val + 2))) (Ts0 m d L (slab L (2 * (⟨10 - 1, h9⟩ : Fin k0_t1_loop.trips).val)))))) $$ H2
  ihave S2n : (semVal (thr d L, SemLoc.dma cc0_scratch6.sem) 0 : sProp 𝕄) $$ [HB2o]; · iexact HB2o
  imod (Transfers.batch_alloc' (Lvl := ℕ) (countersEmb (U := UU)) (thr d L) (none : HIx 1) (N5 L)
    (D5 (F := F) m d L (Ts0 m d L (slab L 20))) (sm := .dma cc0_scratch6.sem) (E := Set.univ)) $$ S2n with HB5
  sl_exec
  sl_step
  -- the last write-outs have landed: slabs 19 and 20 are finished, both staging buffers are whole again
  ihave H3j := (rows_join1 (F := F) d L (Ts1 m d L (slab L (2 * (⟨10 - 1, h9⟩ : Fin k0_t1_loop.trips).val + 1)))) $$ [HB3o_src0 HB3o_src1 HB3o_src2 HB3o_src3 HB3o_src4 HB3o_src5 HB3o_src6 HB3o_src7 HB3o_src8 HB3o_src9 HB3o_src10 HB3o_src11 HB3o_src12 HB3o_src13 HB3o_src14 HB3o_src15]
  · iframe
  ihave Pd19 := (slab_out4 (F := F) m d L (⟨10 - 1, h9⟩ : Fin k0_t1_loop.trips) (m (oLoc d))) $$ [HB3o_dst0 HB3o_dst1 HB3o_dst2 HB3o_dst3 HB3o_dst4 HB3o_dst5 HB3o_dst6 HB3o_dst7 HB3o_dst8 HB3o_dst9 HB3o_dst10 HB3o_dst11 HB3o_dst12 HB3o_dst13 HB3o_dst14 HB3o_dst15]
  · iframe
  ihave H2j := (rows_join0 (F := F) d L (Ts0 m d L (slab L 20))) $$ [HB5_src0 HB5_src1 HB5_src2 HB5_src3 HB5_src4 HB5_src5 HB5_src6 HB5_src7 HB5_src8 HB5_src9 HB5_src10 HB5_src11 HB5_src12 HB5_src13 HB5_src14 HB5_src15]
  · iframe
  ihave Pd20 := (slab_out5 (F := F) m d L (m (oLoc d))) $$ [HB5_dst0 HB5_dst1 HB5_dst2 HB5_dst3 HB5_dst4 HB5_dst5 HB5_dst6 HB5_dst7 HB5_dst8 HB5_dst9 HB5_dst10 HB5_dst11 HB5_dst12 HB5_dst13 HB5_dst14 HB5_dst15]
  · iframe
  unfold tileTd
  isplitl [Hxr Hxb Hfin Pd18 Pd19 Pd20]
  · rcases hperm with ⟨rfl, rfl⟩ | ⟨rfl, rfl⟩
    · isplitl [Hxr]; · iexact Hxr
      isplitl [Hxb]; · iexact Hxb
      iapply Hfin
      isplitl [Pd18]; · iexact Pd18
      isplitl [Pd19]; · iexact Pd19
      iexact Pd20
    · isplitl [Hxb]; · iexact Hxb
      isplitl [Hxr]; · iexact Hxr
      iapply Hfin
      isplitl [Pd18]; · iexact Pd18
      isplitl [Pd19]; · iexact Pd19
      iexact Pd20
  isplitl [H0 H1 H2j H3j]
  · isplitl [H0]; · iexists _; iexact H0
    isplitl [H1]; · iexists _; iexact H1
    isplitl [H2j]; · iexists _; iexact H2j
    iexists _; iexact H3j
  isplitl [HF0 S1 HB5 HB3o]
  · isplitl [HF0]; · iexact HF0
    isplitl [S1]; · iexact S1
    isplitl [HB5]; · iexact HB5
    iexact HB3o
  iexists _; isplitr
  rotate_left
  · iexact HO
  · ipureintro
    repeat (first | exact hW' | refine ins_ok ?_ _)

end

/-- The task over explicit resources, for every subcore. -/
theorem tile_core (m : (ℓ : Loc nD τ sig) → Buf (Elt F) ℓ) : TileCoreStmt m :=
  fun d L O W => tile_core_at m d L O W

/-- The task in the launch theorem's form. -/
theorem tile_body (m : (ℓ : Loc nD τ sig) → Buf (Elt F) ℓ) : TileBodyStmt m :=
  tile_of_core m (tile_core m)

end Cert.Proof.KI

end
-- ==== Proof.KBOffsets.lean ====
/-
  The kernel's five offset chains in closed form. The chains compute, in 32-bit words, a slab number
  `g = 21 (2 s + c) + (a trip's offset)`, its channel `g / 224` and row `g % 224` (a floor division spelt with its sign
  corrections), and from them either the slab's place in the transposed clip, `[g / 224, g % 224, 0, 0]`, or the first word
  of a row piece of the result, `802816 (g / 224) + 224 (g % 224) + 50176 j`. Every value involved is far below 2^31, so
  the words compute the natural numbers; the grid (2 × 16), the ten trips and the sixteen pieces are finite, and the
  equations are checked case by case.
-/
import proofs.«216812_g82557861364368_cont_9to1c4b_466_28_alg».proof.Proof.KBPay
import Idealize.ShloMosaic.Lib.Decide

namespace Cert.Proof.KB

open Cert.Kernel Cert.Kernel.GenP
open Idealize.ShloMosaic

/-- The worker's first slab, from the grid coordinates. -/
theorem slab_zero (L : grid0.Coords) : slab L 0 = 42 * (L 1).val + 21 * (L 0).val := by unfold slab wid; omega

theorem k0_off1_eq : ∀ i : grid0.Coords,
    k0_off1 i = ![(42 * (i 1).val + 21 * (i 0).val) / 224, (42 * (i 1).val + 21 * (i 0).val) % 224, 0, 0] := by decide +kernel

theorem k0_off2_eq : ∀ (i : grid0.Coords) (k : Fin k0_t1_loop.trips) (r : Fin 2),
    k0_off2 i k (BitVec.ofNat 32 (1 + r.val))
      = ![(42 * (i 1).val + 21 * (i 0).val + 2 * k.val + 1 + r.val) / 224, (42 * (i 1).val + 21 * (i 0).val + 2 * k.val + 1 + r.val) % 224, 0, 0] := by
  decide +kernel

theorem k0_off3_eq : ∀ (i : grid0.Coords) (k : Fin k0_t1_loop.trips) (r : Fin 16),
    k0_off3 i k (BitVec.ofNat 32 (50176 * r.val)) = ![off (42 * (i 1).val + 21 * (i 0).val + 2 * k.val) r.val] := by
  decide +kernel

theorem k0_off4_eq : ∀ (i : grid0.Coords) (k : Fin k0_t1_loop.trips) (r : Fin 16),
    k0_off4 i k (BitVec.ofNat 32 (50176 * r.val)) = ![off (42 * (i 1).val + 21 * (i 0).val + 2 * k.val + 1) r.val] := by
  decide +kernel

theorem k0_off5_eq : ∀ (i : grid0.Coords) (r : Fin 16),
    k0_off5 i (BitVec.ofNat 32 (50176 * r.val)) = ![off (42 * (i 1).val + 21 * (i 0).val + 20) r.val] := by
  decide +kernel

end Cert.Proof.KB
-- ==== Proof.KBChk.lean ====
/-
  The indices of every indexed load and store of the three transposition loops are in range, for every pass: lane l of a
  load names column 16 w + l < 224 and frame 33 + 4 ((n + l) % 16) < 128 of the slab, lane l of a store names word
  224 ((n + l) % 16) + 16 w + l < 3584 of the staging buffer (w < 14 the group of sixteen columns, n < 16 the pass). The index
  vectors are closed terms of the pass number, so each statement is checked over the sixteen passes by evaluation.
-/
import proofs.«216812_g82557861364368_cont_9to1c4b_466_28_alg».proof.Proof.KBPay
import Idealize.ShloMosaic.Lib.Decide

namespace Cert.Proof.KB

open Cert.Kernel Cert.Kernel.GenP
open Idealize.ShloMosaic

/-- The lane numbers 0 … 15. -/
abbrev iotaV : IVec S16 32 := iota .scVector S16 32 [0] iota_S16_d0_w32_scVector

theorem chk_1 : ∀ kk : Fin k0_t2_loop.trips, k0_chk1 (k0_pay2 iotaV 0#32 1#32 kk) (k0_pay4 iotaV) := by decide +kernel
theorem chk_2 : ∀ kk : Fin k0_t2_loop.trips, k0_chk2 (addi (k0_pay3 iotaV 0#32 1#32 kk) (k0_pay4 iotaV)) := by decide +kernel
theorem chk_3 : ∀ kk : Fin k0_t2_loop.trips, k0_chk3 (k0_pay2 iotaV 0#32 1#32 kk) (k0_pay5 iotaV) := by decide +kernel
theorem chk_4 : ∀ kk : Fin k0_t2_loop.trips, k0_chk4 (addi (k0_pay3 iotaV 0#32 1#32 kk) (k0_pay5 iotaV)) := by decide +kernel
theorem chk_5 : ∀ kk : Fin k0_t2_loop.trips, k0_chk5 (k0_pay2 iotaV 0#32 1#32 kk) (k0_pay6 iotaV) := by decide +kernel
theorem chk_6 : ∀ kk : Fin k0_t2_loop.trips, k0_chk6 (addi (k0_pay3 iotaV 0#32 1#32 kk) (k0_pay6 iotaV)) := by decide +kernel
theorem chk_7 : ∀ kk : Fin k0_t2_loop.trips, k0_chk7 (k0_pay2 iotaV 0#32 1#32 kk) (k0_pay7 iotaV) := by decide +kernel
theorem chk_8 : ∀ kk : Fin k0_t2_loop.trips, k0_chk8 (addi (k0_pay3 iotaV 0#32 1#32 kk) (k0_pay7 iotaV)) := by decide +kernel
theorem chk_9 : ∀ kk : Fin k0_t2_loop.trips, k0_chk9 (k0_pay2 iotaV 0#32 1#32 kk) (k0_pay8 iotaV) := by decide +kernel
theorem chk_10 : ∀ kk : Fin k0_t2_loop.trips, k0_chk10 (addi (k0_pay3 iotaV 0#32 1#32 kk) (k0_pay8 iotaV)) := by decide +kernel
theorem chk_11 : ∀ kk : Fin k0_t2_loop.trips, k0_chk11 (k0_pay2 iotaV 0#32 1#32 kk) (k0_pay9 iotaV) := by decide +kernel
theorem chk_12 : ∀ kk : Fin k0_t2_loop.trips, k0_chk12 (addi (k0_pay3 iotaV 0#32 1#32 kk) (k0_pay9 iotaV)) := by decide +kernel
theorem chk_13 : ∀ kk : Fin k0_t2_loop.trips, k0_chk13 (k0_pay2 iotaV 0#32 1#32 kk) (k0_pay10 iotaV) := by decide +kernel
theorem chk_14 : ∀ kk : Fin k0_t2_loop.trips, k0_chk14 (addi (k0_pay3 iotaV 0#32 1#32 kk) (k0_pay10 iotaV)) := by decide +kernel
theorem chk_15 : ∀ kk : Fin k0_t2_loop.trips, k0_chk15 (k0_pay2 iotaV 0#32 1#32 kk) (k0_pay11 iotaV) := by decide +kernel
theorem chk_16 : ∀ kk : Fin k0_t2_loop.trips, k0_chk16 (addi (k0_pay3 iotaV 0#32 1#32 kk) (k0_pay11 iotaV)) := by decide +kernel
theorem chk_17 : ∀ kk : Fin k0_t2_loop.trips, k0_chk17 (k0_pay2 iotaV 0#32 1#32 kk) (k0_pay12 iotaV) := by decide +kernel
theorem chk_18 : ∀ kk : Fin k0_t2_loop.trips, k0_chk18 (addi (k0_pay3 iotaV 0#32 1#32 kk) (k0_pay12 iotaV)) := by decide +kernel
theorem chk_19 : ∀ kk : Fin k0_t2_loop.trips, k0_chk19 (k0_pay2 iotaV 0#32 1#32 kk) (k0_pay13 iotaV) := by decide +kernel
theorem chk_20 : ∀ kk : Fin k0_t2_loop.trips, k0_chk20 (addi (k0_pay3 iotaV 0#32 1#32 kk) (k0_pay13 iotaV)) := by decide +kernel
theorem chk_21 : ∀ kk : Fin k0_t2_loop.trips, k0_chk21 (k0_pay2 iotaV 0#32 1#32 kk) (k0_pay14 iotaV) := by decide +kernel
theorem chk_22 : ∀ kk : Fin k0_t2_loop.trips, k0_chk22 (addi (k0_pay3 iotaV 0#32 1#32 kk) (k0_pay14 iotaV)) := by decide +kernel
theorem chk_23 : ∀ kk : Fin k0_t2_loop.trips, k0_chk23 (k0_pay2 iotaV 0#32 1#32 kk) (k0_pay15 iotaV) := by decide +kernel
theorem chk_24 : ∀ kk : Fin k0_t2_loop.trips, k0_chk24 (addi (k0_pay3 iotaV 0#32 1#32 kk) (k0_pay15 iotaV)) := by decide +kernel
theorem chk_25 : ∀ kk : Fin k0_t2_loop.trips, k0_chk25 (k0_pay2 iotaV 0#32 1#32 kk) (k0_pay16 iotaV) := by decide +kernel
theorem chk_26 : ∀ kk : Fin k0_t2_loop.trips, k0_chk26 (addi (k0_pay3 iotaV 0#32 1#32 kk) (k0_pay16 iotaV)) := by decide +kernel
theorem chk_27 : ∀ kk : Fin k0_t2_loop.trips, k0_chk27 (k0_pay2 iotaV 0#32 1#32 kk) (k0_pay33 iotaV 208#32) := by decide +kernel
theorem chk_28 : ∀ kk : Fin k0_t2_loop.trips, k0_chk28 (addi (k0_pay3 iotaV 0#32 1#32 kk) (k0_pay33 iotaV 208#32)) := by decide +kernel
theorem chk_29 : ∀ kk : Fin k0_t3_loop.trips, k0_chk29 (k0_pay18 iotaV 0#32 1#32 kk) (k0_pay20 iotaV) := by decide +kernel
theorem chk_30 : ∀ kk : Fin k0_t3_loop.trips, k0_chk30 (addi (k0_pay19 iotaV 0#32 1#32 kk) (k0_pay20 iotaV)) := by decide +kernel
theorem chk_31 : ∀ kk : Fin k0_t3_loop.trips, k0_chk31 (k0_pay18 iotaV 0#32 1#32 kk) (k0_pay21 iotaV) := by decide +kernel
theorem chk_32 : ∀ kk : Fin k0_t3_loop.trips, k0_chk32 (addi (k0_pay19 iotaV 0#32 1#32 kk) (k0_pay21 iotaV)) := by decide +kernel
theorem chk_33 : ∀ kk : Fin k0_t3_loop.trips, k0_chk33 (k0_pay18 iotaV 0#32 1#32 kk) (k0_pay22 iotaV) := by decide +kernel
theorem chk_34 : ∀ kk : Fin k0_t3_loop.trips, k0_chk34 (addi (k0_pay19 iotaV 0#32 1#32 kk) (k0_pay22 iotaV)) := by decide +kernel
theorem chk_35 : ∀ kk : Fin k0_t3_loop.trips, k0_chk35 (k0_pay18 iotaV 0#32 1#32 kk) (k0_pay23 iotaV) := by decide +kernel
theorem chk_36 : ∀ kk : Fin k0_t3_loop.trips, k0_chk36 (addi (k0_pay19 iotaV 0#32 1#32 kk) (k0_pay23 iotaV)) := by decide +kernel
theorem chk_37 : ∀ kk : Fin k0_t3_loop.trips, k0_chk37 (k0_pay18 iotaV 0#32 1#32 kk) (k0_pay24 iotaV) := by decide +kernel
theorem chk_38 : ∀ kk : Fin k0_t3_loop.trips, k0_chk38 (addi (k0_pay19 iotaV 0#32 1#32 kk) (k0_pay24 iotaV)) := by decide +kernel
theorem chk_39 : ∀ kk : Fin k0_t3_loop.trips, k0_chk39 (k0_pay18 iotaV 0#32 1#32 kk) (k0_pay25 iotaV) := by decide +kernel
theorem chk_40 : ∀ kk : Fin k0_t3_loop.trips, k0_chk40 (addi (k0_pay19 iotaV 0#32 1#32 kk) (k0_pay25 iotaV)) := by decide +kernel
theorem chk_41 : ∀ kk : Fin k0_t3_loop.trips, k0_chk41 (k0_pay18 iotaV 0#32 1#32 kk) (k0_pay26 iotaV) := by decide +kernel
theorem chk_42 : ∀ kk : Fin k0_t3_loop.trips, k0_chk42 (addi (k0_pay19 iotaV 0#32 1#32 kk) (k0_pay26 iotaV)) := by decide +kernel
theorem chk_43 : ∀ kk : Fin k0_t3_loop.trips, k0_chk43 (k0_pay18 iotaV 0#32 1#32 kk) (k0_pay27 iotaV) := by decide +kernel
theorem chk_44 : ∀ kk : Fin k0_t3_loop.trips, k0_chk44 (addi (k0_pay19 iotaV 0#32 1#32 kk) (k0_pay27 iotaV)) := by decide +kernel
theorem chk_45 : ∀ kk : Fin k0_t3_loop.trips, k0_chk45 (k0_pay18 iotaV 0#32 1#32 kk) (k0_pay28 iotaV) := by decide +kernel
theorem chk_46 : ∀ kk : Fin k0_t3_loop.trips, k0_chk46 (addi (k0_pay19 iotaV 0#32 1#32 kk) (k0_pay28 iotaV)) := by decide +kernel
theorem chk_47 : ∀ kk : Fin k0_t3_loop.trips, k0_chk47 (k0_pay18 iotaV 0#32 1#32 kk) (k0_pay29 iotaV) := by decide +kernel
theorem chk_48 : ∀ kk : Fin k0_t3_loop.trips, k0_chk48 (addi (k0_pay19 iotaV 0#32 1#32 kk) (k0_pay29 iotaV)) := by decide +kernel
theorem chk_49 : ∀ kk : Fin k0_t3_loop.trips, k0_chk49 (k0_pay18 iotaV 0#32 1#32 kk) (k0_pay30 iotaV) := by decide +kernel
theorem chk_50 : ∀ kk : Fin k0_t3_loop.trips, k0_chk50 (addi (k0_pay19 iotaV 0#32 1#32 kk) (k0_pay30 iotaV)) := by decide +kernel
theorem chk_51 : ∀ kk : Fin k0_t3_loop.trips, k0_chk51 (k0_pay18 iotaV 0#32 1#32 kk) (k0_pay31 iotaV) := by decide +kernel
theorem chk_52 : ∀ kk : Fin k0_t3_loop.trips, k0_chk52 (addi (k0_pay19 iotaV 0#32 1#32 kk) (k0_pay31 iotaV)) := by decide +kernel
theorem chk_53 : ∀ kk : Fin k0_t3_loop.trips, k0_chk53 (k0_pay18 iotaV 0#32 1#32 kk) (k0_pay32 iotaV) := by decide +kernel
theorem chk_54 : ∀ kk : Fin k0_t3_loop.trips, k0_chk54 (addi (k0_pay19 iotaV 0#32 1#32 kk) (k0_pay32 iotaV)) := by decide +kernel
theorem chk_55 : ∀ kk : Fin k0_t3_loop.trips, k0_chk55 (k0_pay18 iotaV 0#32 1#32 kk) (k0_pay34 208#32) := by decide +kernel
theorem chk_56 : ∀ kk : Fin k0_t3_loop.trips, k0_chk56 (addi (k0_pay19 iotaV 0#32 1#32 kk) (k0_pay34 208#32)) := by decide +kernel
theorem chk_57 : ∀ kk : Fin k0_t4_loop.trips, k0_chk57 (k0_pay36 iotaV 0#32 1#32 kk) (k0_pay38 iotaV) := by decide +kernel
theorem chk_58 : ∀ kk : Fin k0_t4_loop.trips, k0_chk58 (addi (k0_pay37 iotaV 0#32 1#32 kk) (k0_pay38 iotaV)) := by decide +kernel
theorem chk_59 : ∀ kk : Fin k0_t4_loop.trips, k0_chk59 (k0_pay36 iotaV 0#32 1#32 kk) (k0_pay39 iotaV) := by decide +kernel
theorem chk_60 : ∀ kk : Fin k0_t4_loop.trips, k0_chk60 (addi (k0_pay37 iotaV 0#32 1#32 kk) (k0_pay39 iotaV)) := by decide +kernel
theorem chk_61 : ∀ kk : Fin k0_t4_loop.trips, k0_chk61 (k0_pay36 iotaV 0#32 1#32 kk) (k0_pay40 iotaV) := by decide +kernel
theorem chk_62 : ∀ kk : Fin k0_t4_loop.trips, k0_chk62 (addi (k0_pay37 iotaV 0#32 1#32 kk) (k0_pay40 iotaV)) := by decide +kernel
theorem chk_63 : ∀ kk : Fin k0_t4_loop.trips, k0_chk63 (k0_pay36 iotaV 0#32 1#32 kk) (k0_pay41 iotaV) := by decide +kernel
theorem chk_64 : ∀ kk : Fin k0_t4_loop.trips, k0_chk64 (addi (k0_pay37 iotaV 0#32 1#32 kk) (k0_pay41 iotaV)) := by decide +kernel
theorem chk_65 : ∀ kk : Fin k0_t4_loop.trips, k0_chk65 (k0_pay36 iotaV 0#32 1#32 kk) (k0_pay42 iotaV) := by decide +kernel
theorem chk_66 : ∀ kk : Fin k0_t4_loop.trips, k0_chk66 (addi (k0_pay37 iotaV 0#32 1#32 kk) (k0_pay42 iotaV)) := by decide +kernel
theorem chk_67 : ∀ kk : Fin k0_t4_loop.trips, k0_chk67 (k0_pay36 iotaV 0#32 1#32 kk) (k0_pay43 iotaV) := by decide +kernel
theorem chk_68 : ∀ kk : Fin k0_t4_loop.trips, k0_chk68 (addi (k0_pay37 iotaV 0#32 1#32 kk) (k0_pay43 iotaV)) := by decide +kernel
theorem chk_69 : ∀ kk : Fin k0_t4_loop.trips, k0_chk69 (k0_pay36 iotaV 0#32 1#32 kk) (k0_pay44 iotaV) := by decide +kernel
theorem chk_70 : ∀ kk : Fin k0_t4_loop.trips, k0_chk70 (addi (k0_pay37 iotaV 0#32 1#32 kk) (k0_pay44 iotaV)) := by decide +kernel
theorem chk_71 : ∀ kk : Fin k0_t4_loop.trips, k0_chk71 (k0_pay36 iotaV 0#32 1#32 kk) (k0_pay45 iotaV) := by decide +kernel
theorem chk_72 : ∀ kk : Fin k0_t4_loop.trips, k0_chk72 (addi (k0_pay37 iotaV 0#32 1#32 kk) (k0_pay45 iotaV)) := by decide +kernel
theorem chk_73 : ∀ kk : Fin k0_t4_loop.trips, k0_chk73 (k0_pay36 iotaV 0#32 1#32 kk) (k0_pay46 iotaV) := by decide +kernel
theorem chk_74 : ∀ kk : Fin k0_t4_loop.trips, k0_chk74 (addi (k0_pay37 iotaV 0#32 1#32 kk) (k0_pay46 iotaV)) := by decide +kernel
theorem chk_75 : ∀ kk : Fin k0_t4_loop.trips, k0_chk75 (k0_pay36 iotaV 0#32 1#32 kk) (k0_pay47 iotaV) := by decide +kernel
theorem chk_76 : ∀ kk : Fin k0_t4_loop.trips, k0_chk76 (addi (k0_pay37 iotaV 0#32 1#32 kk) (k0_pay47 iotaV)) := by decide +kernel
theorem chk_77 : ∀ kk : Fin k0_t4_loop.trips, k0_chk77 (k0_pay36 iotaV 0#32 1#32 kk) (k0_pay48 iotaV) := by decide +kernel
theorem chk_78 : ∀ kk : Fin k0_t4_loop.trips, k0_chk78 (addi (k0_pay37 iotaV 0#32 1#32 kk) (k0_pay48 iotaV)) := by decide +kernel
theorem chk_79 : ∀ kk : Fin k0_t4_loop.trips, k0_chk79 (k0_pay36 iotaV 0#32 1#32 kk) (k0_pay49 iotaV) := by decide +kernel
theorem chk_80 : ∀ kk : Fin k0_t4_loop.trips, k0_chk80 (addi (k0_pay37 iotaV 0#32 1#32 kk) (k0_pay49 iotaV)) := by decide +kernel
theorem chk_81 : ∀ kk : Fin k0_t4_loop.trips, k0_chk81 (k0_pay36 iotaV 0#32 1#32 kk) (k0_pay50 iotaV) := by decide +kernel
theorem chk_82 : ∀ kk : Fin k0_t4_loop.trips, k0_chk82 (addi (k0_pay37 iotaV 0#32 1#32 kk) (k0_pay50 iotaV)) := by decide +kernel
theorem chk_83 : ∀ kk : Fin k0_t4_loop.trips, k0_chk83 (k0_pay36 iotaV 0#32 1#32 kk) (k0_pay51 208#32) := by decide +kernel
theorem chk_84 : ∀ kk : Fin k0_t4_loop.trips, k0_chk84 (addi (k0_pay37 iotaV 0#32 1#32 kk) (k0_pay51 208#32)) := by decide +kernel

end Cert.Proof.KB
-- ==== Proof.KBTr.lean ====
/-
  The frame-major transpose of a slab's sixteen sampled frames, and its partial forms.

  A slab `B` is 224 columns × 128 frames; the staging buffer has 16 · 224 words, word `224 j + r` for sample `j` and
  column `r`. `tr B` puts `B[r, 33 + 4 j]` there. The kernel fills the staging buffer in sixteen passes, pass `n` writing
  the words with `j - r ≡ n (mod 16)` (sixteen lanes each take a different sample, so that no two lanes hit one bank):
  `passOf z` is the pass that writes word `z`, `trAcc B f n` the buffer after passes `0 … n - 1` started from `f`.
-/
import proofs.«216812_g82557861364368_cont_9to1c4b_466_28_alg».proof.Proof.KBChk

noncomputable section

namespace Cert.Proof.KB

open Cert.Kernel Cert.Kernel.GenP
open Idealize.ShloMosaic Idealize.ShloMosaic.ValueIdx

variable {F : FTy → Type} [FloatOps F]

/-- Staging word `z` is written in pass `((z / 224) - (z % 16)) mod 16`. -/
def passOf (z : S3584.Idx) : ℕ := ((z 0).val / 224 + 16 - (z 0).val % 16) % 16

/-- The frame-major transpose of the sixteen sampled frames of a slab: word `224 j + r` is `B[r, 33 + 4 j]`. -/
def tr (B : Vec F S224x128 .f32) : Vec F S3584 .f32 := fun z =>
  B (ix2 (n0 := 224) (n1 := 128) ⟨(z 0).val % 224, Nat.mod_lt _ (by omega)⟩
    ⟨33 + 4 * ((z 0).val / 224), by have := (z 0).isLt; change (z 0).val < 3584 at this; omega⟩)

/-- The staging buffer after passes `0 … n - 1`, started from `f`. -/
def trAcc (B : Vec F S224x128 .f32) (f : Vec F S3584 .f32) (n : ℕ) : Vec F S3584 .f32 :=
  fun z => if passOf z < n then tr B z else f z

end Cert.Proof.KB

end
-- ==== Proof.KBViewDefs.lean ====
/-
  The memrefs the kernel's copies name, spelt as the program spells them (through its own offset chains), and the slab a
  worker fetches as a function of the transposed clip.

  A fetch reads slab `g` of `xt` — the [1, 1, 224, 128] box at `[g / 224, g % 224, 0, 0]`, squeezed to 224 × 128 — into a
  slab buffer; a write-out copies row `j` of a staging buffer (words `224 j … 224 j + 223`) to row piece `j` of its slab in the
  flat result. The first fetch's offsets are the chain `k0_off1`, the loop's two fetches' `k0_off2` (at the literals 1 and
  2: the next slab and the one after), the write-outs' `k0_off3` (first slot), `k0_off4` (second slot) and `k0_off5` (the last
  slab, after the loop), at the literals `50176 j`.
-/
import proofs.«216812_g82557861364368_cont_9to1c4b_466_28_alg».proof.Proof.KBOffsets
import proofs.«216812_g82557861364368_cont_9to1c4b_466_28_alg».proof.Proof.KBTr

noncomputable section

namespace Cert.Proof.KB

open Cert.Kernel Cert.Kernel.GenP
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-- Slab `g` of the transposed clip: column `r`, frame `t` ↦ `xt[g / 224, g % 224, r, t]`. -/
def slabC {α : Type} (X : S3x224x224x128.Idx → α) (g : ℕ) : S224x128.Idx → α := fun y =>
  X (ix4 (n0 := 3) (n1 := 224) (n2 := 224) (n3 := 128) ⟨g / 224 % 3, Nat.mod_lt _ (by omega)⟩ ⟨g % 224, Nat.mod_lt _ (by omega)⟩ (y 0) (y 1))

/-- The first fetch's source. -/
abbrev slabM1 (L : grid0.Coords) : Memref sig .scVector .hbm S224x128 .f32 :=
  ((Memref.whole main_v0_scv : Memref sig .scVector .hbm S3x224x224x128 .f32).slice
    (Rect.unit (s := S3x224x224x128) (k0_off1 L) S1x1x224x128.size (k0_off1_inb L)) (fun _ => rfl)).squeeze S224x128 squeezes_S1x1x224x128_S224x128

/-- The loop's fetches' sources: `r = 0` the next slab (`2 k + 1`), `r = 1` the one after (`2 k + 2`). -/
abbrev slabM2 (L : grid0.Coords) (k : Fin k0_t1_loop.trips) (r : Fin 2) : Memref sig .scVector .hbm S224x128 .f32 :=
  ((Memref.whole main_v0_scv : Memref sig .scVector .hbm S3x224x224x128 .f32).slice
    (Rect.unit (s := S3x224x224x128) (k0_off2 L k (BitVec.ofNat 32 (1 + r.val))) S1x1x224x128.size (k0_off2_inb L k r)) (fun _ => rfl)).squeeze S224x128 squeezes_S1x1x224x128_S224x128

/-- The write-outs' destinations: piece `j` of slab `2 k` (first slot), of slab `2 k + 1` (second slot), of slab 20 (after the loop). -/
abbrev dstM3 (L : grid0.Coords) (k : Fin k0_t1_loop.trips) (j : Fin 16) : Memref sig .scVector .hbm S224 .f32 :=
  (Memref.whole main_v1_scv : Memref sig .scVector .hbm S2408448 .f32).slice
    (Rect.unit (s := S2408448) (k0_off3 L k (BitVec.ofNat 32 (50176 * j.val))) S224.size (k0_off3_inb L k j)) (fun _ => rfl)
abbrev dstM4 (L : grid0.Coords) (k : Fin k0_t1_loop.trips) (j : Fin 16) : Memref sig .scVector .hbm S224 .f32 :=
  (Memref.whole main_v1_scv : Memref sig .scVector .hbm S2408448 .f32).slice
    (Rect.unit (s := S2408448) (k0_off4 L k (BitVec.ofNat 32 (50176 * j.val))) S224.size (k0_off4_inb L k j)) (fun _ => rfl)
abbrev dstM5 (L : grid0.Coords) (j : Fin 16) : Memref sig .scVector .hbm S224 .f32 :=
  (Memref.whole main_v1_scv : Memref sig .scVector .hbm S2408448 .f32).slice
    (Rect.unit (s := S2408448) (k0_off5 L (BitVec.ofNat 32 (50176 * j.val))) S224.size (k0_off5_inb L j)) (fun _ => rfl)

theorem inb_row (j : Fin 16) : ∀ a, (![224 * j.val] : Fin 1 → Nat) a + S224.size a ≤ S3584.size a := by
  intro a; obtain rfl : a = 0 := Subsingleton.elim _ _
  show 224 * j.val + 224 ≤ 3584; have := j.isLt; omega

/-- Row `j` of the first, and of the second, staging buffer. -/
abbrev rowM0 (j : Fin 16) : Memref sig .scVector .vmem S224 .f32 :=
  (Memref.whole cc0_scratch2 : Memref sig .scVector .vmem S3584 .f32).slice (Rect.unit (s := S3584) ![224 * j.val] S224.size (inb_row j)) (fun _ => rfl)
abbrev rowM1 (j : Fin 16) : Memref sig .scVector .vmem S224 .f32 :=
  (Memref.whole cc0_scratch3 : Memref sig .scVector .vmem S3584 .f32).slice (Rect.unit (s := S3584) ![224 * j.val] S224.size (inb_row j)) (fun _ => rfl)

/-- What a write-out leaves in its piece: the staging row written whole over what the piece held. -/
abbrev landedW (d : Dev nD) (L : grid0.Coords) (dst : Memref sig .scVector .hbm S224 .f32) (src : Memref sig .scVector .vmem S224 .f32)
    (fo : Buf (Elt F) (dst.view.loc (thr d L))) (T : Buf (Elt F) (src.view.loc (thr d L))) : Buf (Elt F) (dst.view.loc (thr d L)) :=
  dst.view.writes (Elt F) fo [⟨Rect.whole S224, ReadAs.same.apply (src.view.read (Elt F) T)⟩]

end Cert.Proof.KB

end
-- ==== Proof.KBViews.lean ====
/-
  The views the kernel's copies name, as index arithmetic.

  A fetch's source is the [1, 1, 224, 128] box of the transposed clip at [g / 224, g % 224, 0, 0], squeezed to 224 × 128:
  read through it, the clip is slab `g`. A write-out's destination is 224 consecutive words of the flat result from word
  `off g j`: row piece `j` of slab `g`; after the write-out it holds row `j` of the staging buffer, and when that buffer is
  the frame-major transpose of slab `g` the piece holds the words the result is to hold there. A staging buffer of
  16 · 224 words is its sixteen rows of 224.
-/
import proofs.«216812_g82557861364368_cont_9to1c4b_466_28_alg».proof.Proof.KBViewDefs
import Idealize.ShloMosaic.Lib.Writes
import Idealize.ShloMosaic.Lib.ValueLayout

noncomputable section

namespace Cert.Proof.KB

open Cert.Kernel Cert.Kernel.GenP
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## A product over sixteen, spelt out -/

theorem univ_fin16 : (Finset.univ : Finset (Fin 16)) = {0, 1, 2, 3, 4, 5, 6, 7, 8, 9, 10, 11, 12, 13, 14, 15} := by decide

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [univ_fin16,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

/-! ## Slabs and trips, as numbers -/

theorem slab_eq (L : grid0.Coords) (t : ℕ) : slab L t = 42 * (L 1).val + 21 * (L 0).val + t := by unfold slab wid; omega

/-- The loop's trips are at most ten, so the slabs a trip touches are among the worker's twenty-one. -/
theorem two_k_lt (k : Fin k0_t1_loop.trips) : 2 * k.val + 1 < 21 := by
  have := Nat.lt_of_lt_of_le k.isLt k0_t1_abs.2.1
  omega

/-! ## What a fetch reads -/

/-- The [1, 1, 224, 128] box of the transposed clip at the offsets `o`, squeezed to 224 × 128, as the program's fetches name it. -/
abbrev boxM (o : Fin 4 → ℕ) (inb : ∀ a, o a + S1x1x224x128.size a ≤ S3x224x224x128.size a) : Memref sig .scVector .hbm S224x128 .f32 :=
  ((Memref.whole main_v0_scv : Memref sig .scVector .hbm S3x224x224x128 .f32).slice
    (Rect.unit (s := S3x224x224x128) o S1x1x224x128.size inb) (fun _ => rfl)).squeeze S224x128 squeezes_S1x1x224x128_S224x128

/-- Read through the box at `[g / 224, g % 224, 0, 0]`, the clip is slab `g`: index `(p, q)` of the squeezed box is
    `(0, 0, p, q)` of the box, which sits at `(g / 224, g % 224, p, q)` of the clip; `g < 672`, so `g / 224 < 3`. -/
theorem boxM_read (o : Fin 4 → ℕ) (inb : ∀ a, o a + S1x1x224x128.size a ≤ S3x224x224x128.size a) (g : ℕ) (hg : g < 672)
    (ho : o = ![g / 224, g % 224, 0, 0]) (d : Dev nD) (L : grid0.Coords)
    (X : Buf (Elt F) ((boxM o inb).view.loc (thr d L))) :
    (boxM o inb).view.read (Elt F) X = slabC (α := Elt F .f32) X g := by
  subst ho
  funext y
  obtain ⟨p, q, rfl⟩ : ∃ (p : Fin 224) (q : Fin 128), y = ix2 p q := ⟨y 0, y 1, eq_ix2 y⟩
  refine (View.read_apply _ _).trans ((cast_eq _ _).trans ?_)
  unfold slabC
  refine congrArg X ?_
  show (Rect.unit (s := S3x224x224x128) ![g / 224, g % 224, 0, 0] S1x1x224x128.size inb).emb
      (Shape.reshapeEquiv squeezes_S1x1x224x128_S224x128.numel_eq (ix2 p q)) = _
  rw [reshapeEquiv_ix2_11ab]
  funext a
  apply Fin.ext
  rw [Rect.emb_apply]
  match a with
  | 0 => show g / 224 + 1 * 0 = g / 224 % 3; omega
  | 1 => show g % 224 + 1 * 0 = g % 224; omega
  | 2 => show 0 + 1 * p.val = p.val; omega
  | 3 => show 0 + 1 * q.val = q.val; omega

theorem slabM1_read (d : Dev nD) (L : grid0.Coords) (X : Buf (Elt F) ((slabM1 L).view.loc (thr d L))) :
    (slabM1 L).view.read (Elt F) X = slabC (α := Elt F .f32) X (slab L 0) :=
  boxM_read _ _ (slab L 0) (slab_lt L (by omega)) (by rw [k0_off1_eq, slab_zero]) d L X

theorem slabM2_read (d : Dev nD) (L : grid0.Coords) (k : Fin k0_t1_loop.trips) (r : Fin 2) (X : Buf (Elt F) ((slabM2 L k r).view.loc (thr d L))) :
    (slabM2 L k r).view.read (Elt F) X = slabC (α := Elt F .f32) X (slab L (2 * k.val + 1 + r.val)) := by
  have e : slab L (2 * k.val + 1 + r.val) = 42 * (L 1).val + 21 * (L 0).val + 2 * k.val + 1 + r.val := by unfold slab wid; omega
  have hr : r.val < 2 := r.isLt
  exact boxM_read _ _ (slab L (2 * k.val + 1 + r.val)) (slab_lt L (by have := two_k_lt k; omega)) (by rw [k0_off2_eq, e]) d L X

/-! ## The write-outs' destinations are the row pieces -/

/-- 224 consecutive words of the flat result from word `o 0`, as the program's write-outs name them. -/
abbrev oRowM (o : Fin 1 → ℕ) (inb : ∀ a, o a + S224.size a ≤ S2408448.size a) : Memref sig .scVector .hbm S224 .f32 :=
  (Memref.whole main_v1_scv : Memref sig .scVector .hbm S2408448 .f32).slice (Rect.unit (s := S2408448) o S224.size inb) (fun _ => rfl)

/-- From word `off g j` they are row piece `j` of slab `g`. -/
theorem oRowM_set (o : Fin 1 → ℕ) (inb : ∀ a, o a + S224.size a ≤ S2408448.size a) (g j : ℕ) (hg : g < 672) (hj : j < 16)
    (h : o = ![off g j]) : (oRowM o inb).view.set = pieceSet g j hg hj := by
  subst h
  show ((View.whole (main_v1_scv : Ref sig .scVector)).slice (pieceRect g j hg hj)).set = (pieceRect g j hg hj).set
  rw [View.set_slice_whole]

theorem dstM3_set (L : grid0.Coords) (k : Fin k0_t1_loop.trips) (j : Fin 16) :
    (dstM3 L k j).view.set = pieceSet (slab L (2 * k.val)) j.val (slab_lt L (by have := two_k_lt k; omega)) j.isLt :=
  oRowM_set _ _ _ _ _ _ (by rw [k0_off3_eq, slab_eq])
theorem dstM4_set (L : grid0.Coords) (k : Fin k0_t1_loop.trips) (j : Fin 16) :
    (dstM4 L k j).view.set = pieceSet (slab L (2 * k.val + 1)) j.val (slab_lt L (two_k_lt k)) j.isLt :=
  oRowM_set _ _ _ _ _ _ (by rw [k0_off4_eq, slab_eq]; rfl)
theorem dstM5_set (L : grid0.Coords) (j : Fin 16) :
    (dstM5 L j).view.set = pieceSet (slab L 20) j.val (slab_lt L (by omega)) j.isLt :=
  oRowM_set _ _ _ _ _ _ (by rw [k0_off5_eq, slab_eq])

/-! ## A piece handed to a write-out -/

theorem piece_in3 (d : Dev nD) (L : grid0.Coords) (k : Fin k0_t1_loop.trips) (j : Fin 16) (f : Buf (Elt F) (oLoc d)) :
    ((oLoc d ↦[pieceSet (slab L (2 * k.val)) j.val (slab_lt L (by have := two_k_lt k; omega)) j.isLt]{fullShare} f : sProp 𝕄))
      = ((dstM3 L k j).view.loc (thr d L) ↦[(dstM3 L k j).view.set]{fullShare} f) := by
  rw [dstM3_set]
theorem piece_in4 (d : Dev nD) (L : grid0.Coords) (k : Fin k0_t1_loop.trips) (j : Fin 16) (f : Buf (Elt F) (oLoc d)) :
    ((oLoc d ↦[pieceSet (slab L (2 * k.val + 1)) j.val (slab_lt L (two_k_lt k)) j.isLt]{fullShare} f : sProp 𝕄))
      = ((dstM4 L k j).view.loc (thr d L) ↦[(dstM4 L k j).view.set]{fullShare} f) := by
  rw [dstM4_set]
theorem piece_in5 (d : Dev nD) (L : grid0.Coords) (j : Fin 16) (f : Buf (Elt F) (oLoc d)) :
    ((oLoc d ↦[pieceSet (slab L 20) j.val (slab_lt L (by omega)) j.isLt]{fullShare} f : sProp 𝕄))
      = ((dstM5 L j).view.loc (thr d L) ↦[(dstM5 L j).view.set]{fullShare} f) := by
  rw [dstM5_set]

/-! ## The rows of a staging buffer -/

/-- Row `j` of a staging buffer, as a rectangle: words `224 j … 224 j + 223`. -/
abbrev rowRect (j : Fin 16) : Rect S3584 := Rect.unit (s := S3584) ![224 * j.val] S224.size (inb_row j)

theorem rowM0_set (j : Fin 16) : (rowM0 j).view.set = (rowRect j).set := by
  show ((View.whole (cc0_scratch2 : Ref sig .scVector)).slice (rowRect j)).set = (rowRect j).set
  rw [View.set_slice_whole]
theorem rowM1_set (j : Fin 16) : (rowM1 j).view.set = (rowRect j).set := by
  show ((View.whole (cc0_scratch3 : Ref sig .scVector)).slice (rowRect j)).set = (rowRect j).set
  rw [View.set_slice_whole]

/-- Read through row `j`, a staging buffer's contents at word `x` of the row are its word `224 j + x`. -/
theorem rowM0_read (d : Dev nD) (L : grid0.Coords) (j : Fin 16) (T : Buf (Elt F) ((rowM0 j).view.loc (thr d L))) (x : S224.Idx) :
    (rowM0 j).view.read (Elt F) T x = T ((rowRect j).emb x) := (View.read_apply _ _).trans (cast_eq _ _)
theorem rowM1_read (d : Dev nD) (L : grid0.Coords) (j : Fin 16) (T : Buf (Elt F) ((rowM1 j).view.loc (thr d L))) (x : S224.Idx) :
    (rowM1 j).view.read (Elt F) T x = T ((rowRect j).emb x) := (View.read_apply _ _).trans (cast_eq _ _)

/-- Two different rows share no word: one ends before the other begins. -/
theorem rowRect_disjoint : ∀ i ∈ (Finset.univ : Finset (Fin 16)), ∀ j ∈ (Finset.univ : Finset (Fin 16)), i ≠ j →
    Disjoint (rowRect i).set (rowRect j).set := fun i _ j _ h => by
  refine Rect.unit_disjoint (0 : Fin 1) ?_
  show 224 * i.val + 224 ≤ 224 * j.val ∨ 224 * j.val + 224 ≤ 224 * i.val
  have : i.val ≠ j.val := fun e => h (Fin.ext e)
  omega

/-- Word `z` lies in row `z / 224`. -/
theorem rowRect_cover : (Finset.univ : Finset (Fin 16)).biUnion (fun j => (rowRect j).set) = Finset.univ := by
  ext z
  simp only [Finset.mem_biUnion, Finset.mem_univ, true_and, iff_true]
  have hz : (z 0).val < 3584 := (z 0).isLt
  refine ⟨⟨(z 0).val / 224, by omega⟩, Rect.mem_set_unit.mpr fun a => ?_⟩
  obtain rfl : a = 0 := Subsingleton.elim _ _
  show 224 * ((z 0).val / 224) ≤ (z 0).val ∧ (z 0).val < 224 * ((z 0).val / 224) + 224
  omega

theorem bo0_rows (d : Dev nD) (L : grid0.Coords)
    (f : Buf (Elt F) ((Memref.whole cc0_scratch2 : Memref sig .scVector .vmem S3584 .f32).view.loc (thr d L))) :
    (((Memref.whole cc0_scratch2 : Memref sig .scVector .vmem S3584 .f32).view.loc (thr d L) ↦{fullShare} f : sProp 𝕄))
      = bigSep Finset.univ fun j : Fin 16 => ((rowM0 j).view.loc (thr d L) ↦[(rowM0 j).view.set]{fullShare} f) := by
  have e : ∀ j : Fin 16, ((rowM0 j).view.loc (thr d L) ↦[(rowM0 j).view.set]{fullShare} f : sProp 𝕄)
      = ((thr d L).loc cc0_scratch2 ↦[(rowRect j).set]{fullShare} f) := fun j => by rw [rowM0_set]
  refine Eq.trans ?_ (bigSep_congr fun j _ => (e j).symm)
  rw [← pointsTo_biUnion Finset.univ (ℓ := (thr d L).loc cc0_scratch2) (fun j => (rowRect j).set) rowRect_disjoint, rowRect_cover]; try rfl
theorem bo1_rows (d : Dev nD) (L : grid0.Coords)
    (f : Buf (Elt F) ((Memref.whole cc0_scratch3 : Memref sig .scVector .vmem S3584 .f32).view.loc (thr d L))) :
    (((Memref.whole cc0_scratch3 : Memref sig .scVector .vmem S3584 .f32).view.loc (thr d L) ↦{fullShare} f : sProp 𝕄))
      = bigSep Finset.univ fun j : Fin 16 => ((rowM1 j).view.loc (thr d L) ↦[(rowM1 j).view.set]{fullShare} f) := by
  have e : ∀ j : Fin 16, ((rowM1 j).view.loc (thr d L) ↦[(rowM1 j).view.set]{fullShare} f : sProp 𝕄)
      = ((thr d L).loc cc0_scratch3 ↦[(rowRect j).set]{fullShare} f) := fun j => by rw [rowM1_set]
  refine Eq.trans ?_ (bigSep_congr fun j _ => (e j).symm)
  rw [← pointsTo_biUnion Finset.univ (ℓ := (thr d L).loc cc0_scratch3) (fun j => (rowRect j).set) rowRect_disjoint, rowRect_cover]; try rfl

/-! ## What a piece holds after its write-out -/

/-- Four coordinates, equal one by one. -/
theorem ix4_congr {n0 n1 n2 n3 : ℕ} {a a' : Fin n0} {b b' : Fin n1} {c c' : Fin n2} {e e' : Fin n3}
    (ha : a.val = a'.val) (hb : b.val = b'.val) (hc : c.val = c'.val) (he : e.val = e'.val) : ix4 a b c e = ix4 a' b' c' e' := by
  rw [Fin.ext ha, Fin.ext hb, Fin.ext hc, Fin.ext he]

/-- Word `r` of row `j` of the transposed slab `g` is what the result is to hold at word `r` of row piece `j` of slab `g`:
    the staging word is `224 j + r`, so it holds column `r`, frame `33 + 4 j` of the slab, `xt[g / 224, g % 224, r, 33 + 4 j]`;
    the result's word is `p = 802816 (g / 224) + 50176 j + 224 (g % 224) + r`, with `p / 802816 = g / 224`,
    `p % 50176 / 224 = g % 224`, `p % 224 = r` and `p % 802816 / 50176 = j`. -/
theorem tr_slabC_row (X : S3x224x224x128.Idx → Elt F .f32) (g : ℕ) (hg : g < 672) (j : Fin 16) (x : S224.Idx) :
    tr (F := F) (slabC X g) ((rowRect j).emb x) = outSpec X ((pieceRect g j.val hg j.isLt).emb x) := by
  have hx : (x 0).val < 224 := (x 0).isLt
  have hj : j.val < 16 := j.isLt
  have e1 : (((rowRect j).emb x) 0).val = 224 * j.val + (x 0).val := by rw [Rect.emb_apply]; show 224 * j.val + 1 * (x 0).val = _; omega
  have e2 : (((pieceRect g j.val hg j.isLt).emb x) 0).val = off g j.val + (x 0).val := by
    rw [Rect.emb_apply]; show off g j.val + 1 * (x 0).val = _; omega
  unfold tr slabC outSpec
  refine congrArg X (ix4_congr ?_ ?_ ?_ ?_)
  · show g / 224 % 3 = (((pieceRect g j.val hg j.isLt).emb x) 0).val / 802816
    rw [e2]; unfold off; omega
  · show g % 224 = (((pieceRect g j.val hg j.isLt).emb x) 0).val % 50176 / 224
    rw [e2]; unfold off; omega
  · show (((rowRect j).emb x) 0).val % 224 = (((pieceRect g j.val hg j.isLt).emb x) 0).val % 224
    rw [e1, e2]; unfold off; omega
  · show 33 + 4 * ((((rowRect j).emb x) 0).val / 224) = 33 + 4 * ((((pieceRect g j.val hg j.isLt).emb x) 0).val % 802816 / 50176)
    rw [e1, e2]; unfold off; omega

/-- A whole-row write through the view of a piece leaves the payload's word `x` at the piece's word `x`. -/
theorem oRowM_landed (o : Fin 1 → ℕ) (inb : ∀ a, o a + S224.size a ≤ S2408448.size a) (g j : ℕ) (hg : g < 672) (hj : j < 16)
    (h : o = ![off g j]) (d : Dev nD) (L : grid0.Coords) (fo : Buf (Elt F) ((oRowM o inb).view.loc (thr d L)))
    (w : S224.Idx → Elt F .f32) (x : S224.Idx) :
    (oRowM o inb).view.writes (Elt F) fo [⟨Rect.whole S224, w⟩] ((pieceRect g j hg hj).emb x) = w x := by
  subst h
  have e := View.read_writes_cons_emb (oRowM ![off g j] inb).view fo (Rect.whole S224) w [] x
  rw [Rect.emb_whole_apply, View.read_apply] at e
  exact (cast_eq _ _).symm.trans e

/-- After the write-out of row `j` of a staging buffer that holds the transposed slab `g`, piece `j` of slab `g` holds the
    result's words: the two contents agree on the piece's words. -/
theorem oRowM_out (m : (ℓ : Loc nD τ sig) → Buf (Elt F) ℓ) (d : Dev nD) (L : grid0.Coords)
    (o : Fin 1 → ℕ) (inb : ∀ a, o a + S224.size a ≤ S2408448.size a) (g : ℕ) (hg : g < 672) (j : Fin 16)
    (h : o = ![off g j.val]) (fo : Buf (Elt F) ((oRowM o inb).view.loc (thr d L)))
    (w : S224.Idx → Elt F .f32) (hw : ∀ x, w x = tr (F := F) (slabC (XT m d) g) ((rowRect j).emb x)) :
    ((oRowM o inb).view.loc (thr d L) ↦[(oRowM o inb).view.set]{fullShare}
        (oRowM o inb).view.writes (Elt F) fo [⟨Rect.whole S224, w⟩] : sProp 𝕄)
      ⊢ (oLoc d ↦[pieceSet g j.val hg j.isLt]{fullShare} OUT m d) := by
  rw [oRowM_set o inb g j.val hg j.isLt h]
  refine Entails.of_eq (pointsTo_congr fun i hi => ?_)
  obtain ⟨x, rfl⟩ := (pieceRect g j.val hg j.isLt).exists_idx_of_mem hi
  exact (oRowM_landed o inb g j.val hg j.isLt h d L fo w x).trans ((hw x).trans (tr_slabC_row (XT m d) g hg j x))

theorem piece_out3 (m : (ℓ : Loc nD τ sig) → Buf (Elt F) ℓ) (d : Dev nD) (L : grid0.Coords) (k : Fin k0_t1_loop.trips) (j : Fin 16)
    (fo : Buf (Elt F) ((dstM3 L k j).view.loc (thr d L))) :
    ((dstM3 L k j).view.loc (thr d L) ↦[(dstM3 L k j).view.set]{fullShare}
        landedW d L (dstM3 L k j) (rowM0 j) fo (tr (slabC (XT m d) (slab L (2 * k.val)))) : sProp 𝕄)
      ⊢ (oLoc d ↦[pieceSet (slab L (2 * k.val)) j.val (slab_lt L (by have := two_k_lt k; omega)) j.isLt]{fullShare} OUT m d) :=
  oRowM_out m d L _ (k0_off3_inb L k j) _ _ j (by rw [k0_off3_eq, slab_eq]) fo _ (fun x => rowM0_read d L j _ x)
theorem piece_out4 (m : (ℓ : Loc nD τ sig) → Buf (Elt F) ℓ) (d : Dev nD) (L : grid0.Coords) (k : Fin k0_t1_loop.trips) (j : Fin 16)
    (fo : Buf (Elt F) ((dstM4 L k j).view.loc (thr d L))) :
    ((dstM4 L k j).view.loc (thr d L) ↦[(dstM4 L k j).view.set]{fullShare}
        landedW d L (dstM4 L k j) (rowM1 j) fo (tr (slabC (XT m d) (slab L (2 * k.val + 1)))) : sProp 𝕄)
      ⊢ (oLoc d ↦[pieceSet (slab L (2 * k.val + 1)) j.val (slab_lt L (two_k_lt k)) j.isLt]{fullShare} OUT m d) :=
  oRowM_out m d L _ (k0_off4_inb L k j) _ _ j (by rw [k0_off4_eq, slab_eq]; rfl) fo _ (fun x => rowM1_read d L j _ x)
theorem piece_out5 (m : (ℓ : Loc nD τ sig) → Buf (Elt F) ℓ) (d : Dev nD) (L : grid0.Coords) (j : Fin 16)
    (fo : Buf (Elt F) ((dstM5 L j).view.loc (thr d L))) :
    ((dstM5 L j).view.loc (thr d L) ↦[(dstM5 L j).view.set]{fullShare}
        landedW d L (dstM5 L j) (rowM0 j) fo (tr (slabC (XT m d) (slab L 20))) : sProp 𝕄)
      ⊢ (oLoc d ↦[pieceSet (slab L 20) j.val (slab_lt L (by omega)) j.isLt]{fullShare} OUT m d) :=
  oRowM_out m d L _ (k0_off5_inb L j) _ _ j (by rw [k0_off5_eq, slab_eq]) fo _ (fun x => rowM0_read d L j _ x)

end Cert.Proof.KB

end
-- ==== Proof.KBPieces.lean ====
/-
  The bookkeeping of the result's row pieces across the main loop.

  The worker's 21 slabs each own sixteen row pieces of the result. Trip k of the main loop handles slabs 2k and 2k + 1 and
  drains the write-outs of slabs 2k - 2 and 2k - 1. Entering trip k the worker therefore holds, of slab t: its pieces at
  their final contents when t < 2k - 2, nothing when t is 2k - 2 or 2k - 1 (their write-outs are in flight), and its pieces
  as the launch left them when t ≥ 2k. Passing from trip k to trip k + 1 changes four slabs only — 2k and 2k + 1 are taken,
  2k - 2 and 2k - 1 come back finished — and every other slab's entry is the same on both sides. The last trip (k = 10)
  leaves slab 20 to take and slabs 18, 19, 20 to put back.
-/
import proofs.«216812_g82557861364368_cont_9to1c4b_466_28_alg».proof.Proof.KBPay

noncomputable section

namespace Cert.Proof.KB

open Cert.Kernel Cert.Kernel.GenP

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## A product over the 21 slabs with two, three or four factors taken out -/

section Splits

theorem split2 (Φ : Fin 21 → sProp 𝕄) (a b : Fin 21) (hba : b ≠ a) :
    bigSep Finset.univ Φ = iprop(Φ a ∗ Φ b ∗ bigSep ((Finset.univ.erase a).erase b) Φ) := by
  rw [SparseCore.bigSep_erase' (Finset.mem_univ a),
    SparseCore.bigSep_erase' (Finset.mem_erase.mpr ⟨hba, Finset.mem_univ b⟩)]

theorem split3 (Φ : Fin 21 → sProp 𝕄) (a b c : Fin 21) (hba : b ≠ a) (hca : c ≠ a) (hcb : c ≠ b) :
    bigSep Finset.univ Φ = iprop(Φ a ∗ Φ b ∗ Φ c ∗ bigSep (((Finset.univ.erase a).erase b).erase c) Φ) := by
  rw [SparseCore.bigSep_erase' (Finset.mem_univ a),
    SparseCore.bigSep_erase' (Finset.mem_erase.mpr ⟨hba, Finset.mem_univ b⟩),
    SparseCore.bigSep_erase' (Finset.mem_erase.mpr ⟨hcb, Finset.mem_erase.mpr ⟨hca, Finset.mem_univ c⟩⟩)]

theorem split4 (Φ : Fin 21 → sProp 𝕄) (a b c e : Fin 21) (hba : b ≠ a) (hca : c ≠ a) (hcb : c ≠ b) (hea : e ≠ a) (heb : e ≠ b) (hec : e ≠ c) :
    bigSep Finset.univ Φ
      = iprop(Φ a ∗ Φ b ∗ Φ c ∗ Φ e ∗ bigSep ((((Finset.univ.erase a).erase b).erase c).erase e) Φ) := by
  rw [SparseCore.bigSep_erase' (Finset.mem_univ a),
    SparseCore.bigSep_erase' (Finset.mem_erase.mpr ⟨hba, Finset.mem_univ b⟩),
    SparseCore.bigSep_erase' (Finset.mem_erase.mpr ⟨hcb, Finset.mem_erase.mpr ⟨hca, Finset.mem_univ c⟩⟩),
    SparseCore.bigSep_erase' (Finset.mem_erase.mpr ⟨hec, Finset.mem_erase.mpr ⟨heb, Finset.mem_erase.mpr ⟨hea, Finset.mem_univ e⟩⟩⟩)]

end Splits

section
variable [FloatOps F] (m : (ℓ : Loc nD τ sig) → Buf (Elt F) ℓ) (d : Dev nD) (L : grid0.Coords)

/-- the sixteen row pieces of the worker's slab t, all at contents f -/
def slabPieces (t : Fin 21) (f : Buf (Elt F) (oLoc d)) : sProp 𝕄 :=
  bigSep Finset.univ fun j : Fin 16 => (oLoc d ↦[pieceSet (slab L t.val) j.val (slab_lt L t.isLt) j.isLt]{fullShare} f)

theorem pieces_eq (f : Buf (Elt F) (oLoc d)) : pieces d L f = bigSep Finset.univ fun t : Fin 21 => slabPieces d L t f := rfl

/-- what the worker holds of slab t's pieces when it enters trip k of the main loop (which handles slabs 2k and 2k+1, and
    drains the write-outs of slabs 2k-2 and 2k-1): finished pieces, nothing (the write-outs are in flight), or untouched pieces -/
def slabRes (k : ℕ) (t : Fin 21) : sProp 𝕄 :=
  if t.val + 2 < 2 * k then slabPieces d L t (OUT m d) else if t.val < 2 * k then iprop(emp) else slabPieces d L t (m (oLoc d))

/-- A slab finished and drained before trip k. -/
theorem slabRes_done {k : ℕ} {t : Fin 21} (h : t.val + 2 < 2 * k) : slabRes m d L k t = slabPieces d L t (OUT m d) := if_pos h
/-- A slab whose write-outs are in flight at trip k. -/
theorem slabRes_flight {k : ℕ} {t : Fin 21} (h1 : ¬ t.val + 2 < 2 * k) (h2 : t.val < 2 * k) : slabRes m d L k t = iprop(emp) := by
  unfold slabRes; rw [if_neg h1, if_pos h2]
/-- A slab not yet handled at trip k. -/
theorem slabRes_todo {k : ℕ} {t : Fin 21} (h : ¬ t.val < 2 * k) : slabRes m d L k t = slabPieces d L t (m (oLoc d)) := by
  unfold slabRes; rw [if_neg (by omega), if_neg h]

theorem slabRes_zero : (bigSep Finset.univ fun t : Fin 21 => slabRes m d L 0 t) = pieces d L (m (oLoc d)) := by
  rw [pieces_eq]
  exact bigSep_congr fun t _ => slabRes_todo m d L (by omega)

/-- the pieces of slabs 2k-2, 2k-1 as the drains of trip k hand them back (none at the first trip) -/
def drained (k : ℕ) (hk : k ≤ 10) : sProp 𝕄 :=
  if h : 0 < k then iprop(slabPieces d L ⟨2 * k - 2, by omega⟩ (OUT m d) ∗ slabPieces d L ⟨2 * k - 1, by omega⟩ (OUT m d)) else iprop(emp)

/-- The first trip: slabs 0 and 1 are taken, nothing comes back. -/
theorem take_zero (a b : Fin 21) (ha : a.val = 0) (hb : b.val = 1) :
    (bigSep Finset.univ fun t : Fin 21 => slabRes m d L 0 t)
      ⊢ iprop(slabPieces d L a (m (oLoc d)) ∗ slabPieces d L b (m (oLoc d))
          ∗ (emp -∗ bigSep Finset.univ fun t : Fin 21 => slabRes m d L (0 + 1) t)) := by
  have hba : b ≠ a := fun h => by have := congrArg Fin.val h; omega
  have hrest : bigSep ((Finset.univ.erase a).erase b) (fun t : Fin 21 => slabRes m d L 0 t)
      = bigSep ((Finset.univ.erase a).erase b) (fun t : Fin 21 => slabRes m d L (0 + 1) t) := bigSep_congr fun t ht => by
    have htb : t.val ≠ b.val := fun h => Finset.ne_of_mem_erase ht (Fin.ext h)
    have hta : t.val ≠ a.val := fun h => Finset.ne_of_mem_erase (Finset.mem_of_mem_erase ht) (Fin.ext h)
    show slabRes m d L 0 t = slabRes m d L (0 + 1) t
    rw [slabRes_todo m d L (k := 0) (by omega), slabRes_todo m d L (k := 0 + 1) (by omega)]
  rw [split2 (fun t : Fin 21 => slabRes m d L 0 t) a b hba, split2 (fun t : Fin 21 => slabRes m d L (0 + 1) t) a b hba, hrest]
  beta_reduce
  rw [slabRes_todo m d L (k := 0) (t := a) (by omega), slabRes_todo m d L (k := 0) (t := b) (by omega),
    slabRes_flight m d L (k := 0 + 1) (t := a) (by omega) (by omega), slabRes_flight m d L (k := 0 + 1) (t := b) (by omega) (by omega)]
  iintro ⟨Ha, Hb, Hrest⟩
  isplitl [Ha]; · iexact Ha
  isplitl [Hb]; · iexact Hb
  iintro -
  isplitr; · iempintro
  isplitr; · iempintro
  iexact Hrest

/-- A later trip k: slabs 2k and 2k + 1 are taken, slabs 2k - 2 and 2k - 1 come back finished. -/
theorem take_pos (k : ℕ) (a b c e : Fin 21) (ha : a.val = 2 * k) (hb : b.val = 2 * k + 1) (hc : c.val + 2 = 2 * k) (he : e.val + 1 = 2 * k) :
    (bigSep Finset.univ fun t : Fin 21 => slabRes m d L k t)
      ⊢ iprop(slabPieces d L a (m (oLoc d)) ∗ slabPieces d L b (m (oLoc d))
          ∗ ((slabPieces d L c (OUT m d) ∗ slabPieces d L e (OUT m d)) -∗ bigSep Finset.univ fun t : Fin 21 => slabRes m d L (k + 1) t)) := by
  have hba : b ≠ a := fun h => by have := congrArg Fin.val h; omega
  have hca : c ≠ a := fun h => by have := congrArg Fin.val h; omega
  have hcb : c ≠ b := fun h => by have := congrArg Fin.val h; omega
  have hea : e ≠ a := fun h => by have := congrArg Fin.val h; omega
  have heb : e ≠ b := fun h => by have := congrArg Fin.val h; omega
  have hec : e ≠ c := fun h => by have := congrArg Fin.val h; omega
  have hrest : bigSep ((((Finset.univ.erase a).erase b).erase c).erase e) (fun t : Fin 21 => slabRes m d L k t)
      = bigSep ((((Finset.univ.erase a).erase b).erase c).erase e) (fun t : Fin 21 => slabRes m d L (k + 1) t) := bigSep_congr fun t ht => by
    have ht3 := Finset.mem_of_mem_erase ht
    have ht2 := Finset.mem_of_mem_erase ht3
    have hte : t.val ≠ e.val := fun h => Finset.ne_of_mem_erase ht (Fin.ext h)
    have htc : t.val ≠ c.val := fun h => Finset.ne_of_mem_erase ht3 (Fin.ext h)
    have htb : t.val ≠ b.val := fun h => Finset.ne_of_mem_erase ht2 (Fin.ext h)
    have hta : t.val ≠ a.val := fun h => Finset.ne_of_mem_erase (Finset.mem_of_mem_erase ht2) (Fin.ext h)
    show slabRes m d L k t = slabRes m d L (k + 1) t
    by_cases h1 : t.val + 2 < 2 * k
    · rw [slabRes_done m d L h1, slabRes_done m d L (k := k + 1) (by omega)]
    · rw [slabRes_todo m d L (k := k) (by omega), slabRes_todo m d L (k := k + 1) (by omega)]
  rw [split4 (fun t : Fin 21 => slabRes m d L k t) a b c e hba hca hcb hea heb hec,
    split4 (fun t : Fin 21 => slabRes m d L (k + 1) t) a b c e hba hca hcb hea heb hec, hrest]
  beta_reduce
  rw [slabRes_todo m d L (k := k) (t := a) (by omega), slabRes_todo m d L (k := k) (t := b) (by omega),
    slabRes_flight m d L (k := k) (t := c) (by omega) (by omega), slabRes_flight m d L (k := k) (t := e) (by omega) (by omega),
    slabRes_flight m d L (k := k + 1) (t := a) (by omega) (by omega), slabRes_flight m d L (k := k + 1) (t := b) (by omega) (by omega),
    slabRes_done m d L (k := k + 1) (t := c) (by omega), slabRes_done m d L (k := k + 1) (t := e) (by omega)]
  iintro ⟨Ha, Hb, -, -, Hrest⟩
  isplitl [Ha]; · iexact Ha
  isplitl [Hb]; · iexact Hb
  iintro ⟨Hc, He⟩
  isplitr; · iempintro
  isplitr; · iempintro
  isplitl [Hc]; · iexact Hc
  isplitl [He]; · iexact He
  iexact Hrest

theorem slabRes_take (k : ℕ) (hk : k ≤ 9) :
    (bigSep Finset.univ fun t : Fin 21 => slabRes m d L k t)
      ⊢ iprop(slabPieces d L ⟨2 * k, by omega⟩ (m (oLoc d)) ∗ slabPieces d L ⟨2 * k + 1, by omega⟩ (m (oLoc d))
          ∗ (drained m d L k (by omega) -∗ bigSep Finset.univ fun t : Fin 21 => slabRes m d L (k + 1) t)) := by
  unfold drained
  by_cases h0 : 0 < k
  · rw [dif_pos h0]
    exact take_pos m d L k ⟨2 * k, by omega⟩ ⟨2 * k + 1, by omega⟩ ⟨2 * k - 2, by omega⟩ ⟨2 * k - 1, by omega⟩ rfl rfl
      (by show 2 * k - 2 + 2 = 2 * k; omega) (by show 2 * k - 1 + 1 = 2 * k; omega)
  · rw [dif_neg h0]
    obtain rfl : k = 0 := by omega
    exact take_zero m d L ⟨2 * 0, by omega⟩ ⟨2 * 0 + 1, by omega⟩ rfl rfl

theorem slabRes_last :
    (bigSep Finset.univ fun t : Fin 21 => slabRes m d L 10 t)
      ⊢ iprop(slabPieces d L ⟨20, by omega⟩ (m (oLoc d))
          ∗ ((slabPieces d L ⟨18, by omega⟩ (OUT m d) ∗ slabPieces d L ⟨19, by omega⟩ (OUT m d) ∗ slabPieces d L ⟨20, by omega⟩ (OUT m d)) -∗ pieces d L (OUT m d))) := by
  have hrest : bigSep (((Finset.univ.erase (⟨20, by omega⟩ : Fin 21)).erase ⟨18, by omega⟩).erase ⟨19, by omega⟩) (fun t : Fin 21 => slabRes m d L 10 t)
      = bigSep (((Finset.univ.erase (⟨20, by omega⟩ : Fin 21)).erase ⟨18, by omega⟩).erase ⟨19, by omega⟩) (fun t : Fin 21 => slabPieces d L t (OUT m d)) :=
    bigSep_congr fun t ht => by
      have ht2 := Finset.mem_of_mem_erase ht
      have h19 : t.val ≠ 19 := fun h => Finset.ne_of_mem_erase ht (Fin.ext h)
      have h18 : t.val ≠ 18 := fun h => Finset.ne_of_mem_erase ht2 (Fin.ext h)
      have h20 : t.val ≠ 20 := fun h => Finset.ne_of_mem_erase (Finset.mem_of_mem_erase ht2) (Fin.ext h)
      have := t.isLt
      show slabRes m d L 10 t = slabPieces d L t (OUT m d)
      exact slabRes_done m d L (by omega)
  rw [pieces_eq,
    split3 (fun t : Fin 21 => slabRes m d L 10 t) ⟨20, by omega⟩ ⟨18, by omega⟩ ⟨19, by omega⟩ (by decide) (by decide) (by decide),
    split3 (fun t : Fin 21 => slabPieces d L t (OUT m d)) ⟨20, by omega⟩ ⟨18, by omega⟩ ⟨19, by omega⟩ (by decide) (by decide) (by decide), hrest]
  beta_reduce
  rw [slabRes_todo m d L (k := 10) (t := ⟨20, by omega⟩) (by show ¬ 20 < 2 * 10; omega),
    slabRes_flight m d L (k := 10) (t := ⟨18, by omega⟩) (by show ¬ 18 + 2 < 2 * 10; omega) (by show 18 < 2 * 10; omega),
    slabRes_flight m d L (k := 10) (t := ⟨19, by omega⟩) (by show ¬ 19 + 2 < 2 * 10; omega) (by show 19 < 2 * 10; omega)]
  iintro ⟨Ha, -, -, Hrest⟩
  isplitl [Ha]; · iexact Ha
  iintro ⟨H18, H19, H20⟩
  isplitl [H20]; · iexact H20
  isplitl [H18]; · iexact H18
  isplitl [H19]; · iexact H19
  iexact Hrest

end

end Cert.Proof.KB

end
-- ==== Proof.KBGlue.lean ====
/-
  The row pieces and the staging rows, sixteen at a time. A slab's sixteen row pieces of the result are the words its
  sixteen copies out name, so the product over the pieces is the sixteen-fold product of what the copies own, spelt out;
  after the copies, each piece holding its staging row, they are the slab's pieces at the contents the result is to have;
  and the sixteen rows of a staging buffer, owned at one contents, are the buffer whole.
-/
import proofs.«216812_g82557861364368_cont_9to1c4b_466_28_alg».proof.Proof.KBViews
import proofs.«216812_g82557861364368_cont_9to1c4b_466_28_alg».proof.Proof.KBPieces

noncomputable section

namespace Cert.Proof.KB

open Cert.Kernel Cert.Kernel.GenP
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (d : Dev nD) (L : grid0.Coords)

/-- The words a memref names, owned outright at contents `f`. -/
abbrev ownP {sp : Space} {s : Shape} (M : Memref sig .scVector sp s .f32) (f : Buf (Elt F) (M.view.loc (thr d L))) : sProp 𝕄 :=
  M.view.loc (thr d L) ↦[M.view.set]{fullShare} f

/-! ## A slab's sixteen row pieces, handed to its sixteen copies out -/

theorem slab_in3 (k : Fin k0_t1_loop.trips) (f : Buf (Elt F) (oLoc d)) :
    slabPieces d L ⟨2 * k.val, by have := two_k_lt k; omega⟩ f
      = iprop(ownP d L (dstM3 L k 0) f ∗ ownP d L (dstM3 L k 1) f ∗ ownP d L (dstM3 L k 2) f ∗ ownP d L (dstM3 L k 3) f ∗ ownP d L (dstM3 L k 4) f ∗ ownP d L (dstM3 L k 5) f ∗ ownP d L (dstM3 L k 6) f ∗ ownP d L (dstM3 L k 7) f ∗ ownP d L (dstM3 L k 8) f ∗ ownP d L (dstM3 L k 9) f ∗ ownP d L (dstM3 L k 10) f ∗ ownP d L (dstM3 L k 11) f ∗ ownP d L (dstM3 L k 12) f ∗ ownP d L (dstM3 L k 13) f ∗ ownP d L (dstM3 L k 14) f ∗ ownP d L (dstM3 L k 15) f) :=
  (bigSep_congr fun j _ => piece_in3 (F := F) d L k j f).trans (bigSep_fin16 _)

theorem slab_in4 (k : Fin k0_t1_loop.trips) (f : Buf (Elt F) (oLoc d)) :
    slabPieces d L ⟨2 * k.val + 1, two_k_lt k⟩ f
      = iprop(ownP d L (dstM4 L k 0) f ∗ ownP d L (dstM4 L k 1) f ∗ ownP d L (dstM4 L k 2) f ∗ ownP d L (dstM4 L k 3) f ∗ ownP d L (dstM4 L k 4) f ∗ ownP d L (dstM4 L k 5) f ∗ ownP d L (dstM4 L k 6) f ∗ ownP d L (dstM4 L k 7) f ∗ ownP d L (dstM4 L k 8) f ∗ ownP d L (dstM4 L k 9) f ∗ ownP d L (dstM4 L k 10) f ∗ ownP d L (dstM4 L k 11) f ∗ ownP d L (dstM4 L k 12) f ∗ ownP d L (dstM4 L k 13) f ∗ ownP d L (dstM4 L k 14) f ∗ ownP d L (dstM4 L k 15) f) :=
  (bigSep_congr fun j _ => piece_in4 (F := F) d L k j f).trans (bigSep_fin16 _)

theorem slab_in5 (f : Buf (Elt F) (oLoc d)) :
    slabPieces d L ⟨20, by omega⟩ f
      = iprop(ownP d L (dstM5 L 0) f ∗ ownP d L (dstM5 L 1) f ∗ ownP d L (dstM5 L 2) f ∗ ownP d L (dstM5 L 3) f ∗ ownP d L (dstM5 L 4) f ∗ ownP d L (dstM5 L 5) f ∗ ownP d L (dstM5 L 6) f ∗ ownP d L (dstM5 L 7) f ∗ ownP d L (dstM5 L 8) f ∗ ownP d L (dstM5 L 9) f ∗ ownP d L (dstM5 L 10) f ∗ ownP d L (dstM5 L 11) f ∗ ownP d L (dstM5 L 12) f ∗ ownP d L (dstM5 L 13) f ∗ ownP d L (dstM5 L 14) f ∗ ownP d L (dstM5 L 15) f) :=
  (bigSep_congr fun j _ => piece_in5 (F := F) d L j f).trans (bigSep_fin16 _)

/-! ## The sixteen pieces after their copies out: the slab's pieces at the result's contents -/

/-- One piece after its copy out, the contents it overwrote read at the result's location. -/
theorem pout3 (k : Fin k0_t1_loop.trips) (j : Fin 16) (fo : Buf (Elt F) (oLoc d)) :
    ownP d L (dstM3 L k j) (landedW d L (dstM3 L k j) (rowM0 j) fo (tr (slabC (XT m d) (slab L (2 * k.val)))))
      ⊢ (oLoc d ↦[pieceSet (slab L (2 * k.val)) j.val (slab_lt L (by have := two_k_lt k; omega)) j.isLt]{fullShare} OUT m d : sProp 𝕄) :=
  piece_out3 m d L k j fo

theorem slab_out3 (k : Fin k0_t1_loop.trips) (fo : Buf (Elt F) (oLoc d)) :
    iprop(ownP d L (dstM3 L k 0) (landedW d L (dstM3 L k 0) (rowM0 0) fo (tr (slabC (XT m d) (slab L (2 * k.val))))) ∗ ownP d L (dstM3 L k 1) (landedW d L (dstM3 L k 1) (rowM0 1) fo (tr (slabC (XT m d) (slab L (2 * k.val))))) ∗ ownP d L (dstM3 L k 2) (landedW d L (dstM3 L k 2) (rowM0 2) fo (tr (slabC (XT m d) (slab L (2 * k.val))))) ∗ ownP d L (dstM3 L k 3) (landedW d L (dstM3 L k 3) (rowM0 3) fo (tr (slabC (XT m d) (slab L (2 * k.val))))) ∗ ownP d L (dstM3 L k 4) (landedW d L (dstM3 L k 4) (rowM0 4) fo (tr (slabC (XT m d) (slab L (2 * k.val))))) ∗ ownP d L (dstM3 L k 5) (landedW d L (dstM3 L k 5) (rowM0 5) fo (tr (slabC (XT m d) (slab L (2 * k.val))))) ∗ ownP d L (dstM3 L k 6) (landedW d L (dstM3 L k 6) (rowM0 6) fo (tr (slabC (XT m d) (slab L (2 * k.val))))) ∗ ownP d L (dstM3 L k 7) (landedW d L (dstM3 L k 7) (rowM0 7) fo (tr (slabC (XT m d) (slab L (2 * k.val))))) ∗ ownP d L (dstM3 L k 8) (landedW d L (dstM3 L k 8) (rowM0 8) fo (tr (slabC (XT m d) (slab L (2 * k.val))))) ∗ ownP d L (dstM3 L k 9) (landedW d L (dstM3 L k 9) (rowM0 9) fo (tr (slabC (XT m d) (slab L (2 * k.val))))) ∗ ownP d L (dstM3 L k 10) (landedW d L (dstM3 L k 10) (rowM0 10) fo (tr (slabC (XT m d) (slab L (2 * k.val))))) ∗ ownP d L (dstM3 L k 11) (landedW d L (dstM3 L k 11) (rowM0 11) fo (tr (slabC (XT m d) (slab L (2 * k.val))))) ∗ ownP d L (dstM3 L k 12) (landedW d L (dstM3 L k 12) (rowM0 12) fo (tr (slabC (XT m d) (slab L (2 * k.val))))) ∗ ownP d L (dstM3 L k 13) (landedW d L (dstM3 L k 13) (rowM0 13) fo (tr (slabC (XT m d) (slab L (2 * k.val))))) ∗ ownP d L (dstM3 L k 14) (landedW d L (dstM3 L k 14) (rowM0 14) fo (tr (slabC (XT m d) (slab L (2 * k.val))))) ∗ ownP d L (dstM3 L k 15) (landedW d L (dstM3 L k 15) (rowM0 15) fo (tr (slabC (XT m d) (slab L (2 * k.val))))))
      ⊢ slabPieces d L ⟨2 * k.val, by have := two_k_lt k; omega⟩ (OUT m d) :=
  (Entails.of_eq (bigSep_fin16 (F := F) fun j : Fin 16 =>
      ownP d L (dstM3 L k j) (landedW d L (dstM3 L k j) (rowM0 j) fo (tr (slabC (XT m d) (slab L (2 * k.val)))))).symm).trans
    (bigSep_mono fun j _ => pout3 m d L k j fo)

/-- One piece after its copy out, the contents it overwrote read at the result's location. -/
theorem pout4 (k : Fin k0_t1_loop.trips) (j : Fin 16) (fo : Buf (Elt F) (oLoc d)) :
    ownP d L (dstM4 L k j) (landedW d L (dstM4 L k j) (rowM1 j) fo (tr (slabC (XT m d) (slab L (2 * k.val + 1)))))
      ⊢ (oLoc d ↦[pieceSet (slab L (2 * k.val + 1)) j.val (slab_lt L (two_k_lt k)) j.isLt]{fullShare} OUT m d : sProp 𝕄) :=
  piece_out4 m d L k j fo

theorem slab_out4 (k : Fin k0_t1_loop.trips) (fo : Buf (Elt F) (oLoc d)) :
    iprop(ownP d L (dstM4 L k 0) (landedW d L (dstM4 L k 0) (rowM1 0) fo (tr (slabC (XT m d) (slab L (2 * k.val + 1))))) ∗ ownP d L (dstM4 L k 1) (landedW d L (dstM4 L k 1) (rowM1 1) fo (tr (slabC (XT m d) (slab L (2 * k.val + 1))))) ∗ ownP d L (dstM4 L k 2) (landedW d L (dstM4 L k 2) (rowM1 2) fo (tr (slabC (XT m d) (slab L (2 * k.val + 1))))) ∗ ownP d L (dstM4 L k 3) (landedW d L (dstM4 L k 3) (rowM1 3) fo (tr (slabC (XT m d) (slab L (2 * k.val + 1))))) ∗ ownP d L (dstM4 L k 4) (landedW d L (dstM4 L k 4) (rowM1 4) fo (tr (slabC (XT m d) (slab L (2 * k.val + 1))))) ∗ ownP d L (dstM4 L k 5) (landedW d L (dstM4 L k 5) (rowM1 5) fo (tr (slabC (XT m d) (slab L (2 * k.val + 1))))) ∗ ownP d L (dstM4 L k 6) (landedW d L (dstM4 L k 6) (rowM1 6) fo (tr (slabC (XT m d) (slab L (2 * k.val + 1))))) ∗ ownP d L (dstM4 L k 7) (landedW d L (dstM4 L k 7) (rowM1 7) fo (tr (slabC (XT m d) (slab L (2 * k.val + 1))))) ∗ ownP d L (dstM4 L k 8) (landedW d L (dstM4 L k 8) (rowM1 8) fo (tr (slabC (XT m d) (slab L (2 * k.val + 1))))) ∗ ownP d L (dstM4 L k 9) (landedW d L (dstM4 L k 9) (rowM1 9) fo (tr (slabC (XT m d) (slab L (2 * k.val + 1))))) ∗ ownP d L (dstM4 L k 10) (landedW d L (dstM4 L k 10) (rowM1 10) fo (tr (slabC (XT m d) (slab L (2 * k.val + 1))))) ∗ ownP d L (dstM4 L k 11) (landedW d L (dstM4 L k 11) (rowM1 11) fo (tr (slabC (XT m d) (slab L (2 * k.val + 1))))) ∗ ownP d L (dstM4 L k 12) (landedW d L (dstM4 L k 12) (rowM1 12) fo (tr (slabC (XT m d) (slab L (2 * k.val + 1))))) ∗ ownP d L (dstM4 L k 13) (landedW d L (dstM4 L k 13) (rowM1 13) fo (tr (slabC (XT m d) (slab L (2 * k.val + 1))))) ∗ ownP d L (dstM4 L k 14) (landedW d L (dstM4 L k 14) (rowM1 14) fo (tr (slabC (XT m d) (slab L (2 * k.val + 1))))) ∗ ownP d L (dstM4 L k 15) (landedW d L (dstM4 L k 15) (rowM1 15) fo (tr (slabC (XT m d) (slab L (2 * k.val + 1))))))
      ⊢ slabPieces d L ⟨2 * k.val + 1, two_k_lt k⟩ (OUT m d) :=
  (Entails.of_eq (bigSep_fin16 (F := F) fun j : Fin 16 =>
      ownP d L (dstM4 L k j) (landedW d L (dstM4 L k j) (rowM1 j) fo (tr (slabC (XT m d) (slab L (2 * k.val + 1)))))).symm).trans
    (bigSep_mono fun j _ => pout4 m d L k j fo)

/-- One piece after its copy out, the contents it overwrote read at the result's location. -/
theorem pout5 (j : Fin 16) (fo : Buf (Elt F) (oLoc d)) :
    ownP d L (dstM5 L j) (landedW d L (dstM5 L j) (rowM0 j) fo (tr (slabC (XT m d) (slab L 20))))
      ⊢ (oLoc d ↦[pieceSet (slab L 20) j.val (slab_lt L (by omega)) j.isLt]{fullShare} OUT m d : sProp 𝕄) :=
  piece_out5 m d L j fo

theorem slab_out5 (fo : Buf (Elt F) (oLoc d)) :
    iprop(ownP d L (dstM5 L 0) (landedW d L (dstM5 L 0) (rowM0 0) fo (tr (slabC (XT m d) (slab L 20)))) ∗ ownP d L (dstM5 L 1) (landedW d L (dstM5 L 1) (rowM0 1) fo (tr (slabC (XT m d) (slab L 20)))) ∗ ownP d L (dstM5 L 2) (landedW d L (dstM5 L 2) (rowM0 2) fo (tr (slabC (XT m d) (slab L 20)))) ∗ ownP d L (dstM5 L 3) (landedW d L (dstM5 L 3) (rowM0 3) fo (tr (slabC (XT m d) (slab L 20)))) ∗ ownP d L (dstM5 L 4) (landedW d L (dstM5 L 4) (rowM0 4) fo (tr (slabC (XT m d) (slab L 20)))) ∗ ownP d L (dstM5 L 5) (landedW d L (dstM5 L 5) (rowM0 5) fo (tr (slabC (XT m d) (slab L 20)))) ∗ ownP d L (dstM5 L 6) (landedW d L (dstM5 L 6) (rowM0 6) fo (tr (slabC (XT m d) (slab L 20)))) ∗ ownP d L (dstM5 L 7) (landedW d L (dstM5 L 7) (rowM0 7) fo (tr (slabC (XT m d) (slab L 20)))) ∗ ownP d L (dstM5 L 8) (landedW d L (dstM5 L 8) (rowM0 8) fo (tr (slabC (XT m d) (slab L 20)))) ∗ ownP d L (dstM5 L 9) (landedW d L (dstM5 L 9) (rowM0 9) fo (tr (slabC (XT m d) (slab L 20)))) ∗ ownP d L (dstM5 L 10) (landedW d L (dstM5 L 10) (rowM0 10) fo (tr (slabC (XT m d) (slab L 20)))) ∗ ownP d L (dstM5 L 11) (landedW d L (dstM5 L 11) (rowM0 11) fo (tr (slabC (XT m d) (slab L 20)))) ∗ ownP d L (dstM5 L 12) (landedW d L (dstM5 L 12) (rowM0 12) fo (tr (slabC (XT m d) (slab L 20)))) ∗ ownP d L (dstM5 L 13) (landedW d L (dstM5 L 13) (rowM0 13) fo (tr (slabC (XT m d) (slab L 20)))) ∗ ownP d L (dstM5 L 14) (landedW d L (dstM5 L 14) (rowM0 14) fo (tr (slabC (XT m d) (slab L 20)))) ∗ ownP d L (dstM5 L 15) (landedW d L (dstM5 L 15) (rowM0 15) fo (tr (slabC (XT m d) (slab L 20)))))
      ⊢ slabPieces d L ⟨20, by omega⟩ (OUT m d) :=
  (Entails.of_eq (bigSep_fin16 (F := F) fun j : Fin 16 =>
      ownP d L (dstM5 L j) (landedW d L (dstM5 L j) (rowM0 j) fo (tr (slabC (XT m d) (slab L 20))))).symm).trans
    (bigSep_mono fun j _ => pout5 m d L j fo)

/-! ## A staging buffer's sixteen rows, joined -/

theorem rows_join0 (T : Buf (Elt F) ((Memref.whole cc0_scratch2 : Memref sig .scVector .vmem S3584 .f32).view.loc (thr d L))) :
    iprop(ownP d L (rowM0 0) T ∗ ownP d L (rowM0 1) T ∗ ownP d L (rowM0 2) T ∗ ownP d L (rowM0 3) T ∗ ownP d L (rowM0 4) T ∗ ownP d L (rowM0 5) T ∗ ownP d L (rowM0 6) T ∗ ownP d L (rowM0 7) T ∗ ownP d L (rowM0 8) T ∗ ownP d L (rowM0 9) T ∗ ownP d L (rowM0 10) T ∗ ownP d L (rowM0 11) T ∗ ownP d L (rowM0 12) T ∗ ownP d L (rowM0 13) T ∗ ownP d L (rowM0 14) T ∗ ownP d L (rowM0 15) T)
      ⊢ ((Memref.whole cc0_scratch2 : Memref sig .scVector .vmem S3584 .f32).view.loc (thr d L) ↦{fullShare} T) :=
  Entails.of_eq ((bo0_rows d L T).trans (bigSep_fin16 _)).symm

theorem rows_join1 (T : Buf (Elt F) ((Memref.whole cc0_scratch3 : Memref sig .scVector .vmem S3584 .f32).view.loc (thr d L))) :
    iprop(ownP d L (rowM1 0) T ∗ ownP d L (rowM1 1) T ∗ ownP d L (rowM1 2) T ∗ ownP d L (rowM1 3) T ∗ ownP d L (rowM1 4) T ∗ ownP d L (rowM1 5) T ∗ ownP d L (rowM1 6) T ∗ ownP d L (rowM1 7) T ∗ ownP d L (rowM1 8) T ∗ ownP d L (rowM1 9) T ∗ ownP d L (rowM1 10) T ∗ ownP d L (rowM1 11) T ∗ ownP d L (rowM1 12) T ∗ ownP d L (rowM1 13) T ∗ ownP d L (rowM1 14) T ∗ ownP d L (rowM1 15) T)
      ⊢ ((Memref.whole cc0_scratch3 : Memref sig .scVector .vmem S3584 .f32).view.loc (thr d L) ↦{fullShare} T) :=
  Entails.of_eq ((bo1_rows d L T).trans (bigSep_fin16 _)).symm

end Cert.Proof.KB

end
-- ==== Proof.KBInner.lean ====
/-
  One pass of a transposition loop, run on a vector subcore: fourteen times, an indexed load of sixteen entries of the
  slab (sixteen consecutive columns, each at the frame its lane samples in this pass) and an indexed store of them into the
  staging buffer (each at its sample's row). The slab is only read; the staging buffer ends at the fourteen stores applied
  in order to what it held, `passN B n g`. The three loops of the kernel (the two slots' in the main loop, the first slot's
  after it) are the same text over different names.
-/
import proofs.«216812_g82557861364368_cont_9to1c4b_466_28_alg».proof.Proof.KBChk

set_option maxHeartbeats 4000000

noncomputable section

namespace Cert.Proof.KB

open Cert.Kernel Cert.Kernel.GenP
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xtW" => (Memref.whole Cert.Kernel.main_v0_scv : Memref Cert.Kernel.sig Kind.scVector Space.hbm Cert.Kernel.S3x224x224x128 EltTy.f32)
local notation "oW" => (Memref.whole Cert.Kernel.main_v1_scv : Memref Cert.Kernel.sig Kind.scVector Space.hbm Cert.Kernel.S2408448 EltTy.f32)
local notation "bi0" => (Memref.whole Cert.Kernel.cc0_scratch0 : Memref Cert.Kernel.sig Kind.scVector Space.vmem Cert.Kernel.S224x128 EltTy.f32)
local notation "bi1" => (Memref.whole Cert.Kernel.cc0_scratch1 : Memref Cert.Kernel.sig Kind.scVector Space.vmem Cert.Kernel.S224x128 EltTy.f32)
local notation "bo0" => (Memref.whole Cert.Kernel.cc0_scratch2 : Memref Cert.Kernel.sig Kind.scVector Space.vmem Cert.Kernel.S3584 EltTy.f32)
local notation "bo1" => (Memref.whole Cert.Kernel.cc0_scratch3 : Memref Cert.Kernel.sig Kind.scVector Space.vmem Cert.Kernel.S3584 EltTy.f32)

/-! ## The indexed load and store of a scratch buffer held whole

The library's rules speak through the whole-rectangle access of the buffer; through a buffer held whole the access reads
the contents themselves and writes the payload itself, so the rules take these forms. -/

section Rules
variable (d : Dev nD) (L : grid0.Coords)

theorem ld_bi0 {t : Shape} {idxs : Fin S224x128.rank → IVec t 32} {h : ∀ a x, (idxs a x).toNat < S224x128.size a} {hl : (bi0).view.Loads} {α : Type} {Q : α → sProp 𝕄}
    {k : Vec F t .f32 → Prog (TpuEff nD τ sig (Elt F) Λ₀ (thr d L).2) α} {q : PosShare TreeShare} {f : Buf (Elt F) ((bi0).view.loc (thr d L))} :
    (((bi0).view.loc (thr d L) ↦{q} f : sProp 𝕄))
      ⊢ iprop(((((bi0).view.loc (thr d L) ↦{q} f))
          -∗ wp frame (wpE (defs₀ (F := F)) 𝒱₀ (thr d L) none) Set.univ (k (loadIdx f idxs h)) Q)
        -∗ wp frame (wpE (defs₀ (F := F)) 𝒱₀ (thr d L) none) Set.univ (SparseCore.vectorLoadIdx (bi0) idxs h hl >>= k) Q) := by
  have key := SparseCore.wp_vectorLoadIdx (F := F) (defs := defs₀ (F := F)) 𝒱₀ (thr d L) none Set.univ (base := bi0) (idxs := idxs) (h := h) (hl := hl) (k := k)
    (S := Finset.univ) (q := q) (f := f) (Q := Q) (Finset.subset_univ _)
  simp only [Memref.read_access_whole] at key
  exact key

theorem ld_bi1 {t : Shape} {idxs : Fin S224x128.rank → IVec t 32} {h : ∀ a x, (idxs a x).toNat < S224x128.size a} {hl : (bi1).view.Loads} {α : Type} {Q : α → sProp 𝕄}
    {k : Vec F t .f32 → Prog (TpuEff nD τ sig (Elt F) Λ₀ (thr d L).2) α} {q : PosShare TreeShare} {f : Buf (Elt F) ((bi1).view.loc (thr d L))} :
    (((bi1).view.loc (thr d L) ↦{q} f : sProp 𝕄))
      ⊢ iprop(((((bi1).view.loc (thr d L) ↦{q} f))
          -∗ wp frame (wpE (defs₀ (F := F)) 𝒱₀ (thr d L) none) Set.univ (k (loadIdx f idxs h)) Q)
        -∗ wp frame (wpE (defs₀ (F := F)) 𝒱₀ (thr d L) none) Set.univ (SparseCore.vectorLoadIdx (bi1) idxs h hl >>= k) Q) := by
  have key := SparseCore.wp_vectorLoadIdx (F := F) (defs := defs₀ (F := F)) 𝒱₀ (thr d L) none Set.univ (base := bi1) (idxs := idxs) (h := h) (hl := hl) (k := k)
    (S := Finset.univ) (q := q) (f := f) (Q := Q) (Finset.subset_univ _)
  simp only [Memref.read_access_whole] at key
  exact key

theorem st_bo0 {dd : Fin 1 → Nat} {idxs : Fin S3584.rank → IVec ⟨1, dd⟩ 32} {v : Vec F ⟨1, dd⟩ .f32} {mask : IVec ⟨1, dd⟩ 1} {add : Bool}
    {h : ∀ a x, (idxs a x).toNat < S3584.size a} {hs : ((bo0).access (.whole S3584)).Stores Finset.univ} {α : Type} {Q : α → sProp 𝕄}
    {k : PUnit → Prog (TpuEff nD τ sig (Elt F) Λ₀ (thr d L).2) α} {f : Buf (Elt F) ((bo0).view.loc (thr d L))} :
    (((bo0).view.loc (thr d L) ↦{fullShare} f : sProp 𝕄))
      ⊢ iprop(((((bo0).view.loc (thr d L) ↦{fullShare} storeIdx f idxs v mask add h))
          -∗ wp frame (wpE (defs₀ (F := F)) 𝒱₀ (thr d L) none) Set.univ (k ⟨⟩) Q)
        -∗ wp frame (wpE (defs₀ (F := F)) 𝒱₀ (thr d L) none) Set.univ (SparseCore.vectorStoreIdx (bo0) idxs v mask add h hs >>= k) Q) := by
  have key := SparseCore.wp_vectorStoreIdx (F := F) (defs := defs₀ (F := F)) 𝒱₀ (thr d L) none Set.univ (base := bo0) (idxs := idxs) (v := v) (mask := mask) (add := add)
    (h := h) (hs := hs) (k := k) (f := f) (Q := Q)
  simp only [Memref.read_access_whole, Memref.write_access_whole_univ, Memref.set_access_whole] at key
  exact key

theorem st_bo1 {dd : Fin 1 → Nat} {idxs : Fin S3584.rank → IVec ⟨1, dd⟩ 32} {v : Vec F ⟨1, dd⟩ .f32} {mask : IVec ⟨1, dd⟩ 1} {add : Bool}
    {h : ∀ a x, (idxs a x).toNat < S3584.size a} {hs : ((bo1).access (.whole S3584)).Stores Finset.univ} {α : Type} {Q : α → sProp 𝕄}
    {k : PUnit → Prog (TpuEff nD τ sig (Elt F) Λ₀ (thr d L).2) α} {f : Buf (Elt F) ((bo1).view.loc (thr d L))} :
    (((bo1).view.loc (thr d L) ↦{fullShare} f : sProp 𝕄))
      ⊢ iprop(((((bo1).view.loc (thr d L) ↦{fullShare} storeIdx f idxs v mask add h))
          -∗ wp frame (wpE (defs₀ (F := F)) 𝒱₀ (thr d L) none) Set.univ (k ⟨⟩) Q)
        -∗ wp frame (wpE (defs₀ (F := F)) 𝒱₀ (thr d L) none) Set.univ (SparseCore.vectorStoreIdx (bo1) idxs v mask add h hs >>= k) Q) := by
  have key := SparseCore.wp_vectorStoreIdx (F := F) (defs := defs₀ (F := F)) 𝒱₀ (thr d L) none Set.univ (base := bo1) (idxs := idxs) (v := v) (mask := mask) (add := add)
    (h := h) (hs := hs) (k := k) (f := f) (Q := Q)
  simp only [Memref.read_access_whole, Memref.write_access_whole_univ, Memref.set_access_whole] at key
  exact key

end Rules

/-! ## Loop 1 -/

/-- The column groups' index vectors: lane l of group w is column 16 w + l. -/
def rowsP2 : Fin 14 → IVec S16 32 := ![k0_pay4 iotaV, k0_pay5 iotaV, k0_pay6 iotaV, k0_pay7 iotaV, k0_pay8 iotaV, k0_pay9 iotaV, k0_pay10 iotaV, k0_pay11 iotaV, k0_pay12 iotaV, k0_pay13 iotaV, k0_pay14 iotaV, k0_pay15 iotaV, k0_pay16 iotaV, k0_pay33 iotaV 208#32]

theorem ldok2 (kk : Fin k0_t2_loop.trips) : ∀ w : Fin 14, ∀ a x, ((![rowsP2 w, k0_pay2 iotaV 0#32 1#32 kk] : Fin 2 → IVec S16 32) a x).toNat < S224x128.size a
  | ⟨0, _⟩ => chk_1 kk
  | ⟨1, _⟩ => chk_3 kk
  | ⟨2, _⟩ => chk_5 kk
  | ⟨3, _⟩ => chk_7 kk
  | ⟨4, _⟩ => chk_9 kk
  | ⟨5, _⟩ => chk_11 kk
  | ⟨6, _⟩ => chk_13 kk
  | ⟨7, _⟩ => chk_15 kk
  | ⟨8, _⟩ => chk_17 kk
  | ⟨9, _⟩ => chk_19 kk
  | ⟨10, _⟩ => chk_21 kk
  | ⟨11, _⟩ => chk_23 kk
  | ⟨12, _⟩ => chk_25 kk
  | ⟨13, _⟩ => chk_27 kk
theorem stok2 (kk : Fin k0_t2_loop.trips) : ∀ w : Fin 14, ∀ a x, ((![addi (k0_pay3 iotaV 0#32 1#32 kk) (rowsP2 w)] : Fin 1 → IVec S16 32) a x).toNat < S3584.size a
  | ⟨0, _⟩ => chk_2 kk
  | ⟨1, _⟩ => chk_4 kk
  | ⟨2, _⟩ => chk_6 kk
  | ⟨3, _⟩ => chk_8 kk
  | ⟨4, _⟩ => chk_10 kk
  | ⟨5, _⟩ => chk_12 kk
  | ⟨6, _⟩ => chk_14 kk
  | ⟨7, _⟩ => chk_16 kk
  | ⟨8, _⟩ => chk_18 kk
  | ⟨9, _⟩ => chk_20 kk
  | ⟨10, _⟩ => chk_22 kk
  | ⟨11, _⟩ => chk_24 kk
  | ⟨12, _⟩ => chk_26 kk
  | ⟨13, _⟩ => chk_28 kk

/-- One load-and-store pair of pass `kk`, for column group `w`. -/
def st2 (B : Vec F S224x128 .f32) (kk : Fin k0_t2_loop.trips) (w : Fin 14) (g : Vec F S3584 .f32) : Vec F S3584 .f32 :=
  storeIdx g ![addi (k0_pay3 iotaV 0#32 1#32 kk) (rowsP2 w)] (loadIdx B ![rowsP2 w, k0_pay2 iotaV 0#32 1#32 kk] (ldok2 kk w))
    (fun _ => 1#1) false (stok2 kk w)

/-- The staging buffer after pass `kk`, from what it held. -/
def pass2 (B : Vec F S224x128 .f32) (kk : Fin k0_t2_loop.trips) (g : Vec F S3584 .f32) : Vec F S3584 .f32 :=
  st2 B kk 13 (st2 B kk 12 (st2 B kk 11 (st2 B kk 10 (st2 B kk 9 (st2 B kk 8 (st2 B kk 7
    (st2 B kk 6 (st2 B kk 5 (st2 B kk 4 (st2 B kk 3 (st2 B kk 2 (st2 B kk 1 (st2 B kk 0 g)))))))))))))

section
variable (d : Dev nD) (L : grid0.Coords)

theorem trip2 (k : Fin k0_t1_loop.trips) (v332 : BitVec 32) (kk : Fin k0_t2_loop.trips)
    (B : Buf (Elt F) ((bi0).view.loc (thr d L))) (g : Buf (Elt F) ((bo0).view.loc (thr d L))) :
    iprop(((bi0).view.loc (thr d L) ↦{fullShare} B) ∗ ((bo0).view.loc (thr d L) ↦{fullShare} g))
      ⊢ (wp frame (wpE (defs₀ (F := F)) 𝒱₀ (thr d L) none) Set.univ
          (k0_t2_body L xtW (Memref.isWhole_whole _) oW (Memref.isWhole_whole _) bi0 (Memref.isWhole_whole _) bi1 (Memref.isWhole_whole _)
            bo0 (Memref.isWhole_whole _) bo1 (Memref.isWhole_whole _) cc0_scratch4 cc0_scratch5 cc0_scratch6 cc0_scratch7 k v332 iotaV kk ())
          fun _ => iprop(((bi0).view.loc (thr d L) ↦{fullShare} B) ∗ ∃ g', ⌜g' = pass2 (F := F) B kk g⌝ ∗ ((bo0).view.loc (thr d L) ↦{fullShare} g')) : sProp 𝕄) := by
  iintro ⟨H0, H2⟩
  unfold k0_t2_body
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (ld_bi0 (F := F) d L) $$ H0; iintro H0
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  iapply (st_bo0 (F := F) d L) $$ H2; iintro H2
  sl_exec (disch := first | exact chk_1 kk | exact chk_2 kk | exact chk_3 kk | exact chk_4 kk | exact chk_5 kk | exact chk_6 kk | exact chk_7 kk | exact chk_8 kk | exact chk_9 kk | exact chk_10 kk | exact chk_11 kk | exact chk_12 kk | exact chk_13 kk | exact chk_14 kk | exact chk_15 kk | exact chk_16 kk | exact chk_17 kk | exact chk_18 kk | exact chk_19 kk | exact chk_20 kk | exact chk_21 kk | exact chk_22 kk | exact chk_23 kk | exact chk_24 kk | exact chk_25 kk | exact chk_26 kk | exact chk_27 kk | exact chk_28 kk)
  sl_step
  isplitl [H0]; · iexact H0
  iexists _
  isplitr
  rotate_left
  · iexact H2
  · ipureintro; rfl
end

/-! ## Loop 2 -/

/-- The column groups' index vectors: lane l of group w is column 16 w + l. -/
def rowsP3 : Fin 14 → IVec S16 32 := ![k0_pay20 iotaV, k0_pay21 iotaV, k0_pay22 iotaV, k0_pay23 iotaV, k0_pay24 iotaV, k0_pay25 iotaV, k0_pay26 iotaV, k0_pay27 iotaV, k0_pay28 iotaV, k0_pay29 iotaV, k0_pay30 iotaV, k0_pay31 iotaV, k0_pay32 iotaV, k0_pay34 208#32]

theorem ldok3 (kk : Fin k0_t3_loop.trips) : ∀ w : Fin 14, ∀ a x, ((![rowsP3 w, k0_pay18 iotaV 0#32 1#32 kk] : Fin 2 → IVec S16 32) a x).toNat < S224x128.size a
  | ⟨0, _⟩ => chk_29 kk
  | ⟨1, _⟩ => chk_31 kk
  | ⟨2, _⟩ => chk_33 kk
  | ⟨3, _⟩ => chk_35 kk
  | ⟨4, _⟩ => chk_37 kk
  | ⟨5, _⟩ => chk_39 kk
  | ⟨6, _⟩ => chk_41 kk
  | ⟨7, _⟩ => chk_43 kk
  | ⟨8, _⟩ => chk_45 kk
  | ⟨9, _⟩ => chk_47 kk
  | ⟨10, _⟩ => chk_49 kk
  | ⟨11, _⟩ => chk_51 kk
  | ⟨12, _⟩ => chk_53 kk
  | ⟨13, _⟩ => chk_55 kk
theorem stok3 (kk : Fin k0_t3_loop.trips) : ∀ w : Fin 14, ∀ a x, ((![addi (k0_pay19 iotaV 0#32 1#32 kk) (rowsP3 w)] : Fin 1 → IVec S16 32) a x).toNat < S3584.size a
  | ⟨0, _⟩ => chk_30 kk
  | ⟨1, _⟩ => chk_32 kk
  | ⟨2, _⟩ => chk_34 kk
  | ⟨3, _⟩ => chk_36 kk
  | ⟨4, _⟩ => chk_38 kk
  | ⟨5, _⟩ => chk_40 kk
  | ⟨6, _⟩ => chk_42 kk
  | ⟨7, _⟩ => chk_44 kk
  | ⟨8, _⟩ => chk_46 kk
  | ⟨9, _⟩ => chk_48 kk
  | ⟨10, _⟩ => chk_50 kk
  | ⟨11, _⟩ => chk_52 kk
  | ⟨12, _⟩ => chk_54 kk
  | ⟨13, _⟩ => chk_56 kk

/-- One load-and-store pair of pass `kk`, for column group `w`. -/
def st3 (B : Vec F S224x128 .f32) (kk : Fin k0_t3_loop.trips) (w : Fin 14) (g : Vec F S3584 .f32) : Vec F S3584 .f32 :=
  storeIdx g ![addi (k0_pay19 iotaV 0#32 1#32 kk) (rowsP3 w)] (loadIdx B ![rowsP3 w, k0_pay18 iotaV 0#32 1#32 kk] (ldok3 kk w))
    (fun _ => 1#1) false (stok3 kk w)

/-- The staging buffer after pass `kk`, from what it held. -/
def pass3 (B : Vec F S224x128 .f32) (kk : Fin k0_t3_loop.trips) (g : Vec F S3584 .f32) : Vec F S3584 .f32 :=
  st3 B kk 13 (st3 B kk 12 (st3 B kk 11 (st3 B kk 10 (st3 B kk 9 (st3 B kk 8 (st3 B kk 7
    (st3 B kk 6 (st3 B kk 5 (st3 B kk 4 (st3 B kk 3 (st3 B kk 2 (st3 B kk 1 (st3 B kk 0 g)))))))))))))

section
variable (d : Dev nD) (L : grid0.Coords)

theorem trip3 (k : Fin k0_t1_loop.trips) (v332 v499 c355 : BitVec 32) (kk : Fin k0_t3_loop.trips)
    (B : Buf (Elt F) ((bi1).view.loc (thr d L))) (g : Buf (Elt F) ((bo1).view.loc (thr d L))) :
    iprop(((bi1).view.loc (thr d L) ↦{fullShare} B) ∗ ((bo1).view.loc (thr d L) ↦{fullShare} g))
      ⊢ (wp frame (wpE (defs₀ (F := F)) 𝒱₀ (thr d L) none) Set.univ
          (k0_t3_body L xtW (Memref.isWhole_whole _) oW (Memref.isWhole_whole _) bi0 (Memref.isWhole_whole _) bi1 (Memref.isWhole_whole _)
            bo0 (Memref.isWhole_whole _) bo1 (Memref.isWhole_whole _) cc0_scratch4 cc0_scratch5 cc0_scratch6 cc0_scratch7 k v332 v499 c355 iotaV kk ())
          fun _ => iprop(((bi1).view.loc (thr d L) ↦{fullShare} B) ∗ ∃ g', ⌜g' = pass3 (F := F) B kk g⌝ ∗ ((bo1).view.loc (thr d L) ↦{fullShare} g')) : sProp 𝕄) := by
  iintro ⟨H0, H2⟩
  unfold k0_t3_body
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (ld_bi1 (F := F) d L) $$ H0; iintro H0
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  iapply (st_bo1 (F := F) d L) $$ H2; iintro H2
  sl_exec (disch := first | exact chk_29 kk | exact chk_30 kk | exact chk_31 kk | exact chk_32 kk | exact chk_33 kk | exact chk_34 kk | exact chk_35 kk | exact chk_36 kk | exact chk_37 kk | exact chk_38 kk | exact chk_39 kk | exact chk_40 kk | exact chk_41 kk | exact chk_42 kk | exact chk_43 kk | exact chk_44 kk | exact chk_45 kk | exact chk_46 kk | exact chk_47 kk | exact chk_48 kk | exact chk_49 kk | exact chk_50 kk | exact chk_51 kk | exact chk_52 kk | exact chk_53 kk | exact chk_54 kk | exact chk_55 kk | exact chk_56 kk)
  sl_step
  isplitl [H0]; · iexact H0
  iexists _
  isplitr
  rotate_left
  · iexact H2
  · ipureintro; rfl
end

/-! ## Loop 3 -/

/-- The column groups' index vectors: lane l of group w is column 16 w + l. -/
def rowsP4 : Fin 14 → IVec S16 32 := ![k0_pay38 iotaV, k0_pay39 iotaV, k0_pay40 iotaV, k0_pay41 iotaV, k0_pay42 iotaV, k0_pay43 iotaV, k0_pay44 iotaV, k0_pay45 iotaV, k0_pay46 iotaV, k0_pay47 iotaV, k0_pay48 iotaV, k0_pay49 iotaV, k0_pay50 iotaV, k0_pay51 208#32]

theorem ldok4 (kk : Fin k0_t4_loop.trips) : ∀ w : Fin 14, ∀ a x, ((![rowsP4 w, k0_pay36 iotaV 0#32 1#32 kk] : Fin 2 → IVec S16 32) a x).toNat < S224x128.size a
  | ⟨0, _⟩ => chk_57 kk
  | ⟨1, _⟩ => chk_59 kk
  | ⟨2, _⟩ => chk_61 kk
  | ⟨3, _⟩ => chk_63 kk
  | ⟨4, _⟩ => chk_65 kk
  | ⟨5, _⟩ => chk_67 kk
  | ⟨6, _⟩ => chk_69 kk
  | ⟨7, _⟩ => chk_71 kk
  | ⟨8, _⟩ => chk_73 kk
  | ⟨9, _⟩ => chk_75 kk
  | ⟨10, _⟩ => chk_77 kk
  | ⟨11, _⟩ => chk_79 kk
  | ⟨12, _⟩ => chk_81 kk
  | ⟨13, _⟩ => chk_83 kk
theorem stok4 (kk : Fin k0_t4_loop.trips) : ∀ w : Fin 14, ∀ a x, ((![addi (k0_pay37 iotaV 0#32 1#32 kk) (rowsP4 w)] : Fin 1 → IVec S16 32) a x).toNat < S3584.size a
  | ⟨0, _⟩ => chk_58 kk
  | ⟨1, _⟩ => chk_60 kk
  | ⟨2, _⟩ => chk_62 kk
  | ⟨3, _⟩ => chk_64 kk
  | ⟨4, _⟩ => chk_66 kk
  | ⟨5, _⟩ => chk_68 kk
  | ⟨6, _⟩ => chk_70 kk
  | ⟨7, _⟩ => chk_72 kk
  | ⟨8, _⟩ => chk_74 kk
  | ⟨9, _⟩ => chk_76 kk
  | ⟨10, _⟩ => chk_78 kk
  | ⟨11, _⟩ => chk_80 kk
  | ⟨12, _⟩ => chk_82 kk
  | ⟨13, _⟩ => chk_84 kk

/-- One load-and-store pair of pass `kk`, for column group `w`. -/
def st4 (B : Vec F S224x128 .f32) (kk : Fin k0_t4_loop.trips) (w : Fin 14) (g : Vec F S3584 .f32) : Vec F S3584 .f32 :=
  storeIdx g ![addi (k0_pay37 iotaV 0#32 1#32 kk) (rowsP4 w)] (loadIdx B ![rowsP4 w, k0_pay36 iotaV 0#32 1#32 kk] (ldok4 kk w))
    (fun _ => 1#1) false (stok4 kk w)

/-- The staging buffer after pass `kk`, from what it held. -/
def pass4 (B : Vec F S224x128 .f32) (kk : Fin k0_t4_loop.trips) (g : Vec F S3584 .f32) : Vec F S3584 .f32 :=
  st4 B kk 13 (st4 B kk 12 (st4 B kk 11 (st4 B kk 10 (st4 B kk 9 (st4 B kk 8 (st4 B kk 7
    (st4 B kk 6 (st4 B kk 5 (st4 B kk 4 (st4 B kk 3 (st4 B kk 2 (st4 B kk 1 (st4 B kk 0 g)))))))))))))

section
variable (d : Dev nD) (L : grid0.Coords)

theorem trip4 (v2 : BitVec 32) (kk : Fin k0_t4_loop.trips)
    (B : Buf (Elt F) ((bi0).view.loc (thr d L))) (g : Buf (Elt F) ((bo0).view.loc (thr d L))) :
    iprop(((bi0).view.loc (thr d L) ↦{fullShare} B) ∗ ((bo0).view.loc (thr d L) ↦{fullShare} g))
      ⊢ (wp frame (wpE (defs₀ (F := F)) 𝒱₀ (thr d L) none) Set.univ
          (k0_t4_body L xtW (Memref.isWhole_whole _) oW (Memref.isWhole_whole _) bi0 (Memref.isWhole_whole _) bi1 (Memref.isWhole_whole _)
            bo0 (Memref.isWhole_whole _) bo1 (Memref.isWhole_whole _) cc0_scratch4 cc0_scratch5 cc0_scratch6 cc0_scratch7 v2 iotaV kk ())
          fun _ => iprop(((bi0).view.loc (thr d L) ↦{fullShare} B) ∗ ∃ g', ⌜g' = pass4 (F := F) B kk g⌝ ∗ ((bo0).view.loc (thr d L) ↦{fullShare} g')) : sProp 𝕄) := by
  iintro ⟨H0, H2⟩
  unfold k0_t4_body
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (ld_bi0 (F := F) d L) $$ H0; iintro H0
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  iapply (st_bo0 (F := F) d L) $$ H2; iintro H2
  sl_exec (disch := first | exact chk_57 kk | exact chk_58 kk | exact chk_59 kk | exact chk_60 kk | exact chk_61 kk | exact chk_62 kk | exact chk_63 kk | exact chk_64 kk | exact chk_65 kk | exact chk_66 kk | exact chk_67 kk | exact chk_68 kk | exact chk_69 kk | exact chk_70 kk | exact chk_71 kk | exact chk_72 kk | exact chk_73 kk | exact chk_74 kk | exact chk_75 kk | exact chk_76 kk | exact chk_77 kk | exact chk_78 kk | exact chk_79 kk | exact chk_80 kk | exact chk_81 kk | exact chk_82 kk | exact chk_83 kk | exact chk_84 kk)
  sl_step
  isplitl [H0]; · iexact H0
  iexists _
  isplitr
  rotate_left
  · iexact H2
  · ipureintro; rfl
end

end Cert.Proof.KB

end
-- ==== Proof.KBValue.lean ====
/-
  One pass of the transposition loop, as a function on the staging buffer.

  A slab B holds 224 columns × 128 frames; the staging buffer holds 3584 = 16 × 224 words. Pass n (n < 16) does fourteen
  indexed loads and stores: store w writes, for each lane l < 16, the slab's element at column 16 w + l and frame
  33 + 4 ((n + l) mod 16) to staging word 224 ((n + l) mod 16) + 16 w + l. Writing a staging word as 224 j + r with r < 224,
  pass n therefore writes B[r, 33 + 4 j] to exactly the words with (n + r mod 16) mod 16 = j, that is, with
  (j + 16 - r mod 16) mod 16 = n: each word belongs to one pass (`passOf`), and after passes 0 … 15 the staging buffer is the
  frame-major transpose of the sixteen sampled frames (`tr`).

  The sixteen lanes of one store name sixteen distinct words, so an unmasked store is "the stored element where a lane
  names the word, the old element elsewhere"; the fourteen stores of a pass name disjoint sets of words, so the pass is
  "the transposed element at the words of pass n, the old element elsewhere".
-/
import proofs.«216812_g82557861364368_cont_9to1c4b_466_28_alg».proof.Proof.KBTr

noncomputable section

namespace Cert.Proof.KB

open Cert.Kernel Cert.Kernel.GenP
open Idealize.ShloMosaic Idealize.ShloMosaic.ValueIdx

variable {F : FTy → Type} [FloatOps F]

theorem passOf_lt (z : S3584.Idx) : passOf z < 16 := Nat.mod_lt _ (by omega)

theorem trAcc_zero (B : Vec F S224x128 .f32) (f : Vec F S3584 .f32) : trAcc B f 0 = f := by
  funext z; unfold trAcc; rw [if_neg (Nat.not_lt_zero _)]

theorem trAcc_full (B : Vec F S224x128 .f32) (f : Vec F S3584 .f32) : trAcc B f 16 = tr B := by
  funext z; unfold trAcc; rw [if_pos (passOf_lt z)]

/-! ## An unmasked store whose lanes name distinct words -/

section Store
variable {s : Shape} {e : EltTy} {d : Fin 1 → Nat}

/-- What one lane of an unmasked store does: the stored element at the word the lane names, the rest unchanged. -/
def put (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

/-- An unmasked store without accumulation is the lanes' writes in ascending order. -/
theorem storeIdx_ones (g : Vec F s e) (idxs : Fin s.rank → IVec ⟨1, d⟩ 32) (v : Vec F ⟨1, d⟩ e)
    (h : ∀ a x, (idxs a x).toNat < s.size a) :
    storeIdx g idxs v (fun _ => 1#1) false h = (List.finRange (d 0)).foldl (put idxs v h) g := by
  unfold storeIdx
  refine congrArg (fun φ => List.foldl φ g (List.finRange (d 0))) ?_
  funext g' k
  unfold put
  simp

/-- A word no lane of the list names keeps its element. -/
theorem foldl_put_miss (idxs : Fin s.rank → IVec ⟨1, d⟩ 32) (v : Vec F ⟨1, d⟩ e) (h : ∀ a x, (idxs a x).toNat < s.size a)
    (z : s.Idx) : ∀ (l : List (Fin (d 0))) (g : Vec F s e),
      (∀ k ∈ l, idxAt idxs h (Shape.ofLane k) ≠ z) → l.foldl (put idxs v h) g z = g z
  | [], _, _ => rfl
  | a :: l, g, hz => by
    rw [List.foldl_cons, foldl_put_miss idxs v h z l _ (fun k hk => hz k (List.mem_cons_of_mem _ hk))]
    unfold put
    exact if_neg (fun hall => hz a List.mem_cons_self (funext fun b => Fin.ext (hall b).symm))

/-- A word exactly one lane of a duplicate-free list names ends holding that lane's element. -/
theorem foldl_put_hit (idxs : Fin s.rank → IVec ⟨1, d⟩ 32) (v : Vec F ⟨1, d⟩ e) (h : ∀ a x, (idxs a x).toNat < s.size a)
    (z : s.Idx) (k : Fin (d 0)) (hk : idxAt idxs h (Shape.ofLane k) = z) :
    ∀ (l : List (Fin (d 0))) (g : Vec F s e), l.Nodup → k ∈ l →
      (∀ k' ∈ l, idxAt idxs h (Shape.ofLane k') = z → k' = k) → l.foldl (put idxs v h) g z = v (Shape.ofLane k)
  | [], _, _, hm, _ => absurd hm List.not_mem_nil
  | a :: l, g, hnd, hm, hinj => by
    rw [List.foldl_cons]
    by_cases hak : a = k
    · -- written by this lane, and by no later one
      rw [foldl_put_miss idxs v h z l _ (fun k' hk' he =>
        (List.nodup_cons.mp hnd).1 (hak ▸ (hinj k' (List.mem_cons_of_mem _ hk') he) ▸ hk'))]
      unfold put
      rw [hak]
      exact if_pos (fun b => by rw [hk])
    · have hm' : k ∈ l := by
        rcases List.mem_cons.mp hm with h0 | h0
        · exact absurd h0.symm hak
        · exact h0
      exact foldl_put_hit idxs v h z k hk l _ (List.nodup_cons.mp hnd).2 hm'
        (fun k' hk' => hinj k' (List.mem_cons_of_mem _ hk'))

/-- The store at a word one lane names, and no other lane: that lane's element. -/
theorem storeIdx_apply_hit (g : Vec F s e) (idxs : Fin s.rank → IVec ⟨1, d⟩ 32) (v : Vec F ⟨1, d⟩ e)
    (h : ∀ a x, (idxs a x).toNat < s.size a) (z : s.Idx) (k : Fin (d 0)) (hk : idxAt idxs h (Shape.ofLane k) = z)
    (hinj : ∀ k', idxAt idxs h (Shape.ofLane k') = z → k' = k) :
    storeIdx g idxs v (fun _ => 1#1) false h z = v (Shape.ofLane k) := by
  rw [storeIdx_ones]
  exact foldl_put_hit idxs v h z k hk _ g (List.nodup_finRange _) (List.mem_finRange k) (fun k' _ => hinj k')

/-- The store at a word no lane names: the old element. -/
theorem storeIdx_apply_miss (g : Vec F s e) (idxs : Fin s.rank → IVec ⟨1, d⟩ 32) (v : Vec F ⟨1, d⟩ e)
    (h : ∀ a x, (idxs a x).toNat < s.size a) (z : s.Idx) (hz : ∀ k, idxAt idxs h (Shape.ofLane k) ≠ z) :
    storeIdx g idxs v (fun _ => 1#1) false h z = g z := by
  rw [storeIdx_ones]
  exact foldl_put_miss idxs v h z _ g (fun k _ => hz k)

end Store

/-- A fold of conditional overwrites by one function: overwritten where some step's condition holds. -/
theorem foldl_cond {ι α β : Type} (G : ι → (α → β) → (α → β)) (c : ι → α → Prop) [∀ i a, Decidable (c i a)]
    [∀ (l : List ι) a, Decidable (∃ i ∈ l, c i a)] (t : α → β)
    (hG : ∀ i g a, G i g a = if c i a then t a else g a) :
    ∀ (l : List ι) (g : α → β) (a : α),
      l.foldl (fun g i => G i g) g a = if (∃ i ∈ l, c i a) then t a else g a
  | [], g, a => by
    rw [List.foldl_nil, if_neg]; rintro ⟨i, hi, _⟩; exact absurd hi List.not_mem_nil
  | i :: l, g, a => by
    rw [List.foldl_cons, foldl_cond G c t hG l _ a, hG]
    by_cases h1 : ∃ j ∈ l, c j a
    · obtain ⟨j, hj, hc⟩ := h1
      rw [if_pos ⟨j, hj, hc⟩, if_pos ⟨j, List.mem_cons_of_mem _ hj, hc⟩]
    · rw [if_neg h1]
      by_cases h2 : c i a
      · rw [if_pos h2, if_pos ⟨i, List.mem_cons_self, h2⟩]
      · rw [if_neg h2, if_neg]
        rintro ⟨j, hj, hc⟩
        rcases List.mem_cons.mp hj with h0 | h0
        · exact h2 (h0 ▸ hc)
        · exact h1 ⟨j, h0, hc⟩

/-! ## One pass -/

/-- Lane k of a sixteen-lane vector, as the index with that coordinate. -/
theorem ofLane_eq_ix1 (k : Fin 16) : (Shape.ofLane (d := ![16]) k : S16.Idx) = ix1 k := by
  funext a; match a with | ⟨0, _⟩ => rfl

/-- A sixteen-lane unmasked store at a word lane k names, and no other lane: lane k's element. -/
theorem store16_hit {s : Shape} {e : EltTy} (g : Vec F s e) (idxs : Fin s.rank → IVec S16 32) (v : Vec F S16 e)
    (h : ∀ a x, (idxs a x).toNat < s.size a) (z : s.Idx) (k : Fin 16) (hk : idxAt idxs h (ix1 k) = z)
    (hinj : ∀ k' : Fin 16, idxAt idxs h (ix1 k') = z → k' = k) :
    storeIdx g idxs v (fun _ => 1#1) false h z = v (ix1 k) :=
  (storeIdx_apply_hit (d := ![16]) g idxs v h z k ((congrArg (idxAt idxs h) (ofLane_eq_ix1 k)).trans hk)
    (fun k' he => hinj k' ((congrArg (idxAt idxs h) (ofLane_eq_ix1 k')).symm.trans he))).trans
    (congrArg v (ofLane_eq_ix1 k))

/-- A sixteen-lane unmasked store at a word no lane names: the old element. -/
theorem store16_miss {s : Shape} {e : EltTy} (g : Vec F s e) (idxs : Fin s.rank → IVec S16 32) (v : Vec F S16 e)
    (h : ∀ a x, (idxs a x).toNat < s.size a) (z : s.Idx) (hz : ∀ k : Fin 16, idxAt idxs h (ix1 k) ≠ z) :
    storeIdx g idxs v (fun _ => 1#1) false h z = g z :=
  storeIdx_apply_miss (d := ![16]) g idxs v h z
    (fun k he => hz k ((congrArg (idxAt idxs h) (ofLane_eq_ix1 k)).symm.trans he))

/-- The staging word lane l of store w names in pass n. -/
theorem target_val (n : ℕ) (bv : IVec S16 32) (rv : Fin 14 → IVec S16 32)
    (hbv : ∀ l : Fin 16, (bv (ix1 l)).toNat = 224 * ((n + l.val) % 16))
    (hrv : ∀ (w : Fin 14) (l : Fin 16), (rv w (ix1 l)).toNat = 16 * w.val + l.val) (w : Fin 14) (l : Fin 16) :
    (addi bv (rv w) (ix1 l)).toNat = 224 * ((n + l.val) % 16) + (16 * w.val + l.val) := by
  show (bv (ix1 l) + rv w (ix1 l)).toNat = _
  rw [BitVec.toNat_add, hbv, hrv]
  have := w.isLt; have := l.isLt
  omega

/-- Store w of pass n at staging word z: the transposed element when z is in column group w and belongs to pass n,
    the old element otherwise. -/
theorem store_w_apply (B : Vec F S224x128 .f32) (n : ℕ) (hn : n < 16)
    (cv bv : IVec S16 32) (rv : Fin 14 → IVec S16 32)
    (hcv : ∀ l : Fin 16, (cv (ix1 l)).toNat = 33 + 4 * ((n + l.val) % 16))
    (hbv : ∀ l : Fin 16, (bv (ix1 l)).toNat = 224 * ((n + l.val) % 16))
    (hrv : ∀ (w : Fin 14) (l : Fin 16), (rv w (ix1 l)).toNat = 16 * w.val + l.val)
    (w : Fin 14)
    (h1 : ∀ a x, ((![rv w, cv] : Fin 2 → IVec S16 32) a x).toNat < S224x128.size a)
    (h2 : ∀ a x, ((![addi bv (rv w)] : Fin 1 → IVec S16 32) a x).toNat < S3584.size a)
    (g : Vec F S3584 .f32) (z : S3584.Idx) :
    storeIdx g ![addi bv (rv w)] (loadIdx B ![rv w, cv] h1) (fun _ => 1#1) false h2 z
      = if ((z 0).val % 224 / 16 = w.val ∧ passOf z = n) then tr B z else g z := by
  have hz : (z 0).val < 3584 := (z 0).isLt
  have hw := w.isLt
  have htv := target_val n bv rv hbv hrv w
  by_cases hc : ((z 0).val % 224 / 16 = w.val ∧ passOf z = n)
  · rw [if_pos hc]
    obtain ⟨hcw, hp⟩ := hc
    unfold passOf at hp
    have hklt : (z 0).val % 16 < 16 := Nat.mod_lt _ (by omega)
    have hk : idxAt ![addi bv (rv w)] h2 (ix1 (⟨(z 0).val % 16, hklt⟩ : Fin 16)) = z := by
      funext a
      obtain rfl : a = 0 := Subsingleton.elim _ _
      refine Fin.ext ?_
      show (addi bv (rv w) (ix1 (⟨(z 0).val % 16, hklt⟩ : Fin 16))).toNat = (z 0).val
      rw [htv]
      show 224 * ((n + (z 0).val % 16) % 16) + (16 * w.val + (z 0).val % 16) = (z 0).val
      omega
    have hinj : ∀ k' : Fin 16, idxAt ![addi bv (rv w)] h2 (ix1 k') = z → k' = ⟨(z 0).val % 16, hklt⟩ := by
      intro k' he
      have h0 : (addi bv (rv w) (ix1 k')).toNat = (z 0).val := congrArg (fun i : S3584.Idx => (i 0).val) he
      rw [htv] at h0
      have := k'.isLt
      refine Fin.ext ?_
      show k'.val = (z 0).val % 16
      omega
    rw [store16_hit g _ _ h2 z ⟨(z 0).val % 16, hklt⟩ hk hinj]
    show B (idxAt ![rv w, cv] h1 (ix1 (⟨(z 0).val % 16, hklt⟩ : Fin 16))) = tr B z
    unfold tr
    refine congrArg B ?_
    funext a
    refine Fin.ext ?_
    match a with
    | ⟨0, _⟩ =>
      show (rv w (ix1 (⟨(z 0).val % 16, hklt⟩ : Fin 16))).toNat = (z 0).val % 224
      rw [hrv]
      show 16 * w.val + (z 0).val % 16 = (z 0).val % 224
      omega
    | ⟨1, _⟩ =>
      show (cv (ix1 (⟨(z 0).val % 16, hklt⟩ : Fin 16))).toNat = 33 + 4 * ((z 0).val / 224)
      rw [hcv]
      show 33 + 4 * ((n + (z 0).val % 16) % 16) = 33 + 4 * ((z 0).val / 224)
      omega
  · rw [if_neg hc]
    refine store16_miss g _ _ h2 z fun k he => hc ?_
    have h0 : (addi bv (rv w) (ix1 k)).toNat = (z 0).val := congrArg (fun i : S3584.Idx => (i 0).val) he
    rw [htv] at h0
    have hk16 := k.isLt
    have hA : (n + k.val) % 16 < 16 := Nat.mod_lt _ (by omega)
    have hdiv : (z 0).val / 224 = (n + k.val) % 16 := by omega
    have hmod : (z 0).val % 224 = 16 * w.val + k.val := by omega
    have h16 : (z 0).val % 16 = k.val := by omega
    unfold passOf
    refine ⟨?_, ?_⟩
    · rw [hmod]; omega
    · rw [hdiv, h16]; omega

theorem trip_acc (B : Vec F S224x128 .f32) (f : Vec F S3584 .f32) (n : ℕ) (hn : n < 16)
    (cv bv : IVec S16 32) (rv : Fin 14 → IVec S16 32)
    (hcv : ∀ l : Fin 16, (cv (ix1 l)).toNat = 33 + 4 * ((n + l.val) % 16))
    (hbv : ∀ l : Fin 16, (bv (ix1 l)).toNat = 224 * ((n + l.val) % 16))
    (hrv : ∀ (w : Fin 14) (l : Fin 16), (rv w (ix1 l)).toNat = 16 * w.val + l.val)
    (h1 : ∀ w : Fin 14, ∀ a x, ((![rv w, cv] : Fin 2 → IVec S16 32) a x).toNat < S224x128.size a)
    (h2 : ∀ w : Fin 14, ∀ a x, ((![addi bv (rv w)] : Fin 1 → IVec S16 32) a x).toNat < S3584.size a) :
    (List.finRange 14).foldl (fun g w => storeIdx g ![addi bv (rv w)] (loadIdx B ![rv w, cv] (h1 w)) (fun _ => 1#1) false (h2 w)) (trAcc B f n)
      = trAcc B f (n + 1) := by
  funext z
  refine (foldl_cond
    (fun (w : Fin 14) (g : Vec F S3584 .f32) => storeIdx g ![addi bv (rv w)] (loadIdx B ![rv w, cv] (h1 w)) (fun _ => 1#1) false (h2 w))
    (fun w z => (z 0).val % 224 / 16 = w.val ∧ passOf z = n) (tr B)
    (fun w g z => store_w_apply B n hn cv bv rv hcv hbv hrv w (h1 w) (h2 w) g z) (List.finRange 14) (trAcc B f n) z).trans ?_
  have hz : (z 0).val < 3584 := (z 0).isLt
  unfold trAcc
  by_cases hp : passOf z = n
  · rw [if_pos ⟨⟨(z 0).val % 224 / 16, by omega⟩, List.mem_finRange _, rfl, hp⟩, if_pos (by omega)]
  · rw [if_neg (fun ⟨_, _, _, h⟩ => hp h)]
    by_cases h3 : passOf z < n
    · rw [if_pos h3, if_pos (by omega)]
    · rw [if_neg h3, if_neg (by omega)]

end Cert.Proof.KB

end
-- ==== Proof.KBValueIdx.lean ====
/-
  The lane values of the index vectors the three transposition loops compute, for every pass: in pass kk lane l reads
  frame 33 + 4 ((kk + l) mod 16), its sample's staging row starts at word 224 ((kk + l) mod 16), and column vector w
  holds the columns 16 w + l. Each loop runs sixteen passes. The vectors are closed terms of the pass number — the lane
  numbers plus a constant, masked to four bits, scaled —, every value is far below 2^31, and the ranges (sixteen passes,
  sixteen lanes, fourteen column groups) are finite: the equations are checked case by case by evaluation.
-/
import proofs.«216812_g82557861364368_cont_9to1c4b_466_28_alg».proof.Proof.KBChk

noncomputable section

namespace Cert.Proof.KB

open Cert.Kernel Cert.Kernel.GenP
open Idealize.ShloMosaic Idealize.ShloMosaic.ValueIdx

/-! ## The three loops run sixteen passes -/

theorem trips2 : k0_t2_loop.trips = 16 := by decide +kernel
theorem trips3 : k0_t3_loop.trips = 16 := by decide +kernel
theorem trips4 : k0_t4_loop.trips = 16 := by decide +kernel

/-! ## First loop -/

/-- The frame lane l reads in pass kk. -/
theorem col2_val : ∀ (kk : Fin k0_t2_loop.trips) (l : Fin 16), (k0_pay2 iotaV 0#32 1#32 kk (ix1 l)).toNat = 33 + 4 * ((kk.val + l.val) % 16) := by
  decide +kernel
/-- The first staging word of that frame's sample. -/
theorem base2_val : ∀ (kk : Fin k0_t2_loop.trips) (l : Fin 16), (k0_pay3 iotaV 0#32 1#32 kk (ix1 l)).toNat = 224 * ((kk.val + l.val) % 16) := by
  decide +kernel
/-- The fourteen column vectors: group w holds columns 16 w … 16 w + 15. -/
def rows2 : Fin 14 → IVec S16 32 := ![k0_pay4 iotaV, k0_pay5 iotaV, k0_pay6 iotaV, k0_pay7 iotaV, k0_pay8 iotaV, k0_pay9 iotaV, k0_pay10 iotaV, k0_pay11 iotaV, k0_pay12 iotaV, k0_pay13 iotaV, k0_pay14 iotaV, k0_pay15 iotaV, k0_pay16 iotaV, k0_pay33 iotaV 208#32]
theorem rows2_val : ∀ (w : Fin 14) (l : Fin 16), (rows2 w (ix1 l)).toNat = 16 * w.val + l.val := by decide +kernel

/-! ## Second loop -/

theorem col3_val : ∀ (kk : Fin k0_t3_loop.trips) (l : Fin 16), (k0_pay18 iotaV 0#32 1#32 kk (ix1 l)).toNat = 33 + 4 * ((kk.val + l.val) % 16) := by
  decide +kernel
theorem base3_val : ∀ (kk : Fin k0_t3_loop.trips) (l : Fin 16), (k0_pay19 iotaV 0#32 1#32 kk (ix1 l)).toNat = 224 * ((kk.val + l.val) % 16) := by
  decide +kernel
def rows3 : Fin 14 → IVec S16 32 := ![k0_pay20 iotaV, k0_pay21 iotaV, k0_pay22 iotaV, k0_pay23 iotaV, k0_pay24 iotaV, k0_pay25 iotaV, k0_pay26 iotaV, k0_pay27 iotaV, k0_pay28 iotaV, k0_pay29 iotaV, k0_pay30 iotaV, k0_pay31 iotaV, k0_pay32 iotaV, k0_pay34 208#32]
theorem rows3_val : ∀ (w : Fin 14) (l : Fin 16), (rows3 w (ix1 l)).toNat = 16 * w.val + l.val := by decide +kernel

/-! ## Third loop -/

theorem col4_val : ∀ (kk : Fin k0_t4_loop.trips) (l : Fin 16), (k0_pay36 iotaV 0#32 1#32 kk (ix1 l)).toNat = 33 + 4 * ((kk.val + l.val) % 16) := by
  decide +kernel
theorem base4_val : ∀ (kk : Fin k0_t4_loop.trips) (l : Fin 16), (k0_pay37 iotaV 0#32 1#32 kk (ix1 l)).toNat = 224 * ((kk.val + l.val) % 16) := by
  decide +kernel
def rows4 : Fin 14 → IVec S16 32 := ![k0_pay38 iotaV, k0_pay39 iotaV, k0_pay40 iotaV, k0_pay41 iotaV, k0_pay42 iotaV, k0_pay43 iotaV, k0_pay44 iotaV, k0_pay45 iotaV, k0_pay46 iotaV, k0_pay47 iotaV, k0_pay48 iotaV, k0_pay49 iotaV, k0_pay50 iotaV, k0_pay51 208#32]
theorem rows4_val : ∀ (w : Fin 14) (l : Fin 16), (rows4 w (ix1 l)).toNat = 16 * w.val + l.val := by decide +kernel

end Cert.Proof.KB

end
-- ==== Proof.KBAcc.lean ====
/-
  The staging buffer through the passes of a transposition loop. A pass is fourteen indexed load-and-store pairs, one per
  group of sixteen columns, applied in order; pass `n` writes exactly the staging words that belong to pass `n`, each with
  its transposed element. So after the first `n` passes, from any contents `f`, the words of the passes below `n` hold the
  transposed elements and the rest hold `f`; after all sixteen the buffer is the frame-major transpose of the slab's sixteen
  sampled frames, whatever it held before. The kernel's three loops are the same text over different names.
-/
import proofs.«216812_g82557861364368_cont_9to1c4b_466_28_alg».proof.Proof.KBInner
import proofs.«216812_g82557861364368_cont_9to1c4b_466_28_alg».proof.Proof.KBValue
import proofs.«216812_g82557861364368_cont_9to1c4b_466_28_alg».proof.Proof.KBValueIdx

noncomputable section

namespace Cert.Proof.KB

open Cert.Kernel Cert.Kernel.GenP
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Loop 1 -/

omit [FloatOps F] in
theorem rowsP2_eq : rowsP2 = rows2 := rfl

/-- A pass is the fold of its fourteen load-and-store pairs over the column groups in order. -/
theorem pass2_fold (B : Vec F S224x128 .f32) (kk : Fin k0_t2_loop.trips) (g : Vec F S3584 .f32) :
    pass2 B kk g = (List.finRange 14).foldl (fun g w => st2 B kk w g) g := by
  rw [show List.finRange 14 = [0, 1, 2, 3, 4, 5, 6, 7, 8, 9, 10, 11, 12, 13] from by decide]
  rfl

/-- the staging buffer after the first n passes of the loop, started from f -/
def acc2 (B : Vec F S224x128 .f32) (f : Vec F S3584 .f32) : ℕ → Vec F S3584 .f32
  | 0 => f
  | n + 1 => if h : n < k0_t2_loop.trips then pass2 B ⟨n, h⟩ (acc2 B f n) else acc2 B f n

theorem acc2_step (B : Vec F S224x128 .f32) (f : Vec F S3584 .f32) (n : ℕ) (h : n < k0_t2_loop.trips) :
    acc2 B f (n + 1) = pass2 B ⟨n, h⟩ (acc2 B f n) := by
  rw [acc2, dif_pos h]

theorem acc2_succ (B : Vec F S224x128 .f32) (f : Vec F S3584 .f32) (kk : Fin k0_t2_loop.trips) :
    acc2 B f (kk.val + 1) = pass2 B kk (acc2 B f kk.val) :=
  acc2_step B f kk.val kk.isLt

/-- After n ≤ 16 passes the words of the passes below n hold the transposed elements, the others what they held. -/
theorem acc2_eq (B : Vec F S224x128 .f32) (f : Vec F S3584 .f32) (n : ℕ) (hn : n ≤ 16) : acc2 B f n = trAcc B f n := by
  induction n with
  | zero => exact (trAcc_zero B f).symm
  | succ n ih =>
    have hn' : n < 16 := by omega
    have hlt : n < k0_t2_loop.trips := by rw [trips2]; exact hn'
    rw [acc2_step B f n hlt, ih (by omega), pass2_fold]
    unfold st2
    exact trip_acc B f n hn' (k0_pay2 iotaV 0#32 1#32 ⟨n, hlt⟩) (k0_pay3 iotaV 0#32 1#32 ⟨n, hlt⟩) rows2
      (fun l => col2_val ⟨n, hlt⟩ l) (fun l => base2_val ⟨n, hlt⟩ l) rows2_val (ldok2 ⟨n, hlt⟩) (stok2 ⟨n, hlt⟩)

/-- After all its passes the staging buffer is the frame-major transpose of the slab's sixteen sampled frames. -/
theorem acc2_full (B : Vec F S224x128 .f32) (f : Vec F S3584 .f32) : acc2 B f k0_t2_loop.trips = tr B := by
  rw [trips2, acc2_eq B f 16 (Nat.le_refl _), trAcc_full]

/-! ## Loop 2 -/

omit [FloatOps F] in
theorem rowsP3_eq : rowsP3 = rows3 := rfl

/-- A pass is the fold of its fourteen load-and-store pairs over the column groups in order. -/
theorem pass3_fold (B : Vec F S224x128 .f32) (kk : Fin k0_t3_loop.trips) (g : Vec F S3584 .f32) :
    pass3 B kk g = (List.finRange 14).foldl (fun g w => st3 B kk w g) g := by
  rw [show List.finRange 14 = [0, 1, 2, 3, 4, 5, 6, 7, 8, 9, 10, 11, 12, 13] from by decide]
  rfl

/-- the staging buffer after the first n passes of the loop, started from f -/
def acc3 (B : Vec F S224x128 .f32) (f : Vec F S3584 .f32) : ℕ → Vec F S3584 .f32
  | 0 => f
  | n + 1 => if h : n < k0_t3_loop.trips then pass3 B ⟨n, h⟩ (acc3 B f n) else acc3 B f n

theorem acc3_step (B : Vec F S224x128 .f32) (f : Vec F S3584 .f32) (n : ℕ) (h : n < k0_t3_loop.trips) :
    acc3 B f (n + 1) = pass3 B ⟨n, h⟩ (acc3 B f n) := by
  rw [acc3, dif_pos h]

theorem acc3_succ (B : Vec F S224x128 .f32) (f : Vec F S3584 .f32) (kk : Fin k0_t3_loop.trips) :
    acc3 B f (kk.val + 1) = pass3 B kk (acc3 B f kk.val) :=
  acc3_step B f kk.val kk.isLt

/-- After n ≤ 16 passes the words of the passes below n hold the transposed elements, the others what they held. -/
theorem acc3_eq (B : Vec F S224x128 .f32) (f : Vec F S3584 .f32) (n : ℕ) (hn : n ≤ 16) : acc3 B f n = trAcc B f n := by
  induction n with
  | zero => exact (trAcc_zero B f).symm
  | succ n ih =>
    have hn' : n < 16 := by omega
    have hlt : n < k0_t3_loop.trips := by rw [trips3]; exact hn'
    rw [acc3_step B f n hlt, ih (by omega), pass3_fold]
    unfold st3
    exact trip_acc B f n hn' (k0_pay18 iotaV 0#32 1#32 ⟨n, hlt⟩) (k0_pay19 iotaV 0#32 1#32 ⟨n, hlt⟩) rows3
      (fun l => col3_val ⟨n, hlt⟩ l) (fun l => base3_val ⟨n, hlt⟩ l) rows3_val (ldok3 ⟨n, hlt⟩) (stok3 ⟨n, hlt⟩)

/-- After all its passes the staging buffer is the frame-major transpose of the slab's sixteen sampled frames. -/
theorem acc3_full (B : Vec F S224x128 .f32) (f : Vec F S3584 .f32) : acc3 B f k0_t3_loop.trips = tr B := by
  rw [trips3, acc3_eq B f 16 (Nat.le_refl _), trAcc_full]

/-! ## Loop 3 -/

omit [FloatOps F] in
theorem rowsP4_eq : rowsP4 = rows4 := rfl

/-- A pass is the fold of its fourteen load-and-store pairs over the column groups in order. -/
theorem pass4_fold (B : Vec F S224x128 .f32) (kk : Fin k0_t4_loop.trips) (g : Vec F S3584 .f32) :
    pass4 B kk g = (List.finRange 14).foldl (fun g w => st4 B kk w g) g := by
  rw [show List.finRange 14 = [0, 1, 2, 3, 4, 5, 6, 7, 8, 9, 10, 11, 12, 13] from by decide]
  rfl

/-- the staging buffer after the first n passes of the loop, started from f -/
def acc4 (B : Vec F S224x128 .f32) (f : Vec F S3584 .f32) : ℕ → Vec F S3584 .f32
  | 0 => f
  | n + 1 => if h : n < k0_t4_loop.trips then pass4 B ⟨n, h⟩ (acc4 B f n) else acc4 B f n

theorem acc4_step (B : Vec F S224x128 .f32) (f : Vec F S3584 .f32) (n : ℕ) (h : n < k0_t4_loop.trips) :
    acc4 B f (n + 1) = pass4 B ⟨n, h⟩ (acc4 B f n) := by
  rw [acc4, dif_pos h]

theorem acc4_succ (B : Vec F S224x128 .f32) (f : Vec F S3584 .f32) (kk : Fin k0_t4_loop.trips) :
    acc4 B f (kk.val + 1) = pass4 B kk (acc4 B f kk.val) :=
  acc4_step B f kk.val kk.isLt

/-- After n ≤ 16 passes the words of the passes below n hold the transposed elements, the others what they held. -/
theorem acc4_eq (B : Vec F S224x128 .f32) (f : Vec F S3584 .f32) (n : ℕ) (hn : n ≤ 16) : acc4 B f n = trAcc B f n := by
  induction n with
  | zero => exact (trAcc_zero B f).symm
  | succ n ih =>
    have hn' : n < 16 := by omega
    have hlt : n < k0_t4_loop.trips := by rw [trips4]; exact hn'
    rw [acc4_step B f n hlt, ih (by omega), pass4_fold]
    unfold st4
    exact trip_acc B f n hn' (k0_pay36 iotaV 0#32 1#32 ⟨n, hlt⟩) (k0_pay37 iotaV 0#32 1#32 ⟨n, hlt⟩) rows4
      (fun l => col4_val ⟨n, hlt⟩ l) (fun l => base4_val ⟨n, hlt⟩ l) rows4_val (ldok4 ⟨n, hlt⟩) (stok4 ⟨n, hlt⟩)

/-- After all its passes the staging buffer is the frame-major transpose of the slab's sixteen sampled frames. -/
theorem acc4_full (B : Vec F S224x128 .f32) (f : Vec F S3584 .f32) : acc4 B f k0_t4_loop.trips = tr B := by
  rw [trips4, acc4_eq B f 16 (Nat.le_refl _), trAcc_full]

end Cert.Proof.KB

end
-- ==== Proof.KBCoreStmt.lean ====
/-
  One vector subcore's task over explicit resources: the evidence that it may wait on its own semaphores, what the call
  hands it (two read shares of the transposed clip, its row pieces of the result), its four scratch buffers at any
  contents, its four copy semaphores at zero, and what it owes the launch. The task ends with the shares back, the pieces
  holding the sampled frames, the scratch at some contents, the semaphores at zero again, and the same debt, having waited
  only on its own semaphores.
-/
import proofs.«216812_g82557861364368_cont_9to1c4b_466_28_alg».proof.Proof.KBPay

noncomputable section

namespace Cert.Proof.KB

open Cert.Kernel Cert.Kernel.GenP
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The subcore's four scratch buffers, each whole at some contents. -/
def scratchAny (d : Dev nD) (L : grid0.Coords) : sProp 𝕄 :=
  iprop((∃ f, (Memref.whole cc0_scratch0 : Memref sig .scVector .vmem S224x128 .f32).view.loc (thr d L) ↦{fullShare} f)
    ∗ (∃ f, (Memref.whole cc0_scratch1 : Memref sig .scVector .vmem S224x128 .f32).view.loc (thr d L) ↦{fullShare} f)
    ∗ (∃ f, (Memref.whole cc0_scratch2 : Memref sig .scVector .vmem S3584 .f32).view.loc (thr d L) ↦{fullShare} f)
    ∗ (∃ f, (Memref.whole cc0_scratch3 : Memref sig .scVector .vmem S3584 .f32).view.loc (thr d L) ↦{fullShare} f))

/-- Its four copy semaphores at zero. -/
def semsZero (d : Dev nD) (L : grid0.Coords) : sProp 𝕄 :=
  iprop(semVal (thr d L, SemLoc.dma cc0_scratch4.sem) 0 ∗ semVal (thr d L, SemLoc.dma cc0_scratch5.sem) 0
    ∗ semVal (thr d L, SemLoc.dma cc0_scratch6.sem) 0 ∗ semVal (thr d L, SemLoc.dma cc0_scratch7.sem) 0)

/-- The task over explicit resources. -/
def TileCoreStmt [FloatOps F] (m : (ℓ : Loc nD τ sig) → Buf (Elt F) ℓ) : Prop :=
  ∀ (d : Dev nD) (L : grid0.Coords) (O : CellTallies nD τ sig (HIx 1)) (W : Waits sig (HIx 1)),
    (iprop(Transfers.MayWaits (thr d L) (none : HIx 1) O ∗ tileGo m d L ∗ scratchAny d L ∗ semsZero d L ∗ owes (thr d L) O W) : sProp 𝕄)
      ⊢ wp frame (wpE (defs₀ (F := F)) 𝒱₀ (thr d L) none) Set.univ
          (cc0_temporal_gather L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7)
          fun _ => iprop(tileTd m d L ∗ scratchAny d L ∗ semsZero d L
            ∗ ∃ W', ⌜∀ p ∈ W', p ∈ W ∨ p.2 = none⌝ ∗ owes (thr d L) O W')

end Cert.Proof.KB

end
-- ==== Proof.KBTrip.lean ====
/-
  One trip of the worker's main loop. Trip `k` handles the slabs `2 k` (first slot) and `2 k + 1` (second slot): it waits for
  the first slot's fetch, starts the second slot's, drains the previous trip's first-slot write-outs (not at the first trip),
  transposes the first slab's sixteen sampled frames into the first staging buffer and starts its sixteen write-outs; then the
  same for the second slot, after starting the fetch of slab `2 k + 2`. The invariant `inv` says what is in flight when a trip
  is entered: one fetch into the first slab buffer (from one of the worker's two read shares of the transposed clip, the rest of
  that share and the other share held), the two batches of sixteen write-outs of the previous trip (each delivering a finished
  row piece and a staging row back), and, of the worker's row pieces, the finished ones, none for the two slabs in flight, the
  untouched ones. Between the last wait of a batch and the next write of its staging buffer nothing touches the buffer or the
  pieces, which is what makes sixteen copies on one semaphore sound here.
-/
import proofs.«216812_g82557861364368_cont_9to1c4b_466_28_alg».proof.Proof.KBGlue
import proofs.«216812_g82557861364368_cont_9to1c4b_466_28_alg».proof.Proof.KBAcc
import proofs.«216812_g82557861364368_cont_9to1c4b_466_28_alg».proof.Proof.KBCoreStmt

set_option maxHeartbeats 4000000

noncomputable section

namespace Cert.Proof.KB

open Cert.Kernel Cert.Kernel.GenP
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

open Idealize.ShloMosaic.Tactic Idealize.ShloMosaic.ValueIdx

local notation "xtW" => (Memref.whole Cert.Kernel.main_v0_scv : Memref Cert.Kernel.sig Kind.scVector Space.hbm Cert.Kernel.S3x224x224x128 EltTy.f32)
local notation "oW" => (Memref.whole Cert.Kernel.main_v1_scv : Memref Cert.Kernel.sig Kind.scVector Space.hbm Cert.Kernel.S2408448 EltTy.f32)
local notation "bi0" => (Memref.whole Cert.Kernel.cc0_scratch0 : Memref Cert.Kernel.sig Kind.scVector Space.vmem Cert.Kernel.S224x128 EltTy.f32)
local notation "bi1" => (Memref.whole Cert.Kernel.cc0_scratch1 : Memref Cert.Kernel.sig Kind.scVector Space.vmem Cert.Kernel.S224x128 EltTy.f32)
local notation "bo0" => (Memref.whole Cert.Kernel.cc0_scratch2 : Memref Cert.Kernel.sig Kind.scVector Space.vmem Cert.Kernel.S3584 EltTy.f32)
local notation "bo1" => (Memref.whole Cert.Kernel.cc0_scratch3 : Memref Cert.Kernel.sig Kind.scVector Space.vmem Cert.Kernel.S3584 EltTy.f32)

/-- The guard of the loop's two drains: trip `k` drains the previous trip's write-outs iff `k > 0`. -/
theorem cond_pos : ∀ k : Fin k0_t1_loop.trips, 0 < k.val →
    Scalar.cmpi .ne (Scalar.extui (Scalar.cmpi .sgt (Scf.iv 0#32 1#32 k) 0#32)) 0#32 = 1#1 := by decide +kernel
theorem cond_neg : ∀ k : Fin k0_t1_loop.trips, k.val = 0 →
    ¬ Scalar.cmpi .ne (Scalar.extui (Scalar.cmpi .sgt (Scf.iv 0#32 1#32 k) 0#32)) 0#32 = 1#1 := by decide +kernel

theorem trips1 : k0_t1_loop.trips = 10 := by decide

/-- One more wait on one of the subcore's own semaphores keeps the record of waits within what the launch allows. -/
theorem ins_ok {W W' : Waits sig (HIx 1)} (h : ∀ p ∈ W', p ∈ W ∨ p.2 = none) (s : SemLoc sig) :
    ∀ p ∈ insert (s, (none : HIx 1)) W', p ∈ W ∨ p.2 = none := by
  intro p hp
  rcases Finset.mem_insert.mp hp with rfl | hp
  · exact .inr rfl
  · exact h p hp

section
variable (m : (ℓ : Loc nD τ sig) → Buf (Elt F) ℓ) (d : Dev nD) (L : grid0.Coords)

/-! The finished pieces of a slab, from the sixteen write-outs' deliveries as the drain hands them back (each over the
    contents its piece held before, which the write covers). -/

theorem slab_outJ3 (k : Fin k0_t1_loop.trips) :
    iprop(ownP d L (dstM3 L k 0) (landedW d L (dstM3 L k 0) (rowM0 0) ((dstM3 L k 0).view.junk) (tr (slabC (XT m d) (slab L (2 * k.val))))) ∗ ownP d L (dstM3 L k 1) (landedW d L (dstM3 L k 1) (rowM0 1) ((dstM3 L k 1).view.junk) (tr (slabC (XT m d) (slab L (2 * k.val))))) ∗ ownP d L (dstM3 L k 2) (landedW d L (dstM3 L k 2) (rowM0 2) ((dstM3 L k 2).view.junk) (tr (slabC (XT m d) (slab L (2 * k.val))))) ∗ ownP d L (dstM3 L k 3) (landedW d L (dstM3 L k 3) (rowM0 3) ((dstM3 L k 3).view.junk) (tr (slabC (XT m d) (slab L (2 * k.val))))) ∗ ownP d L (dstM3 L k 4) (landedW d L (dstM3 L k 4) (rowM0 4) ((dstM3 L k 4).view.junk) (tr (slabC (XT m d) (slab L (2 * k.val))))) ∗ ownP d L (dstM3 L k 5) (landedW d L (dstM3 L k 5) (rowM0 5) ((dstM3 L k 5).view.junk) (tr (slabC (XT m d) (slab L (2 * k.val))))) ∗ ownP d L (dstM3 L k 6) (landedW d L (dstM3 L k 6) (rowM0 6) ((dstM3 L k 6).view.junk) (tr (slabC (XT m d) (slab L (2 * k.val))))) ∗ ownP d L (dstM3 L k 7) (landedW d L (dstM3 L k 7) (rowM0 7) ((dstM3 L k 7).view.junk) (tr (slabC (XT m d) (slab L (2 * k.val))))) ∗ ownP d L (dstM3 L k 8) (landedW d L (dstM3 L k 8) (rowM0 8) ((dstM3 L k 8).view.junk) (tr (slabC (XT m d) (slab L (2 * k.val))))) ∗ ownP d L (dstM3 L k 9) (landedW d L (dstM3 L k 9) (rowM0 9) ((dstM3 L k 9).view.junk) (tr (slabC (XT m d) (slab L (2 * k.val))))) ∗ ownP d L (dstM3 L k 10) (landedW d L (dstM3 L k 10) (rowM0 10) ((dstM3 L k 10).view.junk) (tr (slabC (XT m d) (slab L (2 * k.val))))) ∗ ownP d L (dstM3 L k 11) (landedW d L (dstM3 L k 11) (rowM0 11) ((dstM3 L k 11).view.junk) (tr (slabC (XT m d) (slab L (2 * k.val))))) ∗ ownP d L (dstM3 L k 12) (landedW d L (dstM3 L k 12) (rowM0 12) ((dstM3 L k 12).view.junk) (tr (slabC (XT m d) (slab L (2 * k.val))))) ∗ ownP d L (dstM3 L k 13) (landedW d L (dstM3 L k 13) (rowM0 13) ((dstM3 L k 13).view.junk) (tr (slabC (XT m d) (slab L (2 * k.val))))) ∗ ownP d L (dstM3 L k 14) (landedW d L (dstM3 L k 14) (rowM0 14) ((dstM3 L k 14).view.junk) (tr (slabC (XT m d) (slab L (2 * k.val))))) ∗ ownP d L (dstM3 L k 15) (landedW d L (dstM3 L k 15) (rowM0 15) ((dstM3 L k 15).view.junk) (tr (slabC (XT m d) (slab L (2 * k.val))))))
      ⊢ slabPieces d L ⟨2 * k.val, by have := two_k_lt k; omega⟩ (OUT m d) :=
  (Entails.of_eq (bigSep_fin16 (F := F) fun j : Fin 16 =>
      ownP d L (dstM3 L k j) (landedW d L (dstM3 L k j) (rowM0 j) ((dstM3 L k j).view.junk) (tr (slabC (XT m d) (slab L (2 * k.val)))))).symm).trans
    (bigSep_mono fun j _ => pout3 m d L k j _)

theorem slab_outJ4 (k : Fin k0_t1_loop.trips) :
    iprop(ownP d L (dstM4 L k 0) (landedW d L (dstM4 L k 0) (rowM1 0) ((dstM4 L k 0).view.junk) (tr (slabC (XT m d) (slab L (2 * k.val + 1))))) ∗ ownP d L (dstM4 L k 1) (landedW d L (dstM4 L k 1) (rowM1 1) ((dstM4 L k 1).view.junk) (tr (slabC (XT m d) (slab L (2 * k.val + 1))))) ∗ ownP d L (dstM4 L k 2) (landedW d L (dstM4 L k 2) (rowM1 2) ((dstM4 L k 2).view.junk) (tr (slabC (XT m d) (slab L (2 * k.val + 1))))) ∗ ownP d L (dstM4 L k 3) (landedW d L (dstM4 L k 3) (rowM1 3) ((dstM4 L k 3).view.junk) (tr (slabC (XT m d) (slab L (2 * k.val + 1))))) ∗ ownP d L (dstM4 L k 4) (landedW d L (dstM4 L k 4) (rowM1 4) ((dstM4 L k 4).view.junk) (tr (slabC (XT m d) (slab L (2 * k.val + 1))))) ∗ ownP d L (dstM4 L k 5) (landedW d L (dstM4 L k 5) (rowM1 5) ((dstM4 L k 5).view.junk) (tr (slabC (XT m d) (slab L (2 * k.val + 1))))) ∗ ownP d L (dstM4 L k 6) (landedW d L (dstM4 L k 6) (rowM1 6) ((dstM4 L k 6).view.junk) (tr (slabC (XT m d) (slab L (2 * k.val + 1))))) ∗ ownP d L (dstM4 L k 7) (landedW d L (dstM4 L k 7) (rowM1 7) ((dstM4 L k 7).view.junk) (tr (slabC (XT m d) (slab L (2 * k.val + 1))))) ∗ ownP d L (dstM4 L k 8) (landedW d L (dstM4 L k 8) (rowM1 8) ((dstM4 L k 8).view.junk) (tr (slabC (XT m d) (slab L (2 * k.val + 1))))) ∗ ownP d L (dstM4 L k 9) (landedW d L (dstM4 L k 9) (rowM1 9) ((dstM4 L k 9).view.junk) (tr (slabC (XT m d) (slab L (2 * k.val + 1))))) ∗ ownP d L (dstM4 L k 10) (landedW d L (dstM4 L k 10) (rowM1 10) ((dstM4 L k 10).view.junk) (tr (slabC (XT m d) (slab L (2 * k.val + 1))))) ∗ ownP d L (dstM4 L k 11) (landedW d L (dstM4 L k 11) (rowM1 11) ((dstM4 L k 11).view.junk) (tr (slabC (XT m d) (slab L (2 * k.val + 1))))) ∗ ownP d L (dstM4 L k 12) (landedW d L (dstM4 L k 12) (rowM1 12) ((dstM4 L k 12).view.junk) (tr (slabC (XT m d) (slab L (2 * k.val + 1))))) ∗ ownP d L (dstM4 L k 13) (landedW d L (dstM4 L k 13) (rowM1 13) ((dstM4 L k 13).view.junk) (tr (slabC (XT m d) (slab L (2 * k.val + 1))))) ∗ ownP d L (dstM4 L k 14) (landedW d L (dstM4 L k 14) (rowM1 14) ((dstM4 L k 14).view.junk) (tr (slabC (XT m d) (slab L (2 * k.val + 1))))) ∗ ownP d L (dstM4 L k 15) (landedW d L (dstM4 L k 15) (rowM1 15) ((dstM4 L k 15).view.junk) (tr (slabC (XT m d) (slab L (2 * k.val + 1))))))
      ⊢ slabPieces d L ⟨2 * k.val + 1, two_k_lt k⟩ (OUT m d) :=
  (Entails.of_eq (bigSep_fin16 (F := F) fun j : Fin 16 =>
      ownP d L (dstM4 L k j) (landedW d L (dstM4 L k j) (rowM1 j) ((dstM4 L k j).view.junk) (tr (slabC (XT m d) (slab L (2 * k.val + 1)))))).symm).trans
    (bigSep_mono fun j _ => pout4 m d L k j _)

theorem slab_outJ5  :
    iprop(ownP d L (dstM5 L 0) (landedW d L (dstM5 L 0) (rowM0 0) ((dstM5 L 0).view.junk) (tr (slabC (XT m d) (slab L 20)))) ∗ ownP d L (dstM5 L 1) (landedW d L (dstM5 L 1) (rowM0 1) ((dstM5 L 1).view.junk) (tr (slabC (XT m d) (slab L 20)))) ∗ ownP d L (dstM5 L 2) (landedW d L (dstM5 L 2) (rowM0 2) ((dstM5 L 2).view.junk) (tr (slabC (XT m d) (slab L 20)))) ∗ ownP d L (dstM5 L 3) (landedW d L (dstM5 L 3) (rowM0 3) ((dstM5 L 3).view.junk) (tr (slabC (XT m d) (slab L 20)))) ∗ ownP d L (dstM5 L 4) (landedW d L (dstM5 L 4) (rowM0 4) ((dstM5 L 4).view.junk) (tr (slabC (XT m d) (slab L 20)))) ∗ ownP d L (dstM5 L 5) (landedW d L (dstM5 L 5) (rowM0 5) ((dstM5 L 5).view.junk) (tr (slabC (XT m d) (slab L 20)))) ∗ ownP d L (dstM5 L 6) (landedW d L (dstM5 L 6) (rowM0 6) ((dstM5 L 6).view.junk) (tr (slabC (XT m d) (slab L 20)))) ∗ ownP d L (dstM5 L 7) (landedW d L (dstM5 L 7) (rowM0 7) ((dstM5 L 7).view.junk) (tr (slabC (XT m d) (slab L 20)))) ∗ ownP d L (dstM5 L 8) (landedW d L (dstM5 L 8) (rowM0 8) ((dstM5 L 8).view.junk) (tr (slabC (XT m d) (slab L 20)))) ∗ ownP d L (dstM5 L 9) (landedW d L (dstM5 L 9) (rowM0 9) ((dstM5 L 9).view.junk) (tr (slabC (XT m d) (slab L 20)))) ∗ ownP d L (dstM5 L 10) (landedW d L (dstM5 L 10) (rowM0 10) ((dstM5 L 10).view.junk) (tr (slabC (XT m d) (slab L 20)))) ∗ ownP d L (dstM5 L 11) (landedW d L (dstM5 L 11) (rowM0 11) ((dstM5 L 11).view.junk) (tr (slabC (XT m d) (slab L 20)))) ∗ ownP d L (dstM5 L 12) (landedW d L (dstM5 L 12) (rowM0 12) ((dstM5 L 12).view.junk) (tr (slabC (XT m d) (slab L 20)))) ∗ ownP d L (dstM5 L 13) (landedW d L (dstM5 L 13) (rowM0 13) ((dstM5 L 13).view.junk) (tr (slabC (XT m d) (slab L 20)))) ∗ ownP d L (dstM5 L 14) (landedW d L (dstM5 L 14) (rowM0 14) ((dstM5 L 14).view.junk) (tr (slabC (XT m d) (slab L 20)))) ∗ ownP d L (dstM5 L 15) (landedW d L (dstM5 L 15) (rowM0 15) ((dstM5 L 15).view.junk) (tr (slabC (XT m d) (slab L 20)))))
      ⊢ slabPieces d L ⟨20, by omega⟩ (OUT m d) :=
  (Entails.of_eq (bigSep_fin16 (F := F) fun j : Fin 16 =>
      ownP d L (dstM5 L j) (landedW d L (dstM5 L j) (rowM0 j) ((dstM5 L j).view.junk) (tr (slabC (XT m d) (slab L 20))))).symm).trans
    (bigSep_mono fun j _ => pout5 m d L  j _)

/-- The transposed clip and the result's launch contents, as the subcore's memrefs address them. -/
abbrev XX : Buf (Elt F) ((xtW).view.loc (thr d L)) := XT m d
abbrev FO : Buf (Elt F) ((oW).view.loc (thr d L)) := m (oLoc d)
/-- Slab `g` of the transposed clip, and its sampled frames' transpose. -/
abbrev Bs (g : ℕ) : Buf (Elt F) ((bi0).view.loc (thr d L)) := slabC (α := Elt F .f32) (XT m d) g
abbrev Ts0 (g : ℕ) : Buf (Elt F) ((bo0).view.loc (thr d L)) := tr (F := F) (slabC (α := Elt F .f32) (XT m d) g)
abbrev Ts1 (g : ℕ) : Buf (Elt F) ((bo1).view.loc (thr d L)) := tr (F := F) (slabC (α := Elt F .f32) (XT m d) g)

/-- The write-outs' deliveries: piece `j` landed, staging row `j` back. -/
abbrev D3 (k : Fin k0_t1_loop.trips) (T : Buf (Elt F) ((bo0).view.loc (thr d L))) (j : Fin 16) : sProp 𝕄 :=
  iprop(ownP d L (dstM3 L k j) (landedW d L (dstM3 L k j) (rowM0 j) (m (oLoc d)) T) ∗ ownP d L (rowM0 j) T)
abbrev D4 (k : Fin k0_t1_loop.trips) (T : Buf (Elt F) ((bo1).view.loc (thr d L))) (j : Fin 16) : sProp 𝕄 :=
  iprop(ownP d L (dstM4 L k j) (landedW d L (dstM4 L k j) (rowM1 j) (m (oLoc d)) T) ∗ ownP d L (rowM1 j) T)
abbrev D5 (T : Buf (Elt F) ((bo0).view.loc (thr d L))) (j : Fin 16) : sProp 𝕄 :=
  iprop(ownP d L (dstM5 L j) (landedW d L (dstM5 L j) (rowM0 j) (m (oLoc d)) T) ∗ ownP d L (rowM0 j) T)
abbrev N3 (k : Fin k0_t1_loop.trips) : ℕ := (dstM3 L k 0).view.amount (SemLoc.dma (sig := sig) cc0_scratch6.sem)
abbrev N4 (k : Fin k0_t1_loop.trips) : ℕ := (dstM4 L k 0).view.amount (SemLoc.dma (sig := sig) cc0_scratch7.sem)
abbrev N5 : ℕ := (dstM5 L 0).view.amount (SemLoc.dma (sig := sig) cc0_scratch6.sem)

/-- The staging buffers inside the transposition loops. -/
def J2 (B : Buf (Elt F) ((bi0).view.loc (thr d L))) (f : Buf (Elt F) ((bo0).view.loc (thr d L))) (n : Nat) (_ : PUnit) : sProp 𝕄 :=
  iprop(((bi0).view.loc (thr d L) ↦{fullShare} B) ∗ ((bo0).view.loc (thr d L) ↦{fullShare} acc2 (F := F) B f n))
def J3 (B : Buf (Elt F) ((bi1).view.loc (thr d L))) (f : Buf (Elt F) ((bo1).view.loc (thr d L))) (n : Nat) (_ : PUnit) : sProp 𝕄 :=
  iprop(((bi1).view.loc (thr d L) ↦{fullShare} B) ∗ ((bo1).view.loc (thr d L) ↦{fullShare} acc3 (F := F) B f n))
def J4 (B : Buf (Elt F) ((bi0).view.loc (thr d L))) (f : Buf (Elt F) ((bo0).view.loc (thr d L))) (n : Nat) (_ : PUnit) : sProp 𝕄 :=
  iprop(((bi0).view.loc (thr d L) ↦{fullShare} B) ∗ ((bo0).view.loc (thr d L) ↦{fullShare} acc4 (F := F) B f n))

/-- What is in flight on the first slot and the two write-out semaphores when trip `n` is entered. -/
def head0 (qa : PosShare TreeShare) : sProp 𝕄 :=
  iprop(Transfers.Flight (countersEmb (U := UU)) (thr d L) (SemLoc.dma cc0_scratch4.sem) (none : HIx 1) 917504
        iprop(((bi0).view.loc (thr d L) ↦{fullShare} Bs m d L (slab L 0)) ∗ ((xtW).view.loc (thr d L) ↦[(slabM1 L).view.set]{qa} XX m d L))
    ∗ ((xtW).view.loc (thr d L) ↦[Finset.univ \ (slabM1 L).view.set]{qa} XX m d L)
    ∗ (∃ f, (bo0).view.loc (thr d L) ↦{fullShare} f) ∗ semVal (thr d L, SemLoc.dma cc0_scratch6.sem) 0
    ∗ (∃ f, (bo1).view.loc (thr d L) ↦{fullShare} f) ∗ semVal (thr d L, SemLoc.dma cc0_scratch7.sem) 0)
def headS (qa : PosShare TreeShare) (kp : Fin k0_t1_loop.trips) : sProp 𝕄 :=
  iprop(Transfers.Flight (countersEmb (U := UU)) (thr d L) (SemLoc.dma cc0_scratch4.sem) (none : HIx 1) 917504
        iprop(((bi0).view.loc (thr d L) ↦{fullShare} Bs m d L (slab L (2 * kp.val + 2))) ∗ ((xtW).view.loc (thr d L) ↦[(slabM2 L kp 1).view.set]{qa} XX m d L))
    ∗ ((xtW).view.loc (thr d L) ↦[Finset.univ \ (slabM2 L kp 1).view.set]{qa} XX m d L)
    ∗ Transfers.Batch (countersEmb (U := UU)) (thr d L) (SemLoc.dma cc0_scratch6.sem) (none : HIx 1) (N3 L kp) (D3 m d L kp (Ts0 m d L (slab L (2 * kp.val)))) 16 0
    ∗ Transfers.Batch (countersEmb (U := UU)) (thr d L) (SemLoc.dma cc0_scratch7.sem) (none : HIx 1) (N4 L kp) (D4 m d L kp (Ts1 m d L (slab L (2 * kp.val + 1)))) 16 0)
def head (qa : PosShare TreeShare) (n : ℕ) : sProp 𝕄 :=
  if n = 0 then head0 m d L qa else if h : n - 1 < k0_t1_loop.trips then headS m d L qa ⟨n - 1, h⟩ else iprop(False)

/-- The main loop's invariant at trip `n`. -/
def inv (O : CellTallies nD τ sig (HIx 1)) (W : Waits sig (HIx 1)) (n : ℕ) (_ : PUnit) : sProp 𝕄 :=
  iprop(∃ qa qb : PosShare TreeShare, ⌜(qa = shA L ∧ qb = shB L) ∨ (qa = shB L ∧ qb = shA L)⌝
    ∗ Transfers.MayWaits (thr d L) (none : HIx 1) O
    ∗ head m d L qa n
    ∗ ((xtW).view.loc (thr d L) ↦{qb} XX m d L)
    ∗ (∃ f, (bi1).view.loc (thr d L) ↦{fullShare} f) ∗ semVal (thr d L, SemLoc.dma cc0_scratch5.sem) 0
    ∗ (bigSep Finset.univ fun t : Fin 21 => slabRes m d L n t)
    ∗ ∃ W', ⌜∀ p ∈ W', p ∈ W ∨ p.2 = none⌝ ∗ owes (thr d L) O W')

theorem head_succ (qa : PosShare TreeShare) (k : Fin k0_t1_loop.trips) : head m d L qa (k.val + 1) = headS m d L qa k := by
  unfold head
  rw [if_neg (Nat.succ_ne_zero _), dif_pos (show k.val + 1 - 1 < k0_t1_loop.trips from by have := k.isLt; omega)]
  exact congrArg (headS m d L qa) (Fin.ext (Nat.add_sub_cancel ..))

theorem trip_first (O : CellTallies nD τ sig (HIx 1)) (W : Waits sig (HIx 1)) (k : Fin k0_t1_loop.trips) (hk : k.val = 0) (v2 : BitVec 32) (u : PUnit) :
    inv m d L O W k.val u
      ⊢ wp frame (wpE (defs₀ (F := F)) 𝒱₀ (thr d L) none) Set.univ
          (k0_t1_body L xtW (Memref.isWhole_whole _) oW (Memref.isWhole_whole _) bi0 (Memref.isWhole_whole _) bi1 (Memref.isWhole_whole _)
            bo0 (Memref.isWhole_whole _) bo1 (Memref.isWhole_whole _) cc0_scratch4 cc0_scratch5 cc0_scratch6 cc0_scratch7 v2 k u)
          (inv m d L O W (k.val + 1)) := by
  unfold inv
  iintro ⟨%qa, %qb, %hperm, Hmw, Hhead, Hxb, ⟨%f1, H1⟩, S1, Hres, %W', %hW', HO⟩
  ihave Hh := (Entails.of_eq (show head m d L qa k.val = head0 m d L qa from if_pos hk)) $$ Hhead
  unfold head0
  have e0 : slab L 0 = slab L (2 * k.val) := by rw [hk]
  rw [e0]
  icases Hh with ⟨HF0, Hxr, ⟨%f2, H2⟩, S2, ⟨%f3, H3⟩, S3⟩
  ihave Hr := (slabRes_take m d L k.val (by have h1 := k.isLt; have h2 := trips1; omega)) $$ Hres
  icases Hr with ⟨Pa, Pb, Hback⟩
  ihave Pa' := (Entails.of_eq (slab_in3 (F := F) d L k (m (oLoc d)))) $$ Pa
  icases Pa' with ⟨P0, P1, P2, P3, P4, P5, P6, P7, P8, P9, P10, P11, P12, P13, P14, P15⟩
  ihave Pb' := (Entails.of_eq (slab_in4 (F := F) d L k (m (oLoc d)))) $$ Pb
  icases Pb' with ⟨R0, R1, R2, R3, R4, R5, R6, R7, R8, R9, R10, R11, R12, R13, R14, R15⟩
  unfold k0_t1_body
  sl_exec (disch := first | exact cond_neg k (by omega) | exact cond_pos k (by omega))

  sl_for (J2 (F := F) d L (Bs m d L (slab L (2 * k.val))) f2) $$ [HF0_dst H2]
  case region =>
    intro kk u'
    unfold J2
    refine (trip2 (F := F) d L k _ kk _ _).trans (wp_mono frame _ _ fun _ => ?_)
    iintro ⟨Ha, %g', %hg, Hb⟩
    subst hg
    isplitl [Ha]; · iexact Ha
    rw [acc2_succ]; iexact Hb
  · unfold J2
    isplitl [HF0_dst]; · iexact HF0_dst
    iexact H2
  iintro %acc2u HI
  unfold J2
  icases HI with ⟨H0, H2⟩
  ihave H2 := (Entails.of_eq (congrArg (fun f => (((bo0).view.loc (thr d L) ↦{fullShare} f : sProp 𝕄))) (acc2_full (F := F) (Bs m d L (slab L (2 * k.val))) f2))) $$ H2
  imod (Transfers.batch_alloc' (Lvl := ℕ) (countersEmb (U := UU)) (thr d L) (none : HIx 1) (N3 L k)
    (D3 (F := F) m d L k (Ts0 m d L (slab L (2 * k.val)))) (sm := .dma cc0_scratch6.sem) (E := Set.univ)) $$ S2 with HB2
  sl_exec (disch := first | exact cond_neg k (by omega) | exact cond_pos k (by omega))
  -- the second slot's slab has landed: slab 2k + 1
  ihave H1 := (Entails.of_eq (congrArg (fun f => (((bi1).view.loc (thr d L) ↦{fullShare} f : sProp 𝕄)))
    ((View.write_whole_univ _ _ _).trans (slabM2_read (F := F) d L k 0 (XX m d L))))) $$ H1

  sl_for (J3 (F := F) d L (slabC (α := Elt F .f32) (XT m d) (slab L (2 * k.val + 1 + (0 : Fin 2).val))) f3) $$ [H1 H3]
  case region =>
    intro kk u'
    unfold J3
    refine (trip3 (F := F) d L k _ _ _ kk _ _).trans (wp_mono frame _ _ fun _ => ?_)
    iintro ⟨Ha, %g', %hg, Hb⟩
    subst hg
    isplitl [Ha]; · iexact Ha
    rw [acc3_succ]; iexact Hb
  · unfold J3
    isplitl [H1]; · iexact H1
    iexact H3
  iintro %acc3u HI
  unfold J3
  icases HI with ⟨H1, H3⟩
  ihave H3 := (Entails.of_eq (congrArg (fun f => (((bo1).view.loc (thr d L) ↦{fullShare} f : sProp 𝕄))) (acc3_full (F := F) (slabC (α := Elt F .f32) (XT m d) (slab L (2 * k.val + 1 + (0 : Fin 2).val))) f3))) $$ H3
  imod (Transfers.batch_alloc' (Lvl := ℕ) (countersEmb (U := UU)) (thr d L) (none : HIx 1) (N4 L k)
    (D4 (F := F) m d L k (Ts1 m d L (slab L (2 * k.val + 1)))) (sm := .dma cc0_scratch7.sem) (E := Set.univ)) $$ S3 with HB3
  sl_exec (disch := first | exact cond_neg k (by omega) | exact cond_pos k (by omega))
  sl_step
  iexists qa, qb
  isplitr; · ipureintro; exact hperm
  isplitl [Hmw]; · iexact Hmw
  isplitl [HF0 Hxr HB2 HB3]
  · rw [head_succ]; unfold headS
    isplitl [HF0]
    · iapply (Transfers.Flight_mono (countersEmb (U := UU)) (thr d L)
        (BI.sep_mono (Entails.of_eq (congrArg (fun f => (((bi0).view.loc (thr d L) ↦{fullShare} f : sProp 𝕄)))
          ((View.write_whole_univ (Val := Elt F) (cc0_scratch0 : Ref sig .scVector) _ _).trans (slabM2_read (F := F) d L k 1 (XX m d L))))) (BI.Entails.refl _)))
      iexact HF0
    isplitl [Hxr]; · iexact Hxr
    isplitl [HB2]; · iexact HB2
    iexact HB3
  isplitl [Hxb]; · iexact Hxb
  isplitl [H1]; · iexists _; iexact H1
  isplitl [S1]; · iexact S1
  isplitl [Hback]
  · iapply Hback
    unfold drained; rw [dif_neg (by omega)]; iempintro
  iexists _; isplitr
  rotate_left
  · iexact HO
  · ipureintro
    repeat (first | exact hW' | refine ins_ok ?_ _)

theorem trip_next (O : CellTallies nD τ sig (HIx 1)) (W : Waits sig (HIx 1)) (k : Fin k0_t1_loop.trips) (hk : 0 < k.val) (v2 : BitVec 32) (u : PUnit) :
    inv m d L O W k.val u
      ⊢ wp frame (wpE (defs₀ (F := F)) 𝒱₀ (thr d L) none) Set.univ
          (k0_t1_body L xtW (Memref.isWhole_whole _) oW (Memref.isWhole_whole _) bi0 (Memref.isWhole_whole _) bi1 (Memref.isWhole_whole _)
            bo0 (Memref.isWhole_whole _) bo1 (Memref.isWhole_whole _) cc0_scratch4 cc0_scratch5 cc0_scratch6 cc0_scratch7 v2 k u)
          (inv m d L O W (k.val + 1)) := by
  unfold inv
  iintro ⟨%qa, %qb, %hperm, Hmw, Hhead, Hxb, ⟨%f1, H1⟩, S1, Hres, %W', %hW', HO⟩
  have hkp : k.val - 1 < k0_t1_loop.trips := by have := k.isLt; omega
  ihave Hh := (Entails.of_eq (show head m d L qa k.val = headS m d L qa ⟨k.val - 1, hkp⟩ from by
      unfold head; rw [if_neg (by omega), dif_pos hkp])) $$ Hhead
  unfold headS
  have e0 : slab L (2 * (⟨k.val - 1, hkp⟩ : Fin k0_t1_loop.trips).val + 2) = slab L (2 * k.val) := by
    show slab L (2 * (k.val - 1) + 2) = _
    congr 1; omega
  rw [e0]
  icases Hh with ⟨HF0, Hxr, HB2o, HB3o⟩
  ihave Hr := (slabRes_take m d L k.val (by have h1 := k.isLt; have h2 := trips1; omega)) $$ Hres
  icases Hr with ⟨Pa, Pb, Hback⟩
  ihave Pa' := (Entails.of_eq (slab_in3 (F := F) d L k (m (oLoc d)))) $$ Pa
  icases Pa' with ⟨P0, P1, P2, P3, P4, P5, P6, P7, P8, P9, P10, P11, P12, P13, P14, P15⟩
  ihave Pb' := (Entails.of_eq (slab_in4 (F := F) d L k (m (oLoc d)))) $$ Pb
  icases Pb' with ⟨R0, R1, R2, R3, R4, R5, R6, R7, R8, R9, R10, R11, R12, R13, R14, R15⟩
  unfold k0_t1_body
  sl_exec (disch := first | exact cond_neg k (by omega) | exact cond_pos k (by omega))

  -- the previous trip's first-slot write-outs have landed: the staging buffer is whole again, slab 2k - 2 is finished
  ihave H2 := (rows_join0 (F := F) d L (Ts0 m d L (slab L (2 * (⟨k.val - 1, hkp⟩ : Fin k0_t1_loop.trips).val)))) $$ [HB2o_src0 HB2o_src1 HB2o_src2 HB2o_src3 HB2o_src4 HB2o_src5 HB2o_src6 HB2o_src7 HB2o_src8 HB2o_src9 HB2o_src10 HB2o_src11 HB2o_src12 HB2o_src13 HB2o_src14 HB2o_src15]
  · iframe
  ihave Pd2 := (slab_outJ3 (F := F) m d L ⟨k.val - 1, hkp⟩) $$ [HB2o_dst0 HB2o_dst1 HB2o_dst2 HB2o_dst3 HB2o_dst4 HB2o_dst5 HB2o_dst6 HB2o_dst7 HB2o_dst8 HB2o_dst9 HB2o_dst10 HB2o_dst11 HB2o_dst12 HB2o_dst13 HB2o_dst14 HB2o_dst15]
  · iframe
  sl_for (J2 (F := F) d L (Bs m d L (slab L (2 * k.val))) (Ts0 m d L (slab L (2 * (⟨k.val - 1, hkp⟩ : Fin k0_t1_loop.trips).val)))) $$ [HF0_dst H2]
  case region =>
    intro kk u'
    unfold J2
    refine (trip2 (F := F) d L k _ kk _ _).trans (wp_mono frame _ _ fun _ => ?_)
    iintro ⟨Ha, %g', %hg, Hb⟩
    subst hg
    isplitl [Ha]; · iexact Ha
    rw [acc2_succ]; iexact Hb
  · unfold J2
    isplitl [HF0_dst]; · iexact HF0_dst
    iexact H2
  iintro %acc2u HI
  unfold J2
  icases HI with ⟨H0, H2⟩
  ihave H2 := (Entails.of_eq (congrArg (fun f => (((bo0).view.loc (thr d L) ↦{fullShare} f : sProp 𝕄))) (acc2_full (F := F) (Bs m d L (slab L (2 * k.val))) (Ts0 m d L (slab L (2 * (⟨k.val - 1, hkp⟩ : Fin k0_t1_loop.trips).val)))))) $$ H2
  ihave S2n : (semVal (thr d L, SemLoc.dma cc0_scratch6.sem) 0 : sProp 𝕄) $$ [HB2o]; · iexact HB2o
  imod (Transfers.batch_alloc' (Lvl := ℕ) (countersEmb (U := UU)) (thr d L) (none : HIx 1) (N3 L k)
    (D3 (F := F) m d L k (Ts0 m d L (slab L (2 * k.val)))) (sm := .dma cc0_scratch6.sem) (E := Set.univ)) $$ S2n with HB2
  sl_exec (disch := first | exact cond_neg k (by omega) | exact cond_pos k (by omega))
  -- the second slot's slab has landed: slab 2k + 1
  ihave H1 := (Entails.of_eq (congrArg (fun f => (((bi1).view.loc (thr d L) ↦{fullShare} f : sProp 𝕄)))
    ((View.write_whole_univ _ _ _).trans (slabM2_read (F := F) d L k 0 (XX m d L))))) $$ H1
  -- the previous trip's second-slot write-outs have landed
  ihave H3 := (rows_join1 (F := F) d L (Ts1 m d L (slab L (2 * (⟨k.val - 1, hkp⟩ : Fin k0_t1_loop.trips).val + 1)))) $$ [HB3o_src0 HB3o_src1 HB3o_src2 HB3o_src3 HB3o_src4 HB3o_src5 HB3o_src6 HB3o_src7 HB3o_src8 HB3o_src9 HB3o_src10 HB3o_src11 HB3o_src12 HB3o_src13 HB3o_src14 HB3o_src15]
  · iframe
  ihave Pd3 := (slab_outJ4 (F := F) m d L ⟨k.val - 1, hkp⟩) $$ [HB3o_dst0 HB3o_dst1 HB3o_dst2 HB3o_dst3 HB3o_dst4 HB3o_dst5 HB3o_dst6 HB3o_dst7 HB3o_dst8 HB3o_dst9 HB3o_dst10 HB3o_dst11 HB3o_dst12 HB3o_dst13 HB3o_dst14 HB3o_dst15]
  · iframe
  sl_for (J3 (F := F) d L (slabC (α := Elt F .f32) (XT m d) (slab L (2 * k.val + 1 + (0 : Fin 2).val))) (Ts1 m d L (slab L (2 * (⟨k.val - 1, hkp⟩ : Fin k0_t1_loop.trips).val + 1)))) $$ [H1 H3]
  case region =>
    intro kk u'
    unfold J3
    refine (trip3 (F := F) d L k _ _ _ kk _ _).trans (wp_mono frame _ _ fun _ => ?_)
    iintro ⟨Ha, %g', %hg, Hb⟩
    subst hg
    isplitl [Ha]; · iexact Ha
    rw [acc3_succ]; iexact Hb
  · unfold J3
    isplitl [H1]; · iexact H1
    iexact H3
  iintro %acc3u HI
  unfold J3
  icases HI with ⟨H1, H3⟩
  ihave H3 := (Entails.of_eq (congrArg (fun f => (((bo1).view.loc (thr d L) ↦{fullShare} f : sProp 𝕄))) (acc3_full (F := F) (slabC (α := Elt F .f32) (XT m d) (slab L (2 * k.val + 1 + (0 : Fin 2).val))) (Ts1 m d L (slab L (2 * (⟨k.val - 1, hkp⟩ : Fin k0_t1_loop.trips).val + 1)))))) $$ H3
  ihave S3n : (semVal (thr d L, SemLoc.dma cc0_scratch7.sem) 0 : sProp 𝕄) $$ [HB3o]; · iexact HB3o
  imod (Transfers.batch_alloc' (Lvl := ℕ) (countersEmb (U := UU)) (thr d L) (none : HIx 1) (N4 L k)
    (D4 (F := F) m d L k (Ts1 m d L (slab L (2 * k.val + 1)))) (sm := .dma cc0_scratch7.sem) (E := Set.univ)) $$ S3n with HB3
  sl_exec (disch := first | exact cond_neg k (by omega) | exact cond_pos k (by omega))
  sl_step
  iexists qa, qb
  isplitr; · ipureintro; exact hperm
  isplitl [Hmw]; · iexact Hmw
  isplitl [HF0 Hxr HB2 HB3]
  · rw [head_succ]; unfold headS
    isplitl [HF0]
    · iapply (Transfers.Flight_mono (countersEmb (U := UU)) (thr d L)
        (BI.sep_mono (Entails.of_eq (congrArg (fun f => (((bi0).view.loc (thr d L) ↦{fullShare} f : sProp 𝕄)))
          ((View.write_whole_univ (Val := Elt F) (cc0_scratch0 : Ref sig .scVector) _ _).trans (slabM2_read (F := F) d L k 1 (XX m d L))))) (BI.Entails.refl _)))
      iexact HF0
    isplitl [Hxr]; · iexact Hxr
    isplitl [HB2]; · iexact HB2
    iexact HB3
  isplitl [Hxb]; · iexact Hxb
  isplitl [H1]; · iexists _; iexact H1
  isplitl [S1]; · iexact S1
  isplitl [Hback Pd2 Pd3]
  · iapply Hback
    have hA : 2 * (k.val - 1) < 21 := by have h1 := k.isLt; have h2 := trips1; omega
    have hB : 2 * (k.val - 1) + 1 < 21 := by have h1 := k.isLt; have h2 := trips1; omega
    have hC : 2 * k.val - 2 < 21 := by have h1 := k.isLt; have h2 := trips1; omega
    have hD : 2 * k.val - 1 < 21 := by have h1 := k.isLt; have h2 := trips1; omega
    have e2 : (⟨2 * (k.val - 1), hA⟩ : Fin 21) = ⟨2 * k.val - 2, hC⟩ := Fin.ext (show 2 * (k.val - 1) = 2 * k.val - 2 by omega)
    have e3 : (⟨2 * (k.val - 1) + 1, hB⟩ : Fin 21) = ⟨2 * k.val - 1, hD⟩ := Fin.ext (show 2 * (k.val - 1) + 1 = 2 * k.val - 1 by omega)
    unfold drained; rw [dif_pos hk]
    isplitl [Pd2]
    · iapply (Entails.of_eq (congrArg (fun t => slabPieces d L t (OUT m d)) e2)); iexact Pd2
    · iapply (Entails.of_eq (congrArg (fun t => slabPieces d L t (OUT m d)) e3)); iexact Pd3
  iexists _; isplitr
  rotate_left
  · iexact HO
  · ipureintro
    repeat (first | exact hW' | refine ins_ok ?_ _)

end

end Cert.Proof.KB

end
-- ==== Proof.KBWrap.lean ====
/-
  From the task over explicit resources to the task as the launch hands it to a vector subcore.

  The launch gives the subcore its scoped storage as two bundles: every buffer it owns, whole at some contents, and every
  scoped semaphore it owns, at zero. Four of the buffers are the kernel's scratch operands and four of the semaphores its
  copy semaphores; each bundle is those four and the rest. The rest is carried across the task untouched and put back at the
  end. The evidence that the subcore may wait on its own semaphores comes from the levels: a kernel's own wait sits at level
  zero, below everything the subcore owes the launch.
-/
import proofs.«216812_g82557861364368_cont_9to1c4b_466_28_alg».proof.Proof.KBCoreStmt

noncomputable section

namespace Cert.Proof.KB

open Cert.Kernel Cert.Kernel.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Split
variable (d : Dev nD) (L : grid0.Coords)

/-- The subcore's four copy semaphores, as cells. -/
abbrev cell4 : GSem nD τ sig := (thr d L, .dma cc0_scratch4.sem)
abbrev cell5 : GSem nD τ sig := (thr d L, .dma cc0_scratch5.sem)
abbrev cell6 : GSem nD τ sig := (thr d L, .dma cc0_scratch6.sem)
abbrev cell7 : GSem nD τ sig := (thr d L, .dma cc0_scratch7.sem)

theorem cell_ne {a b : SemLoc sig} (h : a ≠ b) : ((thr d L, a) : GSem nD τ sig) ≠ (thr d L, b) :=
  fun e => h (congrArg Prod.snd e)

/-- The subcore's scoped semaphores at zero: its four copy semaphores, and the rest. -/
theorem ownSems0_V4 :
    (ownSems0 (thr d L) : sProp 𝕄)
      = iprop(semVal (cell4 d L) 0 ∗ semVal (cell5 d L) 0 ∗ semVal (cell6 d L) 0 ∗ semVal (cell7 d L) 0
          ∗ bigSep (((((ownCells (thr d L)).erase (cell4 d L)).erase (cell5 d L)).erase (cell6 d L)).erase (cell7 d L))
              fun g => semVal g 0) := by
  unfold SparseCore.Cfg.ownSems0
  rw [SparseCore.bigSep_erase' ((mem_ownCells (g := cell4 d L)).mpr ⟨rfl, by
      show (SemLoc.dma cc0_scratch4.sem : SemLoc sig).isScoped .scVector = true; decide⟩),
    SparseCore.bigSep_erase' (Finset.mem_erase.mpr ⟨cell_ne d L (by decide), (mem_ownCells (g := cell5 d L)).mpr ⟨rfl, by
      show (SemLoc.dma cc0_scratch5.sem : SemLoc sig).isScoped .scVector = true; decide⟩⟩),
    SparseCore.bigSep_erase' (Finset.mem_erase.mpr ⟨cell_ne d L (by decide), Finset.mem_erase.mpr ⟨cell_ne d L (by decide),
      (mem_ownCells (g := cell6 d L)).mpr ⟨rfl, by show (SemLoc.dma cc0_scratch6.sem : SemLoc sig).isScoped .scVector = true; decide⟩⟩⟩),
    SparseCore.bigSep_erase' (Finset.mem_erase.mpr ⟨cell_ne d L (by decide), Finset.mem_erase.mpr ⟨cell_ne d L (by decide),
      Finset.mem_erase.mpr ⟨cell_ne d L (by decide),
      (mem_ownCells (g := cell7 d L)).mpr ⟨rfl, by show (SemLoc.dma cc0_scratch7.sem : SemLoc sig).isScoped .scVector = true; decide⟩⟩⟩⟩)]

/-- The subcore's processor. -/
abbrev prc : Proc τ := Proc.scVector ((L 0).castLE hcore0) ((L 1).castLE hsub0)

/-- The subcore's own buffers: its four scratch buffers, each at some contents, and the rest. -/
theorem ownBufs_V4 :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (prc L)).erase ((prc L).devRef cc0_scratch0)).erase ((prc L).devRef cc0_scratch1)).erase
              ((prc L).devRef cc0_scratch2)).erase ((prc L).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := prc L) (b := (prc L).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := prc L) (b := (prc L).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := prc L) (b := (prc L).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := prc L) (b := (prc L).devRef cc0_scratch3) rfl⟩⟩⟩)]

/-- The four scratch buffers as the task names them are the subcore's buffers of those references. -/
theorem scratchAny_eq :
    (scratchAny d L : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)) := rfl

theorem semsZero_eq :
    (semsZero d L : sProp 𝕄)
      = iprop(semVal (cell4 d L) 0 ∗ semVal (cell5 d L) 0 ∗ semVal (cell6 d L) 0 ∗ semVal (cell7 d L) 0) := rfl

end Split

/-- The task as the launch hands it over, from the task over explicit resources. -/
theorem tile_of_core [FloatOps F] (m : (ℓ : Loc nD τ sig) → Buf (Elt F) ℓ) (hcore : TileCoreStmt m) : TileBodyStmt m := by
  intro hF d L O W hO
  rw [(K (F := F)).scopedBufs_V hF d ((L 0).castLE hcore0) ((L 1).castLE hsub0),
    SparseCore.Cfg.scopedSems0_V (Val := Elt F) d ((L 0).castLE hcore0) ((L 1).castLE hsub0), ownSems0_V4, ownBufs_V4]
  iintro ⟨#Hlv, -, Hgo, ⟨HA, HB, HC, HD, Hbufs⟩, ⟨H4, H5, H6, H7, Hsems⟩, HO⟩
  ihave Hmw := ((K (F := F)).mayWaits_none (thr := thr d L) hO) $$ Hlv
  ihave Hwp := (hcore d L O W) $$ [Hmw Hgo HA HB HC HD H4 H5 H6 H7 HO]
  · isplitl [Hmw]; · iexact Hmw
    isplitl [Hgo]; · iexact Hgo
    isplitl [HA HB HC HD]
    · rw [scratchAny_eq]
      isplitl [HA]; · iexact HA
      isplitl [HB]; · iexact HB
      isplitl [HC]; · iexact HC
      iexact HD
    isplitl [H4 H5 H6 H7]
    · rw [semsZero_eq]
      isplitl [H4]; · iexact H4
      isplitl [H5]; · iexact H5
      isplitl [H6]; · iexact H6
      iexact H7
    iexact HO
  iapply (wp_wand frame (wpE (defs₀ (F := F)) 𝒱₀ (thr d L) none) Set.univ) $$ Hwp
  iintro %a ⟨Htd, Hscr, Hsz, HW⟩
  ihave Hscr' := (Entails.of_eq (scratchAny_eq (F := F) d L)) $$ Hscr
  ihave Hsz' := (Entails.of_eq (semsZero_eq (F := F) d L)) $$ Hsz
  icases Hscr' with ⟨HA, HB, HC, HD⟩
  icases Hsz' with ⟨H4, H5, H6, H7⟩
  isplitl [Htd]; · iexact Htd
  isplitl [HA HB HC HD Hbufs]
  · isplitl [HA]; · iexact HA
    isplitl [HB]; · iexact HB
    isplitl [HC]; · iexact HC
    isplitl [HD]; · iexact HD
    iexact Hbufs
  isplitl [H4 H5 H6 H7 Hsems]
  · isplitl [H4]; · iexact H4
    isplitl [H5]; · iexact H5
    isplitl [H6]; · iexact H6
    isplitl [H7]; · iexact H7
    iexact Hsems
  iexact HW

end Cert.Proof.KB

end
-- ==== Proof.KBTile.lean ====
/-
  One vector subcore's whole task: it starts the fetch of its first slab, runs the ten trips of the main loop (the trip
  module's invariant), then handles its last slab — waits for its fetch and for the last first-slot write-outs, transposes
  it, starts its sixteen write-outs — and drains the two batches still in flight. At the end every row piece of its 21 slabs
  holds the sampled frames, the two read shares of the transposed clip are whole again, and the four copy semaphores are
  back at zero. The same statement in the form the launch theorem asks for follows by the wrapper.
-/
import proofs.«216812_g82557861364368_cont_9to1c4b_466_28_alg».proof.Proof.KBTrip
import proofs.«216812_g82557861364368_cont_9to1c4b_466_28_alg».proof.Proof.KBWrap

set_option maxHeartbeats 4000000

noncomputable section

namespace Cert.Proof.KB

open Cert.Kernel Cert.Kernel.GenP
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

open Idealize.ShloMosaic.Tactic Idealize.ShloMosaic.ValueIdx

local notation "xtW" => (Memref.whole Cert.Kernel.main_v0_scv : Memref Cert.Kernel.sig Kind.scVector Space.hbm Cert.Kernel.S3x224x224x128 EltTy.f32)
local notation "oW" => (Memref.whole Cert.Kernel.main_v1_scv : Memref Cert.Kernel.sig Kind.scVector Space.hbm Cert.Kernel.S2408448 EltTy.f32)
local notation "bi0" => (Memref.whole Cert.Kernel.cc0_scratch0 : Memref Cert.Kernel.sig Kind.scVector Space.vmem Cert.Kernel.S224x128 EltTy.f32)
local notation "bi1" => (Memref.whole Cert.Kernel.cc0_scratch1 : Memref Cert.Kernel.sig Kind.scVector Space.vmem Cert.Kernel.S224x128 EltTy.f32)
local notation "bo0" => (Memref.whole Cert.Kernel.cc0_scratch2 : Memref Cert.Kernel.sig Kind.scVector Space.vmem Cert.Kernel.S3584 EltTy.f32)
local notation "bo1" => (Memref.whole Cert.Kernel.cc0_scratch3 : Memref Cert.Kernel.sig Kind.scVector Space.vmem Cert.Kernel.S3584 EltTy.f32)

section
variable (m : (ℓ : Loc nD τ sig) → Buf (Elt F) ℓ) (d : Dev nD) (L : grid0.Coords)

theorem tile_core_at (O : CellTallies nD τ sig (HIx 1)) (W : Waits sig (HIx 1)) :
    (iprop(Transfers.MayWaits (thr d L) (none : HIx 1) O ∗ tileGo m d L ∗ scratchAny d L ∗ semsZero d L ∗ owes (thr d L) O W) : sProp 𝕄)
      ⊢ wp frame (wpE (defs₀ (F := F)) 𝒱₀ (thr d L) none) Set.univ
          (cc0_temporal_gather L xtW (Memref.isWhole_whole _) oW (Memref.isWhole_whole _) bi0 (Memref.isWhole_whole _) bi1 (Memref.isWhole_whole _)
            bo0 (Memref.isWhole_whole _) bo1 (Memref.isWhole_whole _) cc0_scratch4 cc0_scratch5 cc0_scratch6 cc0_scratch7)
          fun _ => iprop(tileTd m d L ∗ scratchAny d L ∗ semsZero d L
            ∗ ∃ W', ⌜∀ p ∈ W', p ∈ W ∨ p.2 = none⌝ ∗ owes (thr d L) O W') := by
  unfold tileGo scratchAny semsZero
  iintro ⟨Hmw, ⟨Hxa, Hxb, Hp⟩, ⟨⟨%f0, H0⟩, ⟨%f1, H1⟩, ⟨%f2, H2⟩, ⟨%f3, H3⟩⟩, ⟨S0, S1, S2, S3⟩, HO⟩
  ihave Hxa' : ((xtW).view.loc (thr d L) ↦{shA L} XX m d L) $$ [Hxa]; · iexact Hxa
  sl_unfold [cc0_temporal_gather]
  sl_exec
  ihave Hxb' : ((xtW).view.loc (thr d L) ↦{shB L} XX m d L) $$ [Hxb]; · iexact Hxb
  sl_for (inv m d L O W) $$ [Hmw S0 Hxa' Hxb' H1 H2 H3 S1 S2 S3 Hp HO]
  case region =>
    intro k u
    by_cases hk : k.val = 0
    · exact trip_first m d L O W k hk _ u
    · exact trip_next m d L O W k (Nat.pos_of_ne_zero hk) _ u
  · unfold inv
    iexists (shA L), (shB L)
    isplitr; · ipureintro; exact .inl ⟨rfl, rfl⟩
    isplitl [Hmw]; · iexact Hmw
    isplitl [S0 Hxa' H2 S2 H3 S3]
    · rw [show head m d L (shA L) 0 = head0 m d L (shA L) from if_pos rfl]; unfold head0
      isplitl [S0]
      · iapply (Transfers.Flight_mono (countersEmb (U := UU)) (thr d L)
          (BI.sep_mono (Entails.of_eq (congrArg (fun f => (((bi0).view.loc (thr d L) ↦{fullShare} f : sProp 𝕄)))
            ((View.write_whole_univ (Val := Elt F) (cc0_scratch0 : Ref sig .scVector) _ _).trans (slabM1_read (F := F) d L (XX m d L))))) (BI.Entails.refl _)))
        iexact S0
      isplitl [Hxa']; · iexact Hxa'
      isplitl [H2]; · iexists _; iexact H2
      isplitl [S2]; · iexact S2
      isplitl [H3]; · iexists _; iexact H3
      iexact S3
    isplitl [Hxb']; · iexact Hxb'
    isplitl [H1]; · iexists _; iexact H1
    isplitl [S1]; · iexact S1
    isplitl [Hp]; · rw [slabRes_zero]; iexact Hp
    iexists W; isplitr
    · ipureintro; exact fun p hp => .inl hp
    · iexact HO
  iintro %accu HI
  have e10 : Scf.trips k0_t1_loop.lb k0_t1_loop.ub k0_t1_loop.st = 10 := trips1
  rw [e10]
  unfold inv
  icases HI with ⟨%qa, %qb, %hperm, Hmw, Hhead, Hxb, ⟨%f1, H1⟩, S1, Hres, %W', %hW', HO⟩
  have h9 : (10 : ℕ) - 1 < k0_t1_loop.trips := by rw [trips1]; omega
  ihave Hh := (Entails.of_eq (show head m d L qa 10 = headS m d L qa ⟨10 - 1, h9⟩ from by
      unfold head; rw [if_neg (by omega), dif_pos h9])) $$ Hhead
  unfold headS
  icases Hh with ⟨HF0, Hxr, HB2o, HB3o⟩
  ihave Hr := (slabRes_last m d L) $$ Hres
  icases Hr with ⟨Pa, Hfin⟩
  ihave Pa' := (Entails.of_eq (slab_in5 (F := F) d L (m (oLoc d)))) $$ Pa
  icases Pa' with ⟨Q0, Q1, Q2, Q3, Q4, Q5, Q6, Q7, Q8, Q9, Q10, Q11, Q12, Q13, Q14, Q15⟩
  sl_exec
  -- the last trip's first-slot write-outs have landed: slab 18 is finished, the staging buffer is whole again
  ihave H2 := (rows_join0 (F := F) d L (Ts0 m d L (slab L (2 * (⟨10 - 1, h9⟩ : Fin k0_t1_loop.trips).val)))) $$ [HB2o_src0 HB2o_src1 HB2o_src2 HB2o_src3 HB2o_src4 HB2o_src5 HB2o_src6 HB2o_src7 HB2o_src8 HB2o_src9 HB2o_src10 HB2o_src11 HB2o_src12 HB2o_src13 HB2o_src14 HB2o_src15]
  · iframe
  ihave Pd18 := (slab_outJ3 (F := F) m d L (⟨10 - 1, h9⟩ : Fin k0_t1_loop.trips)) $$ [HB2o_dst0 HB2o_dst1 HB2o_dst2 HB2o_dst3 HB2o_dst4 HB2o_dst5 HB2o_dst6 HB2o_dst7 HB2o_dst8 HB2o_dst9 HB2o_dst10 HB2o_dst11 HB2o_dst12 HB2o_dst13 HB2o_dst14 HB2o_dst15]
  · iframe
  sl_for (J4 (F := F) d L (Bs m d L (slab L (2 * (⟨10 - 1, h9⟩ : Fin k0_t1_loop.trips).val + 2))) (Ts0 m d L (slab L (2 * (⟨10 - 1, h9⟩ : Fin k0_t1_loop.trips).val)))) $$ [HF0_dst H2]
  case region =>
    intro kk u'
    unfold J4
    refine (trip4 (F := F) d L _ kk _ _).trans (wp_mono frame _ _ fun _ => ?_)
    iintro ⟨Ha, %g', %hg, Hb⟩
    subst hg
    isplitl [Ha]; · iexact Ha
    rw [acc4_succ]; iexact Hb
  · unfold J4
    isplitl [HF0_dst]; · iexact HF0_dst
    iexact H2
  iintro %acc4u HI
  unfold J4
  icases HI with ⟨H0, H2⟩
  ihave H2 := (Entails.of_eq (congrArg (fun f => (((bo0).view.loc (thr d L) ↦{fullShare} f : sProp 𝕄))) (acc4_full (F := F) (Bs m d L (slab L (2 * (⟨10 - 1, h9⟩ : Fin k0_t1_loop.trips).val + 2))) (Ts0 m d L (slab L (2 * (⟨10 - 1, h9⟩ : Fin k0_t1_loop.trips).val)))))) $$ H2
  ihave S2n : (semVal (thr d L, SemLoc.dma cc0_scratch6.sem) 0 : sProp 𝕄) $$ [HB2o]; · iexact HB2o
  imod (Transfers.batch_alloc' (Lvl := ℕ) (countersEmb (U := UU)) (thr d L) (none : HIx 1) (N5 L)
    (D5 (F := F) m d L (Ts0 m d L (slab L 20))) (sm := .dma cc0_scratch6.sem) (E := Set.univ)) $$ S2n with HB5
  sl_exec
  sl_step
  -- the last write-outs have landed: slabs 19 and 20 are finished, both staging buffers are whole again
  ihave H3j := (rows_join1 (F := F) d L (Ts1 m d L (slab L (2 * (⟨10 - 1, h9⟩ : Fin k0_t1_loop.trips).val + 1)))) $$ [HB3o_src0 HB3o_src1 HB3o_src2 HB3o_src3 HB3o_src4 HB3o_src5 HB3o_src6 HB3o_src7 HB3o_src8 HB3o_src9 HB3o_src10 HB3o_src11 HB3o_src12 HB3o_src13 HB3o_src14 HB3o_src15]
  · iframe
  ihave Pd19 := (slab_out4 (F := F) m d L (⟨10 - 1, h9⟩ : Fin k0_t1_loop.trips) (m (oLoc d))) $$ [HB3o_dst0 HB3o_dst1 HB3o_dst2 HB3o_dst3 HB3o_dst4 HB3o_dst5 HB3o_dst6 HB3o_dst7 HB3o_dst8 HB3o_dst9 HB3o_dst10 HB3o_dst11 HB3o_dst12 HB3o_dst13 HB3o_dst14 HB3o_dst15]
  · iframe
  ihave H2j := (rows_join0 (F := F) d L (Ts0 m d L (slab L 20))) $$ [HB5_src0 HB5_src1 HB5_src2 HB5_src3 HB5_src4 HB5_src5 HB5_src6 HB5_src7 HB5_src8 HB5_src9 HB5_src10 HB5_src11 HB5_src12 HB5_src13 HB5_src14 HB5_src15]
  · iframe
  ihave Pd20 := (slab_out5 (F := F) m d L (m (oLoc d))) $$ [HB5_dst0 HB5_dst1 HB5_dst2 HB5_dst3 HB5_dst4 HB5_dst5 HB5_dst6 HB5_dst7 HB5_dst8 HB5_dst9 HB5_dst10 HB5_dst11 HB5_dst12 HB5_dst13 HB5_dst14 HB5_dst15]
  · iframe
  unfold tileTd
  isplitl [Hxr Hxb Hfin Pd18 Pd19 Pd20]
  · rcases hperm with ⟨rfl, rfl⟩ | ⟨rfl, rfl⟩
    · isplitl [Hxr]; · iexact Hxr
      isplitl [Hxb]; · iexact Hxb
      iapply Hfin
      isplitl [Pd18]; · iexact Pd18
      isplitl [Pd19]; · iexact Pd19
      iexact Pd20
    · isplitl [Hxb]; · iexact Hxb
      isplitl [Hxr]; · iexact Hxr
      iapply Hfin
      isplitl [Pd18]; · iexact Pd18
      isplitl [Pd19]; · iexact Pd19
      iexact Pd20
  isplitl [H0 H1 H2j H3j]
  · isplitl [H0]; · iexists _; iexact H0
    isplitl [H1]; · iexists _; iexact H1
    isplitl [H2j]; · iexists _; iexact H2j
    iexists _; iexact H3j
  isplitl [HF0 S1 HB5 HB3o]
  · isplitl [HF0]; · iexact HF0
    isplitl [S1]; · iexact S1
    isplitl [HB5]; · iexact HB5
    iexact HB3o
  iexists _; isplitr
  rotate_left
  · iexact HO
  · ipureintro
    repeat (first | exact hW' | refine ins_ok ?_ _)

end

/-- The task over explicit resources, for every subcore. -/
theorem tile_core (m : (ℓ : Loc nD τ sig) → Buf (Elt F) ℓ) : TileCoreStmt m :=
  fun d L O W => tile_core_at m d L O W

/-- The task in the launch theorem's form. -/
theorem tile_body (m : (ℓ : Loc nD τ sig) → Buf (Elt F) ℓ) : TileBodyStmt m :=
  tile_of_core m (tile_core m)

end Cert.Proof.KB

end
-- ==== Proof.RefOps.lean ====
/-
  The reference program's @main as a straight line of its thirty-five host operations — the three outlined
  functions' operations listed at their call sites over the calls' buffer records — and its run: every weakly
  fair execution terminates with each buffer at the operations' fold over the launch contents.
-/
import proofs.«216812_g82557861364368_cont_9to1c4b_466_28_alg».proof.Proof.Gen.ReferenceIdeal
import Idealize.ShloMosaic.Lib.StableHlo.Run

noncomputable section

namespace Cert.Proof.RefOps

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations in order: six of its own, six of the clip, six of the take before its select of the
    normalised index, that select, and the sixteen that follow it. -/
abbrev ops : List (HloOp τ sig (Elt F)) :=
  [ nullary main_c (fun i => lit0 (S16.rowMajor i)),
    nullary main_c_0 (constantI S_ 32 1#32),
    unary main_c_0 main_v0 (broadcastInDim S16 ![] bcast_S_S16 : (⟨S_, .i32⟩ : BufTy).Contents (Elt F) → (⟨S16, .i32⟩ : BufTy).Contents (Elt F)),
    binary main_c main_v0 main_v1 (addi : (⟨S16, .i32⟩ : BufTy).Contents (Elt F) → (⟨S16, .i32⟩ : BufTy).Contents (Elt F) → (⟨S16, .i32⟩ : BufTy).Contents (Elt F)),
    nullary main_c_1 (constantI S_ 32 0#32),
    nullary main_c_2 (constantI S_ 32 127#32),
    TRef.unary (.of main_c_1) main_call0.v0 id,
    TRef.unary main_call0.v0 main_call0.v1 (broadcastInDim S16 ![] bcast_S_S16),
    TRef.binary main_call0.v1 (.of main_v1) main_call0.v2 maxsi,
    TRef.unary (.of main_c_2) main_call0.v3 id,
    TRef.unary main_call0.v3 main_call0.v4 (broadcastInDim S16 ![] bcast_S_S16),
    TRef.binary main_call0.v4 main_call0.v2 main_call0.v5 minsi,
    TRef.nullary main_call1.c (constantI S_ 32 0#32),
    TRef.unary main_call1.c main_call1.v0 (broadcastInDim S16 ![] bcast_S_S16),
    TRef.binary (.of main_v2) main_call1.v0 main_call1.v1 (cmpi .slt),
    TRef.nullary main_call1.c_0 (constantI S_ 32 128#32),
    TRef.unary main_call1.c_0 main_call1.v2 (broadcastInDim S16 ![] bcast_S_S16),
    TRef.binary (.of main_v2) main_call1.v2 main_call1.v3 addi,
    TRef.ternary main_call1.v1 main_call1.v3 (.of main_v2) main_call1.call0.v0 select,
    TRef.unary main_call1.call0.v0 main_call1.v5 (broadcastInDim S16x1 ![0] bcast_S16_S16x1_0),
    TRef.nullary main_call1.c_1 (constantI S1 32 127#32),
    TRef.nullary main_call1.c_2 (constantI S_ 32 0#32),
    TRef.unary main_call1.c_2 main_call1.v6 (broadcastInDim S16x1 ![] bcast_S_S16x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16x1 ![0, 1] bcast_S1x1_S16x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16x1_S16_d1 h_S_),
    TRef.binary (.of main_arg0) main_call1.v5 main_call1.v13 (fun x i => Host.gather gather_S3x128x224x224_S16x1_S3x16x224x224_023_1_n_n_1_1_31224224 x i),
    TRef.unary main_call1.v12 main_call1.v14 (broadcastInDim S3x16x224x224 ![1] bcast_S16_S3x16x224x224_1),
    TRef.nullary main_call1.cst (constant S_ .f32 0x7FC00000#32),
    TRef.unary main_call1.cst main_call1.v15 (broadcastInDim S3x16x224x224 ![] bcast_S_S3x16x224x224),
    TRef.ternary main_call1.v14 main_call1.v13 main_call1.v15 main_call1.v16 select ]

-- thirty-five binds re-associated
set_option maxRecDepth 2048 in
/-- @main is that straight line: the functions' definitions unfolded at their calls and the records at their
    fields, both sides are one chain of steps once sequencing is reassociated. -/
theorem main_eq (c : Dev nD) : main (F := F) c = seq ops := by
  simp only [main, fn_clip.body, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.RefOps

end
-- ==== Proof.RefVal.lean ====
/-
  The value of the reference's result as a function of its argument. The index chain of @main and of the take —
  the literal 32, 36, …, 92 plus one, clipped to [0, 127], shifted by 128 where negative — is the vector
  33, 37, …, 93; every entry lies in [0, 127], so the in-range mask is all ones and the final select returns the
  gather; the gather along axis 1 at start index 33 + 4 j reads frame 33 + 4 j. Hence the result is the sampled clip.
  Every fact about the index vector is proved on its sixteen lanes; the full-size arrays are only read at an index.
-/
import proofs.«216812_g82557861364368_cont_9to1c4b_466_28_alg».proof.Proof.Gen.ReferenceIdeal
import proofs.«216812_g82557861364368_cont_9to1c4b_466_28_alg».proof.Proof.Spec
import Idealize.ShloMosaic.Lib.ValueIdx
import Idealize.ShloMosaic.Lib.Pipeline.Value

noncomputable section

namespace Cert.Proof.RefVal

open Cert.ReferenceIdeal Idealize.ShloMosaic Idealize.ShloMosaic.ValueIdx
open Cert.ReferenceIdeal.Facts₀

/-- The gather's dimension numbers: axis 1 of the operand is indexed and collapsed, axes 0, 2, 3 are taken whole. -/
abbrev D := gather_S3x128x224x224_S16x1_S3x16x224x224_023_1_n_n_1_1_31224224

/-! ## The gather read at an index -/

/-- On an axis taken whole (0, 2 or 3) the operand coordinate is the result's coordinate on the matching offset axis:
    the slice starts at 0, there is no batching axis. -/
theorem operand_coord_whole {wd : Nat} (idx : IVec S16x1 wd) (i : S3x16x224x224.Idx) (a : Fin 4)
    (hs : a ∉ D.startIndexMap) (hk : a ∈ D.sKept) :
    D.start i idx a + D.batchCoord i a + D.offCoord i a
      = (i (D.offsetDims[D.sKept.idxOf a]'(by rw [D.offset_length]; exact List.idxOf_lt_length_iff.2 hk))).val := by
  rw [GatherDims.batchCoord_eq_zero _ _ _ List.not_mem_nil]
  unfold GatherDims.start GatherDims.offCoord
  rw [dif_neg hs, dif_pos hk, Nat.add_zero, Nat.zero_add]

/-- THE GATHER READ AT (c, j, h, w): the operand at channel c, row h, column w of the frame whose number is start
    index j, read signed and clamped into [0, 127]. -/
theorem gather_apply {α : Type} {wd : Nat} (x : S3x128x224x224.Idx → α) (idx : IVec S16x1 wd) (c : Fin 3) (j : Fin 16)
    (h w : Fin 224) :
    Host.gather D x idx (ix4 c j h w)
      = x (ix4 c ⟨min (idx (ix2 j (0 : Fin 1))).toInt.toNat 127, by omega⟩ h w) := by
  unfold Host.gather
  congr 1
  funext a
  refine Fin.ext ?_
  match a with
  | ⟨0, _⟩ =>
    exact (operand_coord_whole idx (ix4 c j h w) 0 (by decide) (by decide)).trans rfl
  | ⟨1, _⟩ =>
    show D.start (ix4 c j h w) idx 1 + D.batchCoord (ix4 c j h w) 1 + D.offCoord (ix4 c j h w) 1 = _
    have hsi : D.siIdx (ix4 c j h w) ⟨List.idxOf (1 : Fin 4) D.startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (1 : Fin 4) ∈ D.startIndexMap from List.mem_singleton.mpr rfl), hsi]
    rfl
  | ⟨2, _⟩ =>
    exact (operand_coord_whole idx (ix4 c j h w) 2 (by decide) (by decide)).trans rfl
  | ⟨3, _⟩ =>
    exact (operand_coord_whole idx (ix4 c j h w) 3 (by decide) (by decide)).trans rfl

/-! ## A reduction by "and" of an all-ones array -/

theorem foldl_andi_one {ι : Type} (l : List ι) (x : ι → BitVec 1) (hx : ∀ i, x i = 1#1) :
    l.foldl (fun r n => IntOp.andi r (x n)) 1#1 = 1#1 := by
  induction l with
  | nil => rfl
  | cons a l ih => rw [List.foldl_cons, hx a]; exact ih

/-- Reducing an all-ones one-bit array by "and" from the initial value one gives one at every index. -/
theorem reduce_andi_one {s t u : Shape} {axes : List (Fin s.rank)} (x : IVec s 1) (init : IVec u 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one _ (fun n => x (s.rowMajor.symm n)) (fun n => hx _)

/-! ## The index vector, lane by lane -/

/-- Lane j of the literal table is 32 + 4 j. -/
theorem lit0_apply (j : Fin 16) : lit0 (S16.rowMajor (ix1 j)) = BitVec.ofNat 32 (32 + 4 * j.val) := by
  have h : S16.rowMajor (ix1 j) = j := Fin.ext (Shape.rowMajor_val_one _)
  rw [h]; fin_cases j <;> rfl

/-- One lane of the chain: add one, clip to [0, 127], add 128 where negative. From 32 + 4 j it gives 33 + 4 j. -/
theorem lane_chain : ∀ j : Fin 16,
    (let a := IntOp.minsi 127#32 (IntOp.maxsi 0#32 (IntOp.addi (BitVec.ofNat 32 (32 + 4 * j.val)) 1#32))
     Scalar.select (IntOp.cmpi .slt a 0#32) (IntOp.addi a 128#32) a) = BitVec.ofNat 32 (33 + 4 * j.val) := by decide

/-- 33 + 4 j is at least 0 and at most 127, as signed words. -/
theorem lane_mask : ∀ j : Fin 16,
    IntOp.andi (IntOp.cmpi .sge (BitVec.ofNat 32 (33 + 4 * j.val)) 0#32) (IntOp.cmpi .sle (BitVec.ofNat 32 (33 + 4 * j.val)) 127#32) = 1#1 := by
  decide

/-- Read signed and clamped to 127, the word 33 + 4 j is the number 33 + 4 j. -/
theorem lane_clamp : ∀ j : Fin 16, min (BitVec.ofNat 32 (33 + 4 * j.val)).toInt.toNat 127 = 33 + 4 * j.val := by decide

/-- The index vector the take gathers at: the literal plus one, clipped, normalised. -/
def idx16 : IVec S16 32 :=
  let v1 : IVec S16 32 := addi (fun i => lit0 (S16.rowMajor i)) (broadcastInDim S16 ![] bcast_S_S16 (constantI S_ 32 1#32))
  let v2 : IVec S16 32 := minsi (broadcastInDim S16 ![] bcast_S_S16 (id (constantI S_ 32 127#32)))
    (maxsi (broadcastInDim S16 ![] bcast_S_S16 (id (constantI S_ 32 0#32))) v1)
  select (cmpi .slt v2 (broadcastInDim S16 ![] bcast_S_S16 (constantI S_ 32 0#32)))
    (addi v2 (broadcastInDim S16 ![] bcast_S_S16 (constantI S_ 32 128#32))) v2

theorem idx16_apply (j : Fin 16) : idx16 (ix1 j) = BitVec.ofNat 32 (33 + 4 * j.val) := by
  refine Eq.trans ?_ (lane_chain j)
  show (let a := IntOp.minsi 127#32 (IntOp.maxsi 0#32 (IntOp.addi (lit0 (S16.rowMajor (ix1 j))) 1#32))
     Scalar.select (IntOp.cmpi .slt a 0#32) (IntOp.addi a 128#32) a) = _
  rw [lit0_apply]

/-- The same as a column, the shape the gather takes its start indices in. -/
def idxCol : IVec S16x1 32 := broadcastInDim S16x1 ![0] bcast_S16_S16x1_0 idx16

theorem idxCol_apply (j : Fin 16) (k : Fin 1) : idxCol (ix2 j k) = BitVec.ofNat 32 (33 + 4 * j.val) := by
  unfold idxCol
  refine (broadcastInDim_apply _ _ _ _ (ix1 j) fun a => ?_).trans (idx16_apply j)
  match a with
  | ⟨0, _⟩ => rfl

/-- Which start indices are in [0, 127]. -/
def inRange : IVec S16x1 1 :=
  andi (cmpi .sge idxCol (broadcastInDim S16x1 ![] bcast_S_S16x1 (constantI S_ 32 0#32)))
    (cmpi .sle idxCol (broadcastInDim S16x1 ![0, 1] bcast_S1x1_S16x1_0_1 (broadcastInDim S1x1 ![1] bcast_S1_S1x1_1 (constantI S1 32 127#32))))

theorem inRange_apply (i : S16x1.Idx) : inRange i = 1#1 := by
  obtain ⟨j, k, rfl⟩ : ∃ (j : Fin 16) (k : Fin 1), i = ix2 j k := ⟨i 0, i 1, eq_ix2 i⟩
  refine Eq.trans ?_ (lane_mask j)
  show IntOp.andi (IntOp.cmpi .sge (idxCol (ix2 j k)) 0#32) (IntOp.cmpi .sle (idxCol (ix2 j k)) 127#32) = _
  rw [idxCol_apply]

/-- The same, "and"-reduced over the unit axis. -/
def mask16 : IVec S16 1 := Host.reduce IntOp.andi inRange (constantI S_ 1 1#1) reducesTo_S16x1_S16_d1 h_S_

theorem mask16_apply (j : S16.Idx) : mask16 j = 1#1 :=
  reduce_andi_one _ _ _ _ inRange_apply (fun _ => rfl) j

/-! ## The result -/

variable {F : FTy → Type} [FloatOps F]

/-- The reference's result as a function of its argument: the gather where the mask is set, a constant elsewhere. -/
def refOut (x : FVec F S3x128x224x224 .f32) : FVec F S3x16x224x224 .f32 :=
  select (broadcastInDim S3x16x224x224 ![1] bcast_S16_S3x16x224x224_1 mask16) (Host.gather D x idxCol)
    (broadcastInDim S3x16x224x224 ![] bcast_S_S3x16x224x224 (constant S_ .f32 0x7FC00000#32))

/-- The frame the gather reads for sample j: start index j, read signed and clamped, is 33 + 4 j. -/
theorem frame_eq (j : Fin 16) (hlt : min (idxCol (ix2 j (0 : Fin 1))).toInt.toNat 127 < 128) :
    (⟨min (idxCol (ix2 j (0 : Fin 1))).toInt.toNat 127, hlt⟩ : Fin 128) = Cert.Proof.Spec.frame j := by
  refine Fin.ext ?_
  show min (idxCol (ix2 j (0 : Fin 1))).toInt.toNat 127 = 33 + 4 * j.val
  rw [idxCol_apply]; exact lane_clamp j

/-- The mask, broadcast along axis 1, is set at every index. -/
theorem maskFull_apply (i : S3x16x224x224.Idx) :
    broadcastInDim S3x16x224x224 ![1] bcast_S16_S3x16x224x224_1 mask16 i = 1#1 := by
  unfold broadcastInDim; exact mask16_apply _

-- the index chain and the mask are used through their lane lemmas only from here on
attribute [local irreducible] idxCol mask16 in
/-- The result at (c, j, h, w) is the argument at channel c, frame 33 + 4 j, row h, column w. -/
theorem refOut_apply (x : FVec F S3x128x224x224 .f32) (c : Fin 3) (j : Fin 16) (h w : Fin 224) :
    refOut x (ix4 c j h w) = x (ix4 c (Cert.Proof.Spec.frame j) h w) := by
  have h1 : refOut x (ix4 c j h w)
      = Scalar.select (broadcastInDim S3x16x224x224 ![1] bcast_S16_S3x16x224x224_1 mask16 (ix4 c j h w))
          (Host.gather D x idxCol (ix4 c j h w))
          (broadcastInDim S3x16x224x224 ![] bcast_S_S3x16x224x224 (constant S_ .f32 0x7FC00000#32) (ix4 c j h w)) := rfl
  rw [h1, maskFull_apply, select_one, gather_apply, frame_eq]

/-- It is the sampled clip. -/
theorem refOut_eq (x : FVec F S3x128x224x224 .f32) : refOut x = Cert.Proof.Spec.sampled x := by
  funext i
  obtain ⟨c, j, h, w, rfl⟩ : ∃ (c : Fin 3) (j : Fin 16) (h w : Fin 224), i = ix4 c j h w := ⟨i 0, i 1, i 2, i 3, eq_ix4 i⟩
  exact (refOut_apply x c j h w).trans (Cert.Proof.Spec.sampled_apply x c j h w).symm

end Cert.Proof.RefVal

end
-- ==== Proof.RefRun.lean ====
/-
  The reference's run: every weakly fair execution of @main terminates with the result buffer holding the sampled
  clip of the argument and the argument unchanged. The run of the straight line gives each buffer as the fold of
  the operations over the launch contents; at the result buffer that fold is the composed term `refOut` of the
  argument, which is the sampled clip.
-/
import proofs.«216812_g82557861364368_cont_9to1c4b_466_28_alg».proof.Proof.RefOps
import proofs.«216812_g82557861364368_cont_9to1c4b_466_28_alg».proof.Proof.RefVal

noncomputable section

namespace Cert.Proof.RefRun

open Cert.ReferenceIdeal Idealize.ShloMosaic Idealize.ShloMosaic.TcCoe Idealize.SL.Sem Idealize.ShloMosaic.StableHlo
open Cert.Proof.RefOps Cert.Proof.RefVal

variable {F : FTy → Type} [FloatOps F]

-- the reduction, the gather and the broadcasts stay folded while the fold over the operations is read off
attribute [local irreducible] Host.reduce Host.gather broadcastInDim in
set_option maxRecDepth 8192 in
/-- The fold at the result buffer is the composed term of the argument's contents. -/
theorem out_eq (V : Valuation τ sig (Elt F)) :
    after ops V (main_v3 : DevRef τ sig) = refOut (V (main_arg0 : DevRef τ sig)) := by
  after_results_simp
  rfl

set_option maxRecDepth 8192 in
/-- No operation writes the argument buffer. -/
theorem arg0_eq (V : Valuation τ sig (Elt F)) :
    after ops V (main_arg0 : DevRef τ sig) = V (main_arg0 : DevRef τ sig) := by
  after_results_simp

/-- From any memory with zero counters every weakly fair execution of the reference terminates, its result the
    sampled clip of its argument, its argument unchanged. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v3)
            = Cert.Proof.Spec.sampled (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run (Cert.ReferenceIdeal.defs (F := Ideal)) _ _).mono
    (fun _ h c => ⟨((h c main_v3).trans (out_eq _)).trans (refOut_eq _), (h c main_arg0).trans (arg0_eq _)⟩)
    (run_main m g)

end Cert.Proof.RefRun

end
-- ==== Proof.lean ====
/-
  The sampled clip: from a clip x of shape [3, 128, 224, 224] (channel, frame, row, column), the sixteen frames
  33, 37, …, 93 of each channel, in that order (`Spec.sampled`: element [c, j, h, w] is x [c, 33 + 4 j, h, w]).

  The kernel transposes the clip on the host to [3, 224, 224, 128] (channel, row, column, frame), runs one SparseCore call on
  2 × 16 vector subcores, and reshapes the call's flat result to [3, 16, 224, 224]. Each subcore takes 21 slabs — a slab is
  one (channel, row) pair of the transposed clip, 224 columns × 128 frames —: it fetches a slab, moves the slab's sixteen
  sampled frames into a frame-major staging buffer of 16 × 224 words in sixteen passes of indexed loads and stores, and copies
  the sixteen rows of the staging buffer to their places in the flat result, the fetches and the copies out overlapped over
  two slots. The reference computes the frame indices on the host and gathers along the frame axis.

  Both programs only move data, so each has ONE run theorem, from any launch memory, whose post names the result as a function
  of the argument — the sampled clip — and says the argument is unchanged. Every conjunct of the claim is read off these: a
  frame is the run with the value dropped (the precondition is not needed); the algebraic claim is the two runs at the exact
  instance from memories agreeing on the argument, both results the sampled clip; the idealization rewrote no operation, so
  its conjunct is `True`. The kernel's run is written once, generic in the float instance, as the same text over the names
  of the word-level program (modules KB…, read at `Bits`) and of the idealized program (modules KI…, read at `Ideal`).

  The modules. Spec: the sampled clip. RefOps, RefVal, RefRun: the reference as a straight line of host operations, the value
  of its result, its run. For the kernel (KI…, and KB… alike): Setup and Pay, the launch configuration, the ghost state, what
  a subcore is handed and hands back, and the statement of one subcore's task; Offsets, ViewDefs, Views, the offset chains in
  closed form and the memrefs the copies name; Chk, ValueIdx, Value, Tr, the index vectors of the transposition loops (in
  range; lane by lane) and a pass as a function on the staging buffer; Inner and Acc, one pass and sixteen passes of a
  transposition loop run on a subcore; Pieces and Glue, which of a subcore's row pieces are finished, in flight or untouched at
  each trip of its main loop, and the sixteen pieces of a slab one by one; CoreStmt, Trip, Tile, Wrap, one subcore's task;
  LaunchPay, LaunchArith, LaunchDeal, LaunchRes, Launch, what the launch handshakes carry, the dealing of the transposed
  clip's read shares and of the result's row pieces to the 32 subcores, the reshaped result as a function of the clip, and
  the run of the whole program from one subcore's task.
-/
import proofs.«216812_g82557861364368_cont_9to1c4b_466_28_alg».proof.Defs
import proofs.«216812_g82557861364368_cont_9to1c4b_466_28_alg».proof.Proof.GenKernelSkelP
import proofs.«216812_g82557861364368_cont_9to1c4b_466_28_alg».proof.Proof.GenKernelIdealSkelP
import proofs.«216812_g82557861364368_cont_9to1c4b_466_28_alg».proof.Proof.Gen.ReferenceIdeal
import proofs.«216812_g82557861364368_cont_9to1c4b_466_28_alg».proof.Proof.Gen.Pre_finite_inputs
import proofs.«216812_g82557861364368_cont_9to1c4b_466_28_alg».proof.Proof.KILaunch
import proofs.«216812_g82557861364368_cont_9to1c4b_466_28_alg».proof.Proof.KBLaunch
import proofs.«216812_g82557861364368_cont_9to1c4b_466_28_alg».proof.Proof.KITile
import proofs.«216812_g82557861364368_cont_9to1c4b_466_28_alg».proof.Proof.KBTile
import proofs.«216812_g82557861364368_cont_9to1c4b_466_28_alg».proof.Proof.RefRun
import Idealize.ShloMosaic.Adequacy
import Idealize.ShloMosaic.Init

noncomputable section

namespace Cert.Proof

open Idealize.ShloMosaic Idealize.SL.Sem

/-- The word-level kernel's frame: its run, the value dropped. -/
theorem frame_K : Cert.frame_Kernel := fun m g _ =>
  (θ_run Cert.Kernel.defs _ _).mono (fun _ h c => (h c).2) (KB.run_main (F := Bits) m g (KB.tile_body m))

/-- The idealized kernel's frame: its run, the value dropped. -/
theorem frame_KI : Cert.frame_KernelIdeal := fun m g _ =>
  (θ_run Cert.KernelIdeal.defs _ _).mono (fun _ h c => (h c).2) (KI.run_main (F := Ideal) m g (KI.tile_body m))

/-- The reference's frame: its run, the value dropped. -/
theorem frame_R : Cert.frame_ReferenceIdeal := fun m g _ =>
  (θ_run Cert.ReferenceIdeal.defs _ _).mono (fun _ h c => (h c).2) (RefRun.run m g)

/-- At the exact instance, from memories agreeing on the clip, both programs end with the sampled clip of it. -/
theorem algebraic : Cert.algebraic_KernelIdeal_ReferenceIdeal := by
  intro m g m' g' _ hagree
  refine ⟨fun c => (Spec.sampled (m (KI.xLoc c) : Spec.SX.Idx → Elt Ideal .f32) : Spec.SO.Idx → Elt Ideal .f32),
    (θ_run Cert.KernelIdeal.defs _ _).mono (fun _ h c => ⟨(h c).1.trans (KI.RES_eq m c), (h c).2⟩)
      (KI.run_main (F := Ideal) m g (KI.tile_body m)), ?_⟩
  refine (θ_run Cert.ReferenceIdeal.defs _ _).mono (fun _ h c => ⟨(h c).1.trans ?_, (h c).2⟩) (RefRun.run m' g')
  rw [hagree c]

theorem claim : Cert.Claim :=
  ⟨Cert.Kernel.GenP.facts, Cert.KernelIdeal.GenP.facts, Cert.ReferenceIdeal.Gen.facts, Cert.Pre_finite_inputs.Gen.facts,
    frame_K, frame_KI, frame_R, trivial, algebraic⟩

end Cert.Proof

end
